-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v150)) (v1 : (c : Dev Cert.KernelIdeal.nD) → Buf (Elt Ideal) ((c.tc : Thread Cert.KernelIdeal.nD Cert.KernelIdeal.τ).loc Cert.KernelIdeal.main_v151)) (v2 : (c : Dev Cert.KernelIdeal.nD) → Buf (Elt Ideal) ((c.tc : Thread Cert.KernelIdeal.nD Cert.KernelIdeal.τ).loc Cert.KernelIdeal.main_v149_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_v151) = v1 c
          ∧ r.2.mem ((c.tc : Thread Cert.KernelIdeal.nD Cert.KernelIdeal.τ).loc Cert.KernelIdeal.main_v149_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_v245) = v1 c
          ∧ r.2.mem ((c.tc : Thread Cert.ReferenceIdeal.nD Cert.ReferenceIdeal.τ).loc Cert.ReferenceIdeal.main_v227) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x3x128x128 : Shape := ⟨4, ![2, 3, 128, 128]⟩
abbrev S2x3x128 : Shape := ⟨3, ![2, 3, 128]⟩
abbrev S256x2 : Shape := ⟨2, ![256, 2]⟩
abbrev S2 : Shape := ⟨1, ![2]⟩
abbrev S128x64 : Shape := ⟨2, ![128, 64]⟩
abbrev S64 : Shape := ⟨1, ![64]⟩
abbrev S64x2 : Shape := ⟨2, ![64, 2]⟩
abbrev S64x5 : Shape := ⟨2, ![64, 5]⟩
abbrev S5 : Shape := ⟨1, ![5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part4 {F : FTy → Type} [FloatOps F] (main_arg16 : FVec F S64x5 .f32) (main_arg17 : FVec F S5 .f32) (main_v63 : IVec S_ 1) (main_v67 : IVec S_ 1) : IVec S_ 1 :=
  let main_v68 : IVec S_ 1 := andi main_v63 main_v67
  let main_v69 : FVec F S64x5 .f32 := Host.absf main_arg16
  let main_cst_26 : FVec F S_ .f32 := constant S_ .f32 0x7F800000#32
  let main_v70 : FVec F S64x5 .f32 := broadcastInDim S64x5 ![] bcast_S_S64x5 main_cst_26
  let main_v71 : IVec S64x5 1 := cmpf .olt main_v69 main_v70
  let main_c_27 : IVec S_ 1 := constantI S_ 1 1#1
  let main_v72 : IVec S_ 1 := (fun x v => Host.reduce IntOp.andi x v reducesTo_S64x5_S_d0_1 h_S_) main_v71 main_c_27
  let main_v73 : IVec S_ 1 := andi main_v68 main_v72
  let main_v74 : FVec F S5 .f32 := Host.absf main_arg17
  let main_cst_28 : FVec F S_ .f32 := constant S_ .f32 0x7F800000#32
  let main_v75 : FVec F S5 .f32 := broadcastInDim S5 ![] bcast_S_S5 main_cst_28
  let main_v76 : IVec S5 1 := cmpf .olt main_v74 main_v75
  let main_c_29 : IVec S_ 1 := constantI S_ 1 1#1
  let main_v77 : IVec S_ 1 := (fun x v => Host.reduce IntOp.andi x v reducesTo_S5_S_d0 h_S_) main_v76 main_c_29
  let main_v78 : IVec S_ 1 := andi main_v73 main_v77
  main_v78

def fn_part3 {F : FTy → Type} [FloatOps F] (main_arg13 : FVec F S2 .f32) (main_arg14 : FVec F S128x64 .f32) (main_arg15 : FVec F S64 .f32) (main_arg16 : FVec F S64x5 .f32) (main_arg17 : FVec F S5 .f32) (main_v48 : IVec S_ 1) (main_v49 : FVec F S64x2 .f32) (main_v50 : FVec F S64x2 .f32) : IVec S_ 1 :=
  let main_v51 : IVec S64x2 1 := cmpf .olt main_v49 main_v50
  let main_c_19 : IVec S_ 1 := constantI S_ 1 1#1
  let main_v52 : IVec S_ 1 := (fun x v => Host.reduce IntOp.andi x v reducesTo_S64x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S2 .f32) (main_arg10 : FVec F S128x64 .f32) (main_arg11 : FVec F S64 .f32) (main_arg12 : FVec F S64x2 .f32) (main_arg13 : FVec F S2 .f32) (main_arg14 : FVec F S128x64 .f32) (main_arg15 : FVec F S64 .f32) (main_arg16 : FVec F S64x5 .f32) (main_arg17 : FVec F S5 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x2 .f32 := Host.absf main_arg12
  let main_cst_18 : FVec F S_ .f32 := constant S_ .f32 0x7F800000#32
  let main_v50 : FVec F S64x2 .f32 := broadcastInDim S64x2 ![] bcast_S_S64x2 main_cst_18
  fn_part3 (F := F) main_arg13 main_arg14 main_arg15 main_arg16 main_arg17 main_v48 main_v49 main_v50

def fn_part1 {F : FTy → Type} [FloatOps F] (main_arg6 : FVec F S2x3x128 .f32) (main_arg7 : FVec F S2x3x128x128 .f32) (main_arg8 : FVec F S256x2 .f32) (main_arg9 : FVec F S2 .f32) (main_arg10 : FVec F S128x64 .f32) (main_arg11 : FVec F S64 .f32) (main_arg12 : FVec F S64x2 .f32) (main_arg13 : FVec F S2 .f32) (main_arg14 : FVec F S128x64 .f32) (main_arg15 : FVec F S64 .f32) (main_arg16 : FVec F S64x5 .f32) (main_arg17 : FVec F S5 .f32) (main_v13 : IVec S_ 1) (main_v16 : IVec S2x3x128x128 1) : IVec S_ 1 :=
  let main_c_5 : IVec S_ 1 := constantI S_ 1 1#1
  let main_v17 : IVec S_ 1 := (fun x v => Host.reduce IntOp.andi x v reducesTo_S2x3x128x128_S_d0_1_2_3 h_S_) main_v16 main_c_5
  let main_v18 : IVec S_ 1 := andi main_v13 main_v17
  let main_v19 : FVec F S2x3x128 .f32 := Host.absf main_arg6
  let main_cst_6 : FVec F S_ .f32 := constant S_ .f32 0x7F800000#32
  let main_v20 : FVec F S2x3x128 .f32 := broadcastInDim S2x3x128 ![] bcast_S_S2x3x128 main_cst_6
  let main_v21 : IVec S2x3x128 1 := cmpf .olt main_v19 main_v20
  let main_c_7 : IVec S_ 1 := constantI S_ 1 1#1
  let main_v22 : IVec S_ 1 := (fun x v => Host.reduce IntOp.andi x v reducesTo_S2x3x128_S_d0_1_2 h_S_) main_v21 main_c_7
  let main_v23 : IVec S_ 1 := andi main_v18 main_v22
  let main_v24 : FVec F S2x3x128x128 .f32 := Host.absf main_arg7
  let main_cst_8 : FVec F S_ .f32 := constant S_ .f32 0x7F800000#32
  let main_v25 : FVec F S2x3x128x128 .f32 := broadcastInDim S2x3x128x128 ![] bcast_S_S2x3x128x128 main_cst_8
  let main_v26 : IVec S2x3x128x128 1 := cmpf .olt main_v24 main_v25
  let main_c_9 : IVec S_ 1 := constantI S_ 1 1#1
  let main_v27 : IVec S_ 1 := (fun x v => Host.reduce IntOp.andi x v reducesTo_S2x3x128x128_S_d0_1_2_3 h_S_) main_v26 main_c_9
  let main_v28 : IVec S_ 1 := andi main_v23 main_v27
  let main_v29 : FVec F S256x2 .f32 := Host.absf main_arg8
  let main_cst_10 : FVec F S_ .f32 := constant S_ .f32 0x7F800000#32
  let main_v30 : FVec F S256x2 .f32 := broadcastInDim S256x2 ![] bcast_S_S256x2 main_cst_10
  let main_v31 : IVec S256x2 1 := cmpf .olt main_v29 main_v30
  let main_c_11 : IVec S_ 1 := constantI S_ 1 1#1
  let main_v32 : IVec S_ 1 := (fun x v => Host.reduce IntOp.andi x v reducesTo_S256x2_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : IVec S2x1600000 32) (main_arg3 : FVec F S128x128 .f32) (main_arg4 : FVec F S128 .f32) (main_arg5 : FVec F S2x3x128x128 .f32) (main_arg6 : FVec F S2x3x128 .f32) (main_arg7 : FVec F S2x3x128x128 .f32) (main_arg8 : FVec F S256x2 .f32) (main_arg9 : FVec F S2 .f32) (main_arg10 : FVec F S128x64 .f32) (main_arg11 : FVec F S64 .f32) (main_arg12 : FVec F S64x2 .f32) (main_arg13 : FVec F S2 .f32) (main_arg14 : FVec F S128x64 .f32) (main_arg15 : FVec F S64 .f32) (main_arg16 : FVec F S64x5 .f32) (main_arg17 : FVec F S5 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x3x128x128 .f32 := Host.absf main_arg5
  let main_cst_4 : FVec F S_ .f32 := constant S_ .f32 0x7F800000#32
  let main_v15 : FVec F S2x3x128x128 .f32 := broadcastInDim S2x3x128x128 ![] bcast_S_S2x3x128x128 main_cst_4
  let main_v16 : IVec S2x3x128x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x3x128x128 : Shape := ⟨4, ![2, 3, 128, 128]⟩
abbrev S2x3x128 : Shape := ⟨3, ![2, 3, 128]⟩
abbrev S256x2 : Shape := ⟨2, ![256, 2]⟩
abbrev S2 : Shape := ⟨1, ![2]⟩
abbrev S128x64 : Shape := ⟨2, ![128, 64]⟩
abbrev S64 : Shape := ⟨1, ![64]⟩
abbrev S64x2 : Shape := ⟨2, ![64, 2]⟩
abbrev S64x5 : Shape := ⟨2, ![64, 5]⟩
abbrev S5 : Shape := ⟨1, ![5]⟩
abbrev S5000x128 : Shape := ⟨2, ![5000, 128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x1x128x128 : Shape := ⟨4, ![1, 1, 128, 128]⟩
abbrev S256x128 : Shape := ⟨2, ![256, 128]⟩
abbrev S1x1x128 : Shape := ⟨3, ![1, 1, 128]⟩
abbrev S5000x1 : Shape := ⟨2, ![5000, 1]⟩
abbrev S5000x256 : Shape := ⟨2, ![5000, 256]⟩
abbrev S128x2 : Shape := ⟨2, ![128, 2]⟩
abbrev S5000x2 : Shape := ⟨2, ![5000, 2]⟩
abbrev S1x2 : Shape := ⟨2, ![1, 2]⟩
abbrev S5000x64 : Shape := ⟨2, ![5000, 64]⟩
abbrev S1x64 : Shape := ⟨2, ![1, 64]⟩
abbrev S5000x5 : Shape := ⟨2, ![5000, 5]⟩
abbrev S1x5 : Shape := ⟨2, ![1, 5]⟩
abbrev S5000x121 : Shape := ⟨2, ![5000, 121]⟩
abbrev S100000x2 : Shape := ⟨2, ![100000, 2]⟩
abbrev S100000x5 : Shape := ⟨2, ![100000, 5]⟩

abbrev nBuf : Space → Nat
  | .hbm => 197
  | .vmem => 85
  | .smem => 0
  | _ => 0

abbrev hbmTy0_0 (i : Nat) : BufTy := match i % 128 with
  | 0 => ⟨S100000x128, .f32⟩
  | 1 => ⟨S2x1600000, .i32⟩
  | 2 => ⟨S2x1600000, .i32⟩
  | 3 => ⟨S128x128, .f32⟩
  | 4 => ⟨S128, .f32⟩
  | 5 => ⟨S2x3x128x128, .f32⟩
  | 6 => ⟨S2x3x128, .f32⟩
  | 7 => ⟨S2x3x128x128, .f32⟩
  | 8 => ⟨S256x2, .f32⟩
  | 9 => ⟨S2, .f32⟩
  | 10 => ⟨S128x64, .f32⟩
  | 11 => ⟨S64, .f32⟩
  | 12 => ⟨S64x2, .f32⟩
  | 13 => ⟨S2, .f32⟩
  | 14 => ⟨S128x64, .f32⟩
  | 15 => ⟨S64, .f32⟩
  | 16 => ⟨S64x5, .f32⟩
  | 17 => ⟨S5, .f32⟩
  | 18 => ⟨S100000x128, .f32⟩
  | 19 => ⟨S1x1600000, .i32⟩
  | 20 => ⟨S1600000, .i32⟩
  | 21 => ⟨S1x1600000, .i32⟩
  | 22 => ⟨S1600000, .i32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x1, .f32⟩
  | 36 => ⟨S100000x128, .bf16⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .bf16⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S1x1x128x128, .f32⟩
  | 52 => ⟨S128x128, .f32⟩
  | 53 => ⟨S1x1x128x128, .f32⟩
  | 54 => ⟨S128x128, .f32⟩
  | 55 => ⟨S256x128, .f32⟩
  | 56 => ⟨S1x1x128, .f32⟩
  | 57 => ⟨S128, .f32⟩
  | 58 => ⟨S100000x128, .f32⟩
  | 59 => ⟨S100000x128, .bf16⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .bf16⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S1x1x128x128, .f32⟩
  | 75 => ⟨S128x128, .f32⟩
  | 76 => ⟨S1x1x128x128, .f32⟩
  | 77 => ⟨S128x128, .f32⟩
  | 78 => ⟨S256x128, .f32⟩
  | 79 => ⟨S1x1x128, .f32⟩
  | 80 => ⟨S128, .f32⟩
  | 81 => ⟨S100000x128, .f32⟩
  | 82 => ⟨S100000x128, .bf16⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .bf16⟩
  | 92 => ⟨S1600000x128, .f32⟩
  | 93 => ⟨S_, .f32⟩
  | 94 => ⟨S100000x128, .f32⟩
  | 95 => ⟨S1600000x1, .i32⟩
  | 96 => ⟨S100000x128, .f32⟩
  | 97 => ⟨S1x1x128x128, .f32⟩
  | 98 => ⟨S128x128, .f32⟩
  | 99 => ⟨S1x1x128x128, .f32⟩
  | 100 => ⟨S128x128, .f32⟩
  | 101 => ⟨S256x128, .f32⟩
  | 102 => ⟨S1x1x128, .f32⟩
  | 103 => ⟨S128, .f32⟩
  | 104 => ⟨S100000x128, .f32⟩
  | 105 => ⟨S1x1600000, .i32⟩
  | 106 => ⟨S1600000, .i32⟩
  | 107 => ⟨S1x1600000, .i32⟩
  | 108 => ⟨S1600000, .i32⟩
  | 109 => ⟨S_, .f32⟩
  | 110 => ⟨S1600000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S100000, .f32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .bf16⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .bf16⟩
  | 4 => ⟨S1600000x128, .f32⟩
  | 5 => ⟨S_, .f32⟩
  | 6 => ⟨S100000x128, .f32⟩
  | 7 => ⟨S1600000x1, .i32⟩
  | 8 => ⟨S100000x128, .f32⟩
  | 9 => ⟨S1x1x128x128, .f32⟩
  | 10 => ⟨S128x128, .f32⟩
  | 11 => ⟨S1x1x128x128, .f32⟩
  | 12 => ⟨S128x128, .f32⟩
  | 13 => ⟨S256x128, .f32⟩
  | 14 => ⟨S1x1x128, .f32⟩
  | 15 => ⟨S128, .f32⟩
  | 16 => ⟨S100000x128, .f32⟩
  | 17 => ⟨S100000x128, .bf16⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .bf16⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S1x1x128x128, .f32⟩
  | 33 => ⟨S128x128, .f32⟩
  | 34 => ⟨S1x1x128x128, .f32⟩
  | 35 => ⟨S128x128, .f32⟩
  | 36 => ⟨S256x128, .f32⟩
  | 37 => ⟨S1x1x128, .f32⟩
  | 38 => ⟨S128, .f32⟩
  | 39 => ⟨S100000x128, .f32⟩
  | 40 => ⟨S100000x128, .bf16⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .bf16⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S1x1x128x128, .f32⟩
  | 56 => ⟨S128x128, .f32⟩
  | 57 => ⟨S1x1x128x128, .f32⟩
  | 58 => ⟨S128x128, .f32⟩
  | 59 => ⟨S256x128, .f32⟩
  | 60 => ⟨S1x1x128, .f32⟩
  | 61 => ⟨S128, .f32⟩
  | 62 => ⟨S100000x128, .f32⟩
  | 63 => ⟨S128x2, .f32⟩
  | 64 => ⟨S128x2, .f32⟩
  | 65 => ⟨S100000x128, .f32⟩
  | 66 => ⟨S100000x128, .f32⟩
  | 67 => ⟨S100000x2, .f32⟩
  | 68 => ⟨S100000x5, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S256x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S5000x128, .f32⟩
  | .local _ .vmem, ⟨21, _⟩ => ⟨S5000x128, .f32⟩
  | .local _ .vmem, ⟨22, _⟩ => ⟨S256x128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | .local _ .vmem, ⟨32, _⟩ => ⟨S256x128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x1, .f32⟩
  | .local _ .vmem, ⟨39, _⟩ => ⟨S5000x1, .f32⟩
  | .local _ .vmem, ⟨40, _⟩ => ⟨S5000x128, .f32⟩
  | .local _ .vmem, ⟨41, _⟩ => ⟨S5000x128, .f32⟩
  | .local _ .vmem, ⟨42, _⟩ => ⟨S256x128, .f32⟩
  | .local _ .vmem, ⟨43, _⟩ => ⟨S128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x1, .f32⟩
  | .local _ .vmem, ⟨49, _⟩ => ⟨S5000x1, .f32⟩
  | .local _ .vmem, ⟨50, _⟩ => ⟨S5000x128, .f32⟩
  | .local _ .vmem, ⟨51, _⟩ => ⟨S5000x128, .f32⟩
  | .local _ .vmem, ⟨52, _⟩ => ⟨S256x128, .f32⟩
  | .local _ .vmem, ⟨53, _⟩ => ⟨S128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x1, .f32⟩
  | .local _ .vmem, ⟨59, _⟩ => ⟨S5000x1, .f32⟩
  | .local _ .vmem, ⟨60, _⟩ => ⟨S5000x128, .f32⟩
  | .local _ .vmem, ⟨61, _⟩ => ⟨S5000x128, .f32⟩
  | .local _ .vmem, ⟨62, _⟩ => ⟨S256x128, .f32⟩
  | .local _ .vmem, ⟨63, _⟩ => ⟨S128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S128x2, .f32⟩
  | .local _ .vmem, ⟨71, _⟩ => ⟨S128x2, .f32⟩
  | .local _ .vmem, ⟨72, _⟩ => ⟨S2, .f32⟩
  | .local _ .vmem, ⟨73, _⟩ => ⟨S128x64, .f32⟩
  | .local _ .vmem, ⟨74, _⟩ => ⟨S64, .f32⟩
  | .local _ .vmem, ⟨75, _⟩ => ⟨S64x2, .f32⟩
  | .local _ .vmem, ⟨76, _⟩ => ⟨S2, .f32⟩
  | .local _ .vmem, ⟨77, _⟩ => ⟨S128x64, .f32⟩
  | .local _ .vmem, ⟨78, _⟩ => ⟨S64, .f32⟩
  | .local _ .vmem, ⟨79, _⟩ => ⟨S64x5, .f32⟩
  | .local _ .vmem, ⟨80, _⟩ => ⟨S5, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_5 : Ref sig .tc := ⟨.hbm, 60, rfl⟩
abbrev main_v35 : Ref sig .tc := ⟨.hbm, 61, rfl⟩
abbrev main_v36 : Ref sig .tc := ⟨.hbm, 62, rfl⟩
abbrev main_c_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_8 : Ref sig .tc := ⟨.hbm, 83, rfl⟩
abbrev main_v55 : Ref sig .tc := ⟨.hbm, 84, rfl⟩
abbrev main_v56 : Ref sig .tc := ⟨.hbm, 85, rfl⟩
abbrev main_c_9 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_11 : Ref sig .tc := ⟨.hbm, 109, rfl⟩
abbrev main_v78 : Ref sig .tc := ⟨.hbm, 110, rfl⟩
abbrev main_cst_12 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_13 : Ref sig .tc := ⟨.hbm, 115, rfl⟩
abbrev main_v82 : Ref sig .tc := ⟨.hbm, 116, rfl⟩
abbrev main_v83 : Ref sig .tc := ⟨.hbm, 117, rfl⟩
abbrev main_cst_14 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_15 : Ref sig .tc := ⟨.hbm, 123, rfl⟩
abbrev main_v88 : Ref sig .tc := ⟨.hbm, 124, rfl⟩
abbrev main_v89 : Ref sig .tc := ⟨.hbm, 125, rfl⟩
abbrev main_c_16 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_17 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_18 : Ref sig .tc := ⟨.hbm, 146, rfl⟩
abbrev main_v108 : Ref sig .tc := ⟨.hbm, 147, rfl⟩
abbrev main_v109 : Ref sig .tc := ⟨.hbm, 148, rfl⟩
abbrev main_c_19 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_20 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_21 : Ref sig .tc := ⟨.hbm, 169, rfl⟩
abbrev main_v128 : Ref sig .tc := ⟨.hbm, 170, rfl⟩
abbrev main_v129 : Ref sig .tc := ⟨.hbm, 171, rfl⟩
abbrev main_c_22 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_23 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149_0 : Ref sig .tc := ⟨.hbm, 193, rfl⟩
abbrev main_v149_1 : Ref sig .tc := ⟨.hbm, 194, rfl⟩
abbrev main_v150 : Ref sig .tc := ⟨.hbm, 195, rfl⟩
abbrev main_v151 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg1_1 : Ref sig .tc := ⟨.vmem, 69, rfl⟩
abbrev cc7_stg2_0 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg5_0 : Ref sig .tc := ⟨.vmem, 73, rfl⟩
abbrev cc7_stg6_0 : Ref sig .tc := ⟨.vmem, 74, rfl⟩
abbrev cc7_stg7_0 : Ref sig .tc := ⟨.vmem, 75, rfl⟩
abbrev cc7_stg8_0 : Ref sig .tc := ⟨.vmem, 76, rfl⟩
abbrev cc7_stg9_0 : Ref sig .tc := ⟨.vmem, 77, rfl⟩
abbrev cc7_stg10_0 : Ref sig .tc := ⟨.vmem, 78, rfl⟩
abbrev cc7_stg11_0 : Ref sig .tc := ⟨.vmem, 79, rfl⟩
abbrev cc7_stg12_0 : Ref sig .tc := ⟨.vmem, 80, rfl⟩
abbrev cc7_stg13_0 : Ref sig .tc := ⟨.vmem, 81, rfl⟩
abbrev cc7_stg13_1 : Ref sig .tc := ⟨.vmem, 82, rfl⟩
abbrev cc7_stg14_0 : Ref sig .tc := ⟨.vmem, 83, rfl⟩
abbrev cc7_stg14_1 : Ref sig .tc := ⟨.vmem, 84, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51
abbrev cc5_sem3_0 : DmaSem sig := 52
abbrev cc5_sem4_0 : DmaSem sig := 53
abbrev cc5_sem5_0 : DmaSem sig := 54
abbrev cc5_sem5_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem4_0 : DmaSem sig := 63
abbrev cc6_sem5_0 : DmaSem sig := 64
abbrev cc6_sem5_1 : DmaSem sig := 65
abbrev cc7_sem0_0 : DmaSem sig := 66
abbrev cc7_sem0_1 : DmaSem sig := 67
abbrev cc7_sem1_0 : DmaSem sig := 68
abbrev cc7_sem1_1 : DmaSem sig := 69
abbrev cc7_sem2_0 : DmaSem sig := 70
abbrev cc7_sem3_0 : DmaSem sig := 71
abbrev cc7_sem4_0 : DmaSem sig := 72
abbrev cc7_sem5_0 : DmaSem sig := 73
abbrev cc7_sem6_0 : DmaSem sig := 74
abbrev cc7_sem7_0 : DmaSem sig := 75
abbrev cc7_sem8_0 : DmaSem sig := 76
abbrev cc7_sem9_0 : DmaSem sig := 77
abbrev cc7_sem10_0 : DmaSem sig := 78
abbrev cc7_sem11_0 : DmaSem sig := 79
abbrev cc7_sem12_0 : DmaSem sig := 80
abbrev cc7_sem13_0 : DmaSem sig := 81
abbrev cc7_sem13_1 : DmaSem sig := 82
abbrev cc7_sem14_0 : DmaSem sig := 83
abbrev cc7_sem14_1 : DmaSem sig := 84

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S256x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_13 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_14 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x2 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x2 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S2 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S64x2 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S2 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S128x64 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S64 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S64x5 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S5 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 2 → Memref sig .tc .vmem S5000x128 .f32 := fun | 0 => Memref.whole cc7_stg13_0 | 1 => Memref.whole cc7_stg13_1 | ⟨_ + 2, h⟩ => absurd h (Nat.not_lt.2 (Nat.le_add_left _ _))
abbrev sem7_13 : Fin 2 → DmaSem sig := fun | 0 => cc7_sem13_0 | 1 => cc7_sem13_1 | ⟨_ + 2, h⟩ => absurd h (Nat.not_lt.2 (Nat.le_add_left _ _))
abbrev reads7_13 : Fin grid7.rank → Bool := ![true]

abbrev stage7_14 : Fin 2 → Memref sig .tc .vmem S5000x128 .f32 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  slices_S2x3x128x128_S1x1x128x128_0_0_0_0 : S2x3x128x128.Slices ![0, 0, 0, 0] S1x1x128x128
  shapeCasts_S1x1x128x128_S128x128 : S1x1x128x128.ShapeCasts S128x128
  concatenates_S128x128_S128x128_S256x128_d0 : Shape.Concatenates [S128x128, S128x128] S256x128 0
  slices_S2x3x128_S1x1x128_0_0_0 : S2x3x128.Slices ![0, 0, 0] S1x1x128
  shapeCasts_S1x1x128_S128 : S1x1x128.ShapeCasts S128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128_S128 : S128.ShapeCasts S128
  slices_S2x3x128x128_S1x1x128x128_0_1_0_0 : S2x3x128x128.Slices ![0, 1, 0, 0] S1x1x128x128
  slices_S2x3x128_S1x1x128_0_1_0 : S2x3x128.Slices ![0, 1, 0] S1x1x128
  slices_S2x3x128x128_S1x1x128x128_0_2_0_0 : S2x3x128x128.Slices ![0, 2, 0, 0] S1x1x128x128
  slices_S2x3x128_S1x1x128_0_2_0 : S2x3x128.Slices ![0, 2, 0] S1x1x128
  slices_S2x3x128x128_S1x1x128x128_1_0_0_0 : S2x3x128x128.Slices ![1, 0, 0, 0] S1x1x128x128
  slices_S2x3x128_S1x1x128_1_0_0 : S2x3x128.Slices ![1, 0, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  slices_S2x3x128x128_S1x1x128x128_1_2_0_0 : S2x3x128x128.Slices ![1, 2, 0, 0] S1x1x128x128
  slices_S2x3x128_S1x1x128_1_2_0 : S2x3x128.Slices ![1, 2, 0] S1x1x128
  slices_S256x2_S128x2_0_0 : S256x2.Slices ![0, 0] S128x2
  slices_S256x2_S128x2_128_0 : S256x2.Slices ![128, 0] S128x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  slices_S5000x2_o0_0_S5000x1 : S5000x2.Slices ![0, 0] S5000x1
  slices_S5000x2_o0_1_S5000x1 : S5000x2.Slices ![0, 1] S5000x1
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S64x5_S64x5_0_0 : ∀ a, (![0, 0] : Fin 2 → Nat) a + S64x5.size a ≤ S64x5.size a
  h_S64x5 : 0 < S64x5.numel
  inb_S5_S5_0 : ∀ a, (![0] : Fin 1 → Nat) a + S5.size a ≤ S5.size a
  h_S5 : 0 < S5.numel
  shapeCasts_S5_S1x5 : S5.ShapeCasts S1x5
  broadcasts_S1x5_S5000x5 : S1x5.Broadcasts S5000x5
  concatenates_S5000x2_S5000x5_S5000x121_S5000x128_d1 : Shape.Concatenates [S5000x2, S5000x5, S5000x121] S5000x128 1
  slices_S100000x128_S100000x2_0_0 : S100000x128.Slices ![0, 0] S100000x2
  slices_S100000x128_S100000x5_0_2 : S100000x128.Slices ![0, 2] S100000x5
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S256x128_S5000x128_1_0_0_1_n_n_wf : DotDims.WF S5000x256 S256x128 S5000x128 [1] [0] [0] [1] [] []
  dot_S5000x128_S128x2_S5000x2_1_0_0_1_n_n_wf : DotDims.WF S5000x128 S128x2 S5000x2 [1] [0] [0] [1] [] []
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  dot_S5000x64_S64x5_S5000x5_1_0_0_1_n_n_wf : DotDims.WF S5000x64 S64x5 S5000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x128.size a ≤ S256x128.size a
  hwx5_3 : ∀ i : grid5.Coords, EltTy.bits .f32 = 32 ∨ (Rect.block (s := S256x128) S256x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x128.size a ≤ S256x128.size a
  hwx6_3 : ∀ i : grid6.Coords, EltTy.bits .f32 = 32 ∨ (Rect.block (s := S256x128) S256x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x2.size a ≤ S128x2.size a
  hwx7_2 : ∀ i : grid7.Coords, EltTy.bits .f32 = 32 ∨ (Rect.block (s := S128x2) S128x2.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x2.size a ≤ S128x2.size a
  hwx7_3 : ∀ i : grid7.Coords, EltTy.bits .f32 = 32 ∨ (Rect.block (s := S128x2) S128x2.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S2.size a ≤ S2.size a
  hwx7_4 : ∀ i : grid7.Coords, EltTy.bits .f32 = 32 ∨ (Rect.block (s := S2) S2.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x64.size a ≤ S128x64.size a
  hwx7_5 : ∀ i : grid7.Coords, EltTy.bits .f32 = 32 ∨ (Rect.block (s := S128x64) S128x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S64.size a ≤ S64.size a
  hwx7_6 : ∀ i : grid7.Coords, EltTy.bits .f32 = 32 ∨ (Rect.block (s := S64) S64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S64x2.size a ≤ S64x2.size a
  hwx7_7 : ∀ i : grid7.Coords, EltTy.bits .f32 = 32 ∨ (Rect.block (s := S64x2) S64x2.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S2.size a ≤ S2.size a
  hwx7_8 : ∀ i : grid7.Coords, EltTy.bits .f32 = 32 ∨ (Rect.block (s := S2) S2.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S128x64.size a ≤ S128x64.size a
  hwx7_9 : ∀ i : grid7.Coords, EltTy.bits .f32 = 32 ∨ (Rect.block (s := S128x64) S128x64.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S64.size a ≤ S64.size a
  hwx7_10 : ∀ i : grid7.Coords, EltTy.bits .f32 = 32 ∨ (Rect.block (s := S64) S64.size (cc7_transform_10 i) (hinb7_10 i)).WholeWords (EltTy.packing .f32)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S64x5.size a ≤ S64x5.size a
  hwx7_11 : ∀ i : grid7.Coords, EltTy.bits .f32 = 32 ∨ (Rect.block (s := S64x5) S64x5.size (cc7_transform_11 i) (hinb7_11 i)).WholeWords (EltTy.packing .f32)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S5.size a ≤ S5.size a
  hwx7_12 : ∀ i : grid7.Coords, EltTy.bits .f32 = 32 ∨ (Rect.block (s := S5) S5.size (cc7_transform_12 i) (hinb7_12 i)).WholeWords (EltTy.packing .f32)
  hstage7_13 : ∀ j, (stage7_13 j).IsWhole
  nbuf7_13 : grid7.bufCount reads7_13 false = 2
  hreads7_13 : ∀ i i' : grid7.Coords, (∀ a, reads7_13 a = true → i a = i' a) → cc7_transform_13 i = cc7_transform_13 i'
  hinb7_13 : ∀ (i : grid7.Coords) a, (cc7_transform_13 i a + 1) * S5000x128.size a ≤ S100000x128.size a
  hwx7_13 : ∀ i : grid7.Coords, EltTy.bits .f32 = 32 ∨ (Rect.block (s := S100000x128) S5000x128.size (cc7_transform_13 i) (hinb7_13 i)).WholeWords (EltTy.packing .f32)
  hstage7_14 : ∀ j, (stage7_14 j).IsWhole
  nbuf7_14 : grid7.bufCount reads7_14 false = 2
  hreads7_14 : ∀ i i' : grid7.Coords, (∀ a, reads7_14 a = true → i a = i' a) → cc7_transform_14 i = cc7_transform_14 i'
  hinb7_14 : ∀ (i : grid7.Coords) a, (cc7_transform_14 i a + 1) * S5000x128.size a ≤ S100000x128.size a
  hwx7_14 : ∀ i : grid7.Coords, EltTy.bits .f32 = 32 ∨ (Rect.block (s := S100000x128) S5000x128.size (cc7_transform_14 i) (hinb7_14 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def dot_S5000x64_S64x5_S5000x5_1_0_0_1_n_n : DotDims S5000x64 S64x5 S5000x5 where
  lhsContracting := [1]
  rhsContracting := [0]
  lhsNonContracting := [0]
  rhsNonContracting := [1]
  lhsBatch := []
  rhsBatch := []
  wf := dot_S5000x64_S64x5_S5000x5_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v70) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v98) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v103) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v105) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v106) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v118) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v106) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v123) S256x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v125) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v126) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v138) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v126) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v143) S256x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v145) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v146) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v73) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v146) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v147) S128x2.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v148) S128x2.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg9) S2.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg10) S128x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg11) S64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg12) S64x2.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_arg13) S2.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_arg14) S128x64.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_arg15) S64.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_arg16) S64x5.size cc7_transform_11 reads7_11 false true 1 stage7_11 sem7_11
    hrank7 hreads7_11 hinb7_11 nbuf7_11 (Memref.isWhole_whole _) hwx7_11 hstage7_11

abbrev win7_12 : Pipeline.Window sig grid7 :=
  Pipeline.Window.ofSpec (Memref.whole main_arg17) S5.size cc7_transform_12 reads7_12 false true 1 stage7_12 sem7_12
    hrank7 hreads7_12 hinb7_12 nbuf7_12 (Memref.isWhole_whole _) hwx7_12 hstage7_12

abbrev win7_13 : Pipeline.Window sig grid7 :=
  Pipeline.Window.ofSpec (Memref.whole main_v149_0) S5000x128.size cc7_transform_13 reads7_13 true false 2 stage7_13 sem7_13
    hrank7 hreads7_13 hinb7_13 nbuf7_13 (Memref.isWhole_whole _) hwx7_13 hstage7_13

abbrev win7_14 : Pipeline.Window sig grid7 :=
  Pipeline.Window.ofSpec (Memref.whole main_v149_1) S5000x128.size cc7_transform_14 reads7_14 true false 2 stage7_14 sem7_14
    hrank7 hreads7_14 hinb7_14 nbuf7_14 (Memref.isWhole_whole _) hwx7_14 hstage7_14

abbrev win7 : Fin 15 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | 14 => win7_14 | ⟨_ + 15, h⟩ => absurd h (Nat.not_lt.2 (Nat.le_add_left _ _))
abbrev spec7 : Fin 15 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x3x128x128 : Shape := ⟨4, ![2, 3, 128, 128]⟩
abbrev S2x3x128 : Shape := ⟨3, ![2, 3, 128]⟩
abbrev S256x2 : Shape := ⟨2, ![256, 2]⟩
abbrev S2 : Shape := ⟨1, ![2]⟩
abbrev S128x64 : Shape := ⟨2, ![128, 64]⟩
abbrev S64 : Shape := ⟨1, ![64]⟩
abbrev S64x2 : Shape := ⟨2, ![64, 2]⟩
abbrev S64x5 : Shape := ⟨2, ![64, 5]⟩
abbrev S5 : Shape := ⟨1, ![5]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1x1x128x128 : Shape := ⟨4, ![1, 1, 128, 128]⟩
abbrev S1x1x128 : Shape := ⟨3, ![1, 1, 128]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x1x128 : Shape := ⟨3, ![100000, 1, 128]⟩
abbrev S100000x2x128 : Shape := ⟨3, ![100000, 2, 128]⟩
abbrev S100000x256 : Shape := ⟨2, ![100000, 256]⟩
abbrev S100000x2 : Shape := ⟨2, ![100000, 2]⟩
abbrev S1x2 : Shape := ⟨2, ![1, 2]⟩
abbrev S100000x2x1 : Shape := ⟨3, ![100000, 2, 1]⟩
abbrev S100000x64 : Shape := ⟨2, ![100000, 64]⟩
abbrev S1x64 : Shape := ⟨2, ![1, 64]⟩
abbrev S100000x5 : Shape := ⟨2, ![100000, 5]⟩
abbrev S1x5 : Shape := ⟨2, ![1, 5]⟩

abbrev nBuf : Space → Nat
  | .hbm => 322
  | .vmem => 0
  | .smem => 0
  | _ => 0

abbrev hbmTy0_0 (i : Nat) : BufTy := match i % 128 with
  | 0 => ⟨S100000x128, .f32⟩
  | 1 => ⟨S2x1600000, .i32⟩
  | 2 => ⟨S2x1600000, .i32⟩
  | 3 => ⟨S128x128, .f32⟩
  | 4 => ⟨S128, .f32⟩
  | 5 => ⟨S2x3x128x128, .f32⟩
  | 6 => ⟨S2x3x128, .f32⟩
  | 7 => ⟨S2x3x128x128, .f32⟩
  | 8 => ⟨S256x2, .f32⟩
  | 9 => ⟨S2, .f32⟩
  | 10 => ⟨S128x64, .f32⟩
  | 11 => ⟨S64, .f32⟩
  | 12 => ⟨S64x2, .f32⟩
  | 13 => ⟨S2, .f32⟩
  | 14 => ⟨S128x64, .f32⟩
  | 15 => ⟨S64, .f32⟩
  | 16 => ⟨S64x5, .f32⟩
  | 17 => ⟨S5, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S1x1600000, .i32⟩
  | 26 => ⟨S1600000, .i32⟩
  | 27 => ⟨S1x1600000, .i32⟩
  | 28 => ⟨S1600000, .i32⟩
  | 29 => ⟨S1x1x128x128, .f32⟩
  | 30 => ⟨S128x128, .f32⟩
  | 31 => ⟨S1x1x128, .f32⟩
  | 32 => ⟨S128, .f32⟩
  | 33 => ⟨S1x1x128x128, .f32⟩
  | 34 => ⟨S128x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S_, .f32⟩
  | 49 => ⟨S1600000, .f32⟩
  | 50 => ⟨S_, .f32⟩
  | 51 => ⟨S100000, .f32⟩
  | 52 => ⟨S1600000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x1x128x128, .f32⟩
  | 70 => ⟨S128x128, .f32⟩
  | 71 => ⟨S1x1x128, .f32⟩
  | 72 => ⟨S128, .f32⟩
  | 73 => ⟨S1x1x128x128, .f32⟩
  | 74 => ⟨S128x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S_, .f32⟩
  | 89 => ⟨S1600000, .f32⟩
  | 90 => ⟨S_, .f32⟩
  | 91 => ⟨S100000, .f32⟩
  | 92 => ⟨S1600000x1, .i32⟩
  | 93 => ⟨S100000, .f32⟩
  | 94 => ⟨S_, .f32⟩
  | 95 => ⟨S100000, .f32⟩
  | 96 => ⟨S100000, .f32⟩
  | 97 => ⟨S100000x1, .f32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S1x1x128x128, .f32⟩
  | 110 => ⟨S128x128, .f32⟩
  | 111 => ⟨S1x1x128, .f32⟩
  | 112 => ⟨S128, .f32⟩
  | 113 => ⟨S1x1x128x128, .f32⟩
  | 114 => ⟨S128x128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S_, .f32⟩
  | 1 => ⟨S1600000, .f32⟩
  | 2 => ⟨S_, .f32⟩
  | 3 => ⟨S100000, .f32⟩
  | 4 => ⟨S1600000x1, .i32⟩
  | 5 => ⟨S100000, .f32⟩
  | 6 => ⟨S_, .f32⟩
  | 7 => ⟨S100000, .f32⟩
  | 8 => ⟨S100000, .f32⟩
  | 9 => ⟨S100000x1, .f32⟩
  | 10 => ⟨S100000x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S1x1600000, .i32⟩
  | 22 => ⟨S1600000, .i32⟩
  | 23 => ⟨S1x1600000, .i32⟩
  | 24 => ⟨S1600000, .i32⟩
  | 25 => ⟨S1x1x128x128, .f32⟩
  | 26 => ⟨S128x128, .f32⟩
  | 27 => ⟨S1x1x128, .f32⟩
  | 28 => ⟨S128, .f32⟩
  | 29 => ⟨S1x1x128x128, .f32⟩
  | 30 => ⟨S128x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S_, .f32⟩
  | 45 => ⟨S1600000, .f32⟩
  | 46 => ⟨S_, .f32⟩
  | 47 => ⟨S100000, .f32⟩
  | 48 => ⟨S1600000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S1x1x128x128, .f32⟩
  | 66 => ⟨S128x128, .f32⟩
  | 67 => ⟨S1x1x128, .f32⟩
  | 68 => ⟨S128, .f32⟩
  | 69 => ⟨S1x1x128x128, .f32⟩
  | 70 => ⟨S128x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S_, .f32⟩
  | 85 => ⟨S1600000, .f32⟩
  | 86 => ⟨S_, .f32⟩
  | 87 => ⟨S100000, .f32⟩
  | 88 => ⟨S1600000x1, .i32⟩
  | 89 => ⟨S100000, .f32⟩
  | 90 => ⟨S_, .f32⟩
  | 91 => ⟨S100000, .f32⟩
  | 92 => ⟨S100000, .f32⟩
  | 93 => ⟨S100000x1, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S1x1x128x128, .f32⟩
  | 106 => ⟨S128x128, .f32⟩
  | 107 => ⟨S1x1x128, .f32⟩
  | 108 => ⟨S128, .f32⟩
  | 109 => ⟨S1x1x128x128, .f32⟩
  | 110 => ⟨S128x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S_, .f32⟩
  | 125 => ⟨S1600000, .f32⟩
  | 126 => ⟨S_, .f32⟩
  | 127 => ⟨S100000, .f32⟩
  | _ => ⟨S100000x128, .f32⟩

abbrev hbmTy0_2 (i : Nat) : BufTy := match i % 128 with
  | 0 => ⟨S1600000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x1x128, .f32⟩
  | 18 => ⟨S100000x1x128, .f32⟩
  | 19 => ⟨S100000x2x128, .f32⟩
  | 20 => ⟨S100000x256, .f32⟩
  | 21 => ⟨S100000x2, .f32⟩
  | 22 => ⟨S1x2, .f32⟩
  | 23 => ⟨S100000x2, .f32⟩
  | 24 => ⟨S100000x2, .f32⟩
  | 25 => ⟨S_, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S100000x2, .f32⟩
  | 32 => ⟨S100000x2, .f32⟩
  | 33 => ⟨S100000x2, .f32⟩
  | 34 => ⟨S_, .f32⟩
  | 35 => ⟨S100000, .f32⟩
  | 36 => ⟨S100000x1, .f32⟩
  | 37 => ⟨S100000x2, .f32⟩
  | 38 => ⟨S100000x2, .f32⟩
  | 39 => ⟨S100000x2x1, .f32⟩
  | 40 => ⟨S100000x2x128, .f32⟩
  | 41 => ⟨S100000x2x128, .f32⟩
  | 42 => ⟨S_, .f32⟩
  | 43 => ⟨S100000x128, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x2, .f32⟩
  | 52 => ⟨S1x2, .f32⟩
  | 53 => ⟨S100000x2, .f32⟩
  | 54 => ⟨S100000x2, .f32⟩
  | 55 => ⟨S100000x64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S100000x5, .f32⟩
  | 63 => ⟨S1x5, .f32⟩
  | 64 => ⟨S100000x5, .f32⟩
  | 65 => ⟨S100000x5, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_cst : Ref sig .tc := ⟨.hbm, 66, rfl⟩
abbrev main_call1_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_4 : Ref sig .tc := ⟨.hbm, 75, rfl⟩
abbrev main_v47 : Ref sig .tc := ⟨.hbm, 76, rfl⟩
abbrev main_v48 : Ref sig .tc := ⟨.hbm, 77, rfl⟩
abbrev main_c_5 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_7 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_9 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call2_cst : Ref sig .tc := ⟨.hbm, 106, rfl⟩
abbrev main_call2_v0 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_10 : Ref sig .tc := ⟨.hbm, 115, rfl⟩
abbrev main_v79 : Ref sig .tc := ⟨.hbm, 116, rfl⟩
abbrev main_v80 : Ref sig .tc := ⟨.hbm, 117, rfl⟩
abbrev main_c_11 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_12 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_13 : Ref sig .tc := ⟨.hbm, 128, rfl⟩
abbrev main_v89 : Ref sig .tc := ⟨.hbm, 129, rfl⟩
abbrev main_cst_14 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_15 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_call3_cst : Ref sig .tc := ⟨.hbm, 146, rfl⟩
abbrev main_call3_v0 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_c_16 : Ref sig .tc := ⟨.hbm, 159, rfl⟩
abbrev main_v115 : Ref sig .tc := ⟨.hbm, 160, rfl⟩
abbrev main_v116 : Ref sig .tc := ⟨.hbm, 161, rfl⟩
abbrev main_c_17 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_18 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_19 : Ref sig .tc := ⟨.hbm, 172, rfl⟩
abbrev main_v125 : Ref sig .tc := ⟨.hbm, 173, rfl⟩
abbrev main_cst_20 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_21 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_call4_cst : Ref sig .tc := ⟨.hbm, 190, rfl⟩
abbrev main_call4_v0 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_c_22 : Ref sig .tc := ⟨.hbm, 199, rfl⟩
abbrev main_v147 : Ref sig .tc := ⟨.hbm, 200, rfl⟩
abbrev main_v148 : Ref sig .tc := ⟨.hbm, 201, rfl⟩
abbrev main_c_23 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_cst_24 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_25 : Ref sig .tc := ⟨.hbm, 212, rfl⟩
abbrev main_v157 : Ref sig .tc := ⟨.hbm, 213, rfl⟩
abbrev main_cst_26 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_27 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_call5_cst : Ref sig .tc := ⟨.hbm, 230, rfl⟩
abbrev main_call5_v0 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_c_28 : Ref sig .tc := ⟨.hbm, 239, rfl⟩
abbrev main_v179 : Ref sig .tc := ⟨.hbm, 240, rfl⟩
abbrev main_v180 : Ref sig .tc := ⟨.hbm, 241, rfl⟩
abbrev main_c_29 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_cst_30 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_cst_31 : Ref sig .tc := ⟨.hbm, 252, rfl⟩
abbrev main_v189 : Ref sig .tc := ⟨.hbm, 253, rfl⟩
abbrev main_cst_32 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_cst_33 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_call6_cst : Ref sig .tc := ⟨.hbm, 270, rfl⟩
abbrev main_call6_v0 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_cst_34 : Ref sig .tc := ⟨.hbm, 281, rfl⟩
abbrev main_v213 : Ref sig .tc := ⟨.hbm, 282, rfl⟩
abbrev main_cst_35 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_cst_36 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_cst_37 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_call7_cst : Ref sig .tc := ⟨.hbm, 304, rfl⟩
abbrev main_call7_v0 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_call8_cst : Ref sig .tc := ⟨.hbm, 315, rfl⟩
abbrev main_call8_v0 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S2x3x128x128_S1x1x128x128_0_0_0_0 : S2x3x128x128.Slices ![0, 0, 0, 0] S1x1x128x128
  shapeCasts_S1x1x128x128_S128x128 : S1x1x128x128.ShapeCasts S128x128
  slices_S2x3x128_S1x1x128_0_0_0 : S2x3x128.Slices ![0, 0, 0] S1x1x128
  shapeCasts_S1x1x128_S128 : S1x1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x3x128x128_S1x1x128x128_0_1_0_0 : S2x3x128x128.Slices ![0, 1, 0, 0] S1x1x128x128
  slices_S2x3x128_S1x1x128_0_1_0 : S2x3x128.Slices ![0, 1, 0] S1x1x128
  slices_S2x3x128x128_S1x1x128x128_0_2_0_0 : S2x3x128x128.Slices ![0, 2, 0, 0] S1x1x128x128
  slices_S2x3x128_S1x1x128_0_2_0 : S2x3x128.Slices ![0, 2, 0] S1x1x128
  slices_S2x3x128x128_S1x1x128x128_1_0_0_0 : S2x3x128x128.Slices ![1, 0, 0, 0] S1x1x128x128
  slices_S2x3x128_S1x1x128_1_0_0 : S2x3x128.Slices ![1, 0, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  slices_S2x3x128x128_S1x1x128x128_1_2_0_0 : S2x3x128x128.Slices ![1, 2, 0, 0] S1x1x128x128
  slices_S2x3x128_S1x1x128_1_2_0 : S2x3x128.Slices ![1, 2, 0] S1x1x128
  bcast_S100000x128_S100000x1x128_0_2 : S100000x128.BroadcastsInDim S100000x1x128 (![0, 2] : Fin 2 → Fin S100000x1x128.rank)
  concatenates_S100000x1x128_S100000x1x128_S100000x2x128_d1 : Shape.Concatenates [S100000x1x128, S100000x1x128] S100000x2x128 1
  shapeCasts_S100000x2x128_S100000x256 : S100000x2x128.ShapeCasts S100000x256
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000x1_S100000x2_0_1 : S100000x1.BroadcastsInDim S100000x2 (![0, 1] : Fin 2 → Fin S100000x2.rank)
  bcast_S100000x2_S100000x2x1_0_1 : S100000x2.BroadcastsInDim S100000x2x1 (![0, 1] : Fin 2 → Fin S100000x2x1.rank)
  bcast_S100000x2x1_S100000x2x128_0_1_2 : S100000x2x1.BroadcastsInDim S100000x2x128 (![0, 1, 2] : Fin 3 → Fin S100000x2x128.rank)
  reducesTo_S100000x2x128_S100000x128_d1 : S100000x2x128.ReducesTo [1] S100000x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x2_S100000x2_1_0_0_1_n_n_wf : DotDims.WF S100000x256 S256x2 S100000x2 [1] [0] [0] [1] [] []
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []
  dot_S100000x64_S64x5_S100000x5_1_0_0_1_n_n_wf : DotDims.WF S100000x64 S64x5 S100000x5 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def dot_S100000x64_S64x5_S100000x5_1_0_0_1_n_n : DotDims S100000x64 S64x5 S100000x5 where
  lhsContracting := [1]
  rhsContracting := [0]
  lhsNonContracting := [0]
  rhsNonContracting := [1]
  lhsBatch := []
  rhsBatch := []
  wf := dot_S100000x64_S64x5_S100000x5_1_0_0_1_n_n_wf

class Facts : Prop extends Facts₀ where

variable [Facts]
-- ==== Proof.KernelRun.lean ====
/-
  The run of @main's eight regions and the host operations between them, with the three result buffers named:
  every weakly fair execution from a memory with zero counters ends, without a fault, in a state whose three result
  buffers hold the last boundary's contents at those buffers, and whose eighteen argument arrays are as launched.
-/
import proofs.«140245_j83245056131912_2_alg».proof.Proof.Gen.KernelIdeal.Frame
import Idealize.ShloMosaic.PureOps.Ideal

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The run with the results named: the three result buffers end at the last boundary's contents, the arguments
    end as launched. The last thread state holds every unscoped buffer at the last boundary's contents; the three
    result buffers are unscoped, so the final state reads them there. -/
theorem run_named : θ_run defs (onTc (τ := τ) (main (F := Ideal))) ⟨m, fun _ => 0, ρ⟩ (fun r => ∀ c : Dev nD,
      r.2.mem ((c.tc : Thread nD τ).loc main_v150) = Gen.W16 m ρ c (Proc.devRef .tc main_v150)
      ∧ r.2.mem ((c.tc : Thread nD τ).loc main_v151) = Gen.W16 m ρ c (Proc.devRef .tc main_v151)
      ∧ r.2.mem ((c.tc : Thread nD τ).loc main_v149_1) = Gen.W16 m ρ c (Proc.devRef .tc main_v149_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v150 (by decide)),
       h c _ (mem_uc main_v151 (by decide)),
       h c _ (mem_uc main_v149_1 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c)⟩)

end Cert.KernelIdeal.Run

end
-- ==== Proof.Spec.lean ====
/-
  The three dense stages of the network, each as ONE function of whole arrays, entry by entry, on the extended reals.

  Node features are rows of 128 numbers. The embedding stage sends a row x_r to max(x_r·W + b, 0). A layer stage takes the
  summed neighbour rows agg_r, a per-node scale den_r, the node's own row h_r, the two stacked weight matrices (256 rows:
  the first 128 act on the scaled neighbour sum, the last 128 on the node's own row) and a bias, and returns
  max([agg_r·den_r , h_r]·Wcat + bl, 0). The fusion stage takes the two relations' rows o0_r, o1_r, forms two logits per
  node, weighs the rows by p0 = 1/(1 + exp(l1 − l0)) and p1 = 1 − p0, and applies two small two-layer heads to the fused row;
  the heads' 2 + 5 outputs sit in columns 0..6 of a 128-wide row whose other columns are 0.
-/
import Idealize.ShloMosaic.PureOps.Ideal
import Idealize.ShloMosaic.Lib.ValueIdx

noncomputable section

open scoped BigOperators

namespace Cert.Spec

open Idealize.ShloMosaic Idealize.ShloMosaic.ValueIdx

/-- An array of extended reals over a literal shape. -/
abbrev Arr (s : Shape) : Type := s.Idx → EReal

abbrev SN128 : Shape := ⟨2, ![100000, 128]⟩
abbrev SN1 : Shape := ⟨2, ![100000, 1]⟩
abbrev S128x128 : Shape := ⟨2, ![128, 128]⟩
abbrev S256x128 : Shape := ⟨2, ![256, 128]⟩
abbrev S128x2 : Shape := ⟨2, ![128, 2]⟩
abbrev S128x64 : Shape := ⟨2, ![128, 64]⟩
abbrev S64x2 : Shape := ⟨2, ![64, 2]⟩
abbrev S64x5 : Shape := ⟨2, ![64, 5]⟩
abbrev S128 : Shape := ⟨1, ![128]⟩
abbrev S64 : Shape := ⟨1, ![64]⟩
abbrev S2 : Shape := ⟨1, ![2]⟩
abbrev S5 : Shape := ⟨1, ![5]⟩

/-- The value of the f32 word of 0 (it is 0: `Ideal.ofBits_zero_f32`). -/
abbrev zw : EReal := Ideal.ofBits .f32 0x00000000#32
/-- The value of the f32 word of 1. -/
abbrev ow : EReal := Ideal.ofBits .f32 0x3F800000#32

/-! ## The embedding stage -/

/-- Entry (r, c) of max(x·W + b, 0). -/
def embAt (x : Arr SN128) (w : Arr S128x128) (b : Arr S128) (r : Fin 100000) (c : Fin 128) : EReal :=
  max ((∑ k : Fin 128, x (ix2 r k) * w (ix2 k c)) + b (ix1 c)) zw

def embArr (x : Arr SN128) (w : Arr S128x128) (b : Arr S128) : Arr SN128 :=
  fun j => embAt x w b (j 0) (j 1)

theorem embArr_apply (x : Arr SN128) (w : Arr S128x128) (b : Arr S128) (r : Fin 100000) (c : Fin 128) :
    embArr x w b (ix2 r c) = embAt x w b r c := rfl

/-! ## A layer stage -/

/-- Column k < 256 of the joined row [agg_r · den_r , h_r]. -/
def catRow (agg : Arr SN128) (den : Arr SN1) (h : Arr SN128) (r : Fin 100000) (k : Fin 256) : EReal :=
  if hk : k.val < 128 then agg (ix2 r ⟨k.val, hk⟩) * den (ix2 r (0 : Fin 1))
  else h (ix2 r ⟨k.val - 128, by omega⟩)

/-- Entry (r, c) of max([agg·den , h]·Wcat + bl, 0). -/
def sageAt (agg : Arr SN128) (den : Arr SN1) (h : Arr SN128) (wcat : Arr S256x128) (bl : Arr S128)
    (r : Fin 100000) (c : Fin 128) : EReal :=
  max ((∑ k : Fin 256, catRow agg den h r k * wcat (ix2 k c)) + bl (ix1 c)) zw

def sageArr (agg : Arr SN128) (den : Arr SN1) (h : Arr SN128) (wcat : Arr S256x128) (bl : Arr S128) : Arr SN128 :=
  fun j => sageAt agg den h wcat bl (j 0) (j 1)

theorem sageArr_apply (agg : Arr SN128) (den : Arr SN1) (h : Arr SN128) (wcat : Arr S256x128) (bl : Arr S128)
    (r : Fin 100000) (c : Fin 128) : sageArr agg den h wcat bl (ix2 r c) = sageAt agg den h wcat bl r c := rfl

/-! ## The fusion stage -/

/-- Logit j of node r: o0_r·Watt0 + o1_r·Watt1 + batt, column j. -/
def logitAt (o0 o1 : Arr SN128) (wa0 wa1 : Arr S128x2) (ba : Arr S2) (r : Fin 100000) (j : Fin 2) : EReal :=
  ((∑ k : Fin 128, o0 (ix2 r k) * wa0 (ix2 k j)) + (∑ k : Fin 128, o1 (ix2 r k) * wa1 (ix2 k j))) + ba (ix1 j)

/-- The first relation's weight: 1 / (1 + exp(l1 − l0)). -/
def p0At (o0 o1 : Arr SN128) (wa0 wa1 : Arr S128x2) (ba : Arr S2) (r : Fin 100000) : EReal :=
  Ideal.div ow (ow + Ideal.exp (logitAt o0 o1 wa0 wa1 ba r 1 - logitAt o0 o1 wa0 wa1 ba r 0))

/-- Entry (r, c) of the fused row o0·p0 + o1·(1 − p0). -/
def fuseAt (o0 o1 : Arr SN128) (wa0 wa1 : Arr S128x2) (ba : Arr S2) (r : Fin 100000) (c : Fin 128) : EReal :=
  o0 (ix2 r c) * p0At o0 o1 wa0 wa1 ba r + o1 (ix2 r c) * (ow - p0At o0 o1 wa0 wa1 ba r)

def fuseArr (o0 o1 : Arr SN128) (wa0 wa1 : Arr S128x2) (ba : Arr S2) : Arr SN128 :=
  fun j => fuseAt o0 o1 wa0 wa1 ba (j 0) (j 1)

theorem fuseArr_apply (o0 o1 : Arr SN128) (wa0 wa1 : Arr S128x2) (ba : Arr S2) (r : Fin 100000) (c : Fin 128) :
    fuseArr o0 o1 wa0 wa1 ba (ix2 r c) = fuseAt o0 o1 wa0 wa1 ba r c := rfl

/-- A head's hidden unit j of node r over a fused array g: max(g_r·W1 + b1, 0). -/
def hidAt (g : Arr SN128) (w1 : Arr S128x64) (b1 : Arr S64) (r : Fin 100000) (j : Fin 64) : EReal :=
  max ((∑ k : Fin 128, g (ix2 r k) * w1 (ix2 k j)) + b1 (ix1 j)) zw

/-- The two-output head at (r, j). -/
def fraudAt (g : Arr SN128) (w1 : Arr S128x64) (b1 : Arr S64) (w2 : Arr S64x2) (b2 : Arr S2) (r : Fin 100000) (j : Fin 2) : EReal :=
  (∑ k : Fin 64, hidAt g w1 b1 r k * w2 (ix2 k j)) + b2 (ix1 j)

/-- The five-output head at (r, j). -/
def patternAt (g : Arr SN128) (w1 : Arr S128x64) (b1 : Arr S64) (w2 : Arr S64x5) (b2 : Arr S5) (r : Fin 100000) (j : Fin 5) : EReal :=
  (∑ k : Fin 64, hidAt g w1 b1 r k * w2 (ix2 k j)) + b2 (ix1 j)

/-- Entry (r, c) of the packed 128-wide head row over a fused array g: the two-output head in columns 0, 1, the
    five-output head in columns 2..6, the value of the zero word elsewhere. -/
def headsAt (g : Arr SN128) (wc1 : Arr S128x64) (bc1 : Arr S64) (wc2 : Arr S64x2) (bc2 : Arr S2)
    (wp1 : Arr S128x64) (bp1 : Arr S64) (wp2 : Arr S64x5) (bp2 : Arr S5) (r : Fin 100000) (c : Fin 128) : EReal :=
  if h2 : c.val < 2 then fraudAt g wc1 bc1 wc2 bc2 r ⟨c.val, h2⟩
  else if h7 : c.val < 7 then patternAt g wp1 bp1 wp2 bp2 r ⟨c.val - 2, by omega⟩
  else zw

/-- The packed head rows of the fusion stage, over its own fused array. -/
def headsArr (o0 o1 : Arr SN128) (wa0 wa1 : Arr S128x2) (ba : Arr S2) (wc1 : Arr S128x64) (bc1 : Arr S64) (wc2 : Arr S64x2) (bc2 : Arr S2)
    (wp1 : Arr S128x64) (bp1 : Arr S64) (wp2 : Arr S64x5) (bp2 : Arr S5) : Arr SN128 :=
  fun j => headsAt (fuseArr o0 o1 wa0 wa1 ba) wc1 bc1 wc2 bc2 wp1 bp1 wp2 bp2 (j 0) (j 1)

theorem headsArr_apply (o0 o1 : Arr SN128) (wa0 wa1 : Arr S128x2) (ba : Arr S2) (wc1 : Arr S128x64) (bc1 : Arr S64) (wc2 : Arr S64x2) (bc2 : Arr S2)
    (wp1 : Arr S128x64) (bp1 : Arr S64) (wp2 : Arr S64x5) (bp2 : Arr S5) (r : Fin 100000) (c : Fin 128) :
    headsArr o0 o1 wa0 wa1 ba wc1 bc1 wc2 bc2 wp1 bp1 wp2 bp2 (ix2 r c)
      = headsAt (fuseArr o0 o1 wa0 wa1 ba) wc1 bc1 wc2 bc2 wp1 bp1 wp2 bp2 r c := rfl

end Cert.Spec

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.RegionEmb.lean ====
/-
  The embedding stage, from tiles to the array.  The grid has twenty points; point t fetches rows 5000·t … 5000·t + 4999
  of x, the whole of W and of b, and writes back the tile max(x·W + b, 0) of those rows.  Entry (p, q) of the tile is the
  row p of the fetched rows against column q of W, plus b at q, cut below at the value of the zero word; the fetched row p
  is row 5000·t + p of x, so the tile is the restriction of the whole stage to the rows the output's block names; the
  twenty blocks cover the array.
-/
import proofs.«140245_j83245056131912_2_alg».proof.Proof.Gen.KernelIdeal.Frame
import proofs.«140245_j83245056131912_2_alg».proof.Proof.Spec
import proofs.«140245_j83245056131912_2_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of the tile the body stores: the row p of the tile of x against column q of W, plus b at q, cut below
    at the value of the zero word. -/
theorem emb_tile_apply (x : Vec Ideal S5000x128 .f32) (w : Vec Ideal S128x128 .f32) (b : Vec Ideal S128 .f32)
    (p : Fin 5000) (q : Fin 128) :
    k0_pay1 (F := Ideal) x w b (ix2 p q)
      = max ((∑ k : Fin 128, x (ix2 p k) * w (ix2 k q)) + b (ix1 q)) (Ideal.ofBits .f32 0x00000000#32) := by
  unfold k0_pay1
  have hm : matmul (F := Ideal) dot_S5000x128_S128x128_S5000x128_1_0_0_1_n_n none (truncf .bf16 x bitsLt_bf16_f32)
      (truncf .bf16 w bitsLt_bf16_f32) (constant (F := Ideal) S5000x128 .f32 0x00000000#32) (ix2 p q)
        = ∑ k : Fin 128, x (ix2 p k) * w (ix2 k q) :=
    Cert.LibPlainDot.matmul_zero_apply dot_S5000x128_S128x128_S5000x128_1_0_0_1_n_n rfl rfl rfl rfl
      (fun _ _ => rfl) (fun _ _ => rfl) none (truncf .bf16 x bitsLt_bf16_f32) (truncf .bf16 w bitsLt_bf16_f32) p q
  have hb : broadcastTo S5000x128 (shapeCast S1x128 b shapeCasts_S128_S1x128) broadcasts_S1x128_S5000x128 (ix2 p q)
      = b (ix1 q) :=
    (broadcastTo_1b_ab_apply _ _ p q).trans (shapeCast_a_1a_apply b _ 0 q)
  exact congrArg₂ max (congrArg₂ HAdd.hAdd hm hb) rfl

theorem emb_zeros2 : (![0, 0] : Fin 2 → Nat) = fun _ => 0 := funext fun a => by fin_cases a <;> rfl
theorem emb_zeros1 : (![0] : Fin 1 → Nat) = fun _ => 0 := funext fun a => by fin_cases a <;> rfl

/-- The printed index maps over the grid: the tile of x moves with the output's tile along the rows, every other block
    index is 0, and the output's row-block index is below 20. -/
theorem emb_index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) = t.val :=
  (by decide +kernel : ∀ t : Fin grid0.N, _)

variable (V : (c : Dev nD) → (b : Ref sig .tc) → Buf (Elt Ideal) ((c : Thread nD τ).loc b))

/-- What point t writes back is block t of the embedding stage of the arrays the region finds. -/
theorem emb_flushed (c : Dev nD) (t : Fin cfg0.N) :
    (dat0 (F := Ideal) V c).flushed 3 t
      = ((cfg0.win 3).blk t).view.read (Elt Ideal) (Spec.embArr (V c main_arg0) (V c main_arg3) (V c main_arg4)) := by
  show (cfg0.win 3).cut (grid0.coords t) ((dat0 (F := Ideal) V c).after 3 t) = _
  rw [after0_3]
  unfold out0_3
  rw [View.canon_unit_zero emb_zeros2]
  simp only [View.ld_unit_zero (S := S5000x128) emb_zeros2, View.ld_unit_zero (S := S128x128) emb_zeros2,
    View.ld_unit_zero (S := S128) emb_zeros1]
  obtain ⟨e00, e01, e10, e11, e2, e31, e30⟩ := emb_index_facts t
  have htN : t.val < 20 := t.isLt
  funext j
  obtain ⟨p, q, rfl⟩ : ∃ (p : Fin 5000) (q : Fin 128), j = ix2 p q := ⟨j 0, j 1, eq_ix2 j⟩
  have hr : win0_3.index t (0 : Fin 2) * 5000 + 1 * p.val < 100000 := by have := p.isLt; omega
  have hemb : ((cfg0.win 3).blk t).view.emb (ix2 p q) = ix2 (⟨_, hr⟩ : Fin 100000) q := by
    funext a; apply Fin.ext
    match a with
    | ⟨0, _⟩ => rfl
    | ⟨1, _⟩ => show win0_3.index t (1 : Fin 2) * 128 + 1 * q.val = q.val; omega
  show k0_pay1 (F := Ideal) (iblk0 V c 0 t) (iblk0 V c 1 t) (iblk0 V c 2 t) (ix2 p q)
    = Spec.embArr (V c main_arg0) (V c main_arg3) (V c main_arg4) (((cfg0.win 3).blk t).view.emb (ix2 p q))
  rw [hemb, Spec.embArr_apply]
  refine (emb_tile_apply (iblk0 V c 0 t) (iblk0 V c 1 t) (iblk0 V c 2 t) p q).trans ?_
  unfold Spec.embAt
  refine congrArg₂ max (congrArg₂ HAdd.hAdd (Finset.sum_congr rfl fun k _ => congrArg₂ HMul.hMul ?_ ?_) ?_) rfl
  · show V c main_arg0 (((cfg0.win 0).blk t).view.emb (ix2 p k)) = V c main_arg0 (ix2 (⟨_, hr⟩ : Fin 100000) k)
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show V c main_arg4 (((cfg0.win 2).blk t).view.emb (ix1 q)) = V c main_arg4 (ix1 q)
    refine congrArg (V c main_arg4) (funext fun a => Fin.ext ?_)
    match a with
    | ⟨0, _⟩ => show win0_2.index t (0 : Fin 1) * 128 + 1 * q.val = q.val; omega

/-- An index of the array is in point t's block iff each coordinate is in the block's range on its axis. -/
theorem emb_mem_blk (t : Fin cfg0.N) (i : S100000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- Region 0's output array after its twenty grid points is the embedding stage of the arrays the region finds. -/
theorem emb0 (c : Dev nD) :
    (dat0 (F := Ideal) V c).arrAt 3 cfg0.N = Spec.embArr (V c main_arg0) (V c main_arg3) (V c main_arg4) := by
  refine (dat0 (F := Ideal) V c).arrAt_eq_of_cover 3 _ (fun t _ => emb_flushed V c t) fun i => ?_
  have hi0 : (i 0).val < 100000 := (i 0).isLt
  have hi1 : (i 1).val < 128 := (i 1).isLt
  have ht : (i 0).val / 5000 < 20 := by omega
  obtain ⟨e00, e01, e10, e11, e2, e31, e30⟩ := emb_index_facts ⟨(i 0).val / 5000, ht⟩
  refine ⟨⟨(i 0).val / 5000, ht⟩, flush0_3 _, ?_⟩
  rw [emb_mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e31]; omega

end Cert.KernelIdeal.Region

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.SagePayload.lean ====
/-
  The layer kernel's body at one entry of its row tile.

  A tile holds 5000 node rows. The body scales each neighbour-sum row by the node's factor, joins it with the node's own
  row into a row of 256 numbers, multiplies the joined rows by the stacked 256 × 128 weights, adds the bias row and
  clamps at the value of the zero word. At entry (p, q) this is
      max((∑ k < 256, joined(p, k) · w(k, q)) + b(q), 0),
  where joined(p, k) is agg(p, k) · den(p, 0) for k < 128 and h(p, k − 128) for k ≥ 128. Changes of float format are the
  identity on the extended reals, a reshape to the same shape moves nothing, a column spread over the 128 lanes reads the
  column, and a row spread over the 5000 rows reads the row.
-/
import proofs.«140245_j83245056131912_2_alg».proof.Proof.Gen.KernelIdeal.Skeleton
import proofs.«140245_j83245056131912_2_alg».proof.Proof.LibPlainDot
import proofs.«140245_j83245056131912_2_alg».proof.Proof.LibUnitAxes
import proofs.«140245_j83245056131912_2_alg».proof.Proof.Spec
import Idealize.ShloMosaic.Lib.Pipeline.Value
import Idealize.ShloMosaic.Lib.ValueIdx
import Idealize.ShloMosaic.Lib.ValueLayout

noncomputable section

open scoped BigOperators

namespace Cert.KernelIdeal.SagePayload

open Cert.KernelIdeal Cert.KernelIdeal.Gen Idealize.ShloMosaic Idealize.ShloMosaic.ValueIdx

/-- Column k < 256 of row p of a tile's joined rows [agg · den , h]. -/
def tileCatRow (x0 : Vec Ideal S5000x128 .f32) (x1 : Vec Ideal S5000x1 .f32) (x2 : Vec Ideal S5000x128 .f32)
    (p : Fin 5000) (k : Fin 256) : EReal :=
  if hk : k.val < 128 then x0 (ix2 p ⟨k.val, hk⟩) * x1 (ix2 p (0 : Fin 1))
  else x2 (ix2 p ⟨k.val - 128, by omega⟩)

/-- The scaled neighbour-sum rows at (p, k): the row entry times the row's factor. -/
theorem scaled_apply (x0 : Vec Ideal S5000x128 .f32) (x1 : Vec Ideal S5000x1 .f32) (p : Fin 5000) (k : Fin 128) :
    (mulf (shapeCast S5000x128 x0 shapeCasts_S5000x128_S5000x128)
        (broadcastTo S5000x128 (shapeCast S5000x1 x1 shapeCasts_S5000x1_S5000x1) broadcasts_S5000x1_S5000x128)
      : FVec Ideal S5000x128 .f32) (ix2 p k) = x0 (ix2 p k) * x1 (ix2 p (0 : Fin 1)) := by
  rw [mulf_apply, shapeCast_self, shapeCast_self]
  exact congrArg (x0 (ix2 p k) * ·) (Cert.LibUnitAxes.broadcastTo_a1_ab_apply x1 broadcasts_S5000x1_S5000x128 p k)

/-- The joined rows at (p, k). -/
theorem joined_apply (x0 : Vec Ideal S5000x128 .f32) (x1 : Vec Ideal S5000x1 .f32) (x2 : Vec Ideal S5000x128 .f32)
    (p : Fin 5000) (k : Fin 256) :
    (concatenate S5000x256 1
        [⟨S5000x128, (mulf (shapeCast S5000x128 x0 shapeCasts_S5000x128_S5000x128)
            (broadcastTo S5000x128 (shapeCast S5000x1 x1 shapeCasts_S5000x1_S5000x1) broadcasts_S5000x1_S5000x128)
            : FVec Ideal S5000x128 .f32)⟩,
         ⟨S5000x128, (shapeCast S5000x128 x2 shapeCasts_S5000x128_S5000x128 : FVec Ideal S5000x128 .f32)⟩]
        concatenates_S5000x128_S5000x128_S5000x256_d1 : FVec Ideal S5000x256 .f32) (ix2 p k)
      = tileCatRow x0 x1 x2 p k := by
  unfold tileCatRow
  by_cases hk : k.val < 128
  · rw [dif_pos hk]
    refine (concatenate_pair_apply_left (t := S5000x256) (s₁ := S5000x128) (s₂ := S5000x128) 1 _ _
      concatenates_S5000x128_S5000x128_S5000x256_d1 (ix2 p k) rfl (ix2 p ⟨k.val, hk⟩) (fun b => ?_)).trans
      (scaled_apply x0 x1 p ⟨k.val, hk⟩)
    match b with
    | ⟨0, _⟩ => rfl
    | ⟨1, _⟩ => rfl
  · rw [dif_neg hk]
    refine (concatenate_pair_apply_right (t := S5000x256) (s₁ := S5000x128) (s₂ := S5000x128) 1 _ _
      concatenates_S5000x128_S5000x128_S5000x256_d1 (ix2 p k) rfl rfl (ix2 p ⟨k.val - 128, by omega⟩) (fun b hb => ?_) ?_).trans ?_
    · match b with
      | ⟨0, _⟩ => rfl
      | ⟨1, _⟩ => exact absurd rfl hb
    · show k.val - 128 + 128 = k.val
      omega
    · rw [shapeCast_self]

/-- The bias row spread over the tile's rows reads the bias at the column. -/
theorem bias_apply (x4 : Vec Ideal S128 .f32) (p : Fin 5000) (q : Fin 128) :
    (broadcastTo S5000x128 (shapeCast S1x128 (shapeCast S128 x4 shapeCasts_S128_S128) shapeCasts_S128_S1x128)
      broadcasts_S1x128_S5000x128 : FVec Ideal S5000x128 .f32) (ix2 p q) = x4 (ix1 q) := by
  rw [shapeCast_self]
  exact (broadcastTo_1b_ab_apply _ broadcasts_S1x128_S5000x128 p q).trans
    (shapeCast_a_1a_apply x4 shapeCasts_S128_S1x128 (0 : Fin 1) q)

/-- THE BODY'S PAYLOAD at entry (p, q) of the tile. -/
theorem pay_apply (x0 : Vec Ideal S5000x128 .f32) (x1 : Vec Ideal S5000x1 .f32) (x2 : Vec Ideal S5000x128 .f32)
    (x3 : Vec Ideal S256x128 .f32) (x4 : Vec Ideal S128 .f32) (p : Fin 5000) (q : Fin 128) :
    k1_pay1 (F := Ideal) x0 x1 x2 x3 x4 (ix2 p q)
      = max ((∑ k : Fin 256, tileCatRow x0 x1 x2 p k * x3 (ix2 k q)) + x4 (ix1 q)) (Ideal.ofBits .f32 0x00000000#32) := by
  unfold k1_pay1
  refine congrArg₂ max (congrArg₂ (· + ·) ?_ (bias_apply x4 p q)) rfl
  refine (Cert.LibPlainDot.matmul_zero_apply (M := 5000) (K := 256) (N := 128)
    dot_S5000x256_S256x128_S5000x128_1_0_0_1_n_n rfl rfl rfl rfl (fun _ _ => rfl) (fun _ _ => rfl) none _ _ p q).trans ?_
  refine Finset.sum_congr rfl fun k _ => ?_
  refine congrArg₂ (· * ·) (joined_apply x0 x1 x2 p k) ?_
  show shapeCast S256x128 x3 shapeCasts_S256x128_S256x128 (ix2 k q) = x3 (ix2 k q)
  rw [shapeCast_self]

/-- A TILE'S ENTRY IS THE LAYER STAGE'S ENTRY. When row p of the tile's three row-tiled operands is row r of the whole
    arrays (all 128 columns of the neighbour sums and of the node's own rows, the one column of the factors) and the
    tile's weights and bias are the whole weights and bias, entry (p, q) of the body's result is entry (r, q) of the
    layer stage of the whole arrays: the two sums over the 256 joined columns agree term by term. -/
theorem tile_entry (agg : Spec.Arr Spec.SN128) (den : Spec.Arr Spec.SN1) (h : Spec.Arr Spec.SN128)
    (wcat : Spec.Arr Spec.S256x128) (bl : Spec.Arr Spec.S128)
    (x0 : Vec Ideal S5000x128 .f32) (x1 : Vec Ideal S5000x1 .f32) (x2 : Vec Ideal S5000x128 .f32)
    (x3 : Vec Ideal S256x128 .f32) (x4 : Vec Ideal S128 .f32) (p : Fin 5000) (q : Fin 128) (r : Fin 100000)
    (h0 : ∀ k : Fin 128, x0 (ix2 p k) = agg (ix2 r k))
    (h1 : x1 (ix2 p (0 : Fin 1)) = den (ix2 r (0 : Fin 1)))
    (h2 : ∀ k : Fin 128, x2 (ix2 p k) = h (ix2 r k))
    (h3 : ∀ k : Fin 256, x3 (ix2 k q) = wcat (ix2 k q))
    (h4 : x4 (ix1 q) = bl (ix1 q)) :
    k1_pay1 (F := Ideal) x0 x1 x2 x3 x4 (ix2 p q) = Spec.sageAt agg den h wcat bl r q := by
  rw [pay_apply]
  unfold Spec.sageAt
  refine congrArg₂ max (congrArg₂ (· + ·) (Finset.sum_congr rfl fun k _ => ?_) h4) rfl
  refine congrArg₂ (· * ·) ?_ (h3 k)
  unfold tileCatRow Spec.catRow
  by_cases hk : k.val < 128
  · rw [dif_pos hk, dif_pos hk, h0, h1]
  · rw [dif_neg hk, dif_neg hk, h2]

/-- The six layer kernels have the same body. -/
theorem pay2_eq : @k2_pay1 = @k1_pay1 := rfl
theorem pay3_eq : @k3_pay1 = @k1_pay1 := rfl
theorem pay4_eq : @k4_pay1 = @k1_pay1 := rfl
theorem pay5_eq : @k5_pay1 = @k1_pay1 := rfl
theorem pay6_eq : @k6_pay1 = @k1_pay1 := rfl

end Cert.KernelIdeal.SagePayload

end
-- ==== Proof.RegionSage1.lean ====
/-
  Layer region 1, from its twenty row tiles to the whole array.

  Grid point t stages rows 5000·t … 5000·t + 4999 of the neighbour sums, of the per-node factors and of the nodes' own rows,
  together with the whole stacked weights and the whole bias, and writes back the same rows of the output. Entry (p, q) of
  the tile the body leaves is therefore entry (5000·t + p, q) of the layer stage of the whole arrays, and since row r lies
  in the tile of point r / 5000 the twenty write-backs fill the output array with the layer stage.
-/
import proofs.«140245_j83245056131912_2_alg».proof.Proof.Gen.KernelIdeal.Frame
import proofs.«140245_j83245056131912_2_alg».proof.Proof.Spec
import proofs.«140245_j83245056131912_2_alg».proof.Proof.SagePayload
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace Sage1

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-tiled inputs and the output are at block (t, 0) at point t,
    the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The neighbour-sum tile at point t: its row p is row 5000·t + p of the array. -/
theorem agg_blk (c : Dev nD) (t : Fin cfg1.N) (p : Fin 5000) (k : Fin 128) (r : Fin 100000) (hr : r.val = 5000 * t.val + p.val) :
    (iblk1 V c 0 t : Vec Ideal S5000x128 .f32) (ix2 p k) = (V c main_v25 : Spec.Arr Spec.SN128) (ix2 r k) := by
  obtain ⟨e0, e1, -⟩ := idx_facts t
  unfold iblk1
  rw [View.read_apply]
  show (V c main_v25 : Spec.Arr Spec.SN128) (((cfg1.win 0).blk t).view.emb (ix2 p k)) = (V c main_v25 : Spec.Arr Spec.SN128) (ix2 r k)
  refine congrArg (V c main_v25 : Spec.Arr Spec.SN128) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The factor tile at point t: its row p is row 5000·t + p of the column of factors. -/
theorem den_blk (c : Dev nD) (t : Fin cfg1.N) (p : Fin 5000) (r : Fin 100000) (hr : r.val = 5000 * t.val + p.val) :
    (iblk1 V c 1 t : Vec Ideal S5000x1 .f32) (ix2 p (0 : Fin 1)) = (V c main_v13 : Spec.Arr Spec.SN1) (ix2 r (0 : Fin 1)) := by
  obtain ⟨-, -, e0, e1, -⟩ := idx_facts t
  unfold iblk1
  rw [View.read_apply]
  show (V c main_v13 : Spec.Arr Spec.SN1) (((cfg1.win 1).blk t).view.emb (ix2 p (0 : Fin 1))) = (V c main_v13 : Spec.Arr Spec.SN1) (ix2 r (0 : Fin 1))
  refine congrArg (V c main_v13 : Spec.Arr Spec.SN1) (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The tile of the nodes' own rows at point t: its row p is row 5000·t + p of the array. -/
theorem own_blk (c : Dev nD) (t : Fin cfg1.N) (p : Fin 5000) (k : Fin 128) (r : Fin 100000) (hr : r.val = 5000 * t.val + p.val) :
    (iblk1 V c 2 t : Vec Ideal S5000x128 .f32) (ix2 p k) = (V c main_v0 : Spec.Arr Spec.SN128) (ix2 r k) := by
  obtain ⟨-, -, -, -, e0, e1, -⟩ := idx_facts t
  unfold iblk1
  rw [View.read_apply]
  show (V c main_v0 : Spec.Arr Spec.SN128) (((cfg1.win 2).blk t).view.emb (ix2 p k)) = (V c main_v0 : Spec.Arr Spec.SN128) (ix2 r k)
  refine congrArg (V c main_v0 : Spec.Arr Spec.SN128) (funext fun a => Fin.ext ?_)
  match a with
  | ⟨0, _⟩ => show win1_2.index t (0 : Fin 2) * 5000 + 1 * p.val = r.val; omega
  | ⟨1, _⟩ => show win1_2.index t (1 : Fin 2) * 128 + 1 * k.val = k.val; omega

/-- The weights' one block is the whole array of stacked weights. -/
theorem wcat_blk (c : Dev nD) (t : Fin cfg1.N) (k : Fin 256) (q : Fin 128) :
    (iblk1 V c 3 t : Vec Ideal S256x128 .f32) (ix2 k q) = (V c main_v30 : Spec.Arr Spec.S256x128) (ix2 k q) := by
  obtain ⟨-, -, -, -, -, -, e0, e1, -⟩ := idx_facts t
  unfold iblk1
  rw [View.read_apply]
  show (V c main_v30 : Spec.Arr Spec.S256x128) (((cfg1.win 3).blk t).view.emb (ix2 k q)) = (V c main_v30 : Spec.Arr Spec.S256x128) (ix2 k q)
  refine congrArg (V c main_v30 : Spec.Arr Spec.S256x128) (funext fun a => Fin.ext ?_)
  match a with
  | ⟨0, _⟩ => show win1_3.index t (0 : Fin 2) * 256 + 1 * k.val = k.val; omega
  | ⟨1, _⟩ => show win1_3.index t (1 : Fin 2) * 128 + 1 * q.val = q.val; omega

/-- The bias's one block is the whole bias. -/
theorem bl_blk (c : Dev nD) (t : Fin cfg1.N) (q : Fin 128) :
    (iblk1 V c 4 t : Vec Ideal S128 .f32) (ix1 q) = (V c main_v32 : Spec.Arr Spec.S128) (ix1 q) := by
  obtain ⟨-, -, -, -, -, -, -, -, e0, -⟩ := idx_facts t
  unfold iblk1
  rw [View.read_apply]
  show (V c main_v32 : Spec.Arr Spec.S128) (((cfg1.win 4).blk t).view.emb (ix1 q)) = (V c main_v32 : Spec.Arr Spec.S128) (ix1 q)
  refine congrArg (V c main_v32 : Spec.Arr Spec.S128) (funext fun a => Fin.ext ?_)
  match a with
  | ⟨0, _⟩ => show win1_4.index t (0 : Fin 1) * 128 + 1 * q.val = q.val; omega

/-- The output's staging buffer after the body is the body's payload of the input tiles: its one store through the
    whole buffer, of loads through the whole buffers. -/
theorem out_eq (x0 : Vec Ideal S5000x128 .f32) (x1 : Vec Ideal S5000x1 .f32) (x2 : Vec Ideal S5000x128 .f32)
    (x3 : Vec Ideal S256x128 .f32) (x4 : Vec Ideal S128 .f32) :
    out1_5 (F := Ideal) x0 x1 x2 x3 x4 = k1_pay1 (F := Ideal) x0 x1 x2 x3 x4 := by
  unfold out1_5
  rw [View.canon_unit_zero hz2]
  simp only [View.ld_unit_zero (S := S5000x128) hz2, View.ld_unit_zero (S := S5000x1) hz2,
    View.ld_unit_zero (S := S256x128) hz2, View.ld_unit_zero (S := S128) hz1]

/-- What the body leaves in the output's staging buffer at point t, at (p, q): entry (5000·t + p, q) of the layer stage. -/
theorem after_apply (c : Dev nD) (t : Fin cfg1.N) (p : Fin 5000) (q : Fin 128) (r : Fin 100000) (hr : r.val = 5000 * t.val + p.val) :
    ((dat1 (F := Ideal) V c).after 5 t : Vec Ideal S5000x128 .f32) (ix2 p q)
      = Spec.sageAt (V c main_v25) (V c main_v13) (V c main_v0) (V c main_v30) (V c main_v32) r q := by
  rw [after1_5, out_eq]
  exact SagePayload.tile_entry (V c main_v25) (V c main_v13) (V c main_v0) (V c main_v30) (V c main_v32)
    (iblk1 V c 0 t) (iblk1 V c 1 t) (iblk1 V c 2 t) (iblk1 V c 3 t) (iblk1 V c 4 t) p q r
    (fun k => agg_blk V c t p k r hr) (den_blk V c t p r hr) (fun k => own_blk V c t p k r hr)
    (fun k => wcat_blk V c t k q) (bl_blk V c t q)

/-- WHAT POINT t WRITES BACK is block t of the layer stage of the arrays the region finds. -/
theorem flushed_eq (c : Dev nD) (t : Fin cfg1.N) :
    (dat1 (F := Ideal) V c).flushed 5 t
      = ((cfg1.win 5).blk t).view.read (Elt Ideal)
          (Spec.sageArr (V c main_v25) (V c main_v13) (V c main_v0) (V c main_v30) (V c main_v32)) := by
  have hN : t.val < 20 := Nat.lt_of_lt_of_eq t.isLt (N_1 : cfg1.N = 20)
  obtain ⟨-, -, -, -, -, -, -, -, -, e0, e1⟩ := idx_facts t
  funext j
  have hj0 : (j 0).val < 5000 := (j 0).isLt
  have hj1 : (j 1).val < 128 := (j 1).isLt
  rw [View.read_apply]
  have hemb : ((cfg1.win 5).blk t).view.emb j
      = ix2 (⟨5000 * t.val + (j 0).val, by omega⟩ : Fin 100000) (⟨(j 1).val, hj1⟩ : Fin 128) := by
    funext a; apply Fin.ext
    match a with
    | ⟨0, _⟩ => show win1_5.index t (0 : Fin 2) * 5000 + 1 * (j 0).val = 5000 * t.val + (j 0).val; omega
    | ⟨1, _⟩ => show win1_5.index t (1 : Fin 2) * 128 + 1 * (j 1).val = (j 1).val; omega
  rw [hemb, Spec.sageArr_apply]
  show ((dat1 (F := Ideal) V c).after 5 t : Vec Ideal S5000x128 .f32) ((cfg1.win 5).xinj (grid1.coords t) j) = _
  have hx : ((cfg1.win 5).xinj (grid1.coords t) j : S5000x128.Idx) = ix2 (⟨(j 0).val, hj0⟩ : Fin 5000) (⟨(j 1).val, hj1⟩ : Fin 128) := by
    funext a
    match a with
    | ⟨0, _⟩ => rfl
    | ⟨1, _⟩ => rfl
  rw [hx]
  exact after_apply V c t ⟨(j 0).val, hj0⟩ ⟨(j 1).val, hj1⟩ _ rfl

/-- An index of the output array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v33).slice (win1_5.rect t)).set ↔ _
  rw [View.set_slice_whole, Rect.mem_set_unit]
  exact Iff.rfl

/-- Row r of the output array lies in the block of point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨-, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

end Sage1

/-- Region 1's output array after its twenty grid points is the layer stage of the arrays the region finds. -/
theorem sage1 (c : Dev nD) :
    (dat1 (F := Ideal) V c).arrAt 5 cfg1.N
      = Spec.sageArr (V c main_v25) (V c main_v13) (V c main_v0) (V c main_v30) (V c main_v32) :=
  (dat1 (F := Ideal) V c).arrAt_eq_of_cover 5 _ (fun t _ => Sage1.flushed_eq V c t) Sage1.cover

end Cert.KernelIdeal.Region

end
-- ==== Proof.RegionSage2.lean ====
/-
  Layer region 2, from its twenty row tiles to the whole array.

  Grid point t stages rows 5000·t … 5000·t + 4999 of the neighbour sums, of the per-node factors and of the nodes' own rows,
  together with the whole stacked weights and the whole bias, and writes back the same rows of the output. Entry (p, q) of
  the tile the body leaves is therefore entry (5000·t + p, q) of the layer stage of the whole arrays, and since row r lies
  in the tile of point r / 5000 the twenty write-backs fill the output array with the layer stage.
-/
import proofs.«140245_j83245056131912_2_alg».proof.Proof.Gen.KernelIdeal.Frame
import proofs.«140245_j83245056131912_2_alg».proof.Proof.Spec
import proofs.«140245_j83245056131912_2_alg».proof.Proof.SagePayload
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace Sage2

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-tiled inputs and the output are at block (t, 0) at point t,
    the weights and the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The neighbour-sum tile at point t: its row p is row 5000·t + p of the array. -/
theorem agg_blk (c : Dev nD) (t : Fin cfg2.N) (p : Fin 5000) (k : Fin 128) (r : Fin 100000) (hr : r.val = 5000 * t.val + p.val) :
    (iblk2 V c 0 t : Vec Ideal S5000x128 .f32) (ix2 p k) = (V c main_v45 : Spec.Arr Spec.SN128) (ix2 r k) := by
  obtain ⟨e0, e1, -⟩ := idx_facts t
  unfold iblk2
  rw [View.read_apply]
  show (V c main_v45 : Spec.Arr Spec.SN128) (((cfg2.win 0).blk t).view.emb (ix2 p k)) = (V c main_v45 : Spec.Arr Spec.SN128) (ix2 r k)
  refine congrArg (V c main_v45 : Spec.Arr Spec.SN128) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The factor tile at point t: its row p is row 5000·t + p of the column of factors. -/
theorem den_blk (c : Dev nD) (t : Fin cfg2.N) (p : Fin 5000) (r : Fin 100000) (hr : r.val = 5000 * t.val + p.val) :
    (iblk2 V c 1 t : Vec Ideal S5000x1 .f32) (ix2 p (0 : Fin 1)) = (V c main_v13 : Spec.Arr Spec.SN1) (ix2 r (0 : Fin 1)) := by
  obtain ⟨-, -, e0, e1, -⟩ := idx_facts t
  unfold iblk2
  rw [View.read_apply]
  show (V c main_v13 : Spec.Arr Spec.SN1) (((cfg2.win 1).blk t).view.emb (ix2 p (0 : Fin 1))) = (V c main_v13 : Spec.Arr Spec.SN1) (ix2 r (0 : Fin 1))
  refine congrArg (V c main_v13 : Spec.Arr Spec.SN1) (funext fun a => Fin.ext ?_)
  match a with
  | ⟨0, _⟩ => show win2_1.index t (0 : Fin 2) * 5000 + 1 * p.val = r.val; omega
  | ⟨1, _⟩ => show win2_1.index t (1 : Fin 2) * 1 + 1 * 0 = 0; omega

/-- The tile of the nodes' own rows at point t: its row p is row 5000·t + p of the array. -/
theorem own_blk (c : Dev nD) (t : Fin cfg2.N) (p : Fin 5000) (k : Fin 128) (r : Fin 100000) (hr : r.val = 5000 * t.val + p.val) :
    (iblk2 V c 2 t : Vec Ideal S5000x128 .f32) (ix2 p k) = (V c main_v33 : Spec.Arr Spec.SN128) (ix2 r k) := by
  obtain ⟨-, -, -, -, e0, e1, -⟩ := idx_facts t
  unfold iblk2
  rw [View.read_apply]
  show (V c main_v33 : Spec.Arr Spec.SN128) (((cfg2.win 2).blk t).view.emb (ix2 p k)) = (V c main_v33 : Spec.Arr Spec.SN128) (ix2 r k)
  refine congrArg (V c main_v33 : Spec.Arr Spec.SN128) (funext fun a => Fin.ext ?_)
  match a with
  | ⟨0, _⟩ => show win2_2.index t (0 : Fin 2) * 5000 + 1 * p.val = r.val; omega
  | ⟨1, _⟩ => show win2_2.index t (1 : Fin 2) * 128 + 1 * k.val = k.val; omega

/-- The weights' one block is the whole array of stacked weights. -/
theorem wcat_blk (c : Dev nD) (t : Fin cfg2.N) (k : Fin 256) (q : Fin 128) :
    (iblk2 V c 3 t : Vec Ideal S256x128 .f32) (ix2 k q) = (V c main_v50 : Spec.Arr Spec.S256x128) (ix2 k q) := by
  obtain ⟨-, -, -, -, -, -, e0, e1, -⟩ := idx_facts t
  unfold iblk2
  rw [View.read_apply]
  show (V c main_v50 : Spec.Arr Spec.S256x128) (((cfg2.win 3).blk t).view.emb (ix2 k q)) = (V c main_v50 : Spec.Arr Spec.S256x128) (ix2 k q)
  refine congrArg (V c main_v50 : Spec.Arr Spec.S256x128) (funext fun a => Fin.ext ?_)
  match a with
  | ⟨0, _⟩ => show win2_3.index t (0 : Fin 2) * 256 + 1 * k.val = k.val; omega
  | ⟨1, _⟩ => show win2_3.index t (1 : Fin 2) * 128 + 1 * q.val = q.val; omega

/-- The bias's one block is the whole bias. -/
theorem bl_blk (c : Dev nD) (t : Fin cfg2.N) (q : Fin 128) :
    (iblk2 V c 4 t : Vec Ideal S128 .f32) (ix1 q) = (V c main_v52 : Spec.Arr Spec.S128) (ix1 q) := by
  obtain ⟨-, -, -, -, -, -, -, -, e0, -⟩ := idx_facts t
  unfold iblk2
  rw [View.read_apply]
  show (V c main_v52 : Spec.Arr Spec.S128) (((cfg2.win 4).blk t).view.emb (ix1 q)) = (V c main_v52 : Spec.Arr Spec.S128) (ix1 q)
  refine congrArg (V c main_v52 : Spec.Arr Spec.S128) (funext fun a => Fin.ext ?_)
  match a with
  | ⟨0, _⟩ => show win2_4.index t (0 : Fin 1) * 128 + 1 * q.val = q.val; omega

/-- The output's staging buffer after the body is the body's payload of the input tiles: its one store through the
    whole buffer, of loads through the whole buffers. -/
theorem out_eq (x0 : Vec Ideal S5000x128 .f32) (x1 : Vec Ideal S5000x1 .f32) (x2 : Vec Ideal S5000x128 .f32)
    (x3 : Vec Ideal S256x128 .f32) (x4 : Vec Ideal S128 .f32) :
    out2_5 (F := Ideal) x0 x1 x2 x3 x4 = k1_pay1 (F := Ideal) x0 x1 x2 x3 x4 := by
  unfold out2_5
  rw [View.canon_unit_zero hz2]
  simp only [View.ld_unit_zero (S := S5000x128) hz2, View.ld_unit_zero (S := S5000x1) hz2,
    View.ld_unit_zero (S := S256x128) hz2, View.ld_unit_zero (S := S128) hz1]
  rw [SagePayload.pay2_eq]

/-- What the body leaves in the output's staging buffer at point t, at (p, q): entry (5000·t + p, q) of the layer stage. -/
theorem after_apply (c : Dev nD) (t : Fin cfg2.N) (p : Fin 5000) (q : Fin 128) (r : Fin 100000) (hr : r.val = 5000 * t.val + p.val) :
    ((dat2 (F := Ideal) V c).after 5 t : Vec Ideal S5000x128 .f32) (ix2 p q)
      = Spec.sageAt (V c main_v45) (V c main_v13) (V c main_v33) (V c main_v50) (V c main_v52) r q := by
  rw [after2_5, out_eq]
  exact SagePayload.tile_entry (V c main_v45) (V c main_v13) (V c main_v33) (V c main_v50) (V c main_v52)
    (iblk2 V c 0 t) (iblk2 V c 1 t) (iblk2 V c 2 t) (iblk2 V c 3 t) (iblk2 V c 4 t) p q r
    (fun k => agg_blk V c t p k r hr) (den_blk V c t p r hr) (fun k => own_blk V c t p k r hr)
    (fun k => wcat_blk V c t k q) (bl_blk V c t q)

/-- WHAT POINT t WRITES BACK is block t of the layer stage of the arrays the region finds. -/
theorem flushed_eq (c : Dev nD) (t : Fin cfg2.N) :
    (dat2 (F := Ideal) V c).flushed 5 t
      = ((cfg2.win 5).blk t).view.read (Elt Ideal)
          (Spec.sageArr (V c main_v45) (V c main_v13) (V c main_v33) (V c main_v50) (V c main_v52)) := by
  have hN : t.val < 20 := Nat.lt_of_lt_of_eq t.isLt (N_2 : cfg2.N = 20)
  obtain ⟨-, -, -, -, -, -, -, -, -, e0, e1⟩ := idx_facts t
  funext j
  have hj0 : (j 0).val < 5000 := (j 0).isLt
  have hj1 : (j 1).val < 128 := (j 1).isLt
  rw [View.read_apply]
  have hemb : ((cfg2.win 5).blk t).view.emb j
      = ix2 (⟨5000 * t.val + (j 0).val, by omega⟩ : Fin 100000) (⟨(j 1).val, hj1⟩ : Fin 128) := by
    funext a; apply Fin.ext
    match a with
    | ⟨0, _⟩ => show win2_5.index t (0 : Fin 2) * 5000 + 1 * (j 0).val = 5000 * t.val + (j 0).val; omega
    | ⟨1, _⟩ => show win2_5.index t (1 : Fin 2) * 128 + 1 * (j 1).val = (j 1).val; omega
  rw [hemb, Spec.sageArr_apply]
  show ((dat2 (F := Ideal) V c).after 5 t : Vec Ideal S5000x128 .f32) ((cfg2.win 5).xinj (grid2.coords t) j) = _
  have hx : ((cfg2.win 5).xinj (grid2.coords t) j : S5000x128.Idx) = ix2 (⟨(j 0).val, hj0⟩ : Fin 5000) (⟨(j 1).val, hj1⟩ : Fin 128) := by
    funext a
    match a with
    | ⟨0, _⟩ => rfl
    | ⟨1, _⟩ => rfl
  rw [hx]
  exact after_apply V c t ⟨(j 0).val, hj0⟩ ⟨(j 1).val, hj1⟩ _ rfl

/-- An index of the output array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v53).slice (win2_5.rect t)).set ↔ _
  rw [View.set_slice_whole, Rect.mem_set_unit]
  exact Iff.rfl

/-- Row r of the output array lies in the block of point r / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have ht : t.val = (i 0).val / 5000 := rfl
  obtain ⟨-, -, -, -, -, -, -, -, -, e0, e1⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

end Sage2

/-- Region 2's output array after its twenty grid points is the layer stage of the arrays the region finds. -/
theorem sage2 (c : Dev nD) :
    (dat2 (F := Ideal) V c).arrAt 5 cfg2.N
      = Spec.sageArr (V c main_v45) (V c main_v13) (V c main_v33) (V c main_v50) (V c main_v52) :=
  (dat2 (F := Ideal) V c).arrAt_eq_of_cover 5 _ (fun t _ => Sage2.flushed_eq V c t) Sage2.cover

end Cert.KernelIdeal.Region

end
-- ==== Proof.RegionSage3.lean ====
/-
  Layer region 3, from its twenty row tiles to the whole array.

  Grid point t stages rows 5000·t … 5000·t + 4999 of the neighbour sums, of the per-node factors and of the nodes' own rows,
  together with the whole stacked weights and the whole bias, and writes back the same rows of the output. Entry (p, q) of
  the tile the body leaves is therefore entry (5000·t + p, q) of the layer stage of the whole arrays, and since row r lies
  in the tile of point r / 5000 the twenty write-backs fill the output array with the layer stage.
-/
import proofs.«140245_j83245056131912_2_alg».proof.Proof.Gen.KernelIdeal.Frame
import proofs.«140245_j83245056131912_2_alg».proof.Proof.Spec
import proofs.«140245_j83245056131912_2_alg».proof.Proof.SagePayload
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace Sage3

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-tiled inputs and the output are at block (t, 0) at point t,
    the weights and the bias at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- The neighbour-sum tile at point t: its row p is row 5000·t + p of the array. -/
theorem agg_blk (c : Dev nD) (t : Fin cfg3.N) (p : Fin 5000) (k : Fin 128) (r : Fin 100000) (hr : r.val = 5000 * t.val + p.val) :
    (iblk3 V c 0 t : Vec Ideal S5000x128 .f32) (ix2 p k) = (V c main_v65 : Spec.Arr Spec.SN128) (ix2 r k) := by
  obtain ⟨e0, e1, -⟩ := idx_facts t
  unfold iblk3
  rw [View.read_apply]
  show (V c main_v65 : Spec.Arr Spec.SN128) (((cfg3.win 0).blk t).view.emb (ix2 p k)) = (V c main_v65 : Spec.Arr Spec.SN128) (ix2 r k)
  refine congrArg (V c main_v65 : Spec.Arr Spec.SN128) (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The factor tile at point t: its row p is row 5000·t + p of the column of factors. -/
theorem den_blk (c : Dev nD) (t : Fin cfg3.N) (p : Fin 5000) (r : Fin 100000) (hr : r.val = 5000 * t.val + p.val) :
    (iblk3 V c 1 t : Vec Ideal S5000x1 .f32) (ix2 p (0 : Fin 1)) = (V c main_v13 : Spec.Arr Spec.SN1) (ix2 r (0 : Fin 1)) := by
  obtain ⟨-, -, e0, e1, -⟩ := idx_facts t
  unfold iblk3
  rw [View.read_apply]
  show (V c main_v13 : Spec.Arr Spec.SN1) (((cfg3.win 1).blk t).view.emb (ix2 p (0 : Fin 1))) = (V c main_v13 : Spec.Arr Spec.SN1) (ix2 r (0 : Fin 1))
  refine congrArg (V c main_v13 : Spec.Arr Spec.SN1) (funext fun a => Fin.ext ?_)
  match a with
  | ⟨0, _⟩ => show win3_1.index t (0 : Fin 2) * 5000 + 1 * p.val = r.val; omega
  | ⟨1, _⟩ => show win3_1.index t (1 : Fin 2) * 1 + 1 * 0 = 0; omega

/-- The tile of the nodes' own rows at point t: its row p is row 5000·t + p of the array. -/
theorem own_blk (c : Dev nD) (t : Fin cfg3.N) (p : Fin 5000) (k : Fin 128) (r : Fin 100000) (hr : r.val = 5000 * t.val + p.val) :
    (iblk3 V c 2 t : Vec Ideal S5000x128 .f32) (ix2 p k) = (V c main_v53 : Spec.Arr Spec.SN128) (ix2 r k) := by
  obtain ⟨-, -, -, -, e0, e1, -⟩ := idx_facts t
  unfold iblk3
  rw [View.read_apply]
  show (V c main_v53 : Spec.Arr Spec.SN128) (((cfg3.win 2).blk t).view.emb (ix2 p k)) = (V c main_v53 : Spec.Arr Spec.SN128) (ix2 r k)
  refine congrArg (V c main_v53 : Spec.Arr Spec.SN128) (funext fun a => Fin.ext ?_)
  match a with
  | ⟨0, _⟩ => show win3_2.index t (0 : Fin 2) * 5000 + 1 * p.val = r.val; omega
  | ⟨1, _⟩ => show win3_2.index t (1 : Fin 2) * 128 + 1 * k.val = k.val; omega

/-- The weights' one block is the whole array of stacked weights. -/
theorem wcat_blk (c : Dev nD) (t : Fin cfg3.N) (k : Fin 256) (q : Fin 128) :
    (iblk3 V c 3 t : Vec Ideal S256x128 .f32) (ix2 k q) = (V c main_v70 : Spec.Arr Spec.S256x128) (ix2 k q) := by
  obtain ⟨-, -, -, -, -, -, e0, e1, -⟩ := idx_facts t
  unfold iblk3
  rw [View.read_apply]
  show (V c main_v70 : Spec.Arr Spec.S256x128) (((cfg3.win 3).blk t).view.emb (ix2 k q)) = (V c main_v70 : Spec.Arr Spec.S256x128) (ix2 k q)
  refine congrArg (V c main_v70 : Spec.Arr Spec.S256x128) (funext fun a => Fin.ext ?_)
  match a with
  | ⟨0, _⟩ => show win3_3.index t (0 : Fin 2) * 256 + 1 * k.val = k.val; omega
  | ⟨1, _⟩ => show win3_3.index t (1 : Fin 2) * 128 + 1 * q.val = q.val; omega

/-- The bias's one block is the whole bias. -/
theorem bl_blk (c : Dev nD) (t : Fin cfg3.N) (q : Fin 128) :
    (iblk3 V c 4 t : Vec Ideal S128 .f32) (ix1 q) = (V c main_v72 : Spec.Arr Spec.S128) (ix1 q) := by
  obtain ⟨-, -, -, -, -, -, -, -, e0, -⟩ := idx_facts t
  unfold iblk3
  rw [View.read_apply]
  show (V c main_v72 : Spec.Arr Spec.S128) (((cfg3.win 4).blk t).view.emb (ix1 q)) = (V c main_v72 : Spec.Arr Spec.S128) (ix1 q)
  refine congrArg (V c main_v72 : Spec.Arr Spec.S128) (funext fun a => Fin.ext ?_)
  match a with
  | ⟨0, _⟩ => show win3_4.index t (0 : Fin 1) * 128 + 1 * q.val = q.val; omega

/-- The output's staging buffer after the body is the body's payload of the input tiles: its one store through the
    whole buffer, of loads through the whole buffers. -/
theorem out_eq (x0 : Vec Ideal S5000x128 .f32) (x1 : Vec Ideal S5000x1 .f32) (x2 : Vec Ideal S5000x128 .f32)
    (x3 : Vec Ideal S256x128 .f32) (x4 : Vec Ideal S128 .f32) :
    out3_5 (F := Ideal) x0 x1 x2 x3 x4 = k1_pay1 (F := Ideal) x0 x1 x2 x3 x4 := by
  unfold out3_5
  rw [View.canon_unit_zero hz2]
  simp only [View.ld_unit_zero (S := S5000x128) hz2, View.ld_unit_zero (S := S5000x1) hz2,
    View.ld_unit_zero (S := S256x128) hz2, View.ld_unit_zero (S := S128) hz1]
  rw [SagePayload.pay3_eq]

/-- What the body leaves in the output's staging buffer at point t, at (p, q): entry (5000·t + p, q) of the layer stage. -/
theorem after_apply (c : Dev nD) (t : Fin cfg3.N) (p : Fin 5000) (q : Fin 128) (r : Fin 100000) (hr : r.val = 5000 * t.val + p.val) :
    ((dat3 (F := Ideal) V c).after 5 t : Vec Ideal S5000x128 .f32) (ix2 p q)
      = Spec.sageAt (V c main_v65) (V c main_v13) (V c main_v53) (V c main_v70) (V c main_v72) r q := by
  rw [after3_5, out_eq]
  exact SagePayload.tile_entry (V c main_v65) (V c main_v13) (V c main_v53) (V c main_v70) (V c main_v72)
    (iblk3 V c 0 t) (iblk3 V c 1 t) (iblk3 V c 2 t) (iblk3 V c 3 t) (iblk3 V c 4 t) p q r
    (fun k => agg_blk V c t p k r hr) (den_blk V c t p r hr) (fun k => own_blk V c t p k r hr)
    (fun k => wcat_blk V c t k q) (bl_blk V c t q)

/-- WHAT POINT t WRITES BACK is block t of the layer stage of the arrays the region finds. -/
theorem flushed_eq (c : Dev nD) (t : Fin cfg3.N) :
    (dat3 (F := Ideal) V c).flushed 5 t
      = ((cfg3.win 5).blk t).view.read (Elt Ideal)
          (Spec.sageArr (V c main_v65) (V c main_v13) (V c main_v53) (V c main_v70) (V c main_v72)) := by
  have hN : t.val < 20 := Nat.lt_of_lt_of_eq t.isLt (N_3 : cfg3.N = 20)
  obtain ⟨-, -, -, -, -, -, -, -, -, e0, e1⟩ := idx_facts t
  funext j
  have hj0 : (j 0).val < 5000 := (j 0).isLt
  have hj1 : (j 1).val < 128 := (j 1).isLt
  rw [View.read_apply]
  have hemb : ((cfg3.win 5).blk t).view.emb j
      = ix2 (⟨5000 * t.val + (j 0).val, by omega⟩ : Fin 100000) (⟨(j 1).val, hj1⟩ : Fin 128) := by
    funext a; apply Fin.ext
    match a with
    | ⟨0, _⟩ => show win3_5.index t (0 : Fin 2) * 5000 + 1 * (j 0).val = 5000 * t.val + (j 0).val; omega
    | ⟨1, _⟩ => show win3_5.index t (1 : Fin 2) * 128 + 1 * (j 1).val = (j 1).val; omega
  rw [hemb, Spec.sageArr_apply]
  show ((dat3 (F := Ideal) V c).after 5 t : Vec Ideal S5000x128 .f32) ((cfg3.win 5).xinj (grid3.coords t) j) = _
  have hx : ((cfg3.win 5).xinj (grid3.coords t) j : S5000x128.Idx) = ix2 (⟨(j 0).val, hj0⟩ : Fin 5000) (⟨(j 1).val, hj1⟩ : Fin 128) := by
    funext a
    match a with
    | ⟨0, _⟩ => rfl
    | ⟨1, _⟩ => rfl
  rw [hx]
  exact after_apply V c t ⟨(j 0).val, hj0⟩ ⟨(j 1).val, hj1⟩ _ rfl

/-- An index of the output array is in point t's block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v73).slice (win3_5.rect t)).set ↔ _
  rw [View.set_slice_whole, Rect.mem_set_unit]
  exact Iff.rfl

/-- Row r of the output array lies in the block of point r / 5000. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨-, -, -, -, -, -, -, -, -, e0, e1⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

end Sage3

/-- Region 3's output array after its twenty grid points is the layer stage of the arrays the region finds. -/
theorem sage3 (c : Dev nD) :
    (dat3 (F := Ideal) V c).arrAt 5 cfg3.N
      = Spec.sageArr (V c main_v65) (V c main_v13) (V c main_v53) (V c main_v70) (V c main_v72) :=
  (dat3 (F := Ideal) V c).arrAt_eq_of_cover 5 _ (fun t _ => Sage3.flushed_eq V c t) Sage3.cover

end Cert.KernelIdeal.Region

end
-- ==== Proof.RegionSage4.lean ====
/-
  Layer region 4, from its twenty row tiles to the whole array.

  Grid point t stages rows 5000·t … 5000·t + 4999 of the neighbour sums, of the per-node factors and of the nodes' own rows,
  together with the whole stacked weights and the whole bias, and writes back the same rows of the output. Entry (p, q) of
  the tile the body leaves is therefore entry (5000·t + p, q) of the layer stage of the whole arrays, and since row r lies
  in the tile of point r / 5000 the twenty write-backs fill the output array with the layer stage.
-/
import proofs.«140245_j83245056131912_2_alg».proof.Proof.Gen.KernelIdeal.Frame
import proofs.«140245_j83245056131912_2_alg».proof.Proof.Spec
import proofs.«140245_j83245056131912_2_alg».proof.Proof.SagePayload
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace Sage4

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-tiled inputs and the output are at block (t, 0) at point t,
    the weights and the bias at block 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- The neighbour-sum tile at point t: its row p is row 5000·t + p of the array. -/
theorem agg_blk (c : Dev nD) (t : Fin cfg4.N) (p : Fin 5000) (k : Fin 128) (r : Fin 100000) (hr : r.val = 5000 * t.val + p.val) :
    (iblk4 V c 0 t : Vec Ideal S5000x128 .f32) (ix2 p k) = (V c main_v98 : Spec.Arr Spec.SN128) (ix2 r k) := by
  obtain ⟨e0, e1, -⟩ := idx_facts t
  unfold iblk4
  rw [View.read_apply]
  show (V c main_v98 : Spec.Arr Spec.SN128) (((cfg4.win 0).blk t).view.emb (ix2 p k)) = (V c main_v98 : Spec.Arr Spec.SN128) (ix2 r k)
  refine congrArg (V c main_v98 : Spec.Arr Spec.SN128) (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- The factor tile at point t: its row p is row 5000·t + p of the column of factors. -/
theorem den_blk (c : Dev nD) (t : Fin cfg4.N) (p : Fin 5000) (r : Fin 100000) (hr : r.val = 5000 * t.val + p.val) :
    (iblk4 V c 1 t : Vec Ideal S5000x1 .f32) (ix2 p (0 : Fin 1)) = (V c main_v86 : Spec.Arr Spec.SN1) (ix2 r (0 : Fin 1)) := by
  obtain ⟨-, -, e0, e1, -⟩ := idx_facts t
  unfold iblk4
  rw [View.read_apply]
  show (V c main_v86 : Spec.Arr Spec.SN1) (((cfg4.win 1).blk t).view.emb (ix2 p (0 : Fin 1))) = (V c main_v86 : Spec.Arr Spec.SN1) (ix2 r (0 : Fin 1))
  refine congrArg (V c main_v86 : Spec.Arr Spec.SN1) (funext fun a => Fin.ext ?_)
  match a with
  | ⟨0, _⟩ => show win4_1.index t (0 : Fin 2) * 5000 + 1 * p.val = r.val; omega
  | ⟨1, _⟩ => show win4_1.index t (1 : Fin 2) * 1 + 1 * 0 = 0; omega

/-- The tile of the nodes' own rows at point t: its row p is row 5000·t + p of the array. -/
theorem own_blk (c : Dev nD) (t : Fin cfg4.N) (p : Fin 5000) (k : Fin 128) (r : Fin 100000) (hr : r.val = 5000 * t.val + p.val) :
    (iblk4 V c 2 t : Vec Ideal S5000x128 .f32) (ix2 p k) = (V c main_v0 : Spec.Arr Spec.SN128) (ix2 r k) := by
  obtain ⟨-, -, -, -, e0, e1, -⟩ := idx_facts t
  unfold iblk4
  rw [View.read_apply]
  show (V c main_v0 : Spec.Arr Spec.SN128) (((cfg4.win 2).blk t).view.emb (ix2 p k)) = (V c main_v0 : Spec.Arr Spec.SN128) (ix2 r k)
  refine congrArg (V c main_v0 : Spec.Arr Spec.SN128) (funext fun a => Fin.ext ?_)
  match a with
  | ⟨0, _⟩ => show win4_2.index t (0 : Fin 2) * 5000 + 1 * p.val = r.val; omega
  | ⟨1, _⟩ => show win4_2.index t (1 : Fin 2) * 128 + 1 * k.val = k.val; omega

/-- The weights' one block is the whole array of stacked weights. -/
theorem wcat_blk (c : Dev nD) (t : Fin cfg4.N) (k : Fin 256) (q : Fin 128) :
    (iblk4 V c 3 t : Vec Ideal S256x128 .f32) (ix2 k q) = (V c main_v103 : Spec.Arr Spec.S256x128) (ix2 k q) := by
  obtain ⟨-, -, -, -, -, -, e0, e1, -⟩ := idx_facts t
  unfold iblk4
  rw [View.read_apply]
  show (V c main_v103 : Spec.Arr Spec.S256x128) (((cfg4.win 3).blk t).view.emb (ix2 k q)) = (V c main_v103 : Spec.Arr Spec.S256x128) (ix2 k q)
  refine congrArg (V c main_v103 : Spec.Arr Spec.S256x128) (funext fun a => Fin.ext ?_)
  match a with
  | ⟨0, _⟩ => show win4_3.index t (0 : Fin 2) * 256 + 1 * k.val = k.val; omega
  | ⟨1, _⟩ => show win4_3.index t (1 : Fin 2) * 128 + 1 * q.val = q.val; omega

/-- The bias's one block is the whole bias. -/
theorem bl_blk (c : Dev nD) (t : Fin cfg4.N) (q : Fin 128) :
    (iblk4 V c 4 t : Vec Ideal S128 .f32) (ix1 q) = (V c main_v105 : Spec.Arr Spec.S128) (ix1 q) := by
  obtain ⟨-, -, -, -, -, -, -, -, e0, -⟩ := idx_facts t
  unfold iblk4
  rw [View.read_apply]
  show (V c main_v105 : Spec.Arr Spec.S128) (((cfg4.win 4).blk t).view.emb (ix1 q)) = (V c main_v105 : Spec.Arr Spec.S128) (ix1 q)
  refine congrArg (V c main_v105 : Spec.Arr Spec.S128) (funext fun a => Fin.ext ?_)
  match a with
  | ⟨0, _⟩ => show win4_4.index t (0 : Fin 1) * 128 + 1 * q.val = q.val; omega

/-- The output's staging buffer after the body is the body's payload of the input tiles: its one store through the
    whole buffer, of loads through the whole buffers. -/
theorem out_eq (x0 : Vec Ideal S5000x128 .f32) (x1 : Vec Ideal S5000x1 .f32) (x2 : Vec Ideal S5000x128 .f32)
    (x3 : Vec Ideal S256x128 .f32) (x4 : Vec Ideal S128 .f32) :
    out4_5 (F := Ideal) x0 x1 x2 x3 x4 = k1_pay1 (F := Ideal) x0 x1 x2 x3 x4 := by
  unfold out4_5
  rw [View.canon_unit_zero hz2]
  simp only [View.ld_unit_zero (S := S5000x128) hz2, View.ld_unit_zero (S := S5000x1) hz2,
    View.ld_unit_zero (S := S256x128) hz2, View.ld_unit_zero (S := S128) hz1]
  rw [SagePayload.pay4_eq]

/-- What the body leaves in the output's staging buffer at point t, at (p, q): entry (5000·t + p, q) of the layer stage. -/
theorem after_apply (c : Dev nD) (t : Fin cfg4.N) (p : Fin 5000) (q : Fin 128) (r : Fin 100000) (hr : r.val = 5000 * t.val + p.val) :
    ((dat4 (F := Ideal) V c).after 5 t : Vec Ideal S5000x128 .f32) (ix2 p q)
      = Spec.sageAt (V c main_v98) (V c main_v86) (V c main_v0) (V c main_v103) (V c main_v105) r q := by
  rw [after4_5, out_eq]
  exact SagePayload.tile_entry (V c main_v98) (V c main_v86) (V c main_v0) (V c main_v103) (V c main_v105)
    (iblk4 V c 0 t) (iblk4 V c 1 t) (iblk4 V c 2 t) (iblk4 V c 3 t) (iblk4 V c 4 t) p q r
    (fun k => agg_blk V c t p k r hr) (den_blk V c t p r hr) (fun k => own_blk V c t p k r hr)
    (fun k => wcat_blk V c t k q) (bl_blk V c t q)

/-- WHAT POINT t WRITES BACK is block t of the layer stage of the arrays the region finds. -/
theorem flushed_eq (c : Dev nD) (t : Fin cfg4.N) :
    (dat4 (F := Ideal) V c).flushed 5 t
      = ((cfg4.win 5).blk t).view.read (Elt Ideal)
          (Spec.sageArr (V c main_v98) (V c main_v86) (V c main_v0) (V c main_v103) (V c main_v105)) := by
  have hN : t.val < 20 := Nat.lt_of_lt_of_eq t.isLt (N_4 : cfg4.N = 20)
  obtain ⟨-, -, -, -, -, -, -, -, -, e0, e1⟩ := idx_facts t
  funext j
  have hj0 : (j 0).val < 5000 := (j 0).isLt
  have hj1 : (j 1).val < 128 := (j 1).isLt
  rw [View.read_apply]
  have hemb : ((cfg4.win 5).blk t).view.emb j
      = ix2 (⟨5000 * t.val + (j 0).val, by omega⟩ : Fin 100000) (⟨(j 1).val, hj1⟩ : Fin 128) := by
    funext a; apply Fin.ext
    match a with
    | ⟨0, _⟩ => show win4_5.index t (0 : Fin 2) * 5000 + 1 * (j 0).val = 5000 * t.val + (j 0).val; omega
    | ⟨1, _⟩ => show win4_5.index t (1 : Fin 2) * 128 + 1 * (j 1).val = (j 1).val; omega
  rw [hemb, Spec.sageArr_apply]
  show ((dat4 (F := Ideal) V c).after 5 t : Vec Ideal S5000x128 .f32) ((cfg4.win 5).xinj (grid4.coords t) j) = _
  have hx : ((cfg4.win 5).xinj (grid4.coords t) j : S5000x128.Idx) = ix2 (⟨(j 0).val, hj0⟩ : Fin 5000) (⟨(j 1).val, hj1⟩ : Fin 128) := by
    funext a
    match a with
    | ⟨0, _⟩ => rfl
    | ⟨1, _⟩ => rfl
  rw [hx]
  exact after_apply V c t ⟨(j 0).val, hj0⟩ ⟨(j 1).val, hj1⟩ _ rfl

/-- An index of the output array is in point t's block iff each coordinate is in the block's range on its axis. -/
theorem mem_blk (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v106).slice (win4_5.rect t)).set ↔ _
  rw [View.set_slice_whole, Rect.mem_set_unit]
  exact Iff.rfl

/-- Row r of the output array lies in the block of point r / 5000. -/
theorem cover (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  have ht : t.val = (i 0).val / 5000 := rfl
  obtain ⟨-, -, -, -, -, -, -, -, -, e0, e1⟩ := idx_facts t
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

end Sage4

/-- Region 4's output array after its twenty grid points is the layer stage of the arrays the region finds. -/
theorem sage4 (c : Dev nD) :
    (dat4 (F := Ideal) V c).arrAt 5 cfg4.N
      = Spec.sageArr (V c main_v98) (V c main_v86) (V c main_v0) (V c main_v103) (V c main_v105) :=
  (dat4 (F := Ideal) V c).arrAt_eq_of_cover 5 _ (fun t _ => Sage4.flushed_eq V c t) Sage4.cover

end Cert.KernelIdeal.Region

end
-- ==== Proof.RegionSage5.lean ====
/-
  Layer region 5, from its twenty row tiles to the whole array.

  Grid point t stages rows 5000·t … 5000·t + 4999 of the neighbour sums, of the per-node factors and of the nodes' own rows,
  together with the whole stacked weights and the whole bias, and writes back the same rows of the output. Entry (p, q) of
  the tile the body leaves is therefore entry (5000·t + p, q) of the layer stage of the whole arrays, and since row r lies
  in the tile of point r / 5000 the twenty write-backs fill the output array with the layer stage.
-/
import proofs.«140245_j83245056131912_2_alg».proof.Proof.Gen.KernelIdeal.Frame
import proofs.«140245_j83245056131912_2_alg».proof.Proof.Spec
import proofs.«140245_j83245056131912_2_alg».proof.Proof.SagePayload
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace Sage5

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-tiled inputs and the output are at block (t, 0) at point t,
    the weights and the bias at block 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-- The neighbour-sum tile at point t: its row p is row 5000·t + p of the array. -/
theorem agg_blk (c : Dev nD) (t : Fin cfg5.N) (p : Fin 5000) (k : Fin 128) (r : Fin 100000) (hr : r.val = 5000 * t.val + p.val) :
    (iblk5 V c 0 t : Vec Ideal S5000x128 .f32) (ix2 p k) = (V c main_v118 : Spec.Arr Spec.SN128) (ix2 r k) := by
  obtain ⟨e0, e1, -⟩ := idx_facts t
  unfold iblk5
  rw [View.read_apply]
  show (V c main_v118 : Spec.Arr Spec.SN128) (((cfg5.win 0).blk t).view.emb (ix2 p k)) = (V c main_v118 : Spec.Arr Spec.SN128) (ix2 r k)
  refine congrArg (V c main_v118 : Spec.Arr Spec.SN128) (funext fun a => Fin.ext ?_)
  match a with
  | ⟨0, _⟩ => show win5_0.index t (0 : Fin 2) * 5000 + 1 * p.val = r.val; omega
  | ⟨1, _⟩ => show win5_0.index t (1 : Fin 2) * 128 + 1 * k.val = k.val; omega

/-- The factor tile at point t: its row p is row 5000·t + p of the column of factors. -/
theorem den_blk (c : Dev nD) (t : Fin cfg5.N) (p : Fin 5000) (r : Fin 100000) (hr : r.val = 5000 * t.val + p.val) :
    (iblk5 V c 1 t : Vec Ideal S5000x1 .f32) (ix2 p (0 : Fin 1)) = (V c main_v86 : Spec.Arr Spec.SN1) (ix2 r (0 : Fin 1)) := by
  obtain ⟨-, -, e0, e1, -⟩ := idx_facts t
  unfold iblk5
  rw [View.read_apply]
  show (V c main_v86 : Spec.Arr Spec.SN1) (((cfg5.win 1).blk t).view.emb (ix2 p (0 : Fin 1))) = (V c main_v86 : Spec.Arr Spec.SN1) (ix2 r (0 : Fin 1))
  refine congrArg (V c main_v86 : Spec.Arr Spec.SN1) (funext fun a => Fin.ext ?_)
  match a with
  | ⟨0, _⟩ => show win5_1.index t (0 : Fin 2) * 5000 + 1 * p.val = r.val; omega
  | ⟨1, _⟩ => show win5_1.index t (1 : Fin 2) * 1 + 1 * 0 = 0; omega

/-- The tile of the nodes' own rows at point t: its row p is row 5000·t + p of the array. -/
theorem own_blk (c : Dev nD) (t : Fin cfg5.N) (p : Fin 5000) (k : Fin 128) (r : Fin 100000) (hr : r.val = 5000 * t.val + p.val) :
    (iblk5 V c 2 t : Vec Ideal S5000x128 .f32) (ix2 p k) = (V c main_v106 : Spec.Arr Spec.SN128) (ix2 r k) := by
  obtain ⟨-, -, -, -, e0, e1, -⟩ := idx_facts t
  unfold iblk5
  rw [View.read_apply]
  show (V c main_v106 : Spec.Arr Spec.SN128) (((cfg5.win 2).blk t).view.emb (ix2 p k)) = (V c main_v106 : Spec.Arr Spec.SN128) (ix2 r k)
  refine congrArg (V c main_v106 : Spec.Arr Spec.SN128) (funext fun a => Fin.ext ?_)
  match a with
  | ⟨0, _⟩ => show win5_2.index t (0 : Fin 2) * 5000 + 1 * p.val = r.val; omega
  | ⟨1, _⟩ => show win5_2.index t (1 : Fin 2) * 128 + 1 * k.val = k.val; omega

/-- The weights' one block is the whole array of stacked weights. -/
theorem wcat_blk (c : Dev nD) (t : Fin cfg5.N) (k : Fin 256) (q : Fin 128) :
    (iblk5 V c 3 t : Vec Ideal S256x128 .f32) (ix2 k q) = (V c main_v123 : Spec.Arr Spec.S256x128) (ix2 k q) := by
  obtain ⟨-, -, -, -, -, -, e0, e1, -⟩ := idx_facts t
  unfold iblk5
  rw [View.read_apply]
  show (V c main_v123 : Spec.Arr Spec.S256x128) (((cfg5.win 3).blk t).view.emb (ix2 k q)) = (V c main_v123 : Spec.Arr Spec.S256x128) (ix2 k q)
  refine congrArg (V c main_v123 : Spec.Arr Spec.S256x128) (funext fun a => Fin.ext ?_)
  match a with
  | ⟨0, _⟩ => show win5_3.index t (0 : Fin 2) * 256 + 1 * k.val = k.val; omega
  | ⟨1, _⟩ => show win5_3.index t (1 : Fin 2) * 128 + 1 * q.val = q.val; omega

/-- The bias's one block is the whole bias. -/
theorem bl_blk (c : Dev nD) (t : Fin cfg5.N) (q : Fin 128) :
    (iblk5 V c 4 t : Vec Ideal S128 .f32) (ix1 q) = (V c main_v125 : Spec.Arr Spec.S128) (ix1 q) := by
  obtain ⟨-, -, -, -, -, -, -, -, e0, -⟩ := idx_facts t
  unfold iblk5
  rw [View.read_apply]
  show (V c main_v125 : Spec.Arr Spec.S128) (((cfg5.win 4).blk t).view.emb (ix1 q)) = (V c main_v125 : Spec.Arr Spec.S128) (ix1 q)
  refine congrArg (V c main_v125 : Spec.Arr Spec.S128) (funext fun a => Fin.ext ?_)
  match a with
  | ⟨0, _⟩ => show win5_4.index t (0 : Fin 1) * 128 + 1 * q.val = q.val; omega

/-- The output's staging buffer after the body is the body's payload of the input tiles: its one store through the
    whole buffer, of loads through the whole buffers. -/
theorem out_eq (x0 : Vec Ideal S5000x128 .f32) (x1 : Vec Ideal S5000x1 .f32) (x2 : Vec Ideal S5000x128 .f32)
    (x3 : Vec Ideal S256x128 .f32) (x4 : Vec Ideal S128 .f32) :
    out5_5 (F := Ideal) x0 x1 x2 x3 x4 = k1_pay1 (F := Ideal) x0 x1 x2 x3 x4 := by
  unfold out5_5
  rw [View.canon_unit_zero hz2]
  simp only [View.ld_unit_zero (S := S5000x128) hz2, View.ld_unit_zero (S := S5000x1) hz2,
    View.ld_unit_zero (S := S256x128) hz2, View.ld_unit_zero (S := S128) hz1]
  rw [SagePayload.pay5_eq]

/-- What the body leaves in the output's staging buffer at point t, at (p, q): entry (5000·t + p, q) of the layer stage. -/
theorem after_apply (c : Dev nD) (t : Fin cfg5.N) (p : Fin 5000) (q : Fin 128) (r : Fin 100000) (hr : r.val = 5000 * t.val + p.val) :
    ((dat5 (F := Ideal) V c).after 5 t : Vec Ideal S5000x128 .f32) (ix2 p q)
      = Spec.sageAt (V c main_v118) (V c main_v86) (V c main_v106) (V c main_v123) (V c main_v125) r q := by
  rw [after5_5, out_eq]
  exact SagePayload.tile_entry (V c main_v118) (V c main_v86) (V c main_v106) (V c main_v123) (V c main_v125)
    (iblk5 V c 0 t) (iblk5 V c 1 t) (iblk5 V c 2 t) (iblk5 V c 3 t) (iblk5 V c 4 t) p q r
    (fun k => agg_blk V c t p k r hr) (den_blk V c t p r hr) (fun k => own_blk V c t p k r hr)
    (fun k => wcat_blk V c t k q) (bl_blk V c t q)

/-- WHAT POINT t WRITES BACK is block t of the layer stage of the arrays the region finds. -/
theorem flushed_eq (c : Dev nD) (t : Fin cfg5.N) :
    (dat5 (F := Ideal) V c).flushed 5 t
      = ((cfg5.win 5).blk t).view.read (Elt Ideal)
          (Spec.sageArr (V c main_v118) (V c main_v86) (V c main_v106) (V c main_v123) (V c main_v125)) := by
  have hN : t.val < 20 := Nat.lt_of_lt_of_eq t.isLt (N_5 : cfg5.N = 20)
  obtain ⟨-, -, -, -, -, -, -, -, -, e0, e1⟩ := idx_facts t
  funext j
  have hj0 : (j 0).val < 5000 := (j 0).isLt
  have hj1 : (j 1).val < 128 := (j 1).isLt
  rw [View.read_apply]
  have hemb : ((cfg5.win 5).blk t).view.emb j
      = ix2 (⟨5000 * t.val + (j 0).val, by omega⟩ : Fin 100000) (⟨(j 1).val, hj1⟩ : Fin 128) := by
    funext a; apply Fin.ext
    match a with
    | ⟨0, _⟩ => show win5_5.index t (0 : Fin 2) * 5000 + 1 * (j 0).val = 5000 * t.val + (j 0).val; omega
    | ⟨1, _⟩ => show win5_5.index t (1 : Fin 2) * 128 + 1 * (j 1).val = (j 1).val; omega
  rw [hemb, Spec.sageArr_apply]
  show ((dat5 (F := Ideal) V c).after 5 t : Vec Ideal S5000x128 .f32) ((cfg5.win 5).xinj (grid5.coords t) j) = _
  have hx : ((cfg5.win 5).xinj (grid5.coords t) j : S5000x128.Idx) = ix2 (⟨(j 0).val, hj0⟩ : Fin 5000) (⟨(j 1).val, hj1⟩ : Fin 128) := by
    funext a
    match a with
    | ⟨0, _⟩ => rfl
    | ⟨1, _⟩ => rfl
  rw [hx]
  exact after_apply V c t ⟨(j 0).val, hj0⟩ ⟨(j 1).val, hj1⟩ _ rfl

/-- An index of the output array is in point t's block iff each coordinate is in the block's range on its axis. -/
theorem mem_blk (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v126).slice (win5_5.rect t)).set ↔ _
  rw [View.set_slice_whole, Rect.mem_set_unit]
  exact Iff.rfl

/-- Row r of the output array lies in the block of point r / 5000. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  have ht : t.val = (i 0).val / 5000 := rfl
  obtain ⟨-, -, -, -, -, -, -, -, -, e0, e1⟩ := idx_facts t
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

end Sage5

/-- Region 5's output array after its twenty grid points is the layer stage of the arrays the region finds. -/
theorem sage5 (c : Dev nD) :
    (dat5 (F := Ideal) V c).arrAt 5 cfg5.N
      = Spec.sageArr (V c main_v118) (V c main_v86) (V c main_v106) (V c main_v123) (V c main_v125) :=
  (dat5 (F := Ideal) V c).arrAt_eq_of_cover 5 _ (fun t _ => Sage5.flushed_eq V c t) Sage5.cover

end Cert.KernelIdeal.Region

end
-- ==== Proof.RegionSage6.lean ====
/-
  Layer region 6, from its twenty row tiles to the whole array.

  Grid point t stages rows 5000·t … 5000·t + 4999 of the neighbour sums, of the per-node factors and of the nodes' own rows,
  together with the whole stacked weights and the whole bias, and writes back the same rows of the output. Entry (p, q) of
  the tile the body leaves is therefore entry (5000·t + p, q) of the layer stage of the whole arrays, and since row r lies
  in the tile of point r / 5000 the twenty write-backs fill the output array with the layer stage.
-/
import proofs.«140245_j83245056131912_2_alg».proof.Proof.Gen.KernelIdeal.Frame
import proofs.«140245_j83245056131912_2_alg».proof.Proof.Spec
import proofs.«140245_j83245056131912_2_alg».proof.Proof.SagePayload
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace Sage6

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-tiled inputs and the output are at block (t, 0) at point t,
    the weights and the bias at block 0. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 1) = 0
    ∧ win6_5.index t (0 : Fin 2) = t.val ∧ win6_5.index t (1 : Fin 2) = 0 :=
  (by decide +kernel : ∀ t : Fin grid6.N, _)

/-- The neighbour-sum tile at point t: its row p is row 5000·t + p of the array. -/
theorem agg_blk (c : Dev nD) (t : Fin cfg6.N) (p : Fin 5000) (k : Fin 128) (r : Fin 100000) (hr : r.val = 5000 * t.val + p.val) :
    (iblk6 V c 0 t : Vec Ideal S5000x128 .f32) (ix2 p k) = (V c main_v138 : Spec.Arr Spec.SN128) (ix2 r k) := by
  obtain ⟨e0, e1, -⟩ := idx_facts t
  unfold iblk6
  rw [View.read_apply]
  show (V c main_v138 : Spec.Arr Spec.SN128) (((cfg6.win 0).blk t).view.emb (ix2 p k)) = (V c main_v138 : Spec.Arr Spec.SN128) (ix2 r k)
  refine congrArg (V c main_v138 : Spec.Arr Spec.SN128) (funext fun a => Fin.ext ?_)
  match a with
  | ⟨0, _⟩ => show win6_0.index t (0 : Fin 2) * 5000 + 1 * p.val = r.val; omega
  | ⟨1, _⟩ => show win6_0.index t (1 : Fin 2) * 128 + 1 * k.val = k.val; omega

/-- The factor tile at point t: its row p is row 5000·t + p of the column of factors. -/
theorem den_blk (c : Dev nD) (t : Fin cfg6.N) (p : Fin 5000) (r : Fin 100000) (hr : r.val = 5000 * t.val + p.val) :
    (iblk6 V c 1 t : Vec Ideal S5000x1 .f32) (ix2 p (0 : Fin 1)) = (V c main_v86 : Spec.Arr Spec.SN1) (ix2 r (0 : Fin 1)) := by
  obtain ⟨-, -, e0, e1, -⟩ := idx_facts t
  unfold iblk6
  rw [View.read_apply]
  show (V c main_v86 : Spec.Arr Spec.SN1) (((cfg6.win 1).blk t).view.emb (ix2 p (0 : Fin 1))) = (V c main_v86 : Spec.Arr Spec.SN1) (ix2 r (0 : Fin 1))
  refine congrArg (V c main_v86 : Spec.Arr Spec.SN1) (funext fun a => Fin.ext ?_)
  match a with
  | ⟨0, _⟩ => show win6_1.index t (0 : Fin 2) * 5000 + 1 * p.val = r.val; omega
  | ⟨1, _⟩ => show win6_1.index t (1 : Fin 2) * 1 + 1 * 0 = 0; omega

/-- The tile of the nodes' own rows at point t: its row p is row 5000·t + p of the array. -/
theorem own_blk (c : Dev nD) (t : Fin cfg6.N) (p : Fin 5000) (k : Fin 128) (r : Fin 100000) (hr : r.val = 5000 * t.val + p.val) :
    (iblk6 V c 2 t : Vec Ideal S5000x128 .f32) (ix2 p k) = (V c main_v126 : Spec.Arr Spec.SN128) (ix2 r k) := by
  obtain ⟨-, -, -, -, e0, e1, -⟩ := idx_facts t
  unfold iblk6
  rw [View.read_apply]
  show (V c main_v126 : Spec.Arr Spec.SN128) (((cfg6.win 2).blk t).view.emb (ix2 p k)) = (V c main_v126 : Spec.Arr Spec.SN128) (ix2 r k)
  refine congrArg (V c main_v126 : Spec.Arr Spec.SN128) (funext fun a => Fin.ext ?_)
  match a with
  | ⟨0, _⟩ => show win6_2.index t (0 : Fin 2) * 5000 + 1 * p.val = r.val; omega
  | ⟨1, _⟩ => show win6_2.index t (1 : Fin 2) * 128 + 1 * k.val = k.val; omega

/-- The weights' one block is the whole array of stacked weights. -/
theorem wcat_blk (c : Dev nD) (t : Fin cfg6.N) (k : Fin 256) (q : Fin 128) :
    (iblk6 V c 3 t : Vec Ideal S256x128 .f32) (ix2 k q) = (V c main_v143 : Spec.Arr Spec.S256x128) (ix2 k q) := by
  obtain ⟨-, -, -, -, -, -, e0, e1, -⟩ := idx_facts t
  unfold iblk6
  rw [View.read_apply]
  show (V c main_v143 : Spec.Arr Spec.S256x128) (((cfg6.win 3).blk t).view.emb (ix2 k q)) = (V c main_v143 : Spec.Arr Spec.S256x128) (ix2 k q)
  refine congrArg (V c main_v143 : Spec.Arr Spec.S256x128) (funext fun a => Fin.ext ?_)
  match a with
  | ⟨0, _⟩ => show win6_3.index t (0 : Fin 2) * 256 + 1 * k.val = k.val; omega
  | ⟨1, _⟩ => show win6_3.index t (1 : Fin 2) * 128 + 1 * q.val = q.val; omega

/-- The bias's one block is the whole bias. -/
theorem bl_blk (c : Dev nD) (t : Fin cfg6.N) (q : Fin 128) :
    (iblk6 V c 4 t : Vec Ideal S128 .f32) (ix1 q) = (V c main_v145 : Spec.Arr Spec.S128) (ix1 q) := by
  obtain ⟨-, -, -, -, -, -, -, -, e0, -⟩ := idx_facts t
  unfold iblk6
  rw [View.read_apply]
  show (V c main_v145 : Spec.Arr Spec.S128) (((cfg6.win 4).blk t).view.emb (ix1 q)) = (V c main_v145 : Spec.Arr Spec.S128) (ix1 q)
  refine congrArg (V c main_v145 : Spec.Arr Spec.S128) (funext fun a => Fin.ext ?_)
  match a with
  | ⟨0, _⟩ => show win6_4.index t (0 : Fin 1) * 128 + 1 * q.val = q.val; omega

/-- The output's staging buffer after the body is the body's payload of the input tiles: its one store through the
    whole buffer, of loads through the whole buffers. -/
theorem out_eq (x0 : Vec Ideal S5000x128 .f32) (x1 : Vec Ideal S5000x1 .f32) (x2 : Vec Ideal S5000x128 .f32)
    (x3 : Vec Ideal S256x128 .f32) (x4 : Vec Ideal S128 .f32) :
    out6_5 (F := Ideal) x0 x1 x2 x3 x4 = k1_pay1 (F := Ideal) x0 x1 x2 x3 x4 := by
  unfold out6_5
  rw [View.canon_unit_zero hz2]
  simp only [View.ld_unit_zero (S := S5000x128) hz2, View.ld_unit_zero (S := S5000x1) hz2,
    View.ld_unit_zero (S := S256x128) hz2, View.ld_unit_zero (S := S128) hz1]
  rw [SagePayload.pay6_eq]

/-- What the body leaves in the output's staging buffer at point t, at (p, q): entry (5000·t + p, q) of the layer stage. -/
theorem after_apply (c : Dev nD) (t : Fin cfg6.N) (p : Fin 5000) (q : Fin 128) (r : Fin 100000) (hr : r.val = 5000 * t.val + p.val) :
    ((dat6 (F := Ideal) V c).after 5 t : Vec Ideal S5000x128 .f32) (ix2 p q)
      = Spec.sageAt (V c main_v138) (V c main_v86) (V c main_v126) (V c main_v143) (V c main_v145) r q := by
  rw [after6_5, out_eq]
  exact SagePayload.tile_entry (V c main_v138) (V c main_v86) (V c main_v126) (V c main_v143) (V c main_v145)
    (iblk6 V c 0 t) (iblk6 V c 1 t) (iblk6 V c 2 t) (iblk6 V c 3 t) (iblk6 V c 4 t) p q r
    (fun k => agg_blk V c t p k r hr) (den_blk V c t p r hr) (fun k => own_blk V c t p k r hr)
    (fun k => wcat_blk V c t k q) (bl_blk V c t q)

/-- WHAT POINT t WRITES BACK is block t of the layer stage of the arrays the region finds. -/
theorem flushed_eq (c : Dev nD) (t : Fin cfg6.N) :
    (dat6 (F := Ideal) V c).flushed 5 t
      = ((cfg6.win 5).blk t).view.read (Elt Ideal)
          (Spec.sageArr (V c main_v138) (V c main_v86) (V c main_v126) (V c main_v143) (V c main_v145)) := by
  have hN : t.val < 20 := Nat.lt_of_lt_of_eq t.isLt (N_6 : cfg6.N = 20)
  obtain ⟨-, -, -, -, -, -, -, -, -, e0, e1⟩ := idx_facts t
  funext j
  have hj0 : (j 0).val < 5000 := (j 0).isLt
  have hj1 : (j 1).val < 128 := (j 1).isLt
  rw [View.read_apply]
  have hemb : ((cfg6.win 5).blk t).view.emb j
      = ix2 (⟨5000 * t.val + (j 0).val, by omega⟩ : Fin 100000) (⟨(j 1).val, hj1⟩ : Fin 128) := by
    funext a; apply Fin.ext
    match a with
    | ⟨0, _⟩ => show win6_5.index t (0 : Fin 2) * 5000 + 1 * (j 0).val = 5000 * t.val + (j 0).val; omega
    | ⟨1, _⟩ => show win6_5.index t (1 : Fin 2) * 128 + 1 * (j 1).val = (j 1).val; omega
  rw [hemb, Spec.sageArr_apply]
  show ((dat6 (F := Ideal) V c).after 5 t : Vec Ideal S5000x128 .f32) ((cfg6.win 5).xinj (grid6.coords t) j) = _
  have hx : ((cfg6.win 5).xinj (grid6.coords t) j : S5000x128.Idx) = ix2 (⟨(j 0).val, hj0⟩ : Fin 5000) (⟨(j 1).val, hj1⟩ : Fin 128) := by
    funext a
    match a with
    | ⟨0, _⟩ => rfl
    | ⟨1, _⟩ => rfl
  rw [hx]
  exact after_apply V c t ⟨(j 0).val, hj0⟩ ⟨(j 1).val, hj1⟩ _ rfl

/-- An index of the output array is in point t's block iff each coordinate is in the block's range on its axis. -/
theorem mem_blk (t : Fin cfg6.N) (i : S100000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v146).slice (win6_5.rect t)).set ↔ _
  rw [View.set_slice_whole, Rect.mem_set_unit]
  exact Iff.rfl

/-- Row r of the output array lies in the block of point r / 5000. -/
theorem cover (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  have ht : t.val = (i 0).val / 5000 := rfl
  obtain ⟨-, -, -, -, -, -, -, -, -, e0, e1⟩ := idx_facts t
  refine ⟨t, flush6_5 t, ?_⟩
  rw [mem_blk]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 128 ≤ (i 1).val ∧ (i 1).val < win6_5.index t (1 : Fin 2) * 128 + 128; omega

end Sage6

/-- Region 6's output array after its twenty grid points is the layer stage of the arrays the region finds. -/
theorem sage6 (c : Dev nD) :
    (dat6 (F := Ideal) V c).arrAt 5 cfg6.N
      = Spec.sageArr (V c main_v138) (V c main_v86) (V c main_v126) (V c main_v143) (V c main_v145) :=
  (dat6 (F := Ideal) V c).arrAt_eq_of_cover 5 _ (fun t _ => Sage6.flushed_eq V c t) Sage6.cover

end Cert.KernelIdeal.Region

end
-- ==== Proof.FusionTiles.lean ====
/-
  The fusion stage on one node's rows, and the tiles the body stores.  With a0, a1 the node's two rows of 128 numbers:
  two logits l_j = a0·Watt0[:, j] + a1·Watt1[:, j] + batt[j]; the first weight p0 = 1/(1 + exp(l1 − l0)); the fused
  row g = a0·p0 + a1·(1 − p0); then two heads over g, each max(g·W1 + b1, 0)·W2 + b2, of 2 and of 5 outputs, packed in
  columns 0..6 of a row of 128 whose other columns hold the value of the zero word.  The specification's entries at
  node r are these functions of rows r of its arrays; the two tiles the body stores, at (p, q), are these functions of
  rows p of the tiles it loads.
-/
import proofs.«140245_j83245056131912_2_alg».proof.Proof.Gen.KernelIdeal.Skeleton
import proofs.«140245_j83245056131912_2_alg».proof.Proof.Spec
import proofs.«140245_j83245056131912_2_alg».proof.Proof.LibPlainDot
import proofs.«140245_j83245056131912_2_alg».proof.Proof.LibUnitAxes
import Idealize.ShloMosaic.Lib.Pipeline.Value
import Idealize.ShloMosaic.Lib.ValueIdx
import Idealize.ShloMosaic.Lib.ValueLayout

noncomputable section

open scoped BigOperators

namespace Cert.KernelIdeal.FusionTiles

open Cert.KernelIdeal Cert.KernelIdeal.Gen Idealize.ShloMosaic Idealize.ShloMosaic.ValueIdx
open Cert.Spec (Arr zw ow)

/-! ## The fused row of one node -/

/-- Logit j from the node's two rows. -/
def logitRow (a0 a1 : Fin 128 → EReal) (wa0 wa1 : Arr S128x2) (ba : Arr S2) (j : Fin 2) : EReal :=
  ((∑ k : Fin 128, a0 k * wa0 (ix2 k j)) + (∑ k : Fin 128, a1 k * wa1 (ix2 k j))) + ba (ix1 j)

/-- The first weight. -/
def p0Row (a0 a1 : Fin 128 → EReal) (wa0 wa1 : Arr S128x2) (ba : Arr S2) : EReal :=
  Ideal.div ow (ow + Ideal.exp (logitRow a0 a1 wa0 wa1 ba 1 - logitRow a0 a1 wa0 wa1 ba 0))

/-- Column c of the fused row. -/
def fuseRow (a0 a1 : Fin 128 → EReal) (wa0 wa1 : Arr S128x2) (ba : Arr S2) (c : Fin 128) : EReal :=
  a0 c * p0Row a0 a1 wa0 wa1 ba + a1 c * (ow - p0Row a0 a1 wa0 wa1 ba)

/-- The specification's fused entry (r, c) is the fused row of rows r. -/
theorem fuseAt_eq_row (o0 o1 : Arr Spec.SN128) (wa0 wa1 : Arr S128x2) (ba : Arr S2) (r : Fin 100000) (c : Fin 128) :
    Spec.fuseAt o0 o1 wa0 wa1 ba r c = fuseRow (fun k => o0 (ix2 r k)) (fun k => o1 (ix2 r k)) wa0 wa1 ba c := rfl

/-! ## The tile of fused rows the body stores -/

/-- The tile of logits: the two products summed, plus the bias row. -/
def logitTile (o0 o1 : Vec Ideal S5000x128 .f32) (wa0 wa1 : Vec Ideal S128x2 .f32) (ba : Vec Ideal S2 .f32) :
    FVec Ideal S5000x2 .f32 :=
  addf
    (addf
      (matmul (F := Ideal) dot_S5000x128_S128x2_S5000x2_1_0_0_1_n_n none (truncf .bf16 o0 bitsLt_bf16_f32)
        (truncf .bf16 wa0 bitsLt_bf16_f32) (constant (F := Ideal) S5000x2 .f32 0x00000000#32))
      (matmul (F := Ideal) dot_S5000x128_S128x2_S5000x2_1_0_0_1_n_n none (truncf .bf16 o1 bitsLt_bf16_f32)
        (truncf .bf16 wa1 bitsLt_bf16_f32) (constant (F := Ideal) S5000x2 .f32 0x00000000#32)))
    (broadcastTo S5000x2 (shapeCast S1x2 ba shapeCasts_S2_S1x2) broadcasts_S1x2_S5000x2)

theorem logitTile_apply (o0 o1 : Vec Ideal S5000x128 .f32) (wa0 wa1 : Vec Ideal S128x2 .f32) (ba : Vec Ideal S2 .f32)
    (p : Fin 5000) (j : Fin 2) :
    logitTile o0 o1 wa0 wa1 ba (ix2 p j)
      = logitRow (fun k => o0 (ix2 p k)) (fun k => o1 (ix2 p k)) wa0 wa1 ba j := by
  have h0 : matmul (F := Ideal) dot_S5000x128_S128x2_S5000x2_1_0_0_1_n_n none (truncf .bf16 o0 bitsLt_bf16_f32)
      (truncf .bf16 wa0 bitsLt_bf16_f32) (constant (F := Ideal) S5000x2 .f32 0x00000000#32) (ix2 p j)
        = ∑ k : Fin 128, o0 (ix2 p k) * wa0 (ix2 k j) :=
    Cert.LibPlainDot.matmul_zero_apply dot_S5000x128_S128x2_S5000x2_1_0_0_1_n_n rfl rfl rfl rfl
      (fun _ _ => rfl) (fun _ _ => rfl) none (truncf .bf16 o0 bitsLt_bf16_f32) (truncf .bf16 wa0 bitsLt_bf16_f32) p j
  have h1 : matmul (F := Ideal) dot_S5000x128_S128x2_S5000x2_1_0_0_1_n_n none (truncf .bf16 o1 bitsLt_bf16_f32)
      (truncf .bf16 wa1 bitsLt_bf16_f32) (constant (F := Ideal) S5000x2 .f32 0x00000000#32) (ix2 p j)
        = ∑ k : Fin 128, o1 (ix2 p k) * wa1 (ix2 k j) :=
    Cert.LibPlainDot.matmul_zero_apply dot_S5000x128_S128x2_S5000x2_1_0_0_1_n_n rfl rfl rfl rfl
      (fun _ _ => rfl) (fun _ _ => rfl) none (truncf .bf16 o1 bitsLt_bf16_f32) (truncf .bf16 wa1 bitsLt_bf16_f32) p j
  have hb : broadcastTo S5000x2 (shapeCast S1x2 ba shapeCasts_S2_S1x2) broadcasts_S1x2_S5000x2 (ix2 p j) = ba (ix1 j) :=
    (broadcastTo_1b_ab_apply _ _ p j).trans (shapeCast_a_1a_apply ba _ 0 j)
  exact congrArg₂ HAdd.hAdd (congrArg₂ HAdd.hAdd h0 h1) hb

/-- The column of first weights from a tile of logits: 1 / (1 + exp(l1 − l0)), the one the value of the word of 1. -/
def gateTile (L : FVec Ideal S5000x2 .f32) : FVec Ideal S5000x1 .f32 :=
  divf (broadcast S5000x1 (Scalar.ofBits (F := Ideal) .f32 0x3F800000#32))
    (addf (broadcast S5000x1 (Scalar.ofBits (F := Ideal) .f32 0x3F800000#32))
      (exp (subf (extractStridedSlice S5000x1 ![0, 1] L slices_S5000x2_o0_1_S5000x1)
        (extractStridedSlice S5000x1 ![0, 0] L slices_S5000x2_o0_0_S5000x1))))

theorem gateTile_apply (L : FVec Ideal S5000x2 .f32) (p : Fin 5000) (u : Fin 1) :
    gateTile L (ix2 p u) = Ideal.div ow (ow + Ideal.exp (L (ix2 p (1 : Fin 2)) - L (ix2 p (0 : Fin 2)))) := by
  have h1 : extractStridedSlice S5000x1 ![0, 1] L slices_S5000x2_o0_1_S5000x1 (ix2 p u) = L (ix2 p (1 : Fin 2)) :=
    slice2_axis1_apply 1 L _ p u 1 (by have := u.isLt; change 1 = 1 + u.val; omega)
  have h0 : extractStridedSlice S5000x1 ![0, 0] L slices_S5000x2_o0_0_S5000x1 (ix2 p u) = L (ix2 p (0 : Fin 2)) :=
    slice2_axis1_apply 0 L _ p u 0 (by have := u.isLt; change 0 = 0 + u.val; omega)
  exact congrArg (fun z => Ideal.div ow (ow + Ideal.exp z)) (congrArg₂ HSub.hSub h1 h0)

/-- The body's stored tile is the two tiles weighed by the column of first weights and its complement to the word of 1. -/
theorem fuse_tile_eq (o0 o1 : Vec Ideal S5000x128 .f32) (wa0 wa1 : Vec Ideal S128x2 .f32) (ba : Vec Ideal S2 .f32) :
    k7_pay2 (F := Ideal) o0 o1 wa0 wa1 ba
      = addf (mulf o0 (broadcastTo S5000x128 (gateTile (logitTile o0 o1 wa0 wa1 ba)) broadcasts_S5000x1_S5000x128))
          (mulf o1 (broadcastTo S5000x128
            (subf (broadcast S5000x1 (Scalar.ofBits (F := Ideal) .f32 0x3F800000#32)) (gateTile (logitTile o0 o1 wa0 wa1 ba)))
            broadcasts_S5000x1_S5000x128)) := by
  unfold k7_pay2 gateTile logitTile
  simp only [shapeCast_self]

/-- Entry (p, q) of the stored tile is column q of the fused row of rows p of the two tiles. -/
theorem fuse_tile_apply (o0 o1 : Vec Ideal S5000x128 .f32) (wa0 wa1 : Vec Ideal S128x2 .f32) (ba : Vec Ideal S2 .f32)
    (p : Fin 5000) (q : Fin 128) :
    k7_pay2 (F := Ideal) o0 o1 wa0 wa1 ba (ix2 p q)
      = fuseRow (fun k => o0 (ix2 p k)) (fun k => o1 (ix2 p k)) wa0 wa1 ba q := by
  rw [fuse_tile_eq]
  have hg : gateTile (logitTile o0 o1 wa0 wa1 ba) (ix2 p (0 : Fin 1))
      = p0Row (fun k => o0 (ix2 p k)) (fun k => o1 (ix2 p k)) wa0 wa1 ba := by
    rw [gateTile_apply, logitTile_apply, logitTile_apply]; rfl
  have hb0 : broadcastTo S5000x128 (gateTile (logitTile o0 o1 wa0 wa1 ba)) broadcasts_S5000x1_S5000x128 (ix2 p q)
      = p0Row (fun k => o0 (ix2 p k)) (fun k => o1 (ix2 p k)) wa0 wa1 ba :=
    (Cert.LibUnitAxes.broadcastTo_a1_ab_apply _ _ p q).trans hg
  have hb1 : broadcastTo S5000x128
      (subf (broadcast S5000x1 (Scalar.ofBits (F := Ideal) .f32 0x3F800000#32)) (gateTile (logitTile o0 o1 wa0 wa1 ba)))
      broadcasts_S5000x1_S5000x128 (ix2 p q)
      = ow - p0Row (fun k => o0 (ix2 p k)) (fun k => o1 (ix2 p k)) wa0 wa1 ba :=
    (Cert.LibUnitAxes.broadcastTo_a1_ab_apply _ _ p q).trans (congrArg (fun z => ow - z) hg)
  exact congrArg₂ HAdd.hAdd (congrArg (fun z => o0 (ix2 p q) * z) hb0) (congrArg (fun z => o1 (ix2 p q) * z) hb1)

/-! ## The packed head row of one node -/

/-- A head's hidden unit j over a fused row g: max(g·W1[:, j] + b1[j], 0). -/
def hidRow (g : Fin 128 → EReal) (w1 : Arr S128x64) (b1 : Arr S64) (j : Fin 64) : EReal :=
  max ((∑ k : Fin 128, g k * w1 (ix2 k j)) + b1 (ix1 j)) zw

/-- The two-output head. -/
def fraudRow (g : Fin 128 → EReal) (w1 : Arr S128x64) (b1 : Arr S64) (w2 : Arr S64x2) (b2 : Arr S2) (j : Fin 2) : EReal :=
  (∑ k : Fin 64, hidRow g w1 b1 k * w2 (ix2 k j)) + b2 (ix1 j)

/-- The five-output head. -/
def patternRow (g : Fin 128 → EReal) (w1 : Arr S128x64) (b1 : Arr S64) (w2 : Arr S64x5) (b2 : Arr S5) (j : Fin 5) : EReal :=
  (∑ k : Fin 64, hidRow g w1 b1 k * w2 (ix2 k j)) + b2 (ix1 j)

/-- Column c of the packed row: the two-output head in columns 0, 1, the five-output head in columns 2..6, the value of
    the zero word elsewhere. -/
def headsRow (g : Fin 128 → EReal) (wc1 : Arr S128x64) (bc1 : Arr S64) (wc2 : Arr S64x2) (bc2 : Arr S2)
    (wp1 : Arr S128x64) (bp1 : Arr S64) (wp2 : Arr S64x5) (bp2 : Arr S5) (c : Fin 128) : EReal :=
  if h2 : c.val < 2 then fraudRow g wc1 bc1 wc2 bc2 ⟨c.val, h2⟩
  else if h7 : c.val < 7 then patternRow g wp1 bp1 wp2 bp2 ⟨c.val - 2, by omega⟩
  else zw

/-- The specification's packed entry (r, c) over an array g is the packed row of row r of g. -/
theorem headsAt_eq_row (g : Arr Spec.SN128) (wc1 : Arr S128x64) (bc1 : Arr S64) (wc2 : Arr S64x2) (bc2 : Arr S2)
    (wp1 : Arr S128x64) (bp1 : Arr S64) (wp2 : Arr S64x5) (bp2 : Arr S5) (r : Fin 100000) (c : Fin 128) :
    Spec.headsAt g wc1 bc1 wc2 bc2 wp1 bp1 wp2 bp2 r c
      = headsRow (fun k => g (ix2 r k)) wc1 bc1 wc2 bc2 wp1 bp1 wp2 bp2 c := rfl

/-! ## The tile of packed rows the body stores -/

/-- A hidden tile from its product tile: the bias row added, cut below at the value of the zero word. -/
def hidTile (pre : FVec Ideal S5000x64 .f32) (b : Vec Ideal S64 .f32) : FVec Ideal S5000x64 .f32 :=
  maximumf (addf pre (broadcastTo S5000x64 (shapeCast S1x64 b shapeCasts_S64_S1x64) broadcasts_S1x64_S5000x64))
    (broadcast S5000x64 (Scalar.ofBits (F := Ideal) .f32 0x00000000#32))

theorem hidTile_apply (pre : FVec Ideal S5000x64 .f32) (b : Vec Ideal S64 .f32) (p : Fin 5000) (j : Fin 64) :
    hidTile pre b (ix2 p j) = max (pre (ix2 p j) + b (ix1 j)) zw := by
  have hb : broadcastTo S5000x64 (shapeCast S1x64 b shapeCasts_S64_S1x64) broadcasts_S1x64_S5000x64 (ix2 p j) = b (ix1 j) :=
    (broadcastTo_1b_ab_apply _ _ p j).trans (shapeCast_a_1a_apply b _ 0 j)
  exact congrArg (fun z => max (pre (ix2 p j) + z) zw) hb

/-- The product of the fused tile with a head's first matrix. -/
def preTile (g : FVec Ideal S5000x128 .bf16) (w1 : Vec Ideal S128x64 .f32) : FVec Ideal S5000x64 .f32 :=
  matmul (F := Ideal) dot_S5000x128_S128x64_S5000x64_1_0_0_1_n_n none g (truncf .bf16 w1 bitsLt_bf16_f32)
    (constant (F := Ideal) S5000x64 .f32 0x00000000#32)

theorem preTile_apply (g : FVec Ideal S5000x128 .bf16) (w1 : Vec Ideal S128x64 .f32) (p : Fin 5000) (j : Fin 64) :
    preTile g w1 (ix2 p j) = ∑ k : Fin 128, g (ix2 p k) * w1 (ix2 k j) :=
  Cert.LibPlainDot.matmul_zero_apply dot_S5000x128_S128x64_S5000x64_1_0_0_1_n_n rfl rfl rfl rfl
    (fun _ _ => rfl) (fun _ _ => rfl) none g (truncf .bf16 w1 bitsLt_bf16_f32) p j

/-- The two-output head's tile over a hidden tile. -/
def fraudTile (h : FVec Ideal S5000x64 .f32) (w2 : Vec Ideal S64x2 .f32) (b2 : Vec Ideal S2 .f32) : FVec Ideal S5000x2 .f32 :=
  addf (matmul (F := Ideal) dot_S5000x64_S64x2_S5000x2_1_0_0_1_n_n none (truncf .bf16 h bitsLt_bf16_f32)
      (truncf .bf16 w2 bitsLt_bf16_f32) (constant (F := Ideal) S5000x2 .f32 0x00000000#32))
    (broadcastTo S5000x2 (shapeCast S1x2 b2 shapeCasts_S2_S1x2) broadcasts_S1x2_S5000x2)

theorem fraudTile_apply (h : FVec Ideal S5000x64 .f32) (w2 : Vec Ideal S64x2 .f32) (b2 : Vec Ideal S2 .f32)
    (p : Fin 5000) (j : Fin 2) :
    fraudTile h w2 b2 (ix2 p j) = (∑ k : Fin 64, h (ix2 p k) * w2 (ix2 k j)) + b2 (ix1 j) := by
  have hm : matmul (F := Ideal) dot_S5000x64_S64x2_S5000x2_1_0_0_1_n_n none (truncf .bf16 h bitsLt_bf16_f32)
      (truncf .bf16 w2 bitsLt_bf16_f32) (constant (F := Ideal) S5000x2 .f32 0x00000000#32) (ix2 p j)
        = ∑ k : Fin 64, h (ix2 p k) * w2 (ix2 k j) :=
    Cert.LibPlainDot.matmul_zero_apply dot_S5000x64_S64x2_S5000x2_1_0_0_1_n_n rfl rfl rfl rfl
      (fun _ _ => rfl) (fun _ _ => rfl) none (truncf .bf16 h bitsLt_bf16_f32) (truncf .bf16 w2 bitsLt_bf16_f32) p j
  have hb : broadcastTo S5000x2 (shapeCast S1x2 b2 shapeCasts_S2_S1x2) broadcasts_S1x2_S5000x2 (ix2 p j) = b2 (ix1 j) :=
    (broadcastTo_1b_ab_apply _ _ p j).trans (shapeCast_a_1a_apply b2 _ 0 j)
  exact congrArg₂ HAdd.hAdd hm hb

/-- The five-output head's tile over a hidden tile. -/
def patternTile (h : FVec Ideal S5000x64 .f32) (w2 : Vec Ideal S64x5 .f32) (b2 : Vec Ideal S5 .f32) : FVec Ideal S5000x5 .f32 :=
  addf (matmul (F := Ideal) dot_S5000x64_S64x5_S5000x5_1_0_0_1_n_n none (truncf .bf16 h bitsLt_bf16_f32)
      (truncf .bf16 w2 bitsLt_bf16_f32) (constant (F := Ideal) S5000x5 .f32 0x00000000#32))
    (broadcastTo S5000x5 (shapeCast S1x5 b2 shapeCasts_S5_S1x5) broadcasts_S1x5_S5000x5)

theorem patternTile_apply (h : FVec Ideal S5000x64 .f32) (w2 : Vec Ideal S64x5 .f32) (b2 : Vec Ideal S5 .f32)
    (p : Fin 5000) (j : Fin 5) :
    patternTile h w2 b2 (ix2 p j) = (∑ k : Fin 64, h (ix2 p k) * w2 (ix2 k j)) + b2 (ix1 j) := by
  have hm : matmul (F := Ideal) dot_S5000x64_S64x5_S5000x5_1_0_0_1_n_n none (truncf .bf16 h bitsLt_bf16_f32)
      (truncf .bf16 w2 bitsLt_bf16_f32) (constant (F := Ideal) S5000x5 .f32 0x00000000#32) (ix2 p j)
        = ∑ k : Fin 64, h (ix2 p k) * w2 (ix2 k j) :=
    Cert.LibPlainDot.matmul_zero_apply dot_S5000x64_S64x5_S5000x5_1_0_0_1_n_n rfl rfl rfl rfl
      (fun _ _ => rfl) (fun _ _ => rfl) none (truncf .bf16 h bitsLt_bf16_f32) (truncf .bf16 w2 bitsLt_bf16_f32) p j
  have hb : broadcastTo S5000x5 (shapeCast S1x5 b2 shapeCasts_S5_S1x5) broadcasts_S1x5_S5000x5 (ix2 p j) = b2 (ix1 j) :=
    (broadcastTo_1b_ab_apply _ _ p j).trans (shapeCast_a_1a_apply b2 _ 0 j)
  exact congrArg₂ HAdd.hAdd hm hb

/-- Three tiles of 2, 5 and 121 columns side by side, read at (p, q): the tile whose span of columns holds q. -/
theorem packed_apply_fst {α : Type} (x2 : S5000x2.Idx → α) (x5 : S5000x5.Idx → α) (x121 : S5000x121.Idx → α)
    (p : Fin 5000) (q : Fin 128) (h2 : q.val < 2) :
    concatenate S5000x128 1 [⟨S5000x2, x2⟩, ⟨S5000x5, x5⟩, ⟨S5000x121, x121⟩]
        concatenates_S5000x2_S5000x5_S5000x121_S5000x128_d1 (ix2 p q) = x2 (ix2 p (⟨q.val, h2⟩ : Fin 2)) :=
  concatenate_apply_piece (t := S5000x128) (1 : Fin 2) [⟨S5000x2, x2⟩, ⟨S5000x5, x5⟩, ⟨S5000x121, x121⟩]
    concatenates_S5000x2_S5000x5_S5000x121_S5000x128_d1 (ix2 p q) 0 (by show 0 < 3; omega) S5000x2 x2 rfl rfl 0 rfl
    (ix2 p (⟨q.val, h2⟩ : Fin 2))
    (fun b hb => by
      match b with
      | ⟨0, _⟩ => rfl
      | ⟨1, _⟩ => exact absurd rfl hb)
    (Nat.zero_add _)

theorem packed_apply_snd {α : Type} (x2 : S5000x2.Idx → α) (x5 : S5000x5.Idx → α) (x121 : S5000x121.Idx → α)
    (p : Fin 5000) (q : Fin 128) (h2 : ¬ q.val < 2) (h7 : q.val < 7) :
    concatenate S5000x128 1 [⟨S5000x2, x2⟩, ⟨S5000x5, x5⟩, ⟨S5000x121, x121⟩]
        concatenates_S5000x2_S5000x5_S5000x121_S5000x128_d1 (ix2 p q) = x5 (ix2 p (⟨q.val - 2, by omega⟩ : Fin 5)) :=
  concatenate_apply_piece (t := S5000x128) (1 : Fin 2) [⟨S5000x2, x2⟩, ⟨S5000x5, x5⟩, ⟨S5000x121, x121⟩]
    concatenates_S5000x2_S5000x5_S5000x121_S5000x128_d1 (ix2 p q) 1 (by show 1 < 3; omega) S5000x5 x5 rfl rfl 2 rfl
    (ix2 p (⟨q.val - 2, by omega⟩ : Fin 5))
    (fun b hb => by
      match b with
      | ⟨0, _⟩ => rfl
      | ⟨1, _⟩ => exact absurd rfl hb)
    (by show 2 + (q.val - 2) = q.val; omega)

theorem packed_apply_thd {α : Type} (x2 : S5000x2.Idx → α) (x5 : S5000x5.Idx → α) (x121 : S5000x121.Idx → α)
    (p : Fin 5000) (q : Fin 128) (h7 : ¬ q.val < 7) :
    concatenate S5000x128 1 [⟨S5000x2, x2⟩, ⟨S5000x5, x5⟩, ⟨S5000x121, x121⟩]
        concatenates_S5000x2_S5000x5_S5000x121_S5000x128_d1 (ix2 p q)
      = x121 (ix2 p (⟨q.val - 7, by have := q.isLt; omega⟩ : Fin 121)) :=
  concatenate_apply_piece (t := S5000x128) (1 : Fin 2) [⟨S5000x2, x2⟩, ⟨S5000x5, x5⟩, ⟨S5000x121, x121⟩]
    concatenates_S5000x2_S5000x5_S5000x121_S5000x128_d1 (ix2 p q) 2 (by show 2 < 3; omega) S5000x121 x121 rfl rfl 7 rfl
    (ix2 p (⟨q.val - 7, by have := q.isLt; omega⟩ : Fin 121))
    (fun b hb => by
      match b with
      | ⟨0, _⟩ => rfl
      | ⟨1, _⟩ => exact absurd rfl hb)
    (by show 7 + (q.val - 7) = q.val; omega)

/-- The body's stored tile: the two head tiles and a tile of the zero word, side by side. -/
theorem heads_tile_eq (g : FVec Ideal S5000x128 .bf16) (h1 : FVec Ideal S5000x64 .f32) (bc1 : Vec Ideal S64 .f32)
    (wc2 : Vec Ideal S64x2 .f32) (bc2 : Vec Ideal S2 .f32) (wp1 : Vec Ideal S128x64 .f32) (bp1 : Vec Ideal S64 .f32)
    (wp2 : Vec Ideal S64x5 .f32) (bp2 : Vec Ideal S5 .f32) :
    k7_pay1 (F := Ideal) g h1 bc1 wc2 bc2 wp1 bp1 wp2 bp2
      = concatenate S5000x128 1
          [⟨S5000x2, fraudTile (hidTile h1 bc1) wc2 bc2⟩, ⟨S5000x5, patternTile (hidTile (preTile g wp1) bp1) wp2 bp2⟩,
           ⟨S5000x121, broadcast S5000x121 (Scalar.ofBits (F := Ideal) .f32 0x00000000#32)⟩]
          concatenates_S5000x2_S5000x5_S5000x121_S5000x128_d1 := rfl

/-- Entry (p, q) of the stored tile is column q of the packed row of row p of the fused tile, when the first head's
    product tile is the fused tile against that head's first matrix on row p. -/
theorem heads_tile_apply (g : FVec Ideal S5000x128 .bf16) (h1 : FVec Ideal S5000x64 .f32) (wc1 : Vec Ideal S128x64 .f32)
    (bc1 : Vec Ideal S64 .f32)
    (wc2 : Vec Ideal S64x2 .f32) (bc2 : Vec Ideal S2 .f32) (wp1 : Vec Ideal S128x64 .f32) (bp1 : Vec Ideal S64 .f32)
    (wp2 : Vec Ideal S64x5 .f32) (bp2 : Vec Ideal S5 .f32) (p : Fin 5000) (q : Fin 128)
    (hh : ∀ j : Fin 64, h1 (ix2 p j) = ∑ k : Fin 128, g (ix2 p k) * wc1 (ix2 k j)) :
    k7_pay1 (F := Ideal) g h1 bc1 wc2 bc2 wp1 bp1 wp2 bp2 (ix2 p q)
      = headsRow (fun k => g (ix2 p k)) wc1 bc1 wc2 bc2 wp1 bp1 wp2 bp2 q := by
  rw [heads_tile_eq]
  have hhid1 : ∀ k : Fin 64, hidTile h1 bc1 (ix2 p k) = hidRow (fun k => g (ix2 p k)) wc1 bc1 k := fun k => by
    rw [hidTile_apply, hh]; rfl
  have hhid2 : ∀ k : Fin 64, hidTile (preTile g wp1) bp1 (ix2 p k) = hidRow (fun k => g (ix2 p k)) wp1 bp1 k := fun k => by
    rw [hidTile_apply, preTile_apply]; rfl
  unfold headsRow
  by_cases h2 : q.val < 2
  · rw [dif_pos h2]
    refine (packed_apply_fst _ _ _ p q h2).trans ?_
    rw [fraudTile_apply]
    unfold fraudRow
    exact congrArg (fun z => z + bc2 (ix1 (⟨q.val, h2⟩ : Fin 2)))
      (Finset.sum_congr rfl fun k _ => congrArg (fun z => z * wc2 (ix2 k (⟨q.val, h2⟩ : Fin 2))) (hhid1 k))
  · rw [dif_neg h2]
    by_cases h7 : q.val < 7
    · rw [dif_pos h7]
      refine (packed_apply_snd _ _ _ p q h2 h7).trans ?_
      rw [patternTile_apply]
      unfold patternRow
      exact congrArg (fun z => z + bp2 (ix1 (⟨q.val - 2, by omega⟩ : Fin 5)))
        (Finset.sum_congr rfl fun k _ => congrArg (fun z => z * wp2 (ix2 k (⟨q.val - 2, by omega⟩ : Fin 5))) (hhid2 k))
    · rw [dif_neg h7]
      exact packed_apply_thd _ _ _ p q h7

/-! ## The rows depend on their operands entry by entry -/

theorem fuseRow_congr {a0 a0' a1 a1' : Fin 128 → EReal} {wa0 wa0' wa1 wa1' : Arr S128x2} {ba ba' : Arr S2}
    (h0 : ∀ k, a0 k = a0' k) (h1 : ∀ k, a1 k = a1' k)
    (hw0 : ∀ k j, wa0 (ix2 k j) = wa0' (ix2 k j)) (hw1 : ∀ k j, wa1 (ix2 k j) = wa1' (ix2 k j))
    (hb : ∀ j, ba (ix1 j) = ba' (ix1 j)) (c : Fin 128) :
    fuseRow a0 a1 wa0 wa1 ba c = fuseRow a0' a1' wa0' wa1' ba' c := by
  obtain rfl : a0 = a0' := funext h0
  obtain rfl : a1 = a1' := funext h1
  obtain rfl : wa0 = wa0' := funext fun y => by rw [eq_ix2 y]; exact hw0 _ _
  obtain rfl : wa1 = wa1' := funext fun y => by rw [eq_ix2 y]; exact hw1 _ _
  obtain rfl : ba = ba' := funext fun y => by rw [eq_ix1 y]; exact hb _
  rfl

theorem headsRow_congr {g g' : Fin 128 → EReal} {wc1 wc1' : Arr S128x64} {bc1 bc1' : Arr S64} {wc2 wc2' : Arr S64x2}
    {bc2 bc2' : Arr S2} {wp1 wp1' : Arr S128x64} {bp1 bp1' : Arr S64} {wp2 wp2' : Arr S64x5} {bp2 bp2' : Arr S5}
    (hg : ∀ k, g k = g' k)
    (hwc1 : ∀ k j, wc1 (ix2 k j) = wc1' (ix2 k j)) (hbc1 : ∀ j, bc1 (ix1 j) = bc1' (ix1 j))
    (hwc2 : ∀ k j, wc2 (ix2 k j) = wc2' (ix2 k j)) (hbc2 : ∀ j, bc2 (ix1 j) = bc2' (ix1 j))
    (hwp1 : ∀ k j, wp1 (ix2 k j) = wp1' (ix2 k j)) (hbp1 : ∀ j, bp1 (ix1 j) = bp1' (ix1 j))
    (hwp2 : ∀ k j, wp2 (ix2 k j) = wp2' (ix2 k j)) (hbp2 : ∀ j, bp2 (ix1 j) = bp2' (ix1 j)) (c : Fin 128) :
    headsRow g wc1 bc1 wc2 bc2 wp1 bp1 wp2 bp2 c = headsRow g' wc1' bc1' wc2' bc2' wp1' bp1' wp2' bp2' c := by
  obtain rfl : g = g' := funext hg
  obtain rfl : wc1 = wc1' := funext fun y => by rw [eq_ix2 y]; exact hwc1 _ _
  obtain rfl : bc1 = bc1' := funext fun y => by rw [eq_ix1 y]; exact hbc1 _
  obtain rfl : wc2 = wc2' := funext fun y => by rw [eq_ix2 y]; exact hwc2 _ _
  obtain rfl : bc2 = bc2' := funext fun y => by rw [eq_ix1 y]; exact hbc2 _
  obtain rfl : wp1 = wp1' := funext fun y => by rw [eq_ix2 y]; exact hwp1 _ _
  obtain rfl : bp1 = bp1' := funext fun y => by rw [eq_ix1 y]; exact hbp1 _
  obtain rfl : wp2 = wp2' := funext fun y => by rw [eq_ix2 y]; exact hwp2 _ _
  obtain rfl : bp2 = bp2' := funext fun y => by rw [eq_ix1 y]; exact hbp2 _
  rfl

/-! ## The two values the body hands from its first part to its second -/

/-- The fused tile in the narrower format is the fused tile, entry by entry. -/
theorem fused_narrow_apply (o0 o1 : Vec Ideal S5000x128 .f32) (wa0 wa1 : Vec Ideal S128x2 .f32) (ba : Vec Ideal S2 .f32)
    (j : S5000x128.Idx) : k7_pay3 (F := Ideal) o0 o1 wa0 wa1 ba j = k7_pay2 (F := Ideal) o0 o1 wa0 wa1 ba j := rfl

/-- The first head's product tile is the fused tile against that head's first matrix. -/
theorem first_pre_tile_apply (o0 o1 : Vec Ideal S5000x128 .f32) (wa0 wa1 : Vec Ideal S128x2 .f32) (ba : Vec Ideal S2 .f32)
    (wc1 : Vec Ideal S128x64 .f32) (p : Fin 5000) (j : Fin 64) :
    k7_pay4 (F := Ideal) o0 o1 wa0 wa1 ba wc1 (ix2 p j)
      = ∑ k : Fin 128, k7_pay3 (F := Ideal) o0 o1 wa0 wa1 ba (ix2 p k) * wc1 (ix2 k j) :=
  preTile_apply (k7_pay3 (F := Ideal) o0 o1 wa0 wa1 ba) wc1 p j

end Cert.KernelIdeal.FusionTiles

end
-- ==== Proof.RegionFusion.lean ====
/-
  The fusion stage, from tiles to the two arrays.  The grid has twenty points; point t fetches rows 5000·t … 5000·t + 4999
  of the two relations' arrays and the whole of every weight matrix and bias, and writes back two tiles of those rows:
  the fused rows, and the packed head rows over the fused rows.  Entry (p, q) of each tile is the specification's
  function of rows p of the fetched tiles, which are rows 5000·t + p of the arrays; so each tile is the restriction of
  the whole stage to the rows its block names, and the twenty blocks cover each array.
-/
import proofs.«140245_j83245056131912_2_alg».proof.Proof.Gen.KernelIdeal.Frame
import proofs.«140245_j83245056131912_2_alg».proof.Proof.Spec
import proofs.«140245_j83245056131912_2_alg».proof.Proof.FusionTiles
import Idealize.ShloMosaic.Lib.Pipeline.Value
import Idealize.ShloMosaic.Lib.ValueIdx

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

theorem fusion_zeros2 : (![0, 0] : Fin 2 → Nat) = fun _ => 0 := funext fun a => by fin_cases a <;> rfl
theorem fusion_zeros1 : (![0] : Fin 1 → Nat) = fun _ => 0 := funext fun a => by fin_cases a <;> rfl

/-- The printed index maps of the four row-tiled windows over the grid: block t along the rows, block 0 along the columns. -/
theorem fusion_index_rows : ∀ t : Fin cfg7.N, win7_0.index t (0 : Fin 2) = t.val ∧ win7_0.index t (1 : Fin 2) = 0
    ∧ win7_1.index t (0 : Fin 2) = t.val ∧ win7_1.index t (1 : Fin 2) = 0
    ∧ win7_13.index t (0 : Fin 2) = t.val ∧ win7_13.index t (1 : Fin 2) = 0
    ∧ win7_14.index t (0 : Fin 2) = t.val ∧ win7_14.index t (1 : Fin 2) = 0 :=
  (by decide +kernel : ∀ t : Fin grid7.N, _)

/-- The three windows of the gate's weights and bias are fetched whole: every block index is 0. -/
theorem fusion_index_gate : ∀ t : Fin cfg7.N, win7_2.index t (0 : Fin 2) = 0
    ∧ win7_2.index t (1 : Fin 2) = 0
    ∧ win7_3.index t (0 : Fin 2) = 0
    ∧ win7_3.index t (1 : Fin 2) = 0
    ∧ win7_4.index t (0 : Fin 1) = 0 :=
  (by decide +kernel : ∀ t : Fin grid7.N, _)

/-- The eight windows of the heads' weights and biases are fetched whole: every block index is 0. -/
theorem fusion_index_heads : ∀ t : Fin cfg7.N, win7_5.index t (0 : Fin 2) = 0
    ∧ win7_5.index t (1 : Fin 2) = 0
    ∧ win7_6.index t (0 : Fin 1) = 0
    ∧ win7_7.index t (0 : Fin 2) = 0
    ∧ win7_7.index t (1 : Fin 2) = 0
    ∧ win7_8.index t (0 : Fin 1) = 0
    ∧ win7_9.index t (0 : Fin 2) = 0
    ∧ win7_9.index t (1 : Fin 2) = 0
    ∧ win7_10.index t (0 : Fin 1) = 0
    ∧ win7_11.index t (0 : Fin 2) = 0
    ∧ win7_11.index t (1 : Fin 2) = 0
    ∧ win7_12.index t (0 : Fin 1) = 0 :=
  (by decide +kernel : ∀ t : Fin grid7.N, _)

/-- Row 5000·t + p of an array of 100000 rows: row p of block t. -/
def fusion_rowAt (t : Fin cfg7.N) (p : Fin 5000) : Fin 100000 :=
  ⟨5000 * t.val + p.val, by have ht : t.val < 20 := t.isLt; have := p.isLt; omega⟩

variable (V : (c : Dev nD) → (b : Ref sig .tc) → Buf (Elt Ideal) ((c : Thread nD τ).loc b))

/-- Entry (p, q) of the fused tile at point t is the specification's fused entry at row 5000·t + p. -/
theorem fuse_entry (c : Dev nD) (t : Fin cfg7.N) (p : Fin 5000) (q : Fin 128) :
    k7_pay2 (F := Ideal) (iblk7 V c 0 t) (iblk7 V c 1 t) (iblk7 V c 2 t) (iblk7 V c 3 t) (iblk7 V c 4 t) (ix2 p q)
      = Spec.fuseAt (V c main_v73) (V c main_v146) (V c main_v147) (V c main_v148) (V c main_arg9) (fusion_rowAt t p) q := by
  obtain ⟨r0_0, r0_1, r1_0, r1_1, r13_0, r13_1, r14_0, r14_1⟩ := fusion_index_rows t
  obtain ⟨z2_0, z2_1, z3_0, z3_1, z4_0⟩ := fusion_index_gate t
  rw [FusionTiles.fuseAt_eq_row]
  refine (FusionTiles.fuse_tile_apply (iblk7 V c 0 t) (iblk7 V c 1 t) (iblk7 V c 2 t) (iblk7 V c 3 t) (iblk7 V c 4 t) p q).trans ?_
  exact FusionTiles.fuseRow_congr
    (fun k => show V c main_v73 (((cfg7.win 0).blk t).view.emb (ix2 p k)) = V c main_v73 (ix2 (fusion_rowAt t p) k) from
      congrArg (V c main_v73) (funext fun a => Fin.ext (by
        match a with
        | ⟨0, _⟩ => show win7_0.index t (0 : Fin 2) * 5000 + 1 * p.val = 5000 * t.val + p.val; omega
        | ⟨1, _⟩ => show win7_0.index t (1 : Fin 2) * 128 + 1 * k.val = k.val; omega)))
    (fun k => show V c main_v146 (((cfg7.win 1).blk t).view.emb (ix2 p k)) = V c main_v146 (ix2 (fusion_rowAt t p) k) from
      congrArg (V c main_v146) (funext fun a => Fin.ext (by
        match a with
        | ⟨0, _⟩ => show win7_1.index t (0 : Fin 2) * 5000 + 1 * p.val = 5000 * t.val + p.val; omega
        | ⟨1, _⟩ => show win7_1.index t (1 : Fin 2) * 128 + 1 * k.val = k.val; omega)))
    (fun k j => show V c main_v147 (((cfg7.win 2).blk t).view.emb (ix2 k j)) = V c main_v147 (ix2 k j) from
      congrArg (V c main_v147) (funext fun a => Fin.ext (by
        match a with
        | ⟨0, _⟩ => show win7_2.index t (0 : Fin 2) * 128 + 1 * k.val = k.val; omega
        | ⟨1, _⟩ => show win7_2.index t (1 : Fin 2) * 2 + 1 * j.val = j.val; omega)))
    (fun k j => show V c main_v148 (((cfg7.win 3).blk t).view.emb (ix2 k j)) = V c main_v148 (ix2 k j) from
      congrArg (V c main_v148) (funext fun a => Fin.ext (by
        match a with
        | ⟨0, _⟩ => show win7_3.index t (0 : Fin 2) * 128 + 1 * k.val = k.val; omega
        | ⟨1, _⟩ => show win7_3.index t (1 : Fin 2) * 2 + 1 * j.val = j.val; omega)))
    (fun j => show V c main_arg9 (((cfg7.win 4).blk t).view.emb (ix1 j)) = V c main_arg9 (ix1 j) from
      congrArg (V c main_arg9) (funext fun a => Fin.ext (by
        match a with
        | ⟨0, _⟩ => show win7_4.index t (0 : Fin 1) * 2 + 1 * j.val = j.val; omega)))
    q

/-- What point t writes back to the fused array is block t of the specification's fused array. -/
theorem fuse_flushed (c : Dev nD) (t : Fin cfg7.N) :
    (dat7 (F := Ideal) V c).flushed 14 t
      = ((cfg7.win 14).blk t).view.read (Elt Ideal) (Spec.fuseArr (V c main_v73) (V c main_v146) (V c main_v147) (V c main_v148) (V c main_arg9)) := by
  show (cfg7.win 14).cut (grid7.coords t) ((dat7 (F := Ideal) V c).after 14 t) = _
  rw [after7_14]
  unfold out7_14
  rw [View.canon_unit_zero fusion_zeros2]
  simp only [View.ld_unit_zero (S := S5000x128) fusion_zeros2, View.ld_unit_zero (S := S128x2) fusion_zeros2,
    View.ld_unit_zero (S := S2) fusion_zeros1]
  obtain ⟨r0_0, r0_1, r1_0, r1_1, r13_0, r13_1, r14_0, r14_1⟩ := fusion_index_rows t
  funext j
  obtain ⟨p, q, rfl⟩ : ∃ (p : Fin 5000) (q : Fin 128), j = ix2 p q := ⟨j 0, j 1, eq_ix2 j⟩
  have hemb : ((cfg7.win 14).blk t).view.emb (ix2 p q) = ix2 (fusion_rowAt t p) q := by
    funext a; apply Fin.ext
    match a with
    | ⟨0, _⟩ => show win7_14.index t (0 : Fin 2) * 5000 + 1 * p.val = 5000 * t.val + p.val; omega
    | ⟨1, _⟩ => show win7_14.index t (1 : Fin 2) * 128 + 1 * q.val = q.val; omega
  show k7_pay2 (F := Ideal) (iblk7 V c 0 t) (iblk7 V c 1 t) (iblk7 V c 2 t) (iblk7 V c 3 t) (iblk7 V c 4 t) (ix2 p q)
    = Spec.fuseArr (V c main_v73) (V c main_v146) (V c main_v147) (V c main_v148) (V c main_arg9) (((cfg7.win 14).blk t).view.emb (ix2 p q))
  rw [hemb, Spec.fuseArr_apply]
  exact fuse_entry V c t p q

/-- What point t writes back to the packed head array is block t of the specification's packed head array. -/
theorem heads_flushed (c : Dev nD) (t : Fin cfg7.N) :
    (dat7 (F := Ideal) V c).flushed 13 t
      = ((cfg7.win 13).blk t).view.read (Elt Ideal) (Spec.headsArr (V c main_v73) (V c main_v146) (V c main_v147) (V c main_v148) (V c main_arg9)
          (V c main_arg10) (V c main_arg11) (V c main_arg12) (V c main_arg13)
          (V c main_arg14) (V c main_arg15) (V c main_arg16) (V c main_arg17)) := by
  show (cfg7.win 13).cut (grid7.coords t) ((dat7 (F := Ideal) V c).after 13 t) = _
  rw [after7_13]
  unfold out7_13
  rw [View.canon_unit_zero fusion_zeros2]
  simp only [View.ld_unit_zero (S := S5000x128) fusion_zeros2, View.ld_unit_zero (S := S128x2) fusion_zeros2,
    View.ld_unit_zero (S := S2) fusion_zeros1, View.ld_unit_zero (S := S128x64) fusion_zeros2,
    View.ld_unit_zero (S := S64) fusion_zeros1, View.ld_unit_zero (S := S64x2) fusion_zeros2,
    View.ld_unit_zero (S := S64x5) fusion_zeros2, View.ld_unit_zero (S := S5) fusion_zeros1]
  obtain ⟨r0_0, r0_1, r1_0, r1_1, r13_0, r13_1, r14_0, r14_1⟩ := fusion_index_rows t
  obtain ⟨z5_0, z5_1, z6_0, z7_0, z7_1, z8_0, z9_0, z9_1, z10_0, z11_0, z11_1, z12_0⟩ := fusion_index_heads t
  funext j
  obtain ⟨p, q, rfl⟩ : ∃ (p : Fin 5000) (q : Fin 128), j = ix2 p q := ⟨j 0, j 1, eq_ix2 j⟩
  have hemb : ((cfg7.win 13).blk t).view.emb (ix2 p q) = ix2 (fusion_rowAt t p) q := by
    funext a; apply Fin.ext
    match a with
    | ⟨0, _⟩ => show win7_13.index t (0 : Fin 2) * 5000 + 1 * p.val = 5000 * t.val + p.val; omega
    | ⟨1, _⟩ => show win7_13.index t (1 : Fin 2) * 128 + 1 * q.val = q.val; omega
  show k7_pay1 (F := Ideal) (k7_pay3 (iblk7 V c 0 t) (iblk7 V c 1 t) (iblk7 V c 2 t) (iblk7 V c 3 t) (iblk7 V c 4 t)) (k7_pay4 (iblk7 V c 0 t) (iblk7 V c 1 t) (iblk7 V c 2 t) (iblk7 V c 3 t) (iblk7 V c 4 t) (iblk7 V c 5 t))
      (iblk7 V c 6 t) (iblk7 V c 7 t) (iblk7 V c 8 t) (iblk7 V c 9 t) (iblk7 V c 10 t) (iblk7 V c 11 t) (iblk7 V c 12 t) (ix2 p q)
    = Spec.headsArr (V c main_v73) (V c main_v146) (V c main_v147) (V c main_v148) (V c main_arg9)
          (V c main_arg10) (V c main_arg11) (V c main_arg12) (V c main_arg13)
          (V c main_arg14) (V c main_arg15) (V c main_arg16) (V c main_arg17) (((cfg7.win 13).blk t).view.emb (ix2 p q))
  rw [hemb, Spec.headsArr_apply, FusionTiles.headsAt_eq_row]
  refine (FusionTiles.heads_tile_apply (k7_pay3 (iblk7 V c 0 t) (iblk7 V c 1 t) (iblk7 V c 2 t) (iblk7 V c 3 t) (iblk7 V c 4 t)) (k7_pay4 (iblk7 V c 0 t) (iblk7 V c 1 t) (iblk7 V c 2 t) (iblk7 V c 3 t) (iblk7 V c 4 t) (iblk7 V c 5 t))
      (iblk7 V c 5 t) (iblk7 V c 6 t) (iblk7 V c 7 t) (iblk7 V c 8 t) (iblk7 V c 9 t) (iblk7 V c 10 t) (iblk7 V c 11 t) (iblk7 V c 12 t) p q
      (fun j => FusionTiles.first_pre_tile_apply (iblk7 V c 0 t) (iblk7 V c 1 t) (iblk7 V c 2 t) (iblk7 V c 3 t) (iblk7 V c 4 t) (iblk7 V c 5 t) p j)).trans ?_
  exact FusionTiles.headsRow_congr
    (fun k => fuse_entry V c t p k)
    (fun k j => show V c main_arg10 (((cfg7.win 5).blk t).view.emb (ix2 k j)) = V c main_arg10 (ix2 k j) from
      congrArg (V c main_arg10) (funext fun a => Fin.ext (by
        match a with
        | ⟨0, _⟩ => show win7_5.index t (0 : Fin 2) * 128 + 1 * k.val = k.val; omega
        | ⟨1, _⟩ => show win7_5.index t (1 : Fin 2) * 64 + 1 * j.val = j.val; omega)))
    (fun j => show V c main_arg11 (((cfg7.win 6).blk t).view.emb (ix1 j)) = V c main_arg11 (ix1 j) from
      congrArg (V c main_arg11) (funext fun a => Fin.ext (by
        match a with
        | ⟨0, _⟩ => show win7_6.index t (0 : Fin 1) * 64 + 1 * j.val = j.val; omega)))
    (fun k j => show V c main_arg12 (((cfg7.win 7).blk t).view.emb (ix2 k j)) = V c main_arg12 (ix2 k j) from
      congrArg (V c main_arg12) (funext fun a => Fin.ext (by
        match a with
        | ⟨0, _⟩ => show win7_7.index t (0 : Fin 2) * 64 + 1 * k.val = k.val; omega
        | ⟨1, _⟩ => show win7_7.index t (1 : Fin 2) * 2 + 1 * j.val = j.val; omega)))
    (fun j => show V c main_arg13 (((cfg7.win 8).blk t).view.emb (ix1 j)) = V c main_arg13 (ix1 j) from
      congrArg (V c main_arg13) (funext fun a => Fin.ext (by
        match a with
        | ⟨0, _⟩ => show win7_8.index t (0 : Fin 1) * 2 + 1 * j.val = j.val; omega)))
    (fun k j => show V c main_arg14 (((cfg7.win 9).blk t).view.emb (ix2 k j)) = V c main_arg14 (ix2 k j) from
      congrArg (V c main_arg14) (funext fun a => Fin.ext (by
        match a with
        | ⟨0, _⟩ => show win7_9.index t (0 : Fin 2) * 128 + 1 * k.val = k.val; omega
        | ⟨1, _⟩ => show win7_9.index t (1 : Fin 2) * 64 + 1 * j.val = j.val; omega)))
    (fun j => show V c main_arg15 (((cfg7.win 10).blk t).view.emb (ix1 j)) = V c main_arg15 (ix1 j) from
      congrArg (V c main_arg15) (funext fun a => Fin.ext (by
        match a with
        | ⟨0, _⟩ => show win7_10.index t (0 : Fin 1) * 64 + 1 * j.val = j.val; omega)))
    (fun k j => show V c main_arg16 (((cfg7.win 11).blk t).view.emb (ix2 k j)) = V c main_arg16 (ix2 k j) from
      congrArg (V c main_arg16) (funext fun a => Fin.ext (by
        match a with
        | ⟨0, _⟩ => show win7_11.index t (0 : Fin 2) * 64 + 1 * k.val = k.val; omega
        | ⟨1, _⟩ => show win7_11.index t (1 : Fin 2) * 5 + 1 * j.val = j.val; omega)))
    (fun j => show V c main_arg17 (((cfg7.win 12).blk t).view.emb (ix1 j)) = V c main_arg17 (ix1 j) from
      congrArg (V c main_arg17) (funext fun a => Fin.ext (by
        match a with
        | ⟨0, _⟩ => show win7_12.index t (0 : Fin 1) * 5 + 1 * j.val = j.val; omega)))
    q

/-- An index of either output array is in point t's block iff each coordinate is in the block's range on its axis. -/
theorem fuse_mem_blk (t : Fin cfg7.N) (i : S100000x128.Idx) :
    i ∈ ((cfg7.win 14).blk t).view.set
      ↔ ∀ a : Fin 2, win7_14.index t a * S5000x128.size a ≤ (i a).val ∧ (i a).val < win7_14.index t a * S5000x128.size a + S5000x128.size a := by
  show i ∈ ((View.whole main_v149_1).slice (win7_14.rect t)).set ↔ _
  rw [View.set_slice_whole, Rect.mem_set_unit]
  exact Iff.rfl

theorem heads_mem_blk (t : Fin cfg7.N) (i : S100000x128.Idx) :
    i ∈ ((cfg7.win 13).blk t).view.set
      ↔ ∀ a : Fin 2, win7_13.index t a * S5000x128.size a ≤ (i a).val ∧ (i a).val < win7_13.index t a * S5000x128.size a + S5000x128.size a := by
  show i ∈ ((View.whole main_v149_0).slice (win7_13.rect t)).set ↔ _
  rw [View.set_slice_whole, Rect.mem_set_unit]
  exact Iff.rfl

/-- Region 7's first output array (the packed head rows) after its twenty grid points. -/
theorem heads7 (c : Dev nD) :
    (dat7 (F := Ideal) V c).arrAt 13 cfg7.N
      = Spec.headsArr (V c main_v73) (V c main_v146) (V c main_v147) (V c main_v148) (V c main_arg9)
          (V c main_arg10) (V c main_arg11) (V c main_arg12) (V c main_arg13)
          (V c main_arg14) (V c main_arg15) (V c main_arg16) (V c main_arg17) := by
  refine (dat7 (F := Ideal) V c).arrAt_eq_of_cover 13 _ (fun t _ => heads_flushed V c t) fun i => ?_
  have hi0 : (i 0).val < 100000 := (i 0).isLt
  have hi1 : (i 1).val < 128 := (i 1).isLt
  have ht : (i 0).val / 5000 < 20 := by omega
  obtain ⟨r0_0, r0_1, r1_0, r1_1, r13_0, r13_1, r14_0, r14_1⟩ := fusion_index_rows ⟨(i 0).val / 5000, ht⟩
  refine ⟨⟨(i 0).val / 5000, ht⟩, flush7_13 _, ?_⟩
  rw [heads_mem_blk]
  intro a
  match a with
  | ⟨0, _⟩ =>
    show win7_13.index ⟨(i 0).val / 5000, ht⟩ (0 : Fin 2) * 5000 ≤ (i 0).val ∧ (i 0).val < win7_13.index ⟨(i 0).val / 5000, ht⟩ (0 : Fin 2) * 5000 + 5000
    rw [r13_0]; show (i 0).val / 5000 * 5000 ≤ (i 0).val ∧ (i 0).val < (i 0).val / 5000 * 5000 + 5000; omega
  | ⟨1, _⟩ =>
    show win7_13.index ⟨(i 0).val / 5000, ht⟩ (1 : Fin 2) * 128 ≤ (i 1).val ∧ (i 1).val < win7_13.index ⟨(i 0).val / 5000, ht⟩ (1 : Fin 2) * 128 + 128
    rw [r13_1]; omega

/-- Region 7's second output array (the fused rows) after its twenty grid points. -/
theorem fuse7 (c : Dev nD) :
    (dat7 (F := Ideal) V c).arrAt 14 cfg7.N
      = Spec.fuseArr (V c main_v73) (V c main_v146) (V c main_v147) (V c main_v148) (V c main_arg9) := by
  refine (dat7 (F := Ideal) V c).arrAt_eq_of_cover 14 _ (fun t _ => fuse_flushed V c t) fun i => ?_
  have hi0 : (i 0).val < 100000 := (i 0).isLt
  have hi1 : (i 1).val < 128 := (i 1).isLt
  have ht : (i 0).val / 5000 < 20 := by omega
  obtain ⟨r0_0, r0_1, r1_0, r1_1, r13_0, r13_1, r14_0, r14_1⟩ := fusion_index_rows ⟨(i 0).val / 5000, ht⟩
  refine ⟨⟨(i 0).val / 5000, ht⟩, flush7_14 _, ?_⟩
  rw [fuse_mem_blk]
  intro a
  match a with
  | ⟨0, _⟩ =>
    show win7_14.index ⟨(i 0).val / 5000, ht⟩ (0 : Fin 2) * 5000 ≤ (i 0).val ∧ (i 0).val < win7_14.index ⟨(i 0).val / 5000, ht⟩ (0 : Fin 2) * 5000 + 5000
    rw [r14_0]; show (i 0).val / 5000 * 5000 ≤ (i 0).val ∧ (i 0).val < (i 0).val / 5000 * 5000 + 5000; omega
  | ⟨1, _⟩ =>
    show win7_14.index ⟨(i 0).val / 5000, ht⟩ (1 : Fin 2) * 128 ≤ (i 1).val ∧ (i 1).val < win7_14.index ⟨(i 0).val / 5000, ht⟩ (1 : Fin 2) * 128 + 128
    rw [r14_1]; omega

end Cert.KernelIdeal.Region

end
-- ==== Proof.ChainDefs.lean ====
/-
  The host-side pieces between the dense stages, each as a function of explicit arrays on the extended reals, spelt as
  the program's host operations give them, and the two towers of three layers built from them.

  An edge array e has two rows of 1600000 integer words: row 0 the source node of each edge, row 1 its destination.
  For a node array h (100000 rows of 128 numbers):
  * den e is the column of 1 / max(number of edges arriving at the node, 1);
  * agg e h sums, for every node, the rows of h at the sources of the edges arriving at it (a source word below zero
    is read 100000 higher; the rows pass through the narrower float format and back, which changes nothing here);
  * a layer is the dense layer stage of Spec over agg e h, den e, h itself, the two weight blocks stacked into 256
    rows and the bias row;
  * a tower is three layers over one edge array, starting from the embedding stage.
-/
import proofs.«140245_j83245056131912_2_alg».proof.Proof.Gen.KernelIdeal
import proofs.«140245_j83245056131912_2_alg».proof.Proof.Spec

noncomputable section

namespace Cert.KernelIdeal.Chain

open Cert.KernelIdeal Cert.KernelIdeal.Gen Idealize.ShloMosaic

/-- Arrays of the program's buffer types, at the ideal instance. -/
abbrev Edges : Type := (⟨S2x1600000, .i32⟩ : BufTy).Contents (Elt Ideal)
abbrev EdgeVec : Type := (⟨S1600000, .i32⟩ : BufTy).Contents (Elt Ideal)
abbrev EdgeCol : Type := (⟨S1600000x1, .i32⟩ : BufTy).Contents (Elt Ideal)
abbrev Nodes : Type := (⟨S100000x128, .f32⟩ : BufTy).Contents (Elt Ideal)
abbrev NodeCol : Type := (⟨S100000x1, .f32⟩ : BufTy).Contents (Elt Ideal)
abbrev Wts : Type := (⟨S2x3x128x128, .f32⟩ : BufTy).Contents (Elt Ideal)
abbrev Bias : Type := (⟨S2x3x128, .f32⟩ : BufTy).Contents (Elt Ideal)

/-! ## The edge array's two rows -/

/-- Row 0 of the edge array as a vector: the source node of each edge. -/
def srcIdx (e : Edges) : EdgeVec :=
  shapeCast S1600000 (extractStridedSlice S1x1600000 ![0, 0] e slices_S2x1600000_S1x1600000_0_0) shapeCasts_S1x1600000_S1600000

/-- Row 1 of the edge array as a vector: the destination node of each edge. -/
def dstIdx (e : Edges) : EdgeVec :=
  shapeCast S1600000 (extractStridedSlice S1x1600000 ![1, 0] e slices_S2x1600000_S1x1600000_1_0) shapeCasts_S1x1600000_S1600000

/-- Destination words as a column of one-entry index vectors (what a scatter takes). -/
def dstColOf (dst : EdgeVec) : EdgeCol :=
  broadcastInDim S1600000x1 ![0] bcast_S1600000_S1600000x1_0 dst

/-- Source words, a word below zero read 100000 higher, as a column of one-entry index vectors (what a gather takes). -/
def srcColOf (src : EdgeVec) : EdgeCol :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-! ## The scale column and the summed neighbour rows -/

/-- For every node the number of edges arriving at it: ones scattered into zeros at the destinations. -/
def degreeOf (dst : EdgeVec) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (dstColOf dst)
    (broadcastInDim S1600000 ![] bcast_S_S1600000 (constant (F := Ideal) S_ .f32 0x3F800000#32))

/-- The scale column over a destination vector: 1 / max(degree, 1), as a [100000, 1] array. -/
def denOf (dst : EdgeVec) : NodeCol :=
  broadcastInDim S100000x1 ![0] bcast_S100000_S100000x1_0
    (Host.divf (F := Ideal) (broadcastInDim S100000 ![] bcast_S_S100000 (constant (F := Ideal) S_ .f32 0x3F800000#32))
      (maximumf (F := Ideal) (degreeOf dst) (broadcastInDim S100000 ![] bcast_S_S100000 (constant (F := Ideal) S_ .f32 0x3F800000#32))))

/-- The scale column of an edge array. -/
def den (e : Edges) : NodeCol := denOf (dstIdx e)

/-- The rows of h at the edges' sources, through the narrower float format and back. -/
def gatheredOf (src : EdgeVec) (h : Nodes) : (⟨S1600000x128, .f32⟩ : BufTy).Contents (Elt Ideal) :=
  extf (F := Ideal) .f32
    (Host.gather gather_S100000x128_S1600000x1_S1600000x128_1_0_n_n_0_1_1128 (truncf (F := Ideal) .bf16 h bitsLt_bf16_f32) (srcColOf src))
    bitsLt_bf16_f32

/-- The summed neighbour rows over a source and a destination vector: the gathered rows scattered into zeros at the
    destinations. -/
def aggOf (src dst : EdgeVec) (h : Nodes) : Nodes :=
  Host.scatterAdd (F := Ideal) scatter_S100000x128_S1600000x1_S1600000x128_1_0_0_1
    (broadcastInDim S100000x128 ![] bcast_S_S100000x128 (constant (F := Ideal) S_ .f32 0x00000000#32))
    (dstColOf dst)
    (gatheredOf src h)

/-- The summed neighbour rows of an edge array. -/
def agg (e : Edges) (h : Nodes) : Nodes := aggOf (srcIdx e) (dstIdx e) h

/-! ## A layer's weights -/

/-- One 128 × 128 block of a [2, 3, 128, 128] weight array. -/
def wBlock (off : Fin 4 → Nat) (hs : S2x3x128x128.Slices off S1x1x128x128) (W : Wts) :
    (⟨S128x128, .f32⟩ : BufTy).Contents (Elt Ideal) :=
  shapeCast S128x128 (extractStridedSlice S1x1x128x128 off W hs) shapeCasts_S1x1x128x128_S128x128

/-- The stacked weights of a layer: the block of Wl over the block of Wr, 256 rows. -/
def wcatAt (off : Fin 4 → Nat) (hs : S2x3x128x128.Slices off S1x1x128x128) (Wl Wr : Wts) :
    (⟨S256x128, .f32⟩ : BufTy).Contents (Elt Ideal) :=
  concatenate S256x128 0 [⟨S128x128, wBlock off hs Wl⟩, ⟨S128x128, wBlock off hs Wr⟩] concatenates_S128x128_S128x128_S256x128_d0

/-- The bias row of a layer: one row of a [2, 3, 128] array. -/
def blAt (off : Fin 3 → Nat) (hs : S2x3x128.Slices off S1x1x128) (b : Bias) : (⟨S128, .f32⟩ : BufTy).Contents (Elt Ideal) :=
  shapeCast S128 (extractStridedSlice S1x1x128 off b hs) shapeCasts_S1x1x128_S128

def wcat1 (Wl Wr : Wts) := wcatAt ![0, 0, 0, 0] slices_S2x3x128x128_S1x1x128x128_0_0_0_0 Wl Wr
def wcat2 (Wl Wr : Wts) := wcatAt ![0, 1, 0, 0] slices_S2x3x128x128_S1x1x128x128_0_1_0_0 Wl Wr
def wcat3 (Wl Wr : Wts) := wcatAt ![0, 2, 0, 0] slices_S2x3x128x128_S1x1x128x128_0_2_0_0 Wl Wr
def wcat4 (Wl Wr : Wts) := wcatAt ![1, 0, 0, 0] slices_S2x3x128x128_S1x1x128x128_1_0_0_0 Wl Wr
def wcat5 (Wl Wr : Wts) := wcatAt ![1, 1, 0, 0] slices_S2x3x128x128_S1x1x128x128_1_1_0_0 Wl Wr
def wcat6 (Wl Wr : Wts) := wcatAt ![1, 2, 0, 0] slices_S2x3x128x128_S1x1x128x128_1_2_0_0 Wl Wr

def bl1 (b : Bias) := blAt ![0, 0, 0] slices_S2x3x128_S1x1x128_0_0_0 b
def bl2 (b : Bias) := blAt ![0, 1, 0] slices_S2x3x128_S1x1x128_0_1_0 b
def bl3 (b : Bias) := blAt ![0, 2, 0] slices_S2x3x128_S1x1x128_0_2_0 b
def bl4 (b : Bias) := blAt ![1, 0, 0] slices_S2x3x128_S1x1x128_1_0_0 b
def bl5 (b : Bias) := blAt ![1, 1, 0] slices_S2x3x128_S1x1x128_1_1_0 b
def bl6 (b : Bias) := blAt ![1, 2, 0] slices_S2x3x128_S1x1x128_1_2_0 b

/-! ## The layers and the two towers -/

def layer1 (e : Edges) (h : Nodes) (Wl : Wts) (b : Bias) (Wr : Wts) : Nodes := Spec.sageArr (agg e h) (den e) h (wcat1 Wl Wr) (bl1 b)
def layer2 (e : Edges) (h : Nodes) (Wl : Wts) (b : Bias) (Wr : Wts) : Nodes := Spec.sageArr (agg e h) (den e) h (wcat2 Wl Wr) (bl2 b)
def layer3 (e : Edges) (h : Nodes) (Wl : Wts) (b : Bias) (Wr : Wts) : Nodes := Spec.sageArr (agg e h) (den e) h (wcat3 Wl Wr) (bl3 b)
def layer4 (e : Edges) (h : Nodes) (Wl : Wts) (b : Bias) (Wr : Wts) : Nodes := Spec.sageArr (agg e h) (den e) h (wcat4 Wl Wr) (bl4 b)
def layer5 (e : Edges) (h : Nodes) (Wl : Wts) (b : Bias) (Wr : Wts) : Nodes := Spec.sageArr (agg e h) (den e) h (wcat5 Wl Wr) (bl5 b)
def layer6 (e : Edges) (h : Nodes) (Wl : Wts) (b : Bias) (Wr : Wts) : Nodes := Spec.sageArr (agg e h) (den e) h (wcat6 Wl Wr) (bl6 b)

/-- The first relation's tower: layers 1, 2, 3 over its edge array, from the embedding of x. -/
def o0 (x : Nodes) (e0 : Edges) (w : (⟨S128x128, .f32⟩ : BufTy).Contents (Elt Ideal)) (b : (⟨S128, .f32⟩ : BufTy).Contents (Elt Ideal))
    (Wl : Wts) (bl : Bias) (Wr : Wts) : Nodes :=
  layer3 e0 (layer2 e0 (layer1 e0 (Spec.embArr x w b) Wl bl Wr) Wl bl Wr) Wl bl Wr

/-- The second relation's tower: layers 4, 5, 6 over its edge array, from the same embedding of x. -/
def o1 (x : Nodes) (e1 : Edges) (w : (⟨S128x128, .f32⟩ : BufTy).Contents (Elt Ideal)) (b : (⟨S128, .f32⟩ : BufTy).Contents (Elt Ideal))
    (Wl : Wts) (bl : Bias) (Wr : Wts) : Nodes :=
  layer6 e1 (layer5 e1 (layer4 e1 (Spec.embArr x w b) Wl bl Wr) Wl bl Wr) Wl bl Wr

/-! ## The attention weights' two blocks -/

/-- Rows 0..127 of the [256, 2] attention weights: the block acting on the first tower's rows. -/
def wa0 (A : (⟨S256x2, .f32⟩ : BufTy).Contents (Elt Ideal)) : (⟨S128x2, .f32⟩ : BufTy).Contents (Elt Ideal) :=
  extractStridedSlice S128x2 ![0, 0] A slices_S256x2_S128x2_0_0

/-- Rows 128..255 of the [256, 2] attention weights: the block acting on the second tower's rows. -/
def wa1 (A : (⟨S256x2, .f32⟩ : BufTy).Contents (Elt Ideal)) : (⟨S128x2, .f32⟩ : BufTy).Contents (Elt Ideal) :=
  extractStridedSlice S128x2 ![128, 0] A slices_S256x2_S128x2_128_0

/-! ## The two result slices of the packed head rows -/

/-- Columns 0, 1 of a 128-wide array. -/
def cols02 (y : Nodes) : (⟨S100000x2, .f32⟩ : BufTy).Contents (Elt Ideal) :=
  extractStridedSlice S100000x2 ![0, 0] y slices_S100000x128_S100000x2_0_0

/-- Columns 2..6 of a 128-wide array. -/
def cols27 (y : Nodes) : (⟨S100000x5, .f32⟩ : BufTy).Contents (Elt Ideal) :=
  extractStridedSlice S100000x5 ![0, 2] y slices_S100000x128_S100000x5_0_2

end Cert.KernelIdeal.Chain

end
-- ==== Proof.ChainHost.lean ====
/-
  Each stretch of host operations between two regions, read at the buffers the next region (or the caller) takes, over ANY
  contents W of the buffers before the stretch: the buffer holds the corresponding piece of ChainDefs applied to W's arrays.
  And: a buffer that no operation of a stretch writes holds after the stretch what it held before.
-/
import proofs.«140245_j83245056131912_2_alg».proof.Proof.Gen.KernelIdeal.Launch
import proofs.«140245_j83245056131912_2_alg».proof.Proof.ChainDefs

noncomputable section

namespace Cert.KernelIdeal.Chain

open Cert.KernelIdeal Cert.KernelIdeal.Gen Idealize.ShloMosaic Idealize.ShloMosaic.TcCoe

variable (W : Valuation τ sig (Elt Ideal))

/-! ## Buffers a stretch leaves alone -/

/-- The buffers stretch 1 writes. -/
abbrev wr1 : List (Ref sig .tc) :=
  [main_v1, main_v2, main_v3, main_v4, main_cst, main_v5, main_cst_0, main_v6, main_v7, main_v8, main_cst_1, main_v9, main_v10, main_cst_2, main_v11, main_v12, main_v13, main_v14, main_c, main_v15, main_v16, main_c_3, main_v17, main_v18, main_v19, main_v20, main_v21, main_v22, main_cst_4, main_v23, main_v24, main_v25, main_v26, main_v27, main_v28, main_v29, main_v30, main_v31, main_v32]

/-- A buffer stretch 1 does not write keeps its contents. -/
theorem keep1 (b : Ref sig .tc) (hb : b ∉ wr1) :
    StableHlo.after (hostOps1 (F := Ideal)) W (Proc.devRef .tc b) = W (Proc.devRef .tc b) :=
  StableHlo.after_of_forall_not_mem (b := (Proc.devRef .tc b)) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hb (h ▸ (by decide)))))

/-- The buffers stretch 2 writes. -/
abbrev wr2 : List (Ref sig .tc) :=
  [main_v34, main_c_5, main_v35, main_v36, main_c_6, main_v37, main_v38, main_v39, main_v40, main_v41, main_v42, main_cst_7, main_v43, main_v44, main_v45, main_v46, main_v47, main_v48, main_v49, main_v50, main_v51, main_v52]

/-- A buffer stretch 2 does not write keeps its contents. -/
theorem keep2 (b : Ref sig .tc) (hb : b ∉ wr2) :
    StableHlo.after (hostOps2 (F := Ideal)) W (Proc.devRef .tc b) = W (Proc.devRef .tc b) :=
  StableHlo.after_of_forall_not_mem (b := (Proc.devRef .tc b)) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hb (h ▸ (by decide)))))

/-- The buffers stretch 3 writes. -/
abbrev wr3 : List (Ref sig .tc) :=
  [main_v54, main_c_8, main_v55, main_v56, main_c_9, main_v57, main_v58, main_v59, main_v60, main_v61, main_v62, main_cst_10, main_v63, main_v64, main_v65, main_v66, main_v67, main_v68, main_v69, main_v70, main_v71, main_v72]

/-- A buffer stretch 3 does not write keeps its contents. -/
theorem keep3 (b : Ref sig .tc) (hb : b ∉ wr3) :
    StableHlo.after (hostOps3 (F := Ideal)) W (Proc.devRef .tc b) = W (Proc.devRef .tc b) :=
  StableHlo.after_of_forall_not_mem (b := (Proc.devRef .tc b)) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hb (h ▸ (by decide)))))

/-- The buffers stretch 4 writes. -/
abbrev wr4 : List (Ref sig .tc) :=
  [main_v74, main_v75, main_v76, main_v77, main_cst_11, main_v78, main_cst_12, main_v79, main_v80, main_v81, main_cst_13, main_v82, main_v83, main_cst_14, main_v84, main_v85, main_v86, main_v87, main_c_15, main_v88, main_v89, main_c_16, main_v90, main_v91, main_v92, main_v93, main_v94, main_v95, main_cst_17, main_v96, main_v97, main_v98, main_v99, main_v100, main_v101, main_v102, main_v103, main_v104, main_v105]

/-- A buffer stretch 4 does not write keeps its contents. -/
theorem keep4 (b : Ref sig .tc) (hb : b ∉ wr4) :
    StableHlo.after (hostOps4 (F := Ideal)) W (Proc.devRef .tc b) = W (Proc.devRef .tc b) :=
  StableHlo.after_of_forall_not_mem (b := (Proc.devRef .tc b)) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hb (h ▸ (by decide)))))

/-- The buffers stretch 5 writes. -/
abbrev wr5 : List (Ref sig .tc) :=
  [main_v107, main_c_18, main_v108, main_v109, main_c_19, main_v110, main_v111, main_v112, main_v113, main_v114, main_v115, main_cst_20, main_v116, main_v117, main_v118, main_v119, main_v120, main_v121, main_v122, main_v123, main_v124, main_v125]

/-- A buffer stretch 5 does not write keeps its contents. -/
theorem keep5 (b : Ref sig .tc) (hb : b ∉ wr5) :
    StableHlo.after (hostOps5 (F := Ideal)) W (Proc.devRef .tc b) = W (Proc.devRef .tc b) :=
  StableHlo.after_of_forall_not_mem (b := (Proc.devRef .tc b)) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hb (h ▸ (by decide)))))

/-- The buffers stretch 6 writes. -/
abbrev wr6 : List (Ref sig .tc) :=
  [main_v127, main_c_21, main_v128, main_v129, main_c_22, main_v130, main_v131, main_v132, main_v133, main_v134, main_v135, main_cst_23, main_v136, main_v137, main_v138, main_v139, main_v140, main_v141, main_v142, main_v143, main_v144, main_v145]

/-- A buffer stretch 6 does not write keeps its contents. -/
theorem keep6 (b : Ref sig .tc) (hb : b ∉ wr6) :
    StableHlo.after (hostOps6 (F := Ideal)) W (Proc.devRef .tc b) = W (Proc.devRef .tc b) :=
  StableHlo.after_of_forall_not_mem (b := (Proc.devRef .tc b)) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hb (h ▸ (by decide)))))

/-- The buffers stretch 7 writes. -/
abbrev wr7 : List (Ref sig .tc) :=
  [main_v147, main_v148]

/-- A buffer stretch 7 does not write keeps its contents. -/
theorem keep7 (b : Ref sig .tc) (hb : b ∉ wr7) :
    StableHlo.after (hostOps7 (F := Ideal)) W (Proc.devRef .tc b) = W (Proc.devRef .tc b) :=
  StableHlo.after_of_forall_not_mem (b := (Proc.devRef .tc b)) _ _ (List.forall_iff_forall_mem.mp (by
    simp only [hostOps7, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hb (h ▸ (by decide)))))

/-- The buffers stretch 8 writes. -/
abbrev wr8 : List (Ref sig .tc) :=
  [main_v150, main_v151]

/-- A buffer stretch 8 does not write keeps its contents. -/
theorem keep8 (b : Ref sig .tc) (hb : b ∉ wr8) :
    StableHlo.after (hostOps8 (F := Ideal)) W (Proc.devRef .tc b) = W (Proc.devRef .tc b) :=
  StableHlo.after_of_forall_not_mem (b := (Proc.devRef .tc b)) _ _ (List.forall_iff_forall_mem.mp (by
    simp only [hostOps8, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hb (h ▸ (by decide)))))

/-! ## Stretch 1: the first relation's edge rows, its scale column, layer 1's neighbour sums and weights -/

set_option maxHeartbeats 1000000

/-- The source vector of the first edge array. -/
theorem ops1_v2 : StableHlo.after (hostOps1 (F := Ideal)) W (Proc.devRef .tc main_v2)
    = srcIdx (W (Proc.devRef .tc main_arg1)) := by
  after_results_simp
  rfl
/-- The destination vector of the first edge array. -/
theorem ops1_v4 : StableHlo.after (hostOps1 (F := Ideal)) W (Proc.devRef .tc main_v4)
    = dstIdx (W (Proc.devRef .tc main_arg1)) := by
  after_results_simp
  rfl
/-- The first relation's scale column. -/
theorem ops1_v13 : StableHlo.after (hostOps1 (F := Ideal)) W (Proc.devRef .tc main_v13)
    = den (W (Proc.devRef .tc main_arg1)) := by
  after_results_simp
  rfl
/-- Layer 1's summed neighbour rows, of the embedded rows. -/
theorem ops1_v25 : StableHlo.after (hostOps1 (F := Ideal)) W (Proc.devRef .tc main_v25)
    = agg (W (Proc.devRef .tc main_arg1)) (W (Proc.devRef .tc main_v0)) := by
  after_results_simp
  rfl
/-- Layer 1's stacked weights. -/
theorem ops1_v30 : StableHlo.after (hostOps1 (F := Ideal)) W (Proc.devRef .tc main_v30)
    = wcat1 (W (Proc.devRef .tc main_arg5)) (W (Proc.devRef .tc main_arg7)) := by
  after_results_simp
  rfl
/-- Layer 1's bias row. -/
theorem ops1_v32 : StableHlo.after (hostOps1 (F := Ideal)) W (Proc.devRef .tc main_v32)
    = bl1 (W (Proc.devRef .tc main_arg6)) := by
  after_results_simp
  rfl
/-! ## Stretch 2: layer 2's neighbour sums (over the kept index vectors) and weights -/

/-- Layer 2's summed neighbour rows, of the previous layer's rows, over the kept source and destination vectors. -/
theorem ops2_v45 : StableHlo.after (hostOps2 (F := Ideal)) W (Proc.devRef .tc main_v45)
    = aggOf (W (Proc.devRef .tc main_v2)) (W (Proc.devRef .tc main_v4)) (W (Proc.devRef .tc main_v33)) := by
  after_results_simp
  rfl
/-- Layer 2's stacked weights. -/
theorem ops2_v50 : StableHlo.after (hostOps2 (F := Ideal)) W (Proc.devRef .tc main_v50)
    = wcat2 (W (Proc.devRef .tc main_arg5)) (W (Proc.devRef .tc main_arg7)) := by
  after_results_simp
  rfl
/-- Layer 2's bias row. -/
theorem ops2_v52 : StableHlo.after (hostOps2 (F := Ideal)) W (Proc.devRef .tc main_v52)
    = bl2 (W (Proc.devRef .tc main_arg6)) := by
  after_results_simp
  rfl
/-! ## Stretch 3: layer 3's neighbour sums (over the kept index vectors) and weights -/

/-- Layer 3's summed neighbour rows, of the previous layer's rows, over the kept source and destination vectors. -/
theorem ops3_v65 : StableHlo.after (hostOps3 (F := Ideal)) W (Proc.devRef .tc main_v65)
    = aggOf (W (Proc.devRef .tc main_v2)) (W (Proc.devRef .tc main_v4)) (W (Proc.devRef .tc main_v53)) := by
  after_results_simp
  rfl
/-- Layer 3's stacked weights. -/
theorem ops3_v70 : StableHlo.after (hostOps3 (F := Ideal)) W (Proc.devRef .tc main_v70)
    = wcat3 (W (Proc.devRef .tc main_arg5)) (W (Proc.devRef .tc main_arg7)) := by
  after_results_simp
  rfl
/-- Layer 3's bias row. -/
theorem ops3_v72 : StableHlo.after (hostOps3 (F := Ideal)) W (Proc.devRef .tc main_v72)
    = bl3 (W (Proc.devRef .tc main_arg6)) := by
  after_results_simp
  rfl
/-! ## Stretch 4: the second relation's edge rows, its scale column, layer 4's neighbour sums and weights -/

/-- The source vector of the second edge array. -/
theorem ops4_v75 : StableHlo.after (hostOps4 (F := Ideal)) W (Proc.devRef .tc main_v75)
    = srcIdx (W (Proc.devRef .tc main_arg2)) := by
  after_results_simp
  rfl
/-- The destination vector of the second edge array. -/
theorem ops4_v77 : StableHlo.after (hostOps4 (F := Ideal)) W (Proc.devRef .tc main_v77)
    = dstIdx (W (Proc.devRef .tc main_arg2)) := by
  after_results_simp
  rfl
/-- The second relation's scale column. -/
theorem ops4_v86 : StableHlo.after (hostOps4 (F := Ideal)) W (Proc.devRef .tc main_v86)
    = den (W (Proc.devRef .tc main_arg2)) := by
  after_results_simp
  rfl
/-- Layer 4's summed neighbour rows, of the embedded rows. -/
theorem ops4_v98 : StableHlo.after (hostOps4 (F := Ideal)) W (Proc.devRef .tc main_v98)
    = agg (W (Proc.devRef .tc main_arg2)) (W (Proc.devRef .tc main_v0)) := by
  after_results_simp
  rfl
/-- Layer 4's stacked weights. -/
theorem ops4_v103 : StableHlo.after (hostOps4 (F := Ideal)) W (Proc.devRef .tc main_v103)
    = wcat4 (W (Proc.devRef .tc main_arg5)) (W (Proc.devRef .tc main_arg7)) := by
  after_results_simp
  rfl
/-- Layer 4's bias row. -/
theorem ops4_v105 : StableHlo.after (hostOps4 (F := Ideal)) W (Proc.devRef .tc main_v105)
    = bl4 (W (Proc.devRef .tc main_arg6)) := by
  after_results_simp
  rfl
/-! ## Stretch 5: layer 5's neighbour sums (over the kept index vectors) and weights -/

/-- Layer 5's summed neighbour rows, of the previous layer's rows, over the kept source and destination vectors. -/
theorem ops5_v118 : StableHlo.after (hostOps5 (F := Ideal)) W (Proc.devRef .tc main_v118)
    = aggOf (W (Proc.devRef .tc main_v75)) (W (Proc.devRef .tc main_v77)) (W (Proc.devRef .tc main_v106)) := by
  after_results_simp
  rfl
/-- Layer 5's stacked weights. -/
theorem ops5_v123 : StableHlo.after (hostOps5 (F := Ideal)) W (Proc.devRef .tc main_v123)
    = wcat5 (W (Proc.devRef .tc main_arg5)) (W (Proc.devRef .tc main_arg7)) := by
  after_results_simp
  rfl
/-- Layer 5's bias row. -/
theorem ops5_v125 : StableHlo.after (hostOps5 (F := Ideal)) W (Proc.devRef .tc main_v125)
    = bl5 (W (Proc.devRef .tc main_arg6)) := by
  after_results_simp
  rfl
/-! ## Stretch 6: layer 6's neighbour sums (over the kept index vectors) and weights -/

/-- Layer 6's summed neighbour rows, of the previous layer's rows, over the kept source and destination vectors. -/
theorem ops6_v138 : StableHlo.after (hostOps6 (F := Ideal)) W (Proc.devRef .tc main_v138)
    = aggOf (W (Proc.devRef .tc main_v75)) (W (Proc.devRef .tc main_v77)) (W (Proc.devRef .tc main_v126)) := by
  after_results_simp
  rfl
/-- Layer 6's stacked weights. -/
theorem ops6_v143 : StableHlo.after (hostOps6 (F := Ideal)) W (Proc.devRef .tc main_v143)
    = wcat6 (W (Proc.devRef .tc main_arg5)) (W (Proc.devRef .tc main_arg7)) := by
  after_results_simp
  rfl
/-- Layer 6's bias row. -/
theorem ops6_v145 : StableHlo.after (hostOps6 (F := Ideal)) W (Proc.devRef .tc main_v145)
    = bl6 (W (Proc.devRef .tc main_arg6)) := by
  after_results_simp
  rfl
/-! ## Stretch 7: the attention weights' two blocks -/

/-- The block acting on the first tower's rows. -/
theorem ops7_v147 : StableHlo.after (hostOps7 (F := Ideal)) W (Proc.devRef .tc main_v147)
    = wa0 (W (Proc.devRef .tc main_arg8)) := by
  after_results_simp
  rfl
/-- The block acting on the second tower's rows. -/
theorem ops7_v148 : StableHlo.after (hostOps7 (F := Ideal)) W (Proc.devRef .tc main_v148)
    = wa1 (W (Proc.devRef .tc main_arg8)) := by
  after_results_simp
  rfl
/-! ## Stretch 8: the two result slices of the packed head rows -/

/-- Columns 0, 1 of the packed head rows. -/
theorem ops8_v150 : StableHlo.after (hostOps8 (F := Ideal)) W (Proc.devRef .tc main_v150)
    = cols02 (W (Proc.devRef .tc main_v149_0)) := by
  after_results_simp
  rfl
/-- Columns 2..6 of the packed head rows. -/
theorem ops8_v151 : StableHlo.after (hostOps8 (F := Ideal)) W (Proc.devRef .tc main_v151)
    = cols27 (W (Proc.devRef .tc main_v149_0)) := by
  after_results_simp
  rfl
end Cert.KernelIdeal.Chain

end
-- ==== Proof.KernelChain.lean ====
/-
  The contents of the three result buffers after the whole run, as ONE composite of the launch arrays: the boundaries
  between the regions and the host stretches are walked forward. At each boundary the buffers the next region or stretch
  reads are named: an argument array is still the launch array (no region and no host operation before it writes it); the
  embedding region leaves the embedded rows; each host stretch leaves the summed neighbour rows, the scale column and the
  layer's weights of what it found (ChainHost); each layer region leaves the layer stage of the arrays it found (the Region
  modules); the fusion region leaves the fused rows and the packed head rows of the two towers; the last stretch cuts the
  two head slices.
-/
import proofs.«140245_j83245056131912_2_alg».proof.Proof.Gen.KernelIdeal.Frame
import proofs.«140245_j83245056131912_2_alg».proof.Proof.RegionEmb
import proofs.«140245_j83245056131912_2_alg».proof.Proof.RegionSage1
import proofs.«140245_j83245056131912_2_alg».proof.Proof.RegionSage2
import proofs.«140245_j83245056131912_2_alg».proof.Proof.RegionSage3
import proofs.«140245_j83245056131912_2_alg».proof.Proof.RegionSage4
import proofs.«140245_j83245056131912_2_alg».proof.Proof.RegionSage5
import proofs.«140245_j83245056131912_2_alg».proof.Proof.RegionSage6
import proofs.«140245_j83245056131912_2_alg».proof.Proof.RegionFusion
import proofs.«140245_j83245056131912_2_alg».proof.Proof.ChainHost

set_option maxRecDepth 16384

noncomputable section

namespace Cert.KernelIdeal.Chain

open Cert.KernelIdeal Cert.KernelIdeal.Gen Idealize.ShloMosaic Idealize.ShloMosaic.TcCoe Idealize.SL.Sem

/-! ## Equal arrays give equal stages -/

theorem aggOf_congr {s s' d d' : EdgeVec} {h h' : Nodes} (hs : s = s') (hd : d = d') (hh : h = h') :
    aggOf s d h = aggOf s' d' h' := by subst hs hd hh; rfl

theorem sage_congr {a a' : Spec.Arr Spec.SN128} {d d' : Spec.Arr Spec.SN1} {h h' : Spec.Arr Spec.SN128}
    {w w' : Spec.Arr Spec.S256x128} {b b' : Spec.Arr Spec.S128}
    (ha : a = a') (hd : d = d') (hh : h = h') (hw : w = w') (hb : b = b') :
    Spec.sageArr a d h w b = Spec.sageArr a' d' h' w' b' := by subst ha hd hh hw hb; rfl

theorem fuse_congr {p p' q q' : Spec.Arr Spec.SN128} {u u' v v' : Spec.Arr Spec.S128x2} {ba ba' : Spec.Arr Spec.S2}
    (hp : p = p') (hq : q = q') (hu : u = u') (hv : v = v') (hba : ba = ba') :
    Spec.fuseArr p q u v ba = Spec.fuseArr p' q' u' v' ba' := by subst hp hq hu hv hba; rfl

theorem heads_congr {p p' q q' : Spec.Arr Spec.SN128} {u u' v v' : Spec.Arr Spec.S128x2} {ba ba' : Spec.Arr Spec.S2}
    {wc1 wc1' : Spec.Arr Spec.S128x64} {bc1 bc1' : Spec.Arr Spec.S64} {wc2 wc2' : Spec.Arr Spec.S64x2} {bc2 bc2' : Spec.Arr Spec.S2}
    {wp1 wp1' : Spec.Arr Spec.S128x64} {bp1 bp1' : Spec.Arr Spec.S64} {wp2 wp2' : Spec.Arr Spec.S64x5} {bp2 bp2' : Spec.Arr Spec.S5}
    (hp : p = p') (hq : q = q') (hu : u = u') (hv : v = v') (hba : ba = ba')
    (h1 : wc1 = wc1') (h2 : bc1 = bc1') (h3 : wc2 = wc2') (h4 : bc2 = bc2')
    (h5 : wp1 = wp1') (h6 : bp1 = bp1') (h7 : wp2 = wp2') (h8 : bp2 = bp2') :
    Spec.headsArr p q u v ba wc1 bc1 wc2 bc2 wp1 bp1 wp2 bp2 = Spec.headsArr p' q' u' v' ba' wc1' bc1' wc2' bc2' wp1' bp1' wp2' bp2' := by
  subst hp hq hu hv hba h1 h2 h3 h4 h5 h6 h7 h8; rfl

variable (m : (ℓ : Loc nD τ sig) → Buf (Elt Ideal) ℓ) (ρ : Dev nD → PrngReg) (c : Dev nD)

-- the launch array of a buffer on this core
set_option quotPrecheck false in
local notation:max "𝔞[" b "]" => m ((c : Thread nD τ).loc b)
-- the embedded rows
set_option quotPrecheck false in
local notation "𝐄" => Spec.embArr 𝔞[main_arg0] 𝔞[main_arg3] 𝔞[main_arg4]
-- the first relation's three layers
set_option quotPrecheck false in
local notation "𝐋₁" => layer1 𝔞[main_arg1] 𝐄 𝔞[main_arg5] 𝔞[main_arg6] 𝔞[main_arg7]
set_option quotPrecheck false in
local notation "𝐋₂" => layer2 𝔞[main_arg1] 𝐋₁ 𝔞[main_arg5] 𝔞[main_arg6] 𝔞[main_arg7]
set_option quotPrecheck false in
local notation "𝐋₃" => layer3 𝔞[main_arg1] 𝐋₂ 𝔞[main_arg5] 𝔞[main_arg6] 𝔞[main_arg7]
-- the second relation's three layers
set_option quotPrecheck false in
local notation "𝐌₁" => layer4 𝔞[main_arg2] 𝐄 𝔞[main_arg5] 𝔞[main_arg6] 𝔞[main_arg7]
set_option quotPrecheck false in
local notation "𝐌₂" => layer5 𝔞[main_arg2] 𝐌₁ 𝔞[main_arg5] 𝔞[main_arg6] 𝔞[main_arg7]
set_option quotPrecheck false in
local notation "𝐌₃" => layer6 𝔞[main_arg2] 𝐌₂ 𝔞[main_arg5] 𝔞[main_arg6] 𝔞[main_arg7]

/-! ## A buffer nothing has written yet is the launch array

`U k b`: no region before boundary `k` has `b` among its arrays and no host stretch before it writes `b`. -/

abbrev U1 (b : Ref sig .tc) : Prop := ∀ w, Pipeline.arrRef spec0 w ≠ b
abbrev U2 (b : Ref sig .tc) : Prop := U1 b ∧ b ∉ wr1
abbrev U3 (b : Ref sig .tc) : Prop := U2 b ∧ ∀ w, Pipeline.arrRef spec1 w ≠ b
abbrev U4 (b : Ref sig .tc) : Prop := U3 b ∧ b ∉ wr2
abbrev U5 (b : Ref sig .tc) : Prop := U4 b ∧ ∀ w, Pipeline.arrRef spec2 w ≠ b
abbrev U6 (b : Ref sig .tc) : Prop := U5 b ∧ b ∉ wr3
abbrev U7 (b : Ref sig .tc) : Prop := U6 b ∧ ∀ w, Pipeline.arrRef spec3 w ≠ b
abbrev U8 (b : Ref sig .tc) : Prop := U7 b ∧ b ∉ wr4
abbrev U9 (b : Ref sig .tc) : Prop := U8 b ∧ ∀ w, Pipeline.arrRef spec4 w ≠ b
abbrev U10 (b : Ref sig .tc) : Prop := U9 b ∧ b ∉ wr5
abbrev U11 (b : Ref sig .tc) : Prop := U10 b ∧ ∀ w, Pipeline.arrRef spec5 w ≠ b
abbrev U12 (b : Ref sig .tc) : Prop := U11 b ∧ b ∉ wr6
abbrev U13 (b : Ref sig .tc) : Prop := U12 b ∧ ∀ w, Pipeline.arrRef spec6 w ≠ b
abbrev U14 (b : Ref sig .tc) : Prop := U13 b ∧ b ∉ wr7

theorem at1 (b : Ref sig .tc) (h : U1 b) : W1 m ρ c (Proc.devRef .tc b) = 𝔞[b] := W1_of_ne m ρ c b h
theorem at2 (b : Ref sig .tc) (h : U2 b) : W2 m ρ c (Proc.devRef .tc b) = 𝔞[b] := (keep1 _ b h.2).trans (at1 m ρ c b h.1)
theorem at3 (b : Ref sig .tc) (h : U3 b) : W3 m ρ c (Proc.devRef .tc b) = 𝔞[b] := (W3_of_ne m ρ c b h.2).trans (at2 m ρ c b h.1)
theorem at4 (b : Ref sig .tc) (h : U4 b) : W4 m ρ c (Proc.devRef .tc b) = 𝔞[b] := (keep2 _ b h.2).trans (at3 m ρ c b h.1)
theorem at5 (b : Ref sig .tc) (h : U5 b) : W5 m ρ c (Proc.devRef .tc b) = 𝔞[b] := (W5_of_ne m ρ c b h.2).trans (at4 m ρ c b h.1)
theorem at6 (b : Ref sig .tc) (h : U6 b) : W6 m ρ c (Proc.devRef .tc b) = 𝔞[b] := (keep3 _ b h.2).trans (at5 m ρ c b h.1)
theorem at7 (b : Ref sig .tc) (h : U7 b) : W7 m ρ c (Proc.devRef .tc b) = 𝔞[b] := (W7_of_ne m ρ c b h.2).trans (at6 m ρ c b h.1)
theorem at8 (b : Ref sig .tc) (h : U8 b) : W8 m ρ c (Proc.devRef .tc b) = 𝔞[b] := (keep4 _ b h.2).trans (at7 m ρ c b h.1)
theorem at9 (b : Ref sig .tc) (h : U9 b) : W9 m ρ c (Proc.devRef .tc b) = 𝔞[b] := (W9_of_ne m ρ c b h.2).trans (at8 m ρ c b h.1)
theorem at10 (b : Ref sig .tc) (h : U10 b) : W10 m ρ c (Proc.devRef .tc b) = 𝔞[b] := (keep5 _ b h.2).trans (at9 m ρ c b h.1)
theorem at11 (b : Ref sig .tc) (h : U11 b) : W11 m ρ c (Proc.devRef .tc b) = 𝔞[b] := (W11_of_ne m ρ c b h.2).trans (at10 m ρ c b h.1)
theorem at12 (b : Ref sig .tc) (h : U12 b) : W12 m ρ c (Proc.devRef .tc b) = 𝔞[b] := (keep6 _ b h.2).trans (at11 m ρ c b h.1)
theorem at13 (b : Ref sig .tc) (h : U13 b) : W13 m ρ c (Proc.devRef .tc b) = 𝔞[b] := (W13_of_ne m ρ c b h.2).trans (at12 m ρ c b h.1)
theorem at14 (b : Ref sig .tc) (h : U14 b) : W14 m ρ c (Proc.devRef .tc b) = 𝔞[b] := (keep7 _ b h.2).trans (at13 m ρ c b h.1)

/-! ## Boundary 1: after region 0 -/

/-- The embedding region's output array. -/
theorem W1_v0 : W1 m ρ c (Proc.devRef .tc main_v0) = 𝐄 :=
  (W1_arr m ρ c 3).trans (Region.emb0 (V0 m ρ) c)

/-! ## Boundary 2: after stretch 1 (what region 1 reads) -/

theorem W2_v2 : W2 m ρ c (Proc.devRef .tc main_v2) = srcIdx 𝔞[main_arg1] :=
  (ops1_v2 _).trans (congrArg srcIdx (at1 m ρ c main_arg1 (by decide)))
theorem W2_v4 : W2 m ρ c (Proc.devRef .tc main_v4) = dstIdx 𝔞[main_arg1] :=
  (ops1_v4 _).trans (congrArg dstIdx (at1 m ρ c main_arg1 (by decide)))
theorem W2_v13 : W2 m ρ c (Proc.devRef .tc main_v13) = den 𝔞[main_arg1] :=
  (ops1_v13 _).trans (congrArg den (at1 m ρ c main_arg1 (by decide)))
theorem W2_v25 : W2 m ρ c (Proc.devRef .tc main_v25) = agg 𝔞[main_arg1] 𝐄 :=
  (ops1_v25 _).trans (congrArg₂ agg (at1 m ρ c main_arg1 (by decide)) (W1_v0 m ρ c))
theorem W2_v0 : W2 m ρ c (Proc.devRef .tc main_v0) = 𝐄 :=
  (keep1 _ main_v0 (by decide)).trans (W1_v0 m ρ c)
theorem W2_v30 : W2 m ρ c (Proc.devRef .tc main_v30) = wcat1 𝔞[main_arg5] 𝔞[main_arg7] :=
  (ops1_v30 _).trans (congrArg₂ wcat1 (at1 m ρ c main_arg5 (by decide)) (at1 m ρ c main_arg7 (by decide)))
theorem W2_v32 : W2 m ρ c (Proc.devRef .tc main_v32) = bl1 𝔞[main_arg6] :=
  (ops1_v32 _).trans (congrArg bl1 (at1 m ρ c main_arg6 (by decide)))

/-! ## Boundary 3: after region 1 -/

/-- Layer 1's rows. -/
theorem W3_v33 : W3 m ρ c (Proc.devRef .tc main_v33) = 𝐋₁ :=
  ((W3_arr m ρ c 5).trans (Region.sage1 (V2 m ρ) c)).trans
    (sage_congr (W2_v25 m ρ c) (W2_v13 m ρ c) (W2_v0 m ρ c) (W2_v30 m ρ c) (W2_v32 m ρ c))
theorem W3_v2 : W3 m ρ c (Proc.devRef .tc main_v2) = srcIdx 𝔞[main_arg1] :=
  (W3_of_ne m ρ c main_v2 (by decide)).trans (W2_v2 m ρ c)
theorem W3_v4 : W3 m ρ c (Proc.devRef .tc main_v4) = dstIdx 𝔞[main_arg1] :=
  (W3_of_ne m ρ c main_v4 (by decide)).trans (W2_v4 m ρ c)
/-- The scale column is one of region 1's input arrays: it ends as entered. -/
theorem W3_v13 : W3 m ρ c (Proc.devRef .tc main_v13) = den 𝔞[main_arg1] :=
  ((W3_arr m ρ c 1).trans (((dat1 (V2 m ρ) c).arrAt_in 1 rfl _).trans (A_eq1 (V2 m ρ) c 1))).trans (W2_v13 m ρ c)
/-- The embedded rows are one of region 1's input arrays: they end as entered. -/
theorem W3_v0 : W3 m ρ c (Proc.devRef .tc main_v0) = 𝐄 :=
  ((W3_arr m ρ c 2).trans (((dat1 (V2 m ρ) c).arrAt_in 2 rfl _).trans (A_eq1 (V2 m ρ) c 2))).trans (W2_v0 m ρ c)

/-! ## Boundary 4: after stretch 2 (what region 2 reads) -/

theorem W4_v2 : W4 m ρ c (Proc.devRef .tc main_v2) = srcIdx 𝔞[main_arg1] :=
  (keep2 _ main_v2 (by decide)).trans (W3_v2 m ρ c)
theorem W4_v4 : W4 m ρ c (Proc.devRef .tc main_v4) = dstIdx 𝔞[main_arg1] :=
  (keep2 _ main_v4 (by decide)).trans (W3_v4 m ρ c)
theorem W4_v13 : W4 m ρ c (Proc.devRef .tc main_v13) = den 𝔞[main_arg1] :=
  (keep2 _ main_v13 (by decide)).trans (W3_v13 m ρ c)
theorem W4_v33 : W4 m ρ c (Proc.devRef .tc main_v33) = 𝐋₁ :=
  (keep2 _ main_v33 (by decide)).trans (W3_v33 m ρ c)
theorem W4_v45 : W4 m ρ c (Proc.devRef .tc main_v45) = agg 𝔞[main_arg1] 𝐋₁ :=
  (ops2_v45 _).trans (aggOf_congr (W3_v2 m ρ c) (W3_v4 m ρ c) (W3_v33 m ρ c))
theorem W4_v50 : W4 m ρ c (Proc.devRef .tc main_v50) = wcat2 𝔞[main_arg5] 𝔞[main_arg7] :=
  (ops2_v50 _).trans (congrArg₂ wcat2 (at3 m ρ c main_arg5 (by decide)) (at3 m ρ c main_arg7 (by decide)))
theorem W4_v52 : W4 m ρ c (Proc.devRef .tc main_v52) = bl2 𝔞[main_arg6] :=
  (ops2_v52 _).trans (congrArg bl2 (at3 m ρ c main_arg6 (by decide)))
theorem W4_v0 : W4 m ρ c (Proc.devRef .tc main_v0) = 𝐄 :=
  (keep2 _ main_v0 (by decide)).trans (W3_v0 m ρ c)

/-! ## Boundary 5: after region 2 -/

/-- Layer 2's rows. -/
theorem W5_v53 : W5 m ρ c (Proc.devRef .tc main_v53) = 𝐋₂ :=
  ((W5_arr m ρ c 5).trans (Region.sage2 (V4 m ρ) c)).trans
    (sage_congr (W4_v45 m ρ c) (W4_v13 m ρ c) (W4_v33 m ρ c) (W4_v50 m ρ c) (W4_v52 m ρ c))
theorem W5_v2 : W5 m ρ c (Proc.devRef .tc main_v2) = srcIdx 𝔞[main_arg1] :=
  (W5_of_ne m ρ c main_v2 (by decide)).trans (W4_v2 m ρ c)
theorem W5_v4 : W5 m ρ c (Proc.devRef .tc main_v4) = dstIdx 𝔞[main_arg1] :=
  (W5_of_ne m ρ c main_v4 (by decide)).trans (W4_v4 m ρ c)
/-- The scale column is one of region 2's input arrays: it ends as entered. -/
theorem W5_v13 : W5 m ρ c (Proc.devRef .tc main_v13) = den 𝔞[main_arg1] :=
  ((W5_arr m ρ c 1).trans (((dat2 (V4 m ρ) c).arrAt_in 1 rfl _).trans (A_eq2 (V4 m ρ) c 1))).trans (W4_v13 m ρ c)
theorem W5_v0 : W5 m ρ c (Proc.devRef .tc main_v0) = 𝐄 :=
  (W5_of_ne m ρ c main_v0 (by decide)).trans (W4_v0 m ρ c)

/-! ## Boundary 6: after stretch 3 (what region 3 reads) -/

theorem W6_v2 : W6 m ρ c (Proc.devRef .tc main_v2) = srcIdx 𝔞[main_arg1] :=
  (keep3 _ main_v2 (by decide)).trans (W5_v2 m ρ c)
theorem W6_v4 : W6 m ρ c (Proc.devRef .tc main_v4) = dstIdx 𝔞[main_arg1] :=
  (keep3 _ main_v4 (by decide)).trans (W5_v4 m ρ c)
theorem W6_v13 : W6 m ρ c (Proc.devRef .tc main_v13) = den 𝔞[main_arg1] :=
  (keep3 _ main_v13 (by decide)).trans (W5_v13 m ρ c)
theorem W6_v53 : W6 m ρ c (Proc.devRef .tc main_v53) = 𝐋₂ :=
  (keep3 _ main_v53 (by decide)).trans (W5_v53 m ρ c)
theorem W6_v65 : W6 m ρ c (Proc.devRef .tc main_v65) = agg 𝔞[main_arg1] 𝐋₂ :=
  (ops3_v65 _).trans (aggOf_congr (W5_v2 m ρ c) (W5_v4 m ρ c) (W5_v53 m ρ c))
theorem W6_v70 : W6 m ρ c (Proc.devRef .tc main_v70) = wcat3 𝔞[main_arg5] 𝔞[main_arg7] :=
  (ops3_v70 _).trans (congrArg₂ wcat3 (at5 m ρ c main_arg5 (by decide)) (at5 m ρ c main_arg7 (by decide)))
theorem W6_v72 : W6 m ρ c (Proc.devRef .tc main_v72) = bl3 𝔞[main_arg6] :=
  (ops3_v72 _).trans (congrArg bl3 (at5 m ρ c main_arg6 (by decide)))
theorem W6_v0 : W6 m ρ c (Proc.devRef .tc main_v0) = 𝐄 :=
  (keep3 _ main_v0 (by decide)).trans (W5_v0 m ρ c)

/-! ## Boundary 7: after region 3 -/

/-- Layer 3's rows. -/
theorem W7_v73 : W7 m ρ c (Proc.devRef .tc main_v73) = 𝐋₃ :=
  ((W7_arr m ρ c 5).trans (Region.sage3 (V6 m ρ) c)).trans
    (sage_congr (W6_v65 m ρ c) (W6_v13 m ρ c) (W6_v53 m ρ c) (W6_v70 m ρ c) (W6_v72 m ρ c))
theorem W7_v0 : W7 m ρ c (Proc.devRef .tc main_v0) = 𝐄 :=
  (W7_of_ne m ρ c main_v0 (by decide)).trans (W6_v0 m ρ c)

/-! ## Boundary 8: after stretch 4 (what region 4 reads) -/

theorem W8_v75 : W8 m ρ c (Proc.devRef .tc main_v75) = srcIdx 𝔞[main_arg2] :=
  (ops4_v75 _).trans (congrArg srcIdx (at7 m ρ c main_arg2 (by decide)))
theorem W8_v77 : W8 m ρ c (Proc.devRef .tc main_v77) = dstIdx 𝔞[main_arg2] :=
  (ops4_v77 _).trans (congrArg dstIdx (at7 m ρ c main_arg2 (by decide)))
theorem W8_v86 : W8 m ρ c (Proc.devRef .tc main_v86) = den 𝔞[main_arg2] :=
  (ops4_v86 _).trans (congrArg den (at7 m ρ c main_arg2 (by decide)))
theorem W8_v98 : W8 m ρ c (Proc.devRef .tc main_v98) = agg 𝔞[main_arg2] 𝐄 :=
  (ops4_v98 _).trans (congrArg₂ agg (at7 m ρ c main_arg2 (by decide)) (W7_v0 m ρ c))
theorem W8_v0 : W8 m ρ c (Proc.devRef .tc main_v0) = 𝐄 :=
  (keep4 _ main_v0 (by decide)).trans (W7_v0 m ρ c)
theorem W8_v103 : W8 m ρ c (Proc.devRef .tc main_v103) = wcat4 𝔞[main_arg5] 𝔞[main_arg7] :=
  (ops4_v103 _).trans (congrArg₂ wcat4 (at7 m ρ c main_arg5 (by decide)) (at7 m ρ c main_arg7 (by decide)))
theorem W8_v105 : W8 m ρ c (Proc.devRef .tc main_v105) = bl4 𝔞[main_arg6] :=
  (ops4_v105 _).trans (congrArg bl4 (at7 m ρ c main_arg6 (by decide)))
theorem W8_v73 : W8 m ρ c (Proc.devRef .tc main_v73) = 𝐋₃ :=
  (keep4 _ main_v73 (by decide)).trans (W7_v73 m ρ c)

/-! ## Boundary 9: after region 4 -/

/-- Layer 4's rows. -/
theorem W9_v106 : W9 m ρ c (Proc.devRef .tc main_v106) = 𝐌₁ :=
  ((W9_arr m ρ c 5).trans (Region.sage4 (V8 m ρ) c)).trans
    (sage_congr (W8_v98 m ρ c) (W8_v86 m ρ c) (W8_v0 m ρ c) (W8_v103 m ρ c) (W8_v105 m ρ c))
theorem W9_v75 : W9 m ρ c (Proc.devRef .tc main_v75) = srcIdx 𝔞[main_arg2] :=
  (W9_of_ne m ρ c main_v75 (by decide)).trans (W8_v75 m ρ c)
theorem W9_v77 : W9 m ρ c (Proc.devRef .tc main_v77) = dstIdx 𝔞[main_arg2] :=
  (W9_of_ne m ρ c main_v77 (by decide)).trans (W8_v77 m ρ c)
/-- The scale column is one of region 4's input arrays: it ends as entered. -/
theorem W9_v86 : W9 m ρ c (Proc.devRef .tc main_v86) = den 𝔞[main_arg2] :=
  ((W9_arr m ρ c 1).trans (((dat4 (V8 m ρ) c).arrAt_in 1 rfl _).trans (A_eq4 (V8 m ρ) c 1))).trans (W8_v86 m ρ c)
theorem W9_v73 : W9 m ρ c (Proc.devRef .tc main_v73) = 𝐋₃ :=
  (W9_of_ne m ρ c main_v73 (by decide)).trans (W8_v73 m ρ c)

/-! ## Boundary 10: after stretch 5 (what region 5 reads) -/

theorem W10_v75 : W10 m ρ c (Proc.devRef .tc main_v75) = srcIdx 𝔞[main_arg2] :=
  (keep5 _ main_v75 (by decide)).trans (W9_v75 m ρ c)
theorem W10_v77 : W10 m ρ c (Proc.devRef .tc main_v77) = dstIdx 𝔞[main_arg2] :=
  (keep5 _ main_v77 (by decide)).trans (W9_v77 m ρ c)
theorem W10_v86 : W10 m ρ c (Proc.devRef .tc main_v86) = den 𝔞[main_arg2] :=
  (keep5 _ main_v86 (by decide)).trans (W9_v86 m ρ c)
theorem W10_v106 : W10 m ρ c (Proc.devRef .tc main_v106) = 𝐌₁ :=
  (keep5 _ main_v106 (by decide)).trans (W9_v106 m ρ c)
theorem W10_v118 : W10 m ρ c (Proc.devRef .tc main_v118) = agg 𝔞[main_arg2] 𝐌₁ :=
  (ops5_v118 _).trans (aggOf_congr (W9_v75 m ρ c) (W9_v77 m ρ c) (W9_v106 m ρ c))
theorem W10_v123 : W10 m ρ c (Proc.devRef .tc main_v123) = wcat5 𝔞[main_arg5] 𝔞[main_arg7] :=
  (ops5_v123 _).trans (congrArg₂ wcat5 (at9 m ρ c main_arg5 (by decide)) (at9 m ρ c main_arg7 (by decide)))
theorem W10_v125 : W10 m ρ c (Proc.devRef .tc main_v125) = bl5 𝔞[main_arg6] :=
  (ops5_v125 _).trans (congrArg bl5 (at9 m ρ c main_arg6 (by decide)))
theorem W10_v73 : W10 m ρ c (Proc.devRef .tc main_v73) = 𝐋₃ :=
  (keep5 _ main_v73 (by decide)).trans (W9_v73 m ρ c)

/-! ## Boundary 11: after region 5 -/

/-- Layer 5's rows. -/
theorem W11_v126 : W11 m ρ c (Proc.devRef .tc main_v126) = 𝐌₂ :=
  ((W11_arr m ρ c 5).trans (Region.sage5 (V10 m ρ) c)).trans
    (sage_congr (W10_v118 m ρ c) (W10_v86 m ρ c) (W10_v106 m ρ c) (W10_v123 m ρ c) (W10_v125 m ρ c))
theorem W11_v75 : W11 m ρ c (Proc.devRef .tc main_v75) = srcIdx 𝔞[main_arg2] :=
  (W11_of_ne m ρ c main_v75 (by decide)).trans (W10_v75 m ρ c)
theorem W11_v77 : W11 m ρ c (Proc.devRef .tc main_v77) = dstIdx 𝔞[main_arg2] :=
  (W11_of_ne m ρ c main_v77 (by decide)).trans (W10_v77 m ρ c)
/-- The scale column is one of region 5's input arrays: it ends as entered. -/
theorem W11_v86 : W11 m ρ c (Proc.devRef .tc main_v86) = den 𝔞[main_arg2] :=
  ((W11_arr m ρ c 1).trans (((dat5 (V10 m ρ) c).arrAt_in 1 rfl _).trans (A_eq5 (V10 m ρ) c 1))).trans (W10_v86 m ρ c)
theorem W11_v73 : W11 m ρ c (Proc.devRef .tc main_v73) = 𝐋₃ :=
  (W11_of_ne m ρ c main_v73 (by decide)).trans (W10_v73 m ρ c)

/-! ## Boundary 12: after stretch 6 (what region 6 reads) -/

theorem W12_v75 : W12 m ρ c (Proc.devRef .tc main_v75) = srcIdx 𝔞[main_arg2] :=
  (keep6 _ main_v75 (by decide)).trans (W11_v75 m ρ c)
theorem W12_v77 : W12 m ρ c (Proc.devRef .tc main_v77) = dstIdx 𝔞[main_arg2] :=
  (keep6 _ main_v77 (by decide)).trans (W11_v77 m ρ c)
theorem W12_v86 : W12 m ρ c (Proc.devRef .tc main_v86) = den 𝔞[main_arg2] :=
  (keep6 _ main_v86 (by decide)).trans (W11_v86 m ρ c)
theorem W12_v126 : W12 m ρ c (Proc.devRef .tc main_v126) = 𝐌₂ :=
  (keep6 _ main_v126 (by decide)).trans (W11_v126 m ρ c)
theorem W12_v138 : W12 m ρ c (Proc.devRef .tc main_v138) = agg 𝔞[main_arg2] 𝐌₂ :=
  (ops6_v138 _).trans (aggOf_congr (W11_v75 m ρ c) (W11_v77 m ρ c) (W11_v126 m ρ c))
theorem W12_v143 : W12 m ρ c (Proc.devRef .tc main_v143) = wcat6 𝔞[main_arg5] 𝔞[main_arg7] :=
  (ops6_v143 _).trans (congrArg₂ wcat6 (at11 m ρ c main_arg5 (by decide)) (at11 m ρ c main_arg7 (by decide)))
theorem W12_v145 : W12 m ρ c (Proc.devRef .tc main_v145) = bl6 𝔞[main_arg6] :=
  (ops6_v145 _).trans (congrArg bl6 (at11 m ρ c main_arg6 (by decide)))
theorem W12_v73 : W12 m ρ c (Proc.devRef .tc main_v73) = 𝐋₃ :=
  (keep6 _ main_v73 (by decide)).trans (W11_v73 m ρ c)

/-! ## Boundary 13: after region 6 -/

/-- Layer 6's rows. -/
theorem W13_v146 : W13 m ρ c (Proc.devRef .tc main_v146) = 𝐌₃ :=
  ((W13_arr m ρ c 5).trans (Region.sage6 (V12 m ρ) c)).trans
    (sage_congr (W12_v138 m ρ c) (W12_v86 m ρ c) (W12_v126 m ρ c) (W12_v143 m ρ c) (W12_v145 m ρ c))
theorem W13_v73 : W13 m ρ c (Proc.devRef .tc main_v73) = 𝐋₃ :=
  (W13_of_ne m ρ c main_v73 (by decide)).trans (W12_v73 m ρ c)

/-! ## Boundary 14: after stretch 7 (what region 7 reads) -/

theorem W14_v73 : W14 m ρ c (Proc.devRef .tc main_v73) = 𝐋₃ :=
  (keep7 _ main_v73 (by decide)).trans (W13_v73 m ρ c)
theorem W14_v146 : W14 m ρ c (Proc.devRef .tc main_v146) = 𝐌₃ :=
  (keep7 _ main_v146 (by decide)).trans (W13_v146 m ρ c)
theorem W14_v147 : W14 m ρ c (Proc.devRef .tc main_v147) = wa0 𝔞[main_arg8] :=
  (ops7_v147 _).trans (congrArg wa0 (at13 m ρ c main_arg8 (by decide)))
theorem W14_v148 : W14 m ρ c (Proc.devRef .tc main_v148) = wa1 𝔞[main_arg8] :=
  (ops7_v148 _).trans (congrArg wa1 (at13 m ρ c main_arg8 (by decide)))

/-! ## Boundary 15: after region 7 -/

/-- The fusion region's first output array: the packed head rows of the two towers. -/
theorem W15_v149_0 : W15 m ρ c (Proc.devRef .tc main_v149_0)
    = Spec.headsArr 𝐋₃ 𝐌₃ (wa0 𝔞[main_arg8]) (wa1 𝔞[main_arg8]) 𝔞[main_arg9] 𝔞[main_arg10] 𝔞[main_arg11] 𝔞[main_arg12] 𝔞[main_arg13] 𝔞[main_arg14] 𝔞[main_arg15] 𝔞[main_arg16] 𝔞[main_arg17] :=
  ((W15_arr m ρ c 13).trans (Region.heads7 (V14 m ρ) c)).trans
    (heads_congr (W14_v73 m ρ c) (W14_v146 m ρ c) (W14_v147 m ρ c) (W14_v148 m ρ c)
      (at14 m ρ c main_arg9 (by decide)) (at14 m ρ c main_arg10 (by decide)) (at14 m ρ c main_arg11 (by decide)) (at14 m ρ c main_arg12 (by decide)) (at14 m ρ c main_arg13 (by decide)) (at14 m ρ c main_arg14 (by decide)) (at14 m ρ c main_arg15 (by decide)) (at14 m ρ c main_arg16 (by decide)) (at14 m ρ c main_arg17 (by decide)))

/-- The fusion region's second output array: the fused rows of the two towers. -/
theorem W15_v149_1 : W15 m ρ c (Proc.devRef .tc main_v149_1)
    = Spec.fuseArr 𝐋₃ 𝐌₃ (wa0 𝔞[main_arg8]) (wa1 𝔞[main_arg8]) 𝔞[main_arg9] :=
  ((W15_arr m ρ c 14).trans (Region.fuse7 (V14 m ρ) c)).trans
    (fuse_congr (W14_v73 m ρ c) (W14_v146 m ρ c) (W14_v147 m ρ c) (W14_v148 m ρ c) (at14 m ρ c main_arg9 (by decide)))

/-! ## The three results -/

/-- After the whole run the fused-rows buffer holds the fusion stage of the two towers, and the two head buffers hold
    columns 0, 1 and columns 2..6 of the packed head rows of the two towers — all as functions of the launch arrays. -/
theorem results :
    W16 m ρ c (Proc.devRef .tc main_v149_1)
        = Spec.fuseArr (o0 𝔞[main_arg0] 𝔞[main_arg1] 𝔞[main_arg3] 𝔞[main_arg4] 𝔞[main_arg5] 𝔞[main_arg6] 𝔞[main_arg7]) (o1 𝔞[main_arg0] 𝔞[main_arg2] 𝔞[main_arg3] 𝔞[main_arg4] 𝔞[main_arg5] 𝔞[main_arg6] 𝔞[main_arg7])
            (wa0 𝔞[main_arg8]) (wa1 𝔞[main_arg8]) 𝔞[main_arg9]
    ∧ W16 m ρ c (Proc.devRef .tc main_v150)
        = cols02 (Spec.headsArr (o0 𝔞[main_arg0] 𝔞[main_arg1] 𝔞[main_arg3] 𝔞[main_arg4] 𝔞[main_arg5] 𝔞[main_arg6] 𝔞[main_arg7]) (o1 𝔞[main_arg0] 𝔞[main_arg2] 𝔞[main_arg3] 𝔞[main_arg4] 𝔞[main_arg5] 𝔞[main_arg6] 𝔞[main_arg7])
            (wa0 𝔞[main_arg8]) (wa1 𝔞[main_arg8]) 𝔞[main_arg9] 𝔞[main_arg10] 𝔞[main_arg11] 𝔞[main_arg12] 𝔞[main_arg13] 𝔞[main_arg14] 𝔞[main_arg15] 𝔞[main_arg16] 𝔞[main_arg17])
    ∧ W16 m ρ c (Proc.devRef .tc main_v151)
        = cols27 (Spec.headsArr (o0 𝔞[main_arg0] 𝔞[main_arg1] 𝔞[main_arg3] 𝔞[main_arg4] 𝔞[main_arg5] 𝔞[main_arg6] 𝔞[main_arg7]) (o1 𝔞[main_arg0] 𝔞[main_arg2] 𝔞[main_arg3] 𝔞[main_arg4] 𝔞[main_arg5] 𝔞[main_arg6] 𝔞[main_arg7])
            (wa0 𝔞[main_arg8]) (wa1 𝔞[main_arg8]) 𝔞[main_arg9] 𝔞[main_arg10] 𝔞[main_arg11] 𝔞[main_arg12] 𝔞[main_arg13] 𝔞[main_arg14] 𝔞[main_arg15] 𝔞[main_arg16] 𝔞[main_arg17]) :=
  ⟨(keep8 _ main_v149_1 (by decide)).trans (W15_v149_1 m ρ c),
   (ops8_v150 _).trans (congrArg cols02 (W15_v149_0 m ρ c)),
   (ops8_v151 _).trans (congrArg cols27 (W15_v149_0 m ρ c))⟩

end Cert.KernelIdeal.Chain

end
-- ==== Proof.RefLayer1.lean ====
/-
  Layer 1 of the reference, read at one entry: the rectified sum of the mean of the neighbour rows against the first
  weight matrix, the bias, and the node's own row against the second weight matrix — the quotient by max(deg, 1) entry by entry.
-/
import proofs.«140245_j83245056131912_2_alg».proof.Proof.RefReadP
import proofs.«140245_j83245056131912_2_alg».proof.Proof.Spec

noncomputable section

open scoped BigOperators

namespace Cert.ReferenceIdeal.Layers

open Cert.ReferenceIdeal Cert.ReferenceIdeal.ReadP Idealize.ShloMosaic Idealize.ShloMosaic.ValueIdx

/-- Entry (r, c) of layer 1's output: max(((agg_r / max(deg_r, 1))·Wl + bl) + h_r·Wr, 0). -/
theorem layer1_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) (r : Fin 100000) (c : Fin 128) :
    val_main_v40 (F := Ideal) x0 x1 x3 x4 x5 x6 x7 (ix2 r c)
      = max (((∑ k : Fin 128, Ideal.div (val_main_v24 (F := Ideal) x0 x1 x3 x4 (ix2 r k)) (max (val_main_v28 (F := Ideal) x1 (ix1 r)) Cert.Spec.ow) * val_main_v10 (F := Ideal) x5 (ix2 k c))
              + val_main_v12 (F := Ideal) x6 (ix1 c))
            + ∑ k : Fin 128, val_main_v4 (F := Ideal) x0 x3 x4 (ix2 r k) * val_main_v14 (F := Ideal) x7 (ix2 k c)) Cert.Spec.zw := by
  have el : ∀ k : Fin 128, lidx_main_v34 (ix2 r c) k = ix2 r k := fun k => funext fun a => by
    match a with | ⟨0, _⟩ => rfl | ⟨1, _⟩ => rfl
  have er : ∀ k : Fin 128, ridx_main_v34 (ix2 r c) k = ix2 k c := fun k => funext fun a => by
    match a with | ⟨0, _⟩ => rfl | ⟨1, _⟩ => rfl
  have el' : ∀ k : Fin 128, lidx_main_v38 (ix2 r c) k = ix2 r k := fun k => funext fun a => by
    match a with | ⟨0, _⟩ => rfl | ⟨1, _⟩ => rfl
  have er' : ∀ k : Fin 128, ridx_main_v38 (ix2 r c) k = ix2 k c := fun k => funext fun a => by
    match a with | ⟨0, _⟩ => rfl | ⟨1, _⟩ => rfl
  have eb : idx_main_v35 (idx_main_v36 (ix2 r c)) = ix1 c := funext fun a => by
    match a with | ⟨0, _⟩ => rfl
  have ed : ∀ k : Fin 128, idx_main_v31 (idx_main_v32 (ix2 r k)) = ix1 r := fun k => funext fun a => by
    match a with | ⟨0, _⟩ => rfl
  have hq : ∀ k : Fin 128, val_main_v33 (F := Ideal) x0 x1 x3 x4 (ix2 r k)
      = Ideal.div (val_main_v24 (F := Ideal) x0 x1 x3 x4 (ix2 r k)) (max (val_main_v28 (F := Ideal) x1 (ix1 r)) Cert.Spec.ow) := fun k => by
    rw [val_main_v33_apply, val_main_v32_apply, val_main_v31_apply, val_main_v30_apply, val_main_v29_apply, ed k]
    rfl
  rw [val_main_v40_apply, val_main_v39_apply, val_main_v37_apply, val_main_v34_apply, val_main_v38_apply, val_main_v36_apply, val_main_v35_apply,
    val_main_call1_v0_apply, eb]
  simp only [el, er, el', er', hq]
  rfl

end Cert.ReferenceIdeal.Layers

end
-- ==== Proof.LibUnitColumns.lean ====
/-
  A vector presented with a unit axis, read at coordinates.  A vector [a] broadcast along dimension 0 of [a, 1], or cast
  to [a, 1], is the same elements in the same order: entry (p, 0) is the vector's entry p.  A vector [b] broadcast along
  dimension 1 of [1, b] reads, at (0, q), the vector's entry q.  (An index vector handed to a scatter or a gather as a
  column of start indices; a per-row factor handed to a kernel as a column; a bias handed to it as a row.)
-/
import Idealize.ShloMosaic.Lib.Pipeline.Value
import Idealize.ShloMosaic.Lib.ValueIdx
import Idealize.ShloMosaic.Lib.ValueLayout

noncomputable section

namespace Cert.LibUnitColumns

open Idealize.ShloMosaic Idealize.ShloMosaic.ValueIdx

variable {α : Type}

/-- The host's broadcast of a vector [a] along dimension 0 of [a, 1] reads, at (p, u), the vector at p. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) (fun ax => match ax with
    | ⟨0, _⟩ => by
      show p.val = if a = 1 then 0 else p.val
      split
      · have := p.isLt; omega
      · rfl)

/-- Casting a vector [a] to a column [a, 1] moves no element: entry (p, u) is the vector at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h (ix2 p u) (ix1 p) (by
    rw [Shape.rowMajor_val_two, Shape.rowMajor_val_one]
    show p.val = p.val * 1 + u.val
    omega)

/-- The host's broadcast of a vector [b] along dimension 1 of [1, b] reads, at (u, q), the vector at q. -/
theorem broadcastInDim_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) :=
  broadcastInDim_apply ![1] h v (ix2 u q) (ix1 q) (fun ax => match ax with
    | ⟨0, _⟩ => by
      show q.val = if b = 1 then 0 else q.val
      split
      · have := q.isLt; omega
      · rfl)

end Cert.LibUnitColumns

end
-- ==== Proof.ChainRead.lean ====
/-
  The host-side pieces of the kernel's program, read at an index.

  The scale column at node r is 1 / max(deg_r, 1). The stacked weights' rows 0..127 are the first matrix's rows and rows
  128..255 the second's. Gathering from the narrower float format and widening back moves no number: a change of format is the
  identity on the extended reals.
-/
import proofs.«140245_j83245056131912_2_alg».proof.Proof.ChainDefs
import proofs.«140245_j83245056131912_2_alg».proof.Proof.LibUnitColumns
import proofs.«140245_j83245056131912_2_alg».proof.Proof.LibUnitAxes
import Idealize.ShloMosaic.Lib.Pipeline.Value
import Idealize.ShloMosaic.Lib.ValueIdx

noncomputable section

namespace Cert.KernelIdeal.ChainRead

open Cert.KernelIdeal Cert.KernelIdeal.Gen Cert.KernelIdeal.Chain Idealize.ShloMosaic Idealize.ShloMosaic.ValueIdx

/-- A vector [100000] broadcast to a column [100000, 1] reads, at (r, 0), the vector at r. -/
theorem column_apply (v : (⟨S100000, .f32⟩ : BufTy).Contents (Elt Ideal)) (r : Fin 100000) :
    broadcastInDim S100000x1 ![0] bcast_S100000_S100000x1_0 v (ix2 r (0 : Fin 1)) = v (ix1 r) :=
  Cert.LibUnitColumns.broadcastInDim_a_a1_apply (a := 100000) v bcast_S100000_S100000x1_0 r (0 : Fin 1)

/-- A scalar broadcast to a vector [100000] reads the scalar everywhere. -/
theorem splat_apply (s : (⟨S_, .f32⟩ : BufTy).Contents (Elt Ideal)) (r : Fin 100000) :
    broadcastInDim S100000 ![] bcast_S_S100000 s (ix1 r) = s ix0 :=
  Cert.LibUnitAxes.broadcastInDim_scalar_apply s bcast_S_S100000 (ix1 r)

/-- The host's quotient of two vectors, read at an index, is the quotient of the entries. -/
theorem hostDiv_apply (a b : FVec Ideal S100000 .f32) (i : S100000.Idx) :
    Host.divf (F := Ideal) a b i = Ideal.div (a i) (b i) := rfl

/-- The maximum of two vectors, read at an index, is the maximum of the entries. -/
theorem max_apply (a b : FVec Ideal S100000 .f32) (i : S100000.Idx) :
    maximumf (F := Ideal) a b i = max (a i) (b i) := rfl

/-- The scale column at node r: 1 / max(deg_r, 1). -/
theorem denOf_apply (dst : EdgeVec) (r : Fin 100000) :
    denOf dst (ix2 r (0 : Fin 1)) = Ideal.div Cert.Spec.ow (max (degreeOf dst (ix1 r)) Cert.Spec.ow) := by
  delta denOf
  rw [column_apply, hostDiv_apply, max_apply, splat_apply, constant_apply]

/-- Gathering through the narrower format and back is the plain gather. -/
theorem gatheredOf_eq (src : EdgeVec) (h : Nodes) :
    gatheredOf src h = Host.gather gather_S100000x128_S1600000x1_S1600000x128_1_0_n_n_0_1_1128 h (srcColOf src) := rfl

/-- Rows 0..127 of the stacked weights are the first block's rows. -/
theorem wcatAt_left (off : Fin 4 → Nat) (hs : S2x3x128x128.Slices off S1x1x128x128) (Wl Wr : Wts) (k : Fin 128) (c : Fin 128) :
    wcatAt off hs Wl Wr (ix2 (⟨k.val, by omega⟩ : Fin 256) c) = wBlock off hs Wl (ix2 k c) := by
  unfold wcatAt
  exact concatenate_pair_apply_left 0 _ _ concatenates_S128x128_S128x128_S256x128_d0 (ix2 (⟨k.val, by omega⟩ : Fin 256) c) rfl (ix2 k c) (fun b => by
    match b with
    | ⟨0, _⟩ => rfl
    | ⟨1, _⟩ => rfl)

/-- Rows 128..255 of the stacked weights are the second block's rows. -/
theorem wcatAt_right (off : Fin 4 → Nat) (hs : S2x3x128x128.Slices off S1x1x128x128) (Wl Wr : Wts) (k : Fin 128) (c : Fin 128) :
    wcatAt off hs Wl Wr (ix2 (⟨128 + k.val, by omega⟩ : Fin 256) c) = wBlock off hs Wr (ix2 k c) := by
  unfold wcatAt
  exact concatenate_pair_apply_right 0 _ _ concatenates_S128x128_S128x128_S256x128_d0 (ix2 (⟨128 + k.val, by omega⟩ : Fin 256) c) rfl rfl (ix2 k c) (fun b hb => by
    match b with
    | ⟨0, _⟩ => exact absurd rfl hb
    | ⟨1, _⟩ => rfl) (by show k.val + 128 = 128 + k.val; omega)

end Cert.KernelIdeal.ChainRead

end
-- ==== Proof.BridgeHost.lean ====
/-
  The kernel-side host pieces of ChainDefs against the reference program's stage values, piece by piece: the embedding
  stage is the reference's first rectified layer; for each of the six layers the summed neighbour rows, the node degrees,
  the two weight blocks and the bias row are the reference's corresponding stages. The two programs print the same host
  operations over the same literal shapes and dimension numbers, so each piece is matched by name down the chain; the one
  real difference, the kernel's gather through the narrower float format and back, changes no number.
-/
import proofs.«140245_j83245056131912_2_alg».proof.Proof.RefReadP
import proofs.«140245_j83245056131912_2_alg».proof.Proof.ChainDefs
import proofs.«140245_j83245056131912_2_alg».proof.Proof.ChainRead
import proofs.«140245_j83245056131912_2_alg».proof.Proof.Spec
import proofs.«140245_j83245056131912_2_alg».proof.Proof.LibPlainDot

noncomputable section

namespace Cert.Bridge

open Cert.KernelIdeal.Chain Cert.ReferenceIdeal.ReadP Idealize.ShloMosaic Idealize.ShloMosaic.ValueIdx

/-! ## The two programs' dimension numbers are the same records -/

theorem scatterRows_eq :
    Cert.KernelIdeal.scatter_S100000x128_S1600000x1_S1600000x128_1_0_0_1 = Cert.ReferenceIdeal.scatter_S100000x128_S1600000x1_S1600000x128_1_0_0_1 := rfl

theorem scatterVec_eq :
    Cert.KernelIdeal.scatter_S100000_S1600000x1_S1600000_n_0_0_1 = Cert.ReferenceIdeal.scatter_S100000_S1600000x1_S1600000_n_0_0_1 := rfl

theorem gatherRows_eq :
    Cert.KernelIdeal.gather_S100000x128_S1600000x1_S1600000x128_1_0_n_n_0_1_1128 = Cert.ReferenceIdeal.gather_S100000x128_S1600000x1_S1600000x128_1_0_n_n_0_1_1128 := rfl

/-! ## The embedding stage -/

/-- The reference's left index of the product at (r, c), coordinate k, is (r, k). -/
theorem lidx0 (r : Fin 100000) (c : Fin 128) (k : Fin 128) : lidx_main_v0 (ix2 r c) k = ix2 r k :=
  funext fun a => Fin.ext (by match a with | ⟨0, _⟩ => rfl | ⟨1, _⟩ => rfl)

/-- The reference's right index there is (k, c). -/
theorem ridx0 (r : Fin 100000) (c : Fin 128) (k : Fin 128) : ridx_main_v0 (ix2 r c) k = ix2 k c :=
  funext fun a => Fin.ext (by match a with | ⟨0, _⟩ => rfl | ⟨1, _⟩ => rfl)

/-- The bias row broadcast to [1, 128] and then to all rows reads, at (r, c), the row at c. -/
theorem bidx0 (r : Fin 100000) (c : Fin 128) : idx_main_v1 (idx_main_v2 (ix2 r c)) = ix1 c :=
  funext fun a => Fin.ext (by match a with | ⟨0, _⟩ => rfl)

/-- The embedding stage is the reference's first rectified layer: entry by entry, max(x·W + b, 0). -/
theorem emb_eq (x0 : (⟨Cert.ReferenceIdeal.S100000x128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) :
    Cert.Spec.embArr x0 x3 x4 = val_main_v4 (F := Ideal) x0 x3 x4 := by
  funext j
  obtain ⟨r, c, rfl⟩ : ∃ (r : Fin 100000) (c : Fin 128), j = ix2 r c := ⟨j 0, j 1, eq_ix2 j⟩
  rw [Cert.Spec.embArr_apply, val_main_v4_apply, val_main_v3_apply, val_main_v0_apply, val_main_v2_apply, val_main_v1_apply,
    val_main_call0_v0_apply, val_main_call0_cst_apply, bidx0]
  simp only [lidx0, ridx0]
  rfl

/-! ## The edge arrays' rows -/

theorem src_eq1 (x1 : (⟨Cert.ReferenceIdeal.S2x1600000, .i32⟩ : BufTy).Contents (Elt Ideal)) : srcIdx x1 = val_main_v6 (F := Ideal) x1 := rfl
theorem dst_eq1 (x1 : (⟨Cert.ReferenceIdeal.S2x1600000, .i32⟩ : BufTy).Contents (Elt Ideal)) : dstIdx x1 = val_main_v8 (F := Ideal) x1 := rfl
theorem src_eq2 (x2 : (⟨Cert.ReferenceIdeal.S2x1600000, .i32⟩ : BufTy).Contents (Elt Ideal)) : srcIdx x2 = val_main_v106 (F := Ideal) x2 := rfl
theorem dst_eq2 (x2 : (⟨Cert.ReferenceIdeal.S2x1600000, .i32⟩ : BufTy).Contents (Elt Ideal)) : dstIdx x2 = val_main_v108 (F := Ideal) x2 := rfl

/-! ## Layer 1 -/

/-- The sign-normalised source column, as the reference's layer 1 computes it again. -/
theorem srcCol_eq1 (x1 : (⟨Cert.ReferenceIdeal.S2x1600000, .i32⟩ : BufTy).Contents (Elt Ideal)) : srcColOf (srcIdx x1) = val_main_v20 (F := Ideal) x1 := by
  rw [src_eq1]; rfl

/-- The destination column the neighbour sum scatters at. -/
theorem dstCol_eq1 (x1 : (⟨Cert.ReferenceIdeal.S2x1600000, .i32⟩ : BufTy).Contents (Elt Ideal)) : dstColOf (dstIdx x1) = val_main_v23 (F := Ideal) x1 := by
  rw [dst_eq1]; rfl

/-- The destination column the degree count scatters at. -/
theorem dstColDeg_eq1 (x1 : (⟨Cert.ReferenceIdeal.S2x1600000, .i32⟩ : BufTy).Contents (Elt Ideal)) : dstColOf (dstIdx x1) = val_main_v27 (F := Ideal) x1 := by
  rw [dst_eq1]; rfl

/-- Layer 1's summed neighbour rows of the reference's input rows are the reference's scatter stage. -/
theorem agg_eq1 (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) :
    agg x1 (val_main_v4 (F := Ideal) x0 x3 x4) = val_main_v24 (F := Ideal) x0 x1 x3 x4 := by
  unfold agg aggOf val_main_v24 val_main_v21
  rw [Cert.KernelIdeal.ChainRead.gatheredOf_eq, srcCol_eq1, dstCol_eq1, scatterRows_eq, gatherRows_eq]
  rfl

/-- The node degrees over the first edge array are the reference's layer 1 degree count. -/
theorem deg_eq1 (x1 : (⟨Cert.ReferenceIdeal.S2x1600000, .i32⟩ : BufTy).Contents (Elt Ideal)) : degreeOf (dstIdx x1) = val_main_v28 (F := Ideal) x1 := by
  unfold degreeOf val_main_v28
  rw [dstColDeg_eq1, scatterVec_eq]
  rfl

/-- Layer 1's block of the neighbour weights. -/
theorem wl_eq1 (x5 : (⟨Cert.ReferenceIdeal.S2x3x128x128, .f32⟩ : BufTy).Contents (Elt Ideal)) :
    wBlock ![0, 0, 0, 0] Cert.KernelIdeal.Gen.slices_S2x3x128x128_S1x1x128x128_0_0_0_0 x5 = val_main_v10 (F := Ideal) x5 := rfl

/-- Layer 1's block of the root weights. -/
theorem wr_eq1 (x7 : (⟨Cert.ReferenceIdeal.S2x3x128x128, .f32⟩ : BufTy).Contents (Elt Ideal)) :
    wBlock ![0, 0, 0, 0] Cert.KernelIdeal.Gen.slices_S2x3x128x128_S1x1x128x128_0_0_0_0 x7 = val_main_v14 (F := Ideal) x7 := rfl

/-- Layer 1's bias row. -/
theorem bl_eq1 (x6 : (⟨Cert.ReferenceIdeal.S2x3x128, .f32⟩ : BufTy).Contents (Elt Ideal)) : bl1 x6 = val_main_v12 (F := Ideal) x6 := rfl

/-! ## Layer 2 -/

/-- The sign-normalised source column, as the reference's layer 2 computes it again. -/
theorem srcCol_eq2 (x1 : (⟨Cert.ReferenceIdeal.S2x1600000, .i32⟩ : BufTy).Contents (Elt Ideal)) : srcColOf (srcIdx x1) = val_main_v52 (F := Ideal) x1 := by
  rw [src_eq1]; rfl

/-- The destination column the neighbour sum scatters at. -/
theorem dstCol_eq2 (x1 : (⟨Cert.ReferenceIdeal.S2x1600000, .i32⟩ : BufTy).Contents (Elt Ideal)) : dstColOf (dstIdx x1) = val_main_v55 (F := Ideal) x1 := by
  rw [dst_eq1]; rfl

/-- The destination column the degree count scatters at. -/
theorem dstColDeg_eq2 (x1 : (⟨Cert.ReferenceIdeal.S2x1600000, .i32⟩ : BufTy).Contents (Elt Ideal)) : dstColOf (dstIdx x1) = val_main_v59 (F := Ideal) x1 := by
  rw [dst_eq1]; rfl

/-- Layer 2's summed neighbour rows of the reference's input rows are the reference's scatter stage. -/
theorem agg_eq2 (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S2x3x128x128, .f32⟩ : BufTy).Contents (Elt Ideal)) (x6 : (⟨Cert.ReferenceIdeal.S2x3x128, .f32⟩ : BufTy).Contents (Elt Ideal)) (x7 : (⟨Cert.ReferenceIdeal.S2x3x128x128, .f32⟩ : BufTy).Contents (Elt Ideal)) :
    agg x1 (val_main_v40 (F := Ideal) x0 x1 x3 x4 x5 x6 x7) = val_main_v56 (F := Ideal) x0 x1 x3 x4 x5 x6 x7 := by
  unfold agg aggOf val_main_v56 val_main_v53
  rw [Cert.KernelIdeal.ChainRead.gatheredOf_eq, srcCol_eq2, dstCol_eq2, scatterRows_eq, gatherRows_eq]
  rfl

/-- The node degrees over the first edge array are the reference's layer 2 degree count. -/
theorem deg_eq2 (x1 : (⟨Cert.ReferenceIdeal.S2x1600000, .i32⟩ : BufTy).Contents (Elt Ideal)) : degreeOf (dstIdx x1) = val_main_v60 (F := Ideal) x1 := by
  unfold degreeOf val_main_v60
  rw [dstColDeg_eq2, scatterVec_eq]
  rfl

/-- Layer 2's block of the neighbour weights. -/
theorem wl_eq2 (x5 : (⟨Cert.ReferenceIdeal.S2x3x128x128, .f32⟩ : BufTy).Contents (Elt Ideal)) :
    wBlock ![0, 1, 0, 0] Cert.KernelIdeal.Gen.slices_S2x3x128x128_S1x1x128x128_0_1_0_0 x5 = val_main_v42 (F := Ideal) x5 := rfl

/-- Layer 2's block of the root weights. -/
theorem wr_eq2 (x7 : (⟨Cert.ReferenceIdeal.S2x3x128x128, .f32⟩ : BufTy).Contents (Elt Ideal)) :
    wBlock ![0, 1, 0, 0] Cert.KernelIdeal.Gen.slices_S2x3x128x128_S1x1x128x128_0_1_0_0 x7 = val_main_v46 (F := Ideal) x7 := rfl

/-- Layer 2's bias row. -/
theorem bl_eq2 (x6 : (⟨Cert.ReferenceIdeal.S2x3x128, .f32⟩ : BufTy).Contents (Elt Ideal)) : bl2 x6 = val_main_v44 (F := Ideal) x6 := rfl

/-! ## Layer 3 -/

/-- The sign-normalised source column, as the reference's layer 3 computes it again. -/
theorem srcCol_eq3 (x1 : (⟨Cert.ReferenceIdeal.S2x1600000, .i32⟩ : BufTy).Contents (Elt Ideal)) : srcColOf (srcIdx x1) = val_main_v84 (F := Ideal) x1 := by
  rw [src_eq1]; rfl

/-- The destination column the neighbour sum scatters at. -/
theorem dstCol_eq3 (x1 : (⟨Cert.ReferenceIdeal.S2x1600000, .i32⟩ : BufTy).Contents (Elt Ideal)) : dstColOf (dstIdx x1) = val_main_v87 (F := Ideal) x1 := by
  rw [dst_eq1]; rfl

/-- The destination column the degree count scatters at. -/
theorem dstColDeg_eq3 (x1 : (⟨Cert.ReferenceIdeal.S2x1600000, .i32⟩ : BufTy).Contents (Elt Ideal)) : dstColOf (dstIdx x1) = val_main_v91 (F := Ideal) x1 := by
  rw [dst_eq1]; rfl

/-- Layer 3's summed neighbour rows of the reference's input rows are the reference's scatter stage. -/
theorem agg_eq3 (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S2x3x128x128, .f32⟩ : BufTy).Contents (Elt Ideal)) (x6 : (⟨Cert.ReferenceIdeal.S2x3x128, .f32⟩ : BufTy).Contents (Elt Ideal)) (x7 : (⟨Cert.ReferenceIdeal.S2x3x128x128, .f32⟩ : BufTy).Contents (Elt Ideal)) :
    agg x1 (val_main_v72 (F := Ideal) x0 x1 x3 x4 x5 x6 x7) = val_main_v88 (F := Ideal) x0 x1 x3 x4 x5 x6 x7 := by
  unfold agg aggOf val_main_v88 val_main_v85
  rw [Cert.KernelIdeal.ChainRead.gatheredOf_eq, srcCol_eq3, dstCol_eq3, scatterRows_eq, gatherRows_eq]
  rfl

/-- The node degrees over the first edge array are the reference's layer 3 degree count. -/
theorem deg_eq3 (x1 : (⟨Cert.ReferenceIdeal.S2x1600000, .i32⟩ : BufTy).Contents (Elt Ideal)) : degreeOf (dstIdx x1) = val_main_v92 (F := Ideal) x1 := by
  unfold degreeOf val_main_v92
  rw [dstColDeg_eq3, scatterVec_eq]
  rfl

/-- Layer 3's block of the neighbour weights. -/
theorem wl_eq3 (x5 : (⟨Cert.ReferenceIdeal.S2x3x128x128, .f32⟩ : BufTy).Contents (Elt Ideal)) :
    wBlock ![0, 2, 0, 0] Cert.KernelIdeal.Gen.slices_S2x3x128x128_S1x1x128x128_0_2_0_0 x5 = val_main_v74 (F := Ideal) x5 := rfl

/-- Layer 3's block of the root weights. -/
theorem wr_eq3 (x7 : (⟨Cert.ReferenceIdeal.S2x3x128x128, .f32⟩ : BufTy).Contents (Elt Ideal)) :
    wBlock ![0, 2, 0, 0] Cert.KernelIdeal.Gen.slices_S2x3x128x128_S1x1x128x128_0_2_0_0 x7 = val_main_v78 (F := Ideal) x7 := rfl

/-- Layer 3's bias row. -/
theorem bl_eq3 (x6 : (⟨Cert.ReferenceIdeal.S2x3x128, .f32⟩ : BufTy).Contents (Elt Ideal)) : bl3 x6 = val_main_v76 (F := Ideal) x6 := rfl

/-! ## Layer 4 -/

/-- The sign-normalised source column, as the reference's layer 4 computes it again. -/
theorem srcCol_eq4 (x2 : (⟨Cert.ReferenceIdeal.S2x1600000, .i32⟩ : BufTy).Contents (Elt Ideal)) : srcColOf (srcIdx x2) = val_main_v120 (F := Ideal) x2 := by
  rw [src_eq2]; rfl

/-- The destination column the neighbour sum scatters at. -/
theorem dstCol_eq4 (x2 : (⟨Cert.ReferenceIdeal.S2x1600000, .i32⟩ : BufTy).Contents (Elt Ideal)) : dstColOf (dstIdx x2) = val_main_v123 (F := Ideal) x2 := by
  rw [dst_eq2]; rfl

/-- The destination column the degree count scatters at. -/
theorem dstColDeg_eq4 (x2 : (⟨Cert.ReferenceIdeal.S2x1600000, .i32⟩ : BufTy).Contents (Elt Ideal)) : dstColOf (dstIdx x2) = val_main_v127 (F := Ideal) x2 := by
  rw [dst_eq2]; rfl

/-- Layer 4's summed neighbour rows of the reference's input rows are the reference's scatter stage. -/
theorem agg_eq4 (x0 : (⟨Cert.ReferenceIdeal.S100000x128, .f32⟩ : BufTy).Contents (Elt Ideal)) (x2 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) :
    agg x2 (val_main_v4 (F := Ideal) x0 x3 x4) = val_main_v124 (F := Ideal) x0 x2 x3 x4 := by
  unfold agg aggOf val_main_v124 val_main_v121
  rw [Cert.KernelIdeal.ChainRead.gatheredOf_eq, srcCol_eq4, dstCol_eq4, scatterRows_eq, gatherRows_eq]
  rfl

/-- The node degrees over the second edge array are the reference's layer 4 degree count. -/
theorem deg_eq4 (x2 : (⟨Cert.ReferenceIdeal.S2x1600000, .i32⟩ : BufTy).Contents (Elt Ideal)) : degreeOf (dstIdx x2) = val_main_v128 (F := Ideal) x2 := by
  unfold degreeOf val_main_v128
  rw [dstColDeg_eq4, scatterVec_eq]
  rfl

/-- Layer 4's block of the neighbour weights. -/
theorem wl_eq4 (x5 : (⟨Cert.ReferenceIdeal.S2x3x128x128, .f32⟩ : BufTy).Contents (Elt Ideal)) :
    wBlock ![1, 0, 0, 0] Cert.KernelIdeal.Gen.slices_S2x3x128x128_S1x1x128x128_1_0_0_0 x5 = val_main_v110 (F := Ideal) x5 := rfl

/-- Layer 4's block of the root weights. -/
theorem wr_eq4 (x7 : (⟨Cert.ReferenceIdeal.S2x3x128x128, .f32⟩ : BufTy).Contents (Elt Ideal)) :
    wBlock ![1, 0, 0, 0] Cert.KernelIdeal.Gen.slices_S2x3x128x128_S1x1x128x128_1_0_0_0 x7 = val_main_v114 (F := Ideal) x7 := rfl

/-- Layer 4's bias row. -/
theorem bl_eq4 (x6 : (⟨Cert.ReferenceIdeal.S2x3x128, .f32⟩ : BufTy).Contents (Elt Ideal)) : bl4 x6 = val_main_v112 (F := Ideal) x6 := rfl

/-! ## Layer 5 -/

/-- The sign-normalised source column, as the reference's layer 5 computes it again. -/
theorem srcCol_eq5 (x2 : (⟨Cert.ReferenceIdeal.S2x1600000, .i32⟩ : BufTy).Contents (Elt Ideal)) : srcColOf (srcIdx x2) = val_main_v152 (F := Ideal) x2 := by
  rw [src_eq2]; rfl

/-- The destination column the neighbour sum scatters at. -/
theorem dstCol_eq5 (x2 : (⟨Cert.ReferenceIdeal.S2x1600000, .i32⟩ : BufTy).Contents (Elt Ideal)) : dstColOf (dstIdx x2) = val_main_v155 (F := Ideal) x2 := by
  rw [dst_eq2]; rfl

/-- The destination column the degree count scatters at. -/
theorem dstColDeg_eq5 (x2 : (⟨Cert.ReferenceIdeal.S2x1600000, .i32⟩ : BufTy).Contents (Elt Ideal)) : dstColOf (dstIdx x2) = val_main_v159 (F := Ideal) x2 := by
  rw [dst_eq2]; rfl

/-- Layer 5's summed neighbour rows of the reference's input rows are the reference's scatter stage. -/
theorem agg_eq5 (x0 : (⟨Cert.ReferenceIdeal.S100000x128, .f32⟩ : BufTy).Contents (Elt Ideal)) (x2 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S2x3x128x128, .f32⟩ : BufTy).Contents (Elt Ideal)) (x6 : (⟨Cert.ReferenceIdeal.S2x3x128, .f32⟩ : BufTy).Contents (Elt Ideal)) (x7 : (⟨Cert.ReferenceIdeal.S2x3x128x128, .f32⟩ : BufTy).Contents (Elt Ideal)) :
    agg x2 (val_main_v140 (F := Ideal) x0 x2 x3 x4 x5 x6 x7) = val_main_v156 (F := Ideal) x0 x2 x3 x4 x5 x6 x7 := by
  unfold agg aggOf val_main_v156 val_main_v153
  rw [Cert.KernelIdeal.ChainRead.gatheredOf_eq, srcCol_eq5, dstCol_eq5, scatterRows_eq, gatherRows_eq]
  rfl

/-- The node degrees over the second edge array are the reference's layer 5 degree count. -/
theorem deg_eq5 (x2 : (⟨Cert.ReferenceIdeal.S2x1600000, .i32⟩ : BufTy).Contents (Elt Ideal)) : degreeOf (dstIdx x2) = val_main_v160 (F := Ideal) x2 := by
  unfold degreeOf val_main_v160
  rw [dstColDeg_eq5, scatterVec_eq]
  rfl

/-- Layer 5's block of the neighbour weights. -/
theorem wl_eq5 (x5 : (⟨Cert.ReferenceIdeal.S2x3x128x128, .f32⟩ : BufTy).Contents (Elt Ideal)) :
    wBlock ![1, 1, 0, 0] Cert.KernelIdeal.Gen.slices_S2x3x128x128_S1x1x128x128_1_1_0_0 x5 = val_main_v142 (F := Ideal) x5 := rfl

/-- Layer 5's block of the root weights. -/
theorem wr_eq5 (x7 : (⟨Cert.ReferenceIdeal.S2x3x128x128, .f32⟩ : BufTy).Contents (Elt Ideal)) :
    wBlock ![1, 1, 0, 0] Cert.KernelIdeal.Gen.slices_S2x3x128x128_S1x1x128x128_1_1_0_0 x7 = val_main_v146 (F := Ideal) x7 := rfl

/-- Layer 5's bias row. -/
theorem bl_eq5 (x6 : (⟨Cert.ReferenceIdeal.S2x3x128, .f32⟩ : BufTy).Contents (Elt Ideal)) : bl5 x6 = val_main_v144 (F := Ideal) x6 := rfl

/-! ## Layer 6 -/

/-- The sign-normalised source column, as the reference's layer 6 computes it again. -/
theorem srcCol_eq6 (x2 : (⟨Cert.ReferenceIdeal.S2x1600000, .i32⟩ : BufTy).Contents (Elt Ideal)) : srcColOf (srcIdx x2) = val_main_v184 (F := Ideal) x2 := by
  rw [src_eq2]; rfl

/-- The destination column the neighbour sum scatters at. -/
theorem dstCol_eq6 (x2 : (⟨Cert.ReferenceIdeal.S2x1600000, .i32⟩ : BufTy).Contents (Elt Ideal)) : dstColOf (dstIdx x2) = val_main_v187 (F := Ideal) x2 := by
  rw [dst_eq2]; rfl

/-- The destination column the degree count scatters at. -/
theorem dstColDeg_eq6 (x2 : (⟨Cert.ReferenceIdeal.S2x1600000, .i32⟩ : BufTy).Contents (Elt Ideal)) : dstColOf (dstIdx x2) = val_main_v191 (F := Ideal) x2 := by
  rw [dst_eq2]; rfl

/-- Layer 6's summed neighbour rows of the reference's input rows are the reference's scatter stage. -/
theorem agg_eq6 (x0 : (⟨Cert.ReferenceIdeal.S100000x128, .f32⟩ : BufTy).Contents (Elt Ideal)) (x2 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S2x3x128x128, .f32⟩ : BufTy).Contents (Elt Ideal)) (x6 : (⟨Cert.ReferenceIdeal.S2x3x128, .f32⟩ : BufTy).Contents (Elt Ideal)) (x7 : (⟨Cert.ReferenceIdeal.S2x3x128x128, .f32⟩ : BufTy).Contents (Elt Ideal)) :
    agg x2 (val_main_v172 (F := Ideal) x0 x2 x3 x4 x5 x6 x7) = val_main_v188 (F := Ideal) x0 x2 x3 x4 x5 x6 x7 := by
  unfold agg aggOf val_main_v188 val_main_v185
  rw [Cert.KernelIdeal.ChainRead.gatheredOf_eq, srcCol_eq6, dstCol_eq6, scatterRows_eq, gatherRows_eq]
  rfl

/-- The node degrees over the second edge array are the reference's layer 6 degree count. -/
theorem deg_eq6 (x2 : (⟨Cert.ReferenceIdeal.S2x1600000, .i32⟩ : BufTy).Contents (Elt Ideal)) : degreeOf (dstIdx x2) = val_main_v192 (F := Ideal) x2 := by
  unfold degreeOf val_main_v192
  rw [dstColDeg_eq6, scatterVec_eq]
  rfl

/-- Layer 6's block of the neighbour weights. -/
theorem wl_eq6 (x5 : (⟨Cert.ReferenceIdeal.S2x3x128x128, .f32⟩ : BufTy).Contents (Elt Ideal)) :
    wBlock ![1, 2, 0, 0] Cert.KernelIdeal.Gen.slices_S2x3x128x128_S1x1x128x128_1_2_0_0 x5 = val_main_v174 (F := Ideal) x5 := rfl

/-- Layer 6's block of the root weights. -/
theorem wr_eq6 (x7 : (⟨Cert.ReferenceIdeal.S2x3x128x128, .f32⟩ : BufTy).Contents (Elt Ideal)) :
    wBlock ![1, 2, 0, 0] Cert.KernelIdeal.Gen.slices_S2x3x128x128_S1x1x128x128_1_2_0_0 x7 = val_main_v178 (F := Ideal) x7 := rfl

/-- Layer 6's bias row. -/
theorem bl_eq6 (x6 : (⟨Cert.ReferenceIdeal.S2x3x128, .f32⟩ : BufTy).Contents (Elt Ideal)) : bl6 x6 = val_main_v176 (F := Ideal) x6 := rfl

end Cert.Bridge

end
-- ==== Proof.MathSage.lean ====
/-
  The layer stage against the reference's spelling of it.

  The sum over the 256 joined columns is the sum over the first 128 (scaled neighbour sum against the first weight block) plus
  the sum over the last 128 (the node's own row against the second block). A scaled entry agg · (1 / D) is the quotient
  agg / D for every D ≠ 0 — and D = max(deg, 1) is never 0 —, and (A + B) + b = (A + b) + B in any commutative monoid,
  so no entry needs to be finite.
-/
import Idealize.ShloMosaic.PureOps.Ideal.Laws
import Idealize.ShloMosaic.Lib.IdealHost
import proofs.«140245_j83245056131912_2_alg».proof.Proof.Spec

noncomputable section

open scoped BigOperators

namespace Cert.MathSage

open Idealize.ShloMosaic Idealize.ShloMosaic.ValueIdx Cert.Spec

/-- The f32 word of 1 denotes 1. -/
theorem ow_eq : ow = 1 := Ideal.ofBits_one_f32

/-- The f32 word of 0 denotes 0. -/
theorem zw_eq : zw = 0 := Ideal.ofBits_zero_f32

/-- A number times the reciprocal 1 / D is its quotient by D, for D ≠ 0. -/
theorem scale_eq_div (a D : EReal) (hD : D ≠ 0) : a * Ideal.div ow D = Ideal.div a D := by
  unfold Ideal.div
  rw [if_neg hD, if_neg hD, ow_eq, one_mul]

/-- max(x, 1) is not 0. -/
theorem max_ow_ne_zero (x : EReal) : max x ow ≠ 0 := by
  rw [ow_eq]
  exact (lt_of_lt_of_le zero_lt_one (le_max_right x 1)).ne'

/-- The joined sum is the sum of its two halves. -/
theorem joined_sum (agg : Arr SN128) (den : Arr SN1) (h : Arr SN128) (wcat : Arr S256x128) (r : Fin 100000) (c : Fin 128) :
    (∑ k : Fin 256, catRow agg den h r k * wcat (ix2 k c))
      = (∑ k : Fin 128, (agg (ix2 r k) * den (ix2 r (0 : Fin 1))) * wcat (ix2 (⟨k.val, by omega⟩ : Fin 256) c))
        + ∑ k : Fin 128, h (ix2 r k) * wcat (ix2 (⟨128 + k.val, by omega⟩ : Fin 256) c) := by
  rw [show (∑ k : Fin 256, catRow agg den h r k * wcat (ix2 k c))
      = ∑ k : Fin (128 + 128), catRow agg den h r k * wcat (ix2 k c) from rfl, Fin.sum_univ_add]
  congr 1

/-- THE LAYER LAW at one entry: with den_r = 1 / D, D ≠ 0, and the stacked weights' two blocks named Wl and Wr,
    the kernel's entry is the reference's max(((agg_r / D)·Wl + bl) + h_r·Wr, 0). -/
theorem sageAt_eq (agg : Arr SN128) (den : Arr SN1) (h : Arr SN128) (wcat : Arr S256x128) (bl : Arr S128)
    (Wl Wr : Arr S128x128) (D : EReal) (r : Fin 100000) (c : Fin 128)
    (hD : D ≠ 0) (hden : den (ix2 r (0 : Fin 1)) = Ideal.div ow D)
    (hL : ∀ k : Fin 128, wcat (ix2 (⟨k.val, by omega⟩ : Fin 256) c) = Wl (ix2 k c))
    (hR : ∀ k : Fin 128, wcat (ix2 (⟨128 + k.val, by omega⟩ : Fin 256) c) = Wr (ix2 k c)) :
    sageAt agg den h wcat bl r c
      = max (((∑ k : Fin 128, Ideal.div (agg (ix2 r k)) D * Wl (ix2 k c)) + bl (ix1 c))
              + ∑ k : Fin 128, h (ix2 r k) * Wr (ix2 k c)) zw := by
  unfold sageAt
  rw [joined_sum, add_right_comm]
  congr 2
  · congr 1
    refine Finset.sum_congr rfl fun k _ => ?_
    rw [hden, scale_eq_div _ _ hD, hL k]
  · refine Finset.sum_congr rfl fun k _ => ?_
    rw [hR k]

end Cert.MathSage

end
-- ==== Proof.BridgeLayer1.lean ====
/-
  Layer 1: the kernel's stage over the kernel's host pieces is the reference's layer, entry by entry.

  Both read the same summed neighbour rows, the same degree and the same weight blocks; the kernel scales by 1 / max(deg, 1)
  before one product over the 256 joined columns, the reference divides and takes two products over 128 columns: the layer law.
-/
import proofs.«140245_j83245056131912_2_alg».proof.Proof.RefLayer1
import proofs.«140245_j83245056131912_2_alg».proof.Proof.BridgeHost
import proofs.«140245_j83245056131912_2_alg».proof.Proof.ChainRead
import proofs.«140245_j83245056131912_2_alg».proof.Proof.MathSage

noncomputable section

namespace Cert.Bridge

open Cert.ReferenceIdeal Cert.ReferenceIdeal.ReadP Idealize.ShloMosaic Idealize.ShloMosaic.ValueIdx

theorem layer1_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) :
    Cert.KernelIdeal.Chain.layer1 x1 (val_main_v4 (F := Ideal) x0 x3 x4) x5 x6 x7 = val_main_v40 (F := Ideal) x0 x1 x3 x4 x5 x6 x7 := by
  funext j
  obtain ⟨r, c, rfl⟩ : ∃ (r : Fin 100000) (c : Fin 128), j = ix2 r c := ⟨j 0, j 1, eq_ix2 j⟩
  rw [Cert.ReferenceIdeal.Layers.layer1_apply]
  delta Cert.KernelIdeal.Chain.layer1
  rw [Cert.Spec.sageArr_apply]
  rw [Cert.MathSage.sageAt_eq (Cert.KernelIdeal.Chain.agg x1 (val_main_v4 (F := Ideal) x0 x3 x4)) (Cert.KernelIdeal.Chain.den x1) (val_main_v4 (F := Ideal) x0 x3 x4)
      (Cert.KernelIdeal.Chain.wcat1 x5 x7) (Cert.KernelIdeal.Chain.bl1 x6)
      (Cert.KernelIdeal.Chain.wBlock ![0, 0, 0, 0] Cert.KernelIdeal.Gen.slices_S2x3x128x128_S1x1x128x128_0_0_0_0 x5) (Cert.KernelIdeal.Chain.wBlock ![0, 0, 0, 0] Cert.KernelIdeal.Gen.slices_S2x3x128x128_S1x1x128x128_0_0_0_0 x7)
      (max (Cert.KernelIdeal.Chain.degreeOf (Cert.KernelIdeal.Chain.dstIdx x1) (ix1 r)) Cert.Spec.ow) r c
      (Cert.MathSage.max_ow_ne_zero _)
      (Cert.KernelIdeal.ChainRead.denOf_apply (Cert.KernelIdeal.Chain.dstIdx x1) r)
      (fun k => Cert.KernelIdeal.ChainRead.wcatAt_left ![0, 0, 0, 0] Cert.KernelIdeal.Gen.slices_S2x3x128x128_S1x1x128x128_0_0_0_0 x5 x7 k c)
      (fun k => Cert.KernelIdeal.ChainRead.wcatAt_right ![0, 0, 0, 0] Cert.KernelIdeal.Gen.slices_S2x3x128x128_S1x1x128x128_0_0_0_0 x5 x7 k c)]
  rw [agg_eq1, deg_eq1, wl_eq1, wr_eq1, bl_eq1]

end Cert.Bridge

end
-- ==== Proof.RefLayer2.lean ====
/-
  Layer 2 of the reference, read at one entry: the rectified sum of the mean of the neighbour rows against the first
  weight matrix, the bias, and the node's own row against the second weight matrix — the quotient by max(deg, 1) entry by entry.
-/
import proofs.«140245_j83245056131912_2_alg».proof.Proof.RefReadP
import proofs.«140245_j83245056131912_2_alg».proof.Proof.Spec

noncomputable section

open scoped BigOperators

namespace Cert.ReferenceIdeal.Layers

open Cert.ReferenceIdeal Cert.ReferenceIdeal.ReadP Idealize.ShloMosaic Idealize.ShloMosaic.ValueIdx

/-- Entry (r, c) of layer 2's output: max(((agg_r / max(deg_r, 1))·Wl + bl) + h_r·Wr, 0). -/
theorem layer2_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) (r : Fin 100000) (c : Fin 128) :
    val_main_v72 (F := Ideal) x0 x1 x3 x4 x5 x6 x7 (ix2 r c)
      = max (((∑ k : Fin 128, Ideal.div (val_main_v56 (F := Ideal) x0 x1 x3 x4 x5 x6 x7 (ix2 r k)) (max (val_main_v60 (F := Ideal) x1 (ix1 r)) Cert.Spec.ow) * val_main_v42 (F := Ideal) x5 (ix2 k c))
              + val_main_v44 (F := Ideal) x6 (ix1 c))
            + ∑ k : Fin 128, val_main_v40 (F := Ideal) x0 x1 x3 x4 x5 x6 x7 (ix2 r k) * val_main_v46 (F := Ideal) x7 (ix2 k c)) Cert.Spec.zw := by
  have el : ∀ k : Fin 128, lidx_main_v66 (ix2 r c) k = ix2 r k := fun k => funext fun a => by
    match a with | ⟨0, _⟩ => rfl | ⟨1, _⟩ => rfl
  have er : ∀ k : Fin 128, ridx_main_v66 (ix2 r c) k = ix2 k c := fun k => funext fun a => by
    match a with | ⟨0, _⟩ => rfl | ⟨1, _⟩ => rfl
  have el' : ∀ k : Fin 128, lidx_main_v70 (ix2 r c) k = ix2 r k := fun k => funext fun a => by
    match a with | ⟨0, _⟩ => rfl | ⟨1, _⟩ => rfl
  have er' : ∀ k : Fin 128, ridx_main_v70 (ix2 r c) k = ix2 k c := fun k => funext fun a => by
    match a with | ⟨0, _⟩ => rfl | ⟨1, _⟩ => rfl
  have eb : idx_main_v67 (idx_main_v68 (ix2 r c)) = ix1 c := funext fun a => by
    match a with | ⟨0, _⟩ => rfl
  have ed : ∀ k : Fin 128, idx_main_v63 (idx_main_v64 (ix2 r k)) = ix1 r := fun k => funext fun a => by
    match a with | ⟨0, _⟩ => rfl
  have hq : ∀ k : Fin 128, val_main_v65 (F := Ideal) x0 x1 x3 x4 x5 x6 x7 (ix2 r k)
      = Ideal.div (val_main_v56 (F := Ideal) x0 x1 x3 x4 x5 x6 x7 (ix2 r k)) (max (val_main_v60 (F := Ideal) x1 (ix1 r)) Cert.Spec.ow) := fun k => by
    rw [val_main_v65_apply, val_main_v64_apply, val_main_v63_apply, val_main_v62_apply, val_main_v61_apply, ed k]
    rfl
  rw [val_main_v72_apply, val_main_v71_apply, val_main_v69_apply, val_main_v66_apply, val_main_v70_apply, val_main_v68_apply, val_main_v67_apply,
    val_main_call2_v0_apply, eb]
  simp only [el, er, el', er', hq]
  rfl

end Cert.ReferenceIdeal.Layers

end
-- ==== Proof.BridgeLayer2.lean ====
/-
  Layer 2: the kernel's stage over the kernel's host pieces is the reference's layer, entry by entry.

  Both read the same summed neighbour rows, the same degree and the same weight blocks; the kernel scales by 1 / max(deg, 1)
  before one product over the 256 joined columns, the reference divides and takes two products over 128 columns: the layer law.
-/
import proofs.«140245_j83245056131912_2_alg».proof.Proof.RefLayer2
import proofs.«140245_j83245056131912_2_alg».proof.Proof.BridgeHost
import proofs.«140245_j83245056131912_2_alg».proof.Proof.ChainRead
import proofs.«140245_j83245056131912_2_alg».proof.Proof.MathSage

noncomputable section

namespace Cert.Bridge

open Cert.ReferenceIdeal Cert.ReferenceIdeal.ReadP Idealize.ShloMosaic Idealize.ShloMosaic.ValueIdx

theorem layer2_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) :
    Cert.KernelIdeal.Chain.layer2 x1 (val_main_v40 (F := Ideal) x0 x1 x3 x4 x5 x6 x7) x5 x6 x7 = val_main_v72 (F := Ideal) x0 x1 x3 x4 x5 x6 x7 := by
  funext j
  obtain ⟨r, c, rfl⟩ : ∃ (r : Fin 100000) (c : Fin 128), j = ix2 r c := ⟨j 0, j 1, eq_ix2 j⟩
  rw [Cert.ReferenceIdeal.Layers.layer2_apply]
  delta Cert.KernelIdeal.Chain.layer2
  rw [Cert.Spec.sageArr_apply]
  rw [Cert.MathSage.sageAt_eq (Cert.KernelIdeal.Chain.agg x1 (val_main_v40 (F := Ideal) x0 x1 x3 x4 x5 x6 x7)) (Cert.KernelIdeal.Chain.den x1) (val_main_v40 (F := Ideal) x0 x1 x3 x4 x5 x6 x7)
      (Cert.KernelIdeal.Chain.wcat2 x5 x7) (Cert.KernelIdeal.Chain.bl2 x6)
      (Cert.KernelIdeal.Chain.wBlock ![0, 1, 0, 0] Cert.KernelIdeal.Gen.slices_S2x3x128x128_S1x1x128x128_0_1_0_0 x5) (Cert.KernelIdeal.Chain.wBlock ![0, 1, 0, 0] Cert.KernelIdeal.Gen.slices_S2x3x128x128_S1x1x128x128_0_1_0_0 x7)
      (max (Cert.KernelIdeal.Chain.degreeOf (Cert.KernelIdeal.Chain.dstIdx x1) (ix1 r)) Cert.Spec.ow) r c
      (Cert.MathSage.max_ow_ne_zero _)
      (Cert.KernelIdeal.ChainRead.denOf_apply (Cert.KernelIdeal.Chain.dstIdx x1) r)
      (fun k => Cert.KernelIdeal.ChainRead.wcatAt_left ![0, 1, 0, 0] Cert.KernelIdeal.Gen.slices_S2x3x128x128_S1x1x128x128_0_1_0_0 x5 x7 k c)
      (fun k => Cert.KernelIdeal.ChainRead.wcatAt_right ![0, 1, 0, 0] Cert.KernelIdeal.Gen.slices_S2x3x128x128_S1x1x128x128_0_1_0_0 x5 x7 k c)]
  rw [agg_eq2, deg_eq2, wl_eq2, wr_eq2, bl_eq2]

end Cert.Bridge

end
-- ==== Proof.RefLayer3.lean ====
/-
  Layer 3 of the reference, read at one entry: the rectified sum of the mean of the neighbour rows against the first
  weight matrix, the bias, and the node's own row against the second weight matrix — the quotient by max(deg, 1) entry by entry.
-/
import proofs.«140245_j83245056131912_2_alg».proof.Proof.RefReadP
import proofs.«140245_j83245056131912_2_alg».proof.Proof.Spec

noncomputable section

open scoped BigOperators

namespace Cert.ReferenceIdeal.Layers

open Cert.ReferenceIdeal Cert.ReferenceIdeal.ReadP Idealize.ShloMosaic Idealize.ShloMosaic.ValueIdx

/-- Entry (r, c) of layer 3's output: max(((agg_r / max(deg_r, 1))·Wl + bl) + h_r·Wr, 0). -/
theorem layer3_apply (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) (r : Fin 100000) (c : Fin 128) :
    val_main_v104 (F := Ideal) x0 x1 x3 x4 x5 x6 x7 (ix2 r c)
      = max (((∑ k : Fin 128, Ideal.div (val_main_v88 (F := Ideal) x0 x1 x3 x4 x5 x6 x7 (ix2 r k)) (max (val_main_v92 (F := Ideal) x1 (ix1 r)) Cert.Spec.ow) * val_main_v74 (F := Ideal) x5 (ix2 k c))
              + val_main_v76 (F := Ideal) x6 (ix1 c))
            + ∑ k : Fin 128, val_main_v72 (F := Ideal) x0 x1 x3 x4 x5 x6 x7 (ix2 r k) * val_main_v78 (F := Ideal) x7 (ix2 k c)) Cert.Spec.zw := by
  have el : ∀ k : Fin 128, lidx_main_v98 (ix2 r c) k = ix2 r k := fun k => funext fun a => by
    match a with | ⟨0, _⟩ => rfl | ⟨1, _⟩ => rfl
  have er : ∀ k : Fin 128, ridx_main_v98 (ix2 r c) k = ix2 k c := fun k => funext fun a => by
    match a with | ⟨0, _⟩ => rfl | ⟨1, _⟩ => rfl
  have el' : ∀ k : Fin 128, lidx_main_v102 (ix2 r c) k = ix2 r k := fun k => funext fun a => by
    match a with | ⟨0, _⟩ => rfl | ⟨1, _⟩ => rfl
  have er' : ∀ k : Fin 128, ridx_main_v102 (ix2 r c) k = ix2 k c := fun k => funext fun a => by
    match a with | ⟨0, _⟩ => rfl | ⟨1, _⟩ => rfl
  have eb : idx_main_v99 (idx_main_v100 (ix2 r c)) = ix1 c := funext fun a => by
    match a with | ⟨0, _⟩ => rfl
  have ed : ∀ k : Fin 128, idx_main_v95 (idx_main_v96 (ix2 r k)) = ix1 r := fun k => funext fun a => by
    match a with | ⟨0, _⟩ => rfl
  have hq : ∀ k : Fin 128, val_main_v97 (F := Ideal) x0 x1 x3 x4 x5 x6 x7 (ix2 r k)
      = Ideal.div (val_main_v88 (F := Ideal) x0 x1 x3 x4 x5 x6 x7 (ix2 r k)) (max (val_main_v92 (F := Ideal) x1 (ix1 r)) Cert.Spec.ow) := fun k => by
    rw [val_main_v97_apply, val_main_v96_apply, val_main_v95_apply, val_main_v94_apply, val_main_v93_apply, ed k]
    rfl
  rw [val_main_v104_apply, val_main_v103_apply, val_main_v101_apply, val_main_v98_apply, val_main_v102_apply, val_main_v100_apply, val_main_v99_apply,
    val_main_call3_v0_apply, eb]
  simp only [el, er, el', er', hq]
  rfl

end Cert.ReferenceIdeal.Layers

end
-- ==== Proof.BridgeLayer3.lean ====
/-
  Layer 3: the kernel's stage over the kernel's host pieces is the reference's layer, entry by entry.

  Both read the same summed neighbour rows, the same degree and the same weight blocks; the kernel scales by 1 / max(deg, 1)
  before one product over the 256 joined columns, the reference divides and takes two products over 128 columns: the layer law.
-/
import proofs.«140245_j83245056131912_2_alg».proof.Proof.RefLayer3
import proofs.«140245_j83245056131912_2_alg».proof.Proof.BridgeHost
import proofs.«140245_j83245056131912_2_alg».proof.Proof.ChainRead
import proofs.«140245_j83245056131912_2_alg».proof.Proof.MathSage

noncomputable section

namespace Cert.Bridge

open Cert.ReferenceIdeal Cert.ReferenceIdeal.ReadP Idealize.ShloMosaic Idealize.ShloMosaic.ValueIdx

theorem layer3_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) :
    Cert.KernelIdeal.Chain.layer3 x1 (val_main_v72 (F := Ideal) x0 x1 x3 x4 x5 x6 x7) x5 x6 x7 = val_main_v104 (F := Ideal) x0 x1 x3 x4 x5 x6 x7 := by
  funext j
  obtain ⟨r, c, rfl⟩ : ∃ (r : Fin 100000) (c : Fin 128), j = ix2 r c := ⟨j 0, j 1, eq_ix2 j⟩
  rw [Cert.ReferenceIdeal.Layers.layer3_apply]
  delta Cert.KernelIdeal.Chain.layer3
  rw [Cert.Spec.sageArr_apply]
  rw [Cert.MathSage.sageAt_eq (Cert.KernelIdeal.Chain.agg x1 (val_main_v72 (F := Ideal) x0 x1 x3 x4 x5 x6 x7)) (Cert.KernelIdeal.Chain.den x1) (val_main_v72 (F := Ideal) x0 x1 x3 x4 x5 x6 x7)
      (Cert.KernelIdeal.Chain.wcat3 x5 x7) (Cert.KernelIdeal.Chain.bl3 x6)
      (Cert.KernelIdeal.Chain.wBlock ![0, 2, 0, 0] Cert.KernelIdeal.Gen.slices_S2x3x128x128_S1x1x128x128_0_2_0_0 x5) (Cert.KernelIdeal.Chain.wBlock ![0, 2, 0, 0] Cert.KernelIdeal.Gen.slices_S2x3x128x128_S1x1x128x128_0_2_0_0 x7)
      (max (Cert.KernelIdeal.Chain.degreeOf (Cert.KernelIdeal.Chain.dstIdx x1) (ix1 r)) Cert.Spec.ow) r c
      (Cert.MathSage.max_ow_ne_zero _)
      (Cert.KernelIdeal.ChainRead.denOf_apply (Cert.KernelIdeal.Chain.dstIdx x1) r)
      (fun k => Cert.KernelIdeal.ChainRead.wcatAt_left ![0, 2, 0, 0] Cert.KernelIdeal.Gen.slices_S2x3x128x128_S1x1x128x128_0_2_0_0 x5 x7 k c)
      (fun k => Cert.KernelIdeal.ChainRead.wcatAt_right ![0, 2, 0, 0] Cert.KernelIdeal.Gen.slices_S2x3x128x128_S1x1x128x128_0_2_0_0 x5 x7 k c)]
  rw [agg_eq3, deg_eq3, wl_eq3, wr_eq3, bl_eq3]

end Cert.Bridge

end
-- ==== Proof.RefLayer4.lean ====
/-
  Layer 4 of the reference, read at one entry: the rectified sum of the mean of the neighbour rows against the first
  weight matrix, the bias, and the node's own row against the second weight matrix — the quotient by max(deg, 1) entry by entry.
-/
import proofs.«140245_j83245056131912_2_alg».proof.Proof.RefReadP
import proofs.«140245_j83245056131912_2_alg».proof.Proof.Spec

noncomputable section

open scoped BigOperators

namespace Cert.ReferenceIdeal.Layers

open Cert.ReferenceIdeal Cert.ReferenceIdeal.ReadP Idealize.ShloMosaic Idealize.ShloMosaic.ValueIdx

/-- Entry (r, c) of layer 4's output: max(((agg_r / max(deg_r, 1))·Wl + bl) + h_r·Wr, 0). -/
theorem layer4_apply (x0 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) (r : Fin 100000) (c : Fin 128) :
    val_main_v140 (F := Ideal) x0 x2 x3 x4 x5 x6 x7 (ix2 r c)
      = max (((∑ k : Fin 128, Ideal.div (val_main_v124 (F := Ideal) x0 x2 x3 x4 (ix2 r k)) (max (val_main_v128 (F := Ideal) x2 (ix1 r)) Cert.Spec.ow) * val_main_v110 (F := Ideal) x5 (ix2 k c))
              + val_main_v112 (F := Ideal) x6 (ix1 c))
            + ∑ k : Fin 128, val_main_v4 (F := Ideal) x0 x3 x4 (ix2 r k) * val_main_v114 (F := Ideal) x7 (ix2 k c)) Cert.Spec.zw := by
  have el : ∀ k : Fin 128, lidx_main_v134 (ix2 r c) k = ix2 r k := fun k => funext fun a => by
    match a with | ⟨0, _⟩ => rfl | ⟨1, _⟩ => rfl
  have er : ∀ k : Fin 128, ridx_main_v134 (ix2 r c) k = ix2 k c := fun k => funext fun a => by
    match a with | ⟨0, _⟩ => rfl | ⟨1, _⟩ => rfl
  have el' : ∀ k : Fin 128, lidx_main_v138 (ix2 r c) k = ix2 r k := fun k => funext fun a => by
    match a with | ⟨0, _⟩ => rfl | ⟨1, _⟩ => rfl
  have er' : ∀ k : Fin 128, ridx_main_v138 (ix2 r c) k = ix2 k c := fun k => funext fun a => by
    match a with | ⟨0, _⟩ => rfl | ⟨1, _⟩ => rfl
  have eb : idx_main_v135 (idx_main_v136 (ix2 r c)) = ix1 c := funext fun a => by
    match a with | ⟨0, _⟩ => rfl
  have ed : ∀ k : Fin 128, idx_main_v131 (idx_main_v132 (ix2 r k)) = ix1 r := fun k => funext fun a => by
    match a with | ⟨0, _⟩ => rfl
  have hq : ∀ k : Fin 128, val_main_v133 (F := Ideal) x0 x2 x3 x4 (ix2 r k)
      = Ideal.div (val_main_v124 (F := Ideal) x0 x2 x3 x4 (ix2 r k)) (max (val_main_v128 (F := Ideal) x2 (ix1 r)) Cert.Spec.ow) := fun k => by
    rw [val_main_v133_apply, val_main_v132_apply, val_main_v131_apply, val_main_v130_apply, val_main_v129_apply, ed k]
    rfl
  rw [val_main_v140_apply, val_main_v139_apply, val_main_v137_apply, val_main_v134_apply, val_main_v138_apply, val_main_v136_apply, val_main_v135_apply,
    val_main_call4_v0_apply, eb]
  simp only [el, er, el', er', hq]
  rfl

end Cert.ReferenceIdeal.Layers

end
-- ==== Proof.BridgeLayer4.lean ====
/-
  Layer 4: the kernel's stage over the kernel's host pieces is the reference's layer, entry by entry.

  Both read the same summed neighbour rows, the same degree and the same weight blocks; the kernel scales by 1 / max(deg, 1)
  before one product over the 256 joined columns, the reference divides and takes two products over 128 columns: the layer law.
-/
import proofs.«140245_j83245056131912_2_alg».proof.Proof.RefLayer4
import proofs.«140245_j83245056131912_2_alg».proof.Proof.BridgeHost
import proofs.«140245_j83245056131912_2_alg».proof.Proof.ChainRead
import proofs.«140245_j83245056131912_2_alg».proof.Proof.MathSage

noncomputable section

namespace Cert.Bridge

open Cert.ReferenceIdeal Cert.ReferenceIdeal.ReadP Idealize.ShloMosaic Idealize.ShloMosaic.ValueIdx

theorem layer4_eq (x0 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) :
    Cert.KernelIdeal.Chain.layer4 x2 (val_main_v4 (F := Ideal) x0 x3 x4) x5 x6 x7 = val_main_v140 (F := Ideal) x0 x2 x3 x4 x5 x6 x7 := by
  funext j
  obtain ⟨r, c, rfl⟩ : ∃ (r : Fin 100000) (c : Fin 128), j = ix2 r c := ⟨j 0, j 1, eq_ix2 j⟩
  rw [Cert.ReferenceIdeal.Layers.layer4_apply]
  delta Cert.KernelIdeal.Chain.layer4
  rw [Cert.Spec.sageArr_apply]
  rw [Cert.MathSage.sageAt_eq (Cert.KernelIdeal.Chain.agg x2 (val_main_v4 (F := Ideal) x0 x3 x4)) (Cert.KernelIdeal.Chain.den x2) (val_main_v4 (F := Ideal) x0 x3 x4)
      (Cert.KernelIdeal.Chain.wcat4 x5 x7) (Cert.KernelIdeal.Chain.bl4 x6)
      (Cert.KernelIdeal.Chain.wBlock ![1, 0, 0, 0] Cert.KernelIdeal.Gen.slices_S2x3x128x128_S1x1x128x128_1_0_0_0 x5) (Cert.KernelIdeal.Chain.wBlock ![1, 0, 0, 0] Cert.KernelIdeal.Gen.slices_S2x3x128x128_S1x1x128x128_1_0_0_0 x7)
      (max (Cert.KernelIdeal.Chain.degreeOf (Cert.KernelIdeal.Chain.dstIdx x2) (ix1 r)) Cert.Spec.ow) r c
      (Cert.MathSage.max_ow_ne_zero _)
      (Cert.KernelIdeal.ChainRead.denOf_apply (Cert.KernelIdeal.Chain.dstIdx x2) r)
      (fun k => Cert.KernelIdeal.ChainRead.wcatAt_left ![1, 0, 0, 0] Cert.KernelIdeal.Gen.slices_S2x3x128x128_S1x1x128x128_1_0_0_0 x5 x7 k c)
      (fun k => Cert.KernelIdeal.ChainRead.wcatAt_right ![1, 0, 0, 0] Cert.KernelIdeal.Gen.slices_S2x3x128x128_S1x1x128x128_1_0_0_0 x5 x7 k c)]
  rw [agg_eq4, deg_eq4, wl_eq4, wr_eq4, bl_eq4]

end Cert.Bridge

end
-- ==== Proof.RefLayer5.lean ====
/-
  Layer 5 of the reference, read at one entry: the rectified sum of the mean of the neighbour rows against the first
  weight matrix, the bias, and the node's own row against the second weight matrix — the quotient by max(deg, 1) entry by entry.
-/
import proofs.«140245_j83245056131912_2_alg».proof.Proof.RefReadP
import proofs.«140245_j83245056131912_2_alg».proof.Proof.Spec

noncomputable section

open scoped BigOperators

namespace Cert.ReferenceIdeal.Layers

open Cert.ReferenceIdeal Cert.ReferenceIdeal.ReadP Idealize.ShloMosaic Idealize.ShloMosaic.ValueIdx

/-- Entry (r, c) of layer 5's output: max(((agg_r / max(deg_r, 1))·Wl + bl) + h_r·Wr, 0). -/
theorem layer5_apply (x0 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) (r : Fin 100000) (c : Fin 128) :
    val_main_v172 (F := Ideal) x0 x2 x3 x4 x5 x6 x7 (ix2 r c)
      = max (((∑ k : Fin 128, Ideal.div (val_main_v156 (F := Ideal) x0 x2 x3 x4 x5 x6 x7 (ix2 r k)) (max (val_main_v160 (F := Ideal) x2 (ix1 r)) Cert.Spec.ow) * val_main_v142 (F := Ideal) x5 (ix2 k c))
              + val_main_v144 (F := Ideal) x6 (ix1 c))
            + ∑ k : Fin 128, val_main_v140 (F := Ideal) x0 x2 x3 x4 x5 x6 x7 (ix2 r k) * val_main_v146 (F := Ideal) x7 (ix2 k c)) Cert.Spec.zw := by
  have el : ∀ k : Fin 128, lidx_main_v166 (ix2 r c) k = ix2 r k := fun k => funext fun a => by
    match a with | ⟨0, _⟩ => rfl | ⟨1, _⟩ => rfl
  have er : ∀ k : Fin 128, ridx_main_v166 (ix2 r c) k = ix2 k c := fun k => funext fun a => by
    match a with | ⟨0, _⟩ => rfl | ⟨1, _⟩ => rfl
  have el' : ∀ k : Fin 128, lidx_main_v170 (ix2 r c) k = ix2 r k := fun k => funext fun a => by
    match a with | ⟨0, _⟩ => rfl | ⟨1, _⟩ => rfl
  have er' : ∀ k : Fin 128, ridx_main_v170 (ix2 r c) k = ix2 k c := fun k => funext fun a => by
    match a with | ⟨0, _⟩ => rfl | ⟨1, _⟩ => rfl
  have eb : idx_main_v167 (idx_main_v168 (ix2 r c)) = ix1 c := funext fun a => by
    match a with | ⟨0, _⟩ => rfl
  have ed : ∀ k : Fin 128, idx_main_v163 (idx_main_v164 (ix2 r k)) = ix1 r := fun k => funext fun a => by
    match a with | ⟨0, _⟩ => rfl
  have hq : ∀ k : Fin 128, val_main_v165 (F := Ideal) x0 x2 x3 x4 x5 x6 x7 (ix2 r k)
      = Ideal.div (val_main_v156 (F := Ideal) x0 x2 x3 x4 x5 x6 x7 (ix2 r k)) (max (val_main_v160 (F := Ideal) x2 (ix1 r)) Cert.Spec.ow) := fun k => by
    rw [val_main_v165_apply, val_main_v164_apply, val_main_v163_apply, val_main_v162_apply, val_main_v161_apply, ed k]
    rfl
  rw [val_main_v172_apply, val_main_v171_apply, val_main_v169_apply, val_main_v166_apply, val_main_v170_apply, val_main_v168_apply, val_main_v167_apply,
    val_main_call5_v0_apply, eb]
  simp only [el, er, el', er', hq]
  rfl

end Cert.ReferenceIdeal.Layers

end
-- ==== Proof.BridgeLayer5.lean ====
/-
  Layer 5: the kernel's stage over the kernel's host pieces is the reference's layer, entry by entry.

  Both read the same summed neighbour rows, the same degree and the same weight blocks; the kernel scales by 1 / max(deg, 1)
  before one product over the 256 joined columns, the reference divides and takes two products over 128 columns: the layer law.
-/
import proofs.«140245_j83245056131912_2_alg».proof.Proof.RefLayer5
import proofs.«140245_j83245056131912_2_alg».proof.Proof.BridgeHost
import proofs.«140245_j83245056131912_2_alg».proof.Proof.ChainRead
import proofs.«140245_j83245056131912_2_alg».proof.Proof.MathSage

noncomputable section

namespace Cert.Bridge

open Cert.ReferenceIdeal Cert.ReferenceIdeal.ReadP Idealize.ShloMosaic Idealize.ShloMosaic.ValueIdx

theorem layer5_eq (x0 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) :
    Cert.KernelIdeal.Chain.layer5 x2 (val_main_v140 (F := Ideal) x0 x2 x3 x4 x5 x6 x7) x5 x6 x7 = val_main_v172 (F := Ideal) x0 x2 x3 x4 x5 x6 x7 := by
  funext j
  obtain ⟨r, c, rfl⟩ : ∃ (r : Fin 100000) (c : Fin 128), j = ix2 r c := ⟨j 0, j 1, eq_ix2 j⟩
  rw [Cert.ReferenceIdeal.Layers.layer5_apply]
  delta Cert.KernelIdeal.Chain.layer5
  rw [Cert.Spec.sageArr_apply]
  rw [Cert.MathSage.sageAt_eq (Cert.KernelIdeal.Chain.agg x2 (val_main_v140 (F := Ideal) x0 x2 x3 x4 x5 x6 x7)) (Cert.KernelIdeal.Chain.den x2) (val_main_v140 (F := Ideal) x0 x2 x3 x4 x5 x6 x7)
      (Cert.KernelIdeal.Chain.wcat5 x5 x7) (Cert.KernelIdeal.Chain.bl5 x6)
      (Cert.KernelIdeal.Chain.wBlock ![1, 1, 0, 0] Cert.KernelIdeal.Gen.slices_S2x3x128x128_S1x1x128x128_1_1_0_0 x5) (Cert.KernelIdeal.Chain.wBlock ![1, 1, 0, 0] Cert.KernelIdeal.Gen.slices_S2x3x128x128_S1x1x128x128_1_1_0_0 x7)
      (max (Cert.KernelIdeal.Chain.degreeOf (Cert.KernelIdeal.Chain.dstIdx x2) (ix1 r)) Cert.Spec.ow) r c
      (Cert.MathSage.max_ow_ne_zero _)
      (Cert.KernelIdeal.ChainRead.denOf_apply (Cert.KernelIdeal.Chain.dstIdx x2) r)
      (fun k => Cert.KernelIdeal.ChainRead.wcatAt_left ![1, 1, 0, 0] Cert.KernelIdeal.Gen.slices_S2x3x128x128_S1x1x128x128_1_1_0_0 x5 x7 k c)
      (fun k => Cert.KernelIdeal.ChainRead.wcatAt_right ![1, 1, 0, 0] Cert.KernelIdeal.Gen.slices_S2x3x128x128_S1x1x128x128_1_1_0_0 x5 x7 k c)]
  rw [agg_eq5, deg_eq5, wl_eq5, wr_eq5, bl_eq5]

end Cert.Bridge

end
-- ==== Proof.RefLayer6.lean ====
/-
  Layer 6 of the reference, read at one entry: the rectified sum of the mean of the neighbour rows against the first
  weight matrix, the bias, and the node's own row against the second weight matrix — the quotient by max(deg, 1) entry by entry.
-/
import proofs.«140245_j83245056131912_2_alg».proof.Proof.RefReadP
import proofs.«140245_j83245056131912_2_alg».proof.Proof.Spec

noncomputable section

open scoped BigOperators

namespace Cert.ReferenceIdeal.Layers

open Cert.ReferenceIdeal Cert.ReferenceIdeal.ReadP Idealize.ShloMosaic Idealize.ShloMosaic.ValueIdx

/-- Entry (r, c) of layer 6's output: max(((agg_r / max(deg_r, 1))·Wl + bl) + h_r·Wr, 0). -/
theorem layer6_apply (x0 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) (r : Fin 100000) (c : Fin 128) :
    val_main_v204 (F := Ideal) x0 x2 x3 x4 x5 x6 x7 (ix2 r c)
      = max (((∑ k : Fin 128, Ideal.div (val_main_v188 (F := Ideal) x0 x2 x3 x4 x5 x6 x7 (ix2 r k)) (max (val_main_v192 (F := Ideal) x2 (ix1 r)) Cert.Spec.ow) * val_main_v174 (F := Ideal) x5 (ix2 k c))
              + val_main_v176 (F := Ideal) x6 (ix1 c))
            + ∑ k : Fin 128, val_main_v172 (F := Ideal) x0 x2 x3 x4 x5 x6 x7 (ix2 r k) * val_main_v178 (F := Ideal) x7 (ix2 k c)) Cert.Spec.zw := by
  have el : ∀ k : Fin 128, lidx_main_v198 (ix2 r c) k = ix2 r k := fun k => funext fun a => by
    match a with | ⟨0, _⟩ => rfl | ⟨1, _⟩ => rfl
  have er : ∀ k : Fin 128, ridx_main_v198 (ix2 r c) k = ix2 k c := fun k => funext fun a => by
    match a with | ⟨0, _⟩ => rfl | ⟨1, _⟩ => rfl
  have el' : ∀ k : Fin 128, lidx_main_v202 (ix2 r c) k = ix2 r k := fun k => funext fun a => by
    match a with | ⟨0, _⟩ => rfl | ⟨1, _⟩ => rfl
  have er' : ∀ k : Fin 128, ridx_main_v202 (ix2 r c) k = ix2 k c := fun k => funext fun a => by
    match a with | ⟨0, _⟩ => rfl | ⟨1, _⟩ => rfl
  have eb : idx_main_v199 (idx_main_v200 (ix2 r c)) = ix1 c := funext fun a => by
    match a with | ⟨0, _⟩ => rfl
  have ed : ∀ k : Fin 128, idx_main_v195 (idx_main_v196 (ix2 r k)) = ix1 r := fun k => funext fun a => by
    match a with | ⟨0, _⟩ => rfl
  have hq : ∀ k : Fin 128, val_main_v197 (F := Ideal) x0 x2 x3 x4 x5 x6 x7 (ix2 r k)
      = Ideal.div (val_main_v188 (F := Ideal) x0 x2 x3 x4 x5 x6 x7 (ix2 r k)) (max (val_main_v192 (F := Ideal) x2 (ix1 r)) Cert.Spec.ow) := fun k => by
    rw [val_main_v197_apply, val_main_v196_apply, val_main_v195_apply, val_main_v194_apply, val_main_v193_apply, ed k]
    rfl
  rw [val_main_v204_apply, val_main_v203_apply, val_main_v201_apply, val_main_v198_apply, val_main_v202_apply, val_main_v200_apply, val_main_v199_apply,
    val_main_call6_v0_apply, eb]
  simp only [el, er, el', er', hq]
  rfl

end Cert.ReferenceIdeal.Layers

end
-- ==== Proof.BridgeLayer6.lean ====
/-
  Layer 6: the kernel's stage over the kernel's host pieces is the reference's layer, entry by entry.

  Both read the same summed neighbour rows, the same degree and the same weight blocks; the kernel scales by 1 / max(deg, 1)
  before one product over the 256 joined columns, the reference divides and takes two products over 128 columns: the layer law.
-/
import proofs.«140245_j83245056131912_2_alg».proof.Proof.RefLayer6
import proofs.«140245_j83245056131912_2_alg».proof.Proof.BridgeHost
import proofs.«140245_j83245056131912_2_alg».proof.Proof.ChainRead
import proofs.«140245_j83245056131912_2_alg».proof.Proof.MathSage

noncomputable section

namespace Cert.Bridge

open Cert.ReferenceIdeal Cert.ReferenceIdeal.ReadP Idealize.ShloMosaic Idealize.ShloMosaic.ValueIdx

theorem layer6_eq (x0 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) :
    Cert.KernelIdeal.Chain.layer6 x2 (val_main_v172 (F := Ideal) x0 x2 x3 x4 x5 x6 x7) x5 x6 x7 = val_main_v204 (F := Ideal) x0 x2 x3 x4 x5 x6 x7 := by
  funext j
  obtain ⟨r, c, rfl⟩ : ∃ (r : Fin 100000) (c : Fin 128), j = ix2 r c := ⟨j 0, j 1, eq_ix2 j⟩
  rw [Cert.ReferenceIdeal.Layers.layer6_apply]
  delta Cert.KernelIdeal.Chain.layer6
  rw [Cert.Spec.sageArr_apply]
  rw [Cert.MathSage.sageAt_eq (Cert.KernelIdeal.Chain.agg x2 (val_main_v172 (F := Ideal) x0 x2 x3 x4 x5 x6 x7)) (Cert.KernelIdeal.Chain.den x2) (val_main_v172 (F := Ideal) x0 x2 x3 x4 x5 x6 x7)
      (Cert.KernelIdeal.Chain.wcat6 x5 x7) (Cert.KernelIdeal.Chain.bl6 x6)
      (Cert.KernelIdeal.Chain.wBlock ![1, 2, 0, 0] Cert.KernelIdeal.Gen.slices_S2x3x128x128_S1x1x128x128_1_2_0_0 x5) (Cert.KernelIdeal.Chain.wBlock ![1, 2, 0, 0] Cert.KernelIdeal.Gen.slices_S2x3x128x128_S1x1x128x128_1_2_0_0 x7)
      (max (Cert.KernelIdeal.Chain.degreeOf (Cert.KernelIdeal.Chain.dstIdx x2) (ix1 r)) Cert.Spec.ow) r c
      (Cert.MathSage.max_ow_ne_zero _)
      (Cert.KernelIdeal.ChainRead.denOf_apply (Cert.KernelIdeal.Chain.dstIdx x2) r)
      (fun k => Cert.KernelIdeal.ChainRead.wcatAt_left ![1, 2, 0, 0] Cert.KernelIdeal.Gen.slices_S2x3x128x128_S1x1x128x128_1_2_0_0 x5 x7 k c)
      (fun k => Cert.KernelIdeal.ChainRead.wcatAt_right ![1, 2, 0, 0] Cert.KernelIdeal.Gen.slices_S2x3x128x128_S1x1x128x128_1_2_0_0 x5 x7 k c)]
  rw [agg_eq6, deg_eq6, wl_eq6, wr_eq6, bl_eq6]

end Cert.Bridge

end
-- ==== Proof.Towers.lean ====
/-
  The two towers: the embedding followed by three layers over a relation's edges is, on both sides, the same array.
-/
import proofs.«140245_j83245056131912_2_alg».proof.Proof.BridgeLayer1
import proofs.«140245_j83245056131912_2_alg».proof.Proof.BridgeLayer2
import proofs.«140245_j83245056131912_2_alg».proof.Proof.BridgeLayer3
import proofs.«140245_j83245056131912_2_alg».proof.Proof.BridgeLayer4
import proofs.«140245_j83245056131912_2_alg».proof.Proof.BridgeLayer5
import proofs.«140245_j83245056131912_2_alg».proof.Proof.BridgeLayer6

noncomputable section

namespace Cert.Bridge

open Cert.ReferenceIdeal Cert.ReferenceIdeal.ReadP Idealize.ShloMosaic Idealize.ShloMosaic.ValueIdx

/-- The first relation's tower is the reference's. -/
theorem o0_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) :
    Cert.KernelIdeal.Chain.o0 x0 x1 x3 x4 x5 x6 x7 = val_main_v104 (F := Ideal) x0 x1 x3 x4 x5 x6 x7 := by
  delta Cert.KernelIdeal.Chain.o0
  rw [emb_eq, layer1_eq, layer2_eq, layer3_eq]

/-- The second relation's tower is the reference's. -/
theorem o1_eq (x0 : (⟨S100000x128, .f32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) :
    Cert.KernelIdeal.Chain.o1 x0 x2 x3 x4 x5 x6 x7 = val_main_v204 (F := Ideal) x0 x2 x3 x4 x5 x6 x7 := by
  delta Cert.KernelIdeal.Chain.o1
  rw [emb_eq, layer4_eq, layer5_eq, layer6_eq]

end Cert.Bridge

end
-- ==== Proof.RefTailHeads.lean ====
/-
  The reference's two heads over its fused rows.  Each head is a two-layer perceptron — a 128 → 64 layer with a bias and
  a maximum with 0, then a 64 → 2 (or 64 → 5) layer with a bias; entry by entry that is the specification's head over the
  reference's own fused array.  No entry needs to be finite.
-/
import proofs.«140245_j83245056131912_2_alg».proof.Proof.RefReadP
import proofs.«140245_j83245056131912_2_alg».proof.Proof.Spec

noncomputable section

open scoped BigOperators

namespace Cert.ReferenceIdeal.Tail

open Cert.ReferenceIdeal Cert.ReferenceIdeal.Gen Idealize.ShloMosaic Idealize.ShloMosaic.ValueIdx
open Cert.ReferenceIdeal.ReadP

variable (x0 : (⟨S100000x128, .f32⟩ : BufTy).Contents (Elt Ideal)) (x1 x2 : (⟨S2x1600000, .i32⟩ : BufTy).Contents (Elt Ideal))
  (x3 : (⟨S128x128, .f32⟩ : BufTy).Contents (Elt Ideal)) (x4 : (⟨S128, .f32⟩ : BufTy).Contents (Elt Ideal))
  (x5 : (⟨S2x3x128x128, .f32⟩ : BufTy).Contents (Elt Ideal)) (x6 : (⟨S2x3x128, .f32⟩ : BufTy).Contents (Elt Ideal))
  (x7 : (⟨S2x3x128x128, .f32⟩ : BufTy).Contents (Elt Ideal)) (x8 : (⟨S256x2, .f32⟩ : BufTy).Contents (Elt Ideal))
  (x9 : (⟨S2, .f32⟩ : BufTy).Contents (Elt Ideal))

/-! ## The two-output head -/

section Fraud

variable (x10 : (⟨S128x64, .f32⟩ : BufTy).Contents (Elt Ideal)) (x11 : (⟨S64, .f32⟩ : BufTy).Contents (Elt Ideal))
  (x12 : (⟨S64x2, .f32⟩ : BufTy).Contents (Elt Ideal)) (x13 : (⟨S2, .f32⟩ : BufTy).Contents (Elt Ideal))

/-- The hidden layer of the two-output head: max(g_r·W1 + b1, 0) at unit k. -/
theorem hid_fraud (r : Fin 100000) (k : Fin 64) :
    val_main_v232 (F := Ideal) x0 x1 x2 x3 x4 x5 x6 x7 x8 x9 x10 x11 (ix2 r k)
      = Spec.hidAt (val_main_v227 (F := Ideal) x0 x1 x2 x3 x4 x5 x6 x7 x8 x9) x10 x11 r k := by
  rw [val_main_v232_apply, val_main_v231_apply, val_main_v228_apply, val_main_v230_apply, val_main_v229_apply,
    val_main_call7_v0_apply, val_main_call7_cst_apply]
  have e1 : ∀ q : Fin 128, lidx_main_v228 (ix2 r k) q = ix2 r q := fun q =>
    funext fun a => Fin.ext (by match a with | ⟨0, _⟩ => rfl | ⟨1, _⟩ => rfl)
  have e2 : ∀ q : Fin 128, ridx_main_v228 (ix2 r k) q = ix2 q k := fun q =>
    funext fun a => Fin.ext (by match a with | ⟨0, _⟩ => rfl | ⟨1, _⟩ => rfl)
  have e3 : idx_main_v229 (idx_main_v230 (ix2 r k)) = ix1 k :=
    funext fun a => Fin.ext (by match a with | ⟨0, _⟩ => rfl)
  simp only [e1, e2, e3]
  rfl

/-- RESULT 0 of the reference is the specification's two-output head over the reference's fused array. -/
theorem fraud_eq (r : Fin 100000) (j : Fin 2) :
    val_main_v236 (F := Ideal) x0 x1 x2 x3 x4 x5 x6 x7 x8 x9 x10 x11 x12 x13 (ix2 r j)
      = Spec.fraudAt (val_main_v227 (F := Ideal) x0 x1 x2 x3 x4 x5 x6 x7 x8 x9) x10 x11 x12 x13 r j := by
  rw [val_main_v236_apply, val_main_v233_apply, val_main_v235_apply, val_main_v234_apply]
  have e1 : ∀ q : Fin 64, lidx_main_v233 (ix2 r j) q = ix2 r q := fun q =>
    funext fun a => Fin.ext (by match a with | ⟨0, _⟩ => rfl | ⟨1, _⟩ => rfl)
  have e2 : ∀ q : Fin 64, ridx_main_v233 (ix2 r j) q = ix2 q j := fun q =>
    funext fun a => Fin.ext (by match a with | ⟨0, _⟩ => rfl | ⟨1, _⟩ => rfl)
  have e3 : idx_main_v234 (idx_main_v235 (ix2 r j)) = ix1 j :=
    funext fun a => Fin.ext (by match a with | ⟨0, _⟩ => rfl)
  simp only [e1, e2, e3, hid_fraud x0 x1 x2 x3 x4 x5 x6 x7 x8 x9 x10 x11]
  rfl

end Fraud

/-! ## The five-output head -/

section Pattern

variable (x14 : (⟨S128x64, .f32⟩ : BufTy).Contents (Elt Ideal)) (x15 : (⟨S64, .f32⟩ : BufTy).Contents (Elt Ideal))
  (x16 : (⟨S64x5, .f32⟩ : BufTy).Contents (Elt Ideal)) (x17 : (⟨S5, .f32⟩ : BufTy).Contents (Elt Ideal))

/-- The hidden layer of the five-output head: max(g_r·W1 + b1, 0) at unit k. -/
theorem hid_pattern (r : Fin 100000) (k : Fin 64) :
    val_main_v241 (F := Ideal) x0 x1 x2 x3 x4 x5 x6 x7 x8 x9 x14 x15 (ix2 r k)
      = Spec.hidAt (val_main_v227 (F := Ideal) x0 x1 x2 x3 x4 x5 x6 x7 x8 x9) x14 x15 r k := by
  rw [val_main_v241_apply, val_main_v240_apply, val_main_v237_apply, val_main_v239_apply, val_main_v238_apply,
    val_main_call8_v0_apply, val_main_call8_cst_apply]
  have e1 : ∀ q : Fin 128, lidx_main_v237 (ix2 r k) q = ix2 r q := fun q =>
    funext fun a => Fin.ext (by match a with | ⟨0, _⟩ => rfl | ⟨1, _⟩ => rfl)
  have e2 : ∀ q : Fin 128, ridx_main_v237 (ix2 r k) q = ix2 q k := fun q =>
    funext fun a => Fin.ext (by match a with | ⟨0, _⟩ => rfl | ⟨1, _⟩ => rfl)
  have e3 : idx_main_v238 (idx_main_v239 (ix2 r k)) = ix1 k :=
    funext fun a => Fin.ext (by match a with | ⟨0, _⟩ => rfl)
  simp only [e1, e2, e3]
  rfl

/-- RESULT 1 of the reference is the specification's five-output head over the reference's fused array. -/
theorem pattern_eq (r : Fin 100000) (j : Fin 5) :
    val_main_v245 (F := Ideal) x0 x1 x2 x3 x4 x5 x6 x7 x8 x9 x14 x15 x16 x17 (ix2 r j)
      = Spec.patternAt (val_main_v227 (F := Ideal) x0 x1 x2 x3 x4 x5 x6 x7 x8 x9) x14 x15 x16 x17 r j := by
  rw [val_main_v245_apply, val_main_v242_apply, val_main_v244_apply, val_main_v243_apply]
  have e1 : ∀ q : Fin 64, lidx_main_v242 (ix2 r j) q = ix2 r q := fun q =>
    funext fun a => Fin.ext (by match a with | ⟨0, _⟩ => rfl | ⟨1, _⟩ => rfl)
  have e2 : ∀ q : Fin 64, ridx_main_v242 (ix2 r j) q = ix2 q j := fun q =>
    funext fun a => Fin.ext (by match a with | ⟨0, _⟩ => rfl | ⟨1, _⟩ => rfl)
  have e3 : idx_main_v243 (idx_main_v244 (ix2 r j)) = ix1 j :=
    funext fun a => Fin.ext (by match a with | ⟨0, _⟩ => rfl)
  simp only [e1, e2, e3, hid_pattern x0 x1 x2 x3 x4 x5 x6 x7 x8 x9 x14 x15]
  rfl

end Pattern

end Cert.ReferenceIdeal.Tail

end
-- ==== Proof.LibTwoWaySoftmax.lean ====
/-
  A general lemma about the two-way softmax on the extended reals.

  For two REAL logits a and b, the softmax computed the numerically careful way — the larger logit m = max a b
  subtracted before exponentiating, e^{a−m} / (e^{a−m} + e^{b−m}) — is the logistic function of the difference,
  1 / (1 + e^{−(a−b)}), and the other weight is its complement to one. This is what joins a kernel that gates two
  experts with sigmoid (l₀ − l₁) and 1 − sigmoid (l₀ − l₁) to a reference that takes a softmax over the two logits.
  Finiteness is needed: at an infinite logit a − max a b is not a difference of reals.
-/
import Idealize.ShloMosaic.PureOps.Ideal
import Idealize.ShloMosaic.PureOps.Ideal.Laws

noncomputable section

namespace Cert.LibTwoWaySoftmax

open Idealize.ShloMosaic

/-- In the reals: 1 / (1 + e^{−(a−b)}) = e^{a−M} / (e^{a−M} + e^{b−M}) for every shift M. -/
theorem real_first (a b M : ℝ) :
    (1 + Real.exp (-(a - b)))⁻¹ = Real.exp (a - M) / (Real.exp (a - M) + Real.exp (b - M)) := by
  have hq : Real.exp (-(a - b)) = Real.exp (b - M) / Real.exp (a - M) := by
    rw [← Real.exp_sub]; congr 1; ring
  have hx := Real.exp_pos (a - M)
  have hy := Real.exp_pos (b - M)
  rw [hq]
  field_simp

/-- and its complement to one is the other quotient. -/
theorem real_second (a b M : ℝ) :
    1 - (1 + Real.exp (-(a - b)))⁻¹ = Real.exp (b - M) / (Real.exp (a - M) + Real.exp (b - M)) := by
  have hx := Real.exp_pos (a - M)
  have hy := Real.exp_pos (b - M)
  rw [real_first a b M]
  field_simp
  ring

/-- The coercion of reals into the extended reals commutes with max. -/
theorem coe_max (a b : ℝ) : max (a : EReal) (b : EReal) = ((max a b : ℝ) : EReal) :=
  (EReal.coe_strictMono.monotone.map_max).symm

/-- The softmax quotient of real logits a, b with numerator exponent c, inside the reals. -/
theorem quotient_coe (a b c : ℝ) :
    Ideal.div (Ideal.exp ((c : EReal) - max (a : EReal) (b : EReal)))
        (Ideal.exp ((a : EReal) - max (a : EReal) (b : EReal)) + Ideal.exp ((b : EReal) - max (a : EReal) (b : EReal)))
      = ((Real.exp (c - max a b) / (Real.exp (a - max a b) + Real.exp (b - max a b)) : ℝ) : EReal) := by
  have hden : Real.exp (a - max a b) + Real.exp (b - max a b) ≠ 0 :=
    (add_pos (Real.exp_pos _) (Real.exp_pos _)).ne'
  rw [coe_max, ← EReal.coe_sub, ← EReal.coe_sub, ← EReal.coe_sub, Ideal.exp_coe, Ideal.exp_coe, Ideal.exp_coe,
    ← EReal.coe_add, Ideal.div_coe hden, ← EReal.coe_mul, mul_one_div]

/-- The first softmax weight of two real logits is the logistic function of their difference. -/
theorem softmax_first (a b : ℝ) :
    Ideal.div (Ideal.exp ((a : EReal) - max (a : EReal) (b : EReal)))
        (Ideal.exp ((a : EReal) - max (a : EReal) (b : EReal)) + Ideal.exp ((b : EReal) - max (a : EReal) (b : EReal)))
      = Ideal.logistic ((a : EReal) - (b : EReal)) := by
  rw [quotient_coe, ← EReal.coe_sub, Ideal.logistic_coe, real_first a b (max a b)]

/-- The second is its complement to one. -/
theorem softmax_second (a b : ℝ) :
    Ideal.div (Ideal.exp ((b : EReal) - max (a : EReal) (b : EReal)))
        (Ideal.exp ((a : EReal) - max (a : EReal) (b : EReal)) + Ideal.exp ((b : EReal) - max (a : EReal) (b : EReal)))
      = 1 - Ideal.logistic ((a : EReal) - (b : EReal)) := by
  rw [quotient_coe, ← EReal.coe_sub, Ideal.logistic_coe, ← EReal.coe_one, ← EReal.coe_sub, real_second a b (max a b)]

end Cert.LibTwoWaySoftmax

end
-- ==== Proof.FuseMath.lean ====
/-
  The fusion stage's arithmetic, away from any program.

  (i) A sum over 256 joined columns against a 256-row weight matrix is the sum over the first 128 columns against its
  first 128 rows plus the sum over the last 128 columns against its last 128 rows; so a logit computed from the joined
  row [o0_r , o1_r] is the specification's logit o0_r·Watt0 + o1_r·Watt1 + batt.
  (ii) A finite sum of products of reals is a real, so the logits of real rows and real weights are real.
  (iii) For real logits l0, l1 and M = max(l0, l1) the two softmax weights exp(l_j − M) / (exp(l0 − M) + exp(l1 − M))
  are 1 / (1 + exp(l1 − l0)) and its complement to one: the rows weighted by them and added are the fused row.
  (iv) A fold of a commutative associative operation over two positions; the host's maximum over the two columns of
  a row; the word of −∞.
-/
import proofs.«140245_j83245056131912_2_alg».proof.Proof.Spec
import Idealize.ShloMosaic.PureOps.Ideal.Laws
import Idealize.ShloMosaic.Lib.IdealHost
import proofs.«140245_j83245056131912_2_alg».proof.Proof.LibTwoWaySoftmax

noncomputable section

open scoped BigOperators

namespace Cert.FuseMath

open Idealize.ShloMosaic Idealize.ShloMosaic.ValueIdx Cert.Spec

/-- The stacked attention weights: 256 rows, 2 columns. -/
abbrev S256x2 : Shape := ⟨2, ![256, 2]⟩

/-- The f32 word of 1 denotes 1. -/
theorem ow_eq : ow = 1 := Ideal.ofBits_one_f32

/-- The f32 word of 0 denotes 0. -/
theorem zw_eq : zw = 0 := Ideal.ofBits_zero_f32

/-! ## The joined sum -/

/-- A sum over 256 positions is the sum over the first 128 plus the sum over the last 128. -/
theorem sum_halves (f : Fin 256 → EReal) :
    (∑ k : Fin 256, f k) = (∑ k : Fin 128, f ⟨k.val, by omega⟩) + ∑ k : Fin 128, f ⟨128 + k.val, by omega⟩ := by
  rw [show (∑ k : Fin 256, f k) = ∑ k : Fin (128 + 128), f k from rfl, Fin.sum_univ_add]
  rfl

/-- A logit computed from a joined row whose first half is o0_r and whose last half is o1_r, against the stacked
    weights whose two blocks are Watt0 and Watt1, is the specification's logit. -/
theorem logit_eq (o0 o1 : Arr SN128) (wa0 wa1 : Arr S128x2) (w : Arr S256x2) (ba : Arr S2)
    (hwa0 : ∀ (k : Fin 128) (j : Fin 2), wa0 (ix2 k j) = w (ix2 (⟨k.val, by omega⟩ : Fin 256) j))
    (hwa1 : ∀ (k : Fin 128) (j : Fin 2), wa1 (ix2 k j) = w (ix2 (⟨128 + k.val, by omega⟩ : Fin 256) j))
    (r : Fin 100000) (j : Fin 2) (cat : Fin 256 → EReal)
    (h0 : ∀ k : Fin 128, cat ⟨k.val, by omega⟩ = o0 (ix2 r k))
    (h1 : ∀ k : Fin 128, cat ⟨128 + k.val, by omega⟩ = o1 (ix2 r k)) :
    (∑ k : Fin 256, cat k * w (ix2 k j)) + ba (ix1 j) = logitAt o0 o1 wa0 wa1 ba r j := by
  unfold logitAt
  rw [sum_halves]
  congr 2
  · exact Finset.sum_congr rfl fun k _ => by rw [h0 k, hwa0 k j]
  · exact Finset.sum_congr rfl fun k _ => by rw [h1 k, hwa1 k j]

/-! ## Realness -/

theorem real_mul {a b : EReal} (ha : ∃ y : ℝ, a = (y : EReal)) (hb : ∃ y : ℝ, b = (y : EReal)) :
    ∃ y : ℝ, a * b = (y : EReal) := by
  obtain ⟨x, rfl⟩ := ha
  obtain ⟨y, rfl⟩ := hb
  exact ⟨x * y, (EReal.coe_mul x y).symm⟩

theorem real_add {a b : EReal} (ha : ∃ y : ℝ, a = (y : EReal)) (hb : ∃ y : ℝ, b = (y : EReal)) :
    ∃ y : ℝ, a + b = (y : EReal) := by
  obtain ⟨x, rfl⟩ := ha
  obtain ⟨y, rfl⟩ := hb
  exact ⟨x + y, (EReal.coe_add x y).symm⟩

/-- A finite sum of reals is a real. -/
theorem real_sum {ι : Type} (s : Finset ι) (f : ι → EReal) (h : ∀ k ∈ s, ∃ y : ℝ, f k = (y : EReal)) :
    ∃ y : ℝ, (∑ k ∈ s, f k) = (y : EReal) := by
  classical
  revert h
  refine Finset.induction_on s (fun _ => ⟨0, by simp⟩) ?_
  intro a s ha ih h
  rw [Finset.sum_insert ha]
  exact real_add (h a (Finset.mem_insert_self a s)) (ih fun k hk => h k (Finset.mem_insert_of_mem hk))

/-- The logits of real rows, real weights and a real bias are real. -/
theorem logit_real (o0 o1 : Arr SN128) (wa0 wa1 : Arr S128x2) (ba : Arr S2)
    (ho0 : ∀ (r : Fin 100000) (k : Fin 128), ∃ y : ℝ, o0 (ix2 r k) = (y : EReal))
    (ho1 : ∀ (r : Fin 100000) (k : Fin 128), ∃ y : ℝ, o1 (ix2 r k) = (y : EReal))
    (hw0 : ∀ (k : Fin 128) (j : Fin 2), ∃ y : ℝ, wa0 (ix2 k j) = (y : EReal))
    (hw1 : ∀ (k : Fin 128) (j : Fin 2), ∃ y : ℝ, wa1 (ix2 k j) = (y : EReal))
    (hb : ∀ j : Fin 2, ∃ y : ℝ, ba (ix1 j) = (y : EReal)) (r : Fin 100000) (j : Fin 2) :
    ∃ y : ℝ, logitAt o0 o1 wa0 wa1 ba r j = (y : EReal) := by
  unfold logitAt
  exact real_add (real_add (real_sum _ _ fun k _ => real_mul (ho0 r k) (hw0 k j))
    (real_sum _ _ fun k _ => real_mul (ho1 r k) (hw1 k j))) (hb j)

/-! ## The two softmax weights -/

/-- Two numbers weighted by the softmax of two real logits a, b (the larger logit subtracted first) and added are
    the first times 1 / (1 + exp(b − a)) plus the second times the complement of that to one. -/
theorem weighted_pair (a b : ℝ) (u0 u1 : EReal) :
    u0 * Ideal.div (Ideal.exp ((a : EReal) - max (a : EReal) (b : EReal)))
          (Ideal.exp ((a : EReal) - max (a : EReal) (b : EReal)) + Ideal.exp ((b : EReal) - max (a : EReal) (b : EReal)))
      + u1 * Ideal.div (Ideal.exp ((b : EReal) - max (a : EReal) (b : EReal)))
          (Ideal.exp ((a : EReal) - max (a : EReal) (b : EReal)) + Ideal.exp ((b : EReal) - max (a : EReal) (b : EReal)))
      = u0 * Ideal.div ow (ow + Ideal.exp ((b : EReal) - (a : EReal)))
        + u1 * (ow - Ideal.div ow (ow + Ideal.exp ((b : EReal) - (a : EReal)))) := by
  have hneg : -((a : EReal) - (b : EReal)) = (b : EReal) - (a : EReal) := by
    rw [← EReal.coe_sub, ← EReal.coe_neg, neg_sub, EReal.coe_sub]
  rw [LibTwoWaySoftmax.softmax_first a b, LibTwoWaySoftmax.softmax_second a b, ow_eq]
  unfold Ideal.logistic
  rw [hneg]

/-- THE FUSION LAW at one entry: with real logits, the two rows' entries weighted by the softmax of the logits and
    added are the specification's fused entry. -/
theorem fuse_eq (o0 o1 : Arr SN128) (wa0 wa1 : Arr S128x2) (ba : Arr S2) (r : Fin 100000) (c : Fin 128)
    (h0 : ∃ y : ℝ, logitAt o0 o1 wa0 wa1 ba r 0 = (y : EReal))
    (h1 : ∃ y : ℝ, logitAt o0 o1 wa0 wa1 ba r 1 = (y : EReal)) :
    o0 (ix2 r c) * Ideal.div
          (Ideal.exp (logitAt o0 o1 wa0 wa1 ba r 0 - max (logitAt o0 o1 wa0 wa1 ba r 0) (logitAt o0 o1 wa0 wa1 ba r 1)))
          (Ideal.exp (logitAt o0 o1 wa0 wa1 ba r 0 - max (logitAt o0 o1 wa0 wa1 ba r 0) (logitAt o0 o1 wa0 wa1 ba r 1))
            + Ideal.exp (logitAt o0 o1 wa0 wa1 ba r 1 - max (logitAt o0 o1 wa0 wa1 ba r 0) (logitAt o0 o1 wa0 wa1 ba r 1)))
      + o1 (ix2 r c) * Ideal.div
          (Ideal.exp (logitAt o0 o1 wa0 wa1 ba r 1 - max (logitAt o0 o1 wa0 wa1 ba r 0) (logitAt o0 o1 wa0 wa1 ba r 1)))
          (Ideal.exp (logitAt o0 o1 wa0 wa1 ba r 0 - max (logitAt o0 o1 wa0 wa1 ba r 0) (logitAt o0 o1 wa0 wa1 ba r 1))
            + Ideal.exp (logitAt o0 o1 wa0 wa1 ba r 1 - max (logitAt o0 o1 wa0 wa1 ba r 0) (logitAt o0 o1 wa0 wa1 ba r 1)))
      = fuseAt o0 o1 wa0 wa1 ba r c := by
  obtain ⟨a, ha⟩ := h0
  obtain ⟨b, hb⟩ := h1
  unfold fuseAt p0At
  rw [ha, hb]
  exact weighted_pair a b _ _

/-! ## Two positions, and the word of −∞ -/

/-- A fold of a commutative associative operation over two positions. -/
theorem fold_two {α : Type} (op : α → α → α) [Std.Commutative op] [Std.Associative op] (b : α) (f : Fin 2 → α) :
    (Finset.univ : Finset (Fin 2)).fold op b f = op (f 0) (op (f 1) b) := by
  rw [show (Finset.univ : Finset (Fin 2)) = insert 0 {1} from by decide,
    Finset.fold_insert (by decide), Finset.fold_singleton]

/-- A row index with the column k put back is (r, k). -/
theorem lift_col {n : Nat} (h : (⟨2, ![n, 2]⟩ : Shape).Reduces [1] (⟨1, ![n]⟩ : Shape)) (r : Fin n)
    (k : Fin ((⟨2, ![n, 2]⟩ : Shape).size 1)) : h.lift (ix1 r) k = ix2 r (⟨k.val, k.isLt⟩ : Fin 2) := by
  funext c; apply Fin.ext
  fin_cases c <;> rfl

/-- The host's reduce with a maximum body over the two columns of an n × 2 array, at row r, is the maximum of the
    row's two entries and the initial value. -/
theorem rowmax_two {n : Nat} (x : FVec Ideal ⟨2, ![n, 2]⟩ .f32) (init : (⟨0, ![]⟩ : Shape).Idx → Ideal .f32)
    (h' : (⟨2, ![n, 2]⟩ : Shape).ReducesTo [1] (⟨1, ![n]⟩ : Shape))
    (h : (⟨2, ![n, 2]⟩ : Shape).Reduces [1] (⟨1, ![n]⟩ : Shape)) (hu : 0 < (⟨0, ![]⟩ : Shape).numel) (r : Fin n) :
    Host.reduce FloatOps.maximumf x init h' hu (ix1 r)
      = max (x (ix2 r 0)) (max (x (ix2 r 1)) (init (Shape.Idx.first hu))) := by
  rw [Host.reduce_eq_fold_single FloatOps.maximumf x _ h' h hu]
  have hf : (x ∘ h.lift (ix1 r)) = fun k : Fin 2 => x (ix2 r k) := funext fun k => congrArg x (lift_col h r k)
  refine Eq.trans ?_ (fold_two (max : Ideal .f32 → Ideal .f32 → Ideal .f32) (init (Shape.Idx.first hu))
    (fun k : Fin 2 => x (ix2 r k)))
  exact congrArg (fun f => Finset.fold max (init (Shape.Idx.first hu)) f (Finset.univ : Finset (Fin 2))) hf

/-- The f32 word 0xFF800000 denotes −∞. -/
theorem ninf_eq : Ideal.ofBits .f32 0xFF800000#32 = (⊥ : EReal) := by
  simp [Ideal.ofBits, Ideal.ieee]

/-- The maximum of two numbers, folded from −∞ and compared with −∞ once more, is their maximum. -/
theorem max_from_bot (x y : EReal) : max (⊥ : EReal) (max x (max y ⊥)) = max x y := by
  rw [max_bot_right, max_bot_left]

end Cert.FuseMath

end
-- ==== Proof.RefTailFuse.lean ====
/-
  The reference's fusion of the two relations' rows, against the specification.

  The reference lays the two rows of a node side by side (a 2 × 128 block per node, read also as one joined row of 256),
  takes the two logits of the joined row against the stacked 256 × 2 weights, turns them into softmax weights (the row
  maximum subtracted, exponentials, their sum, the quotient), multiplies each of the two rows by its weight and adds the
  two.  Entry by entry and with real logits that is the specification's fused row.
-/
import proofs.«140245_j83245056131912_2_alg».proof.Proof.RefReadP
import proofs.«140245_j83245056131912_2_alg».proof.Proof.Spec
import proofs.«140245_j83245056131912_2_alg».proof.Proof.FuseMath

noncomputable section

open scoped BigOperators

namespace Cert.ReferenceIdeal.Tail

open Cert.ReferenceIdeal Cert.ReferenceIdeal.Gen Idealize.ShloMosaic Idealize.ShloMosaic.ValueIdx
open Cert.ReferenceIdeal.ReadP

variable (x0 : (⟨S100000x128, .f32⟩ : BufTy).Contents (Elt Ideal)) (x1 x2 : (⟨S2x1600000, .i32⟩ : BufTy).Contents (Elt Ideal))
  (x3 : (⟨S128x128, .f32⟩ : BufTy).Contents (Elt Ideal)) (x4 : (⟨S128, .f32⟩ : BufTy).Contents (Elt Ideal))
  (x5 : (⟨S2x3x128x128, .f32⟩ : BufTy).Contents (Elt Ideal)) (x6 : (⟨S2x3x128, .f32⟩ : BufTy).Contents (Elt Ideal))
  (x7 : (⟨S2x3x128x128, .f32⟩ : BufTy).Contents (Elt Ideal)) (x8 : (⟨S256x2, .f32⟩ : BufTy).Contents (Elt Ideal))
  (x9 : (⟨S2, .f32⟩ : BufTy).Contents (Elt Ideal))

/-! ## The two rows side by side -/

/-- Position 0 of node r's 2 × 128 block is the first relation's row. -/
theorem joined_left (r : Fin 100000) (c : Fin 128) :
    val_main_v207 (F := Ideal) x0 x1 x2 x3 x4 x5 x6 x7 (ix3 r (0 : Fin 2) c) = (val_main_v104 (F := Ideal) x0 x1 x3 x4 x5 x6 x7) (ix2 r c) := by
  unfold val_main_v207
  refine (concatenate_pair_apply_left _ _ _ concatenates_S100000x1x128_S100000x1x128_S100000x2x128_d1
    (ix3 r (0 : Fin 2) c) rfl (ix3 r (0 : Fin 1) c) (fun b => by
      match b with
      | ⟨0, _⟩ => rfl
      | ⟨1, _⟩ => rfl
      | ⟨2, _⟩ => rfl)).trans ?_
  rw [val_main_v205_apply]
  exact congrArg _ (funext fun a => Fin.ext (by match a with | ⟨0, _⟩ => rfl | ⟨1, _⟩ => rfl))

/-- Position 1 is the second relation's row. -/
theorem joined_right (r : Fin 100000) (c : Fin 128) :
    val_main_v207 (F := Ideal) x0 x1 x2 x3 x4 x5 x6 x7 (ix3 r (1 : Fin 2) c) = (val_main_v204 (F := Ideal) x0 x2 x3 x4 x5 x6 x7) (ix2 r c) := by
  unfold val_main_v207
  refine (concatenate_pair_apply_right _ _ _ concatenates_S100000x1x128_S100000x1x128_S100000x2x128_d1
    (ix3 r (1 : Fin 2) c) rfl rfl (ix3 r (0 : Fin 1) c) (fun b hb => by
      match b with
      | ⟨0, _⟩ => rfl
      | ⟨1, _⟩ => exact absurd rfl hb
      | ⟨2, _⟩ => rfl) rfl).trans ?_
  rw [val_main_v206_apply]
  exact congrArg _ (funext fun a => Fin.ext (by match a with | ⟨0, _⟩ => rfl | ⟨1, _⟩ => rfl))

/-- Column k < 128 of the joined row of 256 sits at position 0, column k, of the block. -/
theorem joined_col_lo (r : Fin 100000) (k : Fin 128) :
    idx_main_v208 (ix2 r (⟨k.val, by omega⟩ : Fin 256)) = ix3 r (0 : Fin 2) k := by
  funext a; apply Fin.ext
  have hr := r.isLt
  have hk := k.isLt
  match a with
  | ⟨0, _⟩ => show (r.val * 256 + k.val) / 256 = r.val; omega
  | ⟨1, _⟩ => show (r.val * 256 + k.val) / 128 % 2 = 0; omega
  | ⟨2, _⟩ => show (r.val * 256 + k.val) % 128 = k.val; omega

/-- Column 128 + k sits at position 1, column k. -/
theorem joined_col_hi (r : Fin 100000) (k : Fin 128) :
    idx_main_v208 (ix2 r (⟨128 + k.val, by omega⟩ : Fin 256)) = ix3 r (1 : Fin 2) k := by
  funext a; apply Fin.ext
  have hr := r.isLt
  have hk := k.isLt
  match a with
  | ⟨0, _⟩ => show (r.val * 256 + (128 + k.val)) / 256 = r.val; omega
  | ⟨1, _⟩ => show (r.val * 256 + (128 + k.val)) / 128 % 2 = 1; omega
  | ⟨2, _⟩ => show (r.val * 256 + (128 + k.val)) % 128 = k.val; omega

/-! ## The logits -/

/-- The reference's logit j of node r is the specification's, the stacked weights' two blocks named Watt0, Watt1. -/
theorem logits_apply (wa0 wa1 : Spec.Arr Spec.S128x2)
    (hwa0 : ∀ (k : Fin 128) (j : Fin 2), wa0 (ix2 k j) = x8 (ix2 (⟨k.val, by omega⟩ : Fin 256) j))
    (hwa1 : ∀ (k : Fin 128) (j : Fin 2), wa1 (ix2 k j) = x8 (ix2 (⟨128 + k.val, by omega⟩ : Fin 256) j))
    (r : Fin 100000) (j : Fin 2) :
    val_main_v212 (F := Ideal) x0 x1 x2 x3 x4 x5 x6 x7 x8 x9 (ix2 r j) = Spec.logitAt (val_main_v104 (F := Ideal) x0 x1 x3 x4 x5 x6 x7) (val_main_v204 (F := Ideal) x0 x2 x3 x4 x5 x6 x7) wa0 wa1 x9 r j := by
  rw [val_main_v212_apply, val_main_v209_apply, val_main_v211_apply, val_main_v210_apply]
  have e1 : ∀ q : Fin 256, lidx_main_v209 (ix2 r j) q = ix2 r q := fun q =>
    funext fun a => Fin.ext (by match a with | ⟨0, _⟩ => rfl | ⟨1, _⟩ => rfl)
  have e2 : ∀ q : Fin 256, ridx_main_v209 (ix2 r j) q = ix2 q j := fun q =>
    funext fun a => Fin.ext (by match a with | ⟨0, _⟩ => rfl | ⟨1, _⟩ => rfl)
  have e3 : idx_main_v210 (idx_main_v211 (ix2 r j)) = ix1 j :=
    funext fun a => Fin.ext (by match a with | ⟨0, _⟩ => rfl)
  simp only [e1, e2, e3]
  exact FuseMath.logit_eq (val_main_v104 (F := Ideal) x0 x1 x3 x4 x5 x6 x7) (val_main_v204 (F := Ideal) x0 x2 x3 x4 x5 x6 x7) wa0 wa1 x8 x9 hwa0 hwa1 r j
    (fun q => val_main_v208 (F := Ideal) x0 x1 x2 x3 x4 x5 x6 x7 (ix2 r q))
    (fun k => by
      show val_main_v208 (F := Ideal) x0 x1 x2 x3 x4 x5 x6 x7 (ix2 r (⟨k.val, _⟩ : Fin 256)) = _
      rw [val_main_v208_apply, joined_col_lo, joined_left])
    (fun k => by
      show val_main_v208 (F := Ideal) x0 x1 x2 x3 x4 x5 x6 x7 (ix2 r (⟨128 + k.val, _⟩ : Fin 256)) = _
      rw [val_main_v208_apply, joined_col_hi, joined_right])

/-! ## The softmax weights, in terms of the reference's own logits -/

/-- The row maximum: the larger of the two logits. -/
theorem rowmax_apply (r : Fin 100000) :
    val_main_v215 (F := Ideal) x0 x1 x2 x3 x4 x5 x6 x7 x8 x9 (ix1 r) = max (val_main_v212 (F := Ideal) x0 x1 x2 x3 x4 x5 x6 x7 x8 x9 (ix2 r (0 : Fin 2))) (val_main_v212 (F := Ideal) x0 x1 x2 x3 x4 x5 x6 x7 x8 x9 (ix2 r (1 : Fin 2))) := by
  rw [val_main_v215_apply, val_main_v214_apply, val_main_cst_35_apply]
  unfold val_main_v213
  rw [FuseMath.rowmax_two _ _ reducesTo_S100000x2_S100000_d1 (by decide) h_S_ r, val_main_cst_34_apply]
  show max (Ideal.ofBits .f32 0xFF800000#32) (max _ (max _ (Ideal.ofBits .f32 0xFF800000#32))) = _
  rw [FuseMath.ninf_eq, FuseMath.max_from_bot]

/-- The exponential of a logit less the row maximum. -/
theorem expo_apply (r : Fin 100000) (j : Fin 2) :
    val_main_v219 (F := Ideal) x0 x1 x2 x3 x4 x5 x6 x7 x8 x9 (ix2 r j) = Ideal.exp (val_main_v212 (F := Ideal) x0 x1 x2 x3 x4 x5 x6 x7 x8 x9 (ix2 r j) - max (val_main_v212 (F := Ideal) x0 x1 x2 x3 x4 x5 x6 x7 x8 x9 (ix2 r (0 : Fin 2))) (val_main_v212 (F := Ideal) x0 x1 x2 x3 x4 x5 x6 x7 x8 x9 (ix2 r (1 : Fin 2)))) := by
  rw [val_main_v219_apply, val_main_v218_apply, val_main_v217_apply, val_main_v216_apply]
  have e : idx_main_v216 (idx_main_v217 (ix2 r j)) = ix1 r := funext fun a => Fin.ext (by match a with | ⟨0, _⟩ => rfl)
  rw [e, rowmax_apply]
  rfl

/-- The sum of the two exponentials, from the zero word. -/
theorem denom_apply (r : Fin 100000) (j : Fin 2) :
    val_main_v222 (F := Ideal) x0 x1 x2 x3 x4 x5 x6 x7 x8 x9 (ix2 r j) = (Spec.zw + (Ideal.exp (val_main_v212 (F := Ideal) x0 x1 x2 x3 x4 x5 x6 x7 x8 x9 (ix2 r (0 : Fin 2)) - max (val_main_v212 (F := Ideal) x0 x1 x2 x3 x4 x5 x6 x7 x8 x9 (ix2 r (0 : Fin 2))) (val_main_v212 (F := Ideal) x0 x1 x2 x3 x4 x5 x6 x7 x8 x9 (ix2 r (1 : Fin 2)))) + Ideal.exp (val_main_v212 (F := Ideal) x0 x1 x2 x3 x4 x5 x6 x7 x8 x9 (ix2 r (1 : Fin 2)) - max (val_main_v212 (F := Ideal) x0 x1 x2 x3 x4 x5 x6 x7 x8 x9 (ix2 r (0 : Fin 2))) (val_main_v212 (F := Ideal) x0 x1 x2 x3 x4 x5 x6 x7 x8 x9 (ix2 r (1 : Fin 2)))))) := by
  rw [val_main_v222_apply, val_main_v221_apply, val_main_v220_apply, val_main_cst_36_apply, Fin.sum_univ_two]
  have e : ∀ q : Fin 2, idx_main_v220 (idx_main_v221 (idx_main_v222 (ix2 r j))) q = ix2 r q := fun q =>
    funext fun a => Fin.ext (by match a with | ⟨0, _⟩ => rfl | ⟨1, _⟩ => rfl)
  rw [e, e, expo_apply, expo_apply]
  rfl

/-- The softmax weight of position j, at every column of the block. -/
theorem weight_apply (r : Fin 100000) (j : Fin 2) (c : Fin 128) :
    val_main_v225 (F := Ideal) x0 x1 x2 x3 x4 x5 x6 x7 x8 x9 (ix3 r j c) = Ideal.div (Ideal.exp (val_main_v212 (F := Ideal) x0 x1 x2 x3 x4 x5 x6 x7 x8 x9 (ix2 r j) - max (val_main_v212 (F := Ideal) x0 x1 x2 x3 x4 x5 x6 x7 x8 x9 (ix2 r (0 : Fin 2))) (val_main_v212 (F := Ideal) x0 x1 x2 x3 x4 x5 x6 x7 x8 x9 (ix2 r (1 : Fin 2))))) (Spec.zw + (Ideal.exp (val_main_v212 (F := Ideal) x0 x1 x2 x3 x4 x5 x6 x7 x8 x9 (ix2 r (0 : Fin 2)) - max (val_main_v212 (F := Ideal) x0 x1 x2 x3 x4 x5 x6 x7 x8 x9 (ix2 r (0 : Fin 2))) (val_main_v212 (F := Ideal) x0 x1 x2 x3 x4 x5 x6 x7 x8 x9 (ix2 r (1 : Fin 2)))) + Ideal.exp (val_main_v212 (F := Ideal) x0 x1 x2 x3 x4 x5 x6 x7 x8 x9 (ix2 r (1 : Fin 2)) - max (val_main_v212 (F := Ideal) x0 x1 x2 x3 x4 x5 x6 x7 x8 x9 (ix2 r (0 : Fin 2))) (val_main_v212 (F := Ideal) x0 x1 x2 x3 x4 x5 x6 x7 x8 x9 (ix2 r (1 : Fin 2)))))) := by
  rw [val_main_v225_apply, val_main_v224_apply, val_main_v223_apply]
  have e : idx_main_v224 (idx_main_v225 (ix3 r j c)) = ix2 r j :=
    funext fun a => Fin.ext (by match a with | ⟨0, _⟩ => rfl | ⟨1, _⟩ => rfl)
  rw [e, expo_apply, denom_apply]
  rfl

/-! ## The fused row -/

/-- RESULT 2 of the reference is the specification's fused row, under realness of the rows, the attention weights and
    the attention bias. -/
theorem fused_eq (wa0 wa1 : Spec.Arr Spec.S128x2)
    (hwa0 : ∀ (k : Fin 128) (j : Fin 2), wa0 (ix2 k j) = x8 (ix2 (⟨k.val, by omega⟩ : Fin 256) j))
    (hwa1 : ∀ (k : Fin 128) (j : Fin 2), wa1 (ix2 k j) = x8 (ix2 (⟨128 + k.val, by omega⟩ : Fin 256) j))
    (ho0 : ∀ (r : Fin 100000) (k : Fin 128), ∃ y : ℝ, (val_main_v104 (F := Ideal) x0 x1 x3 x4 x5 x6 x7) (ix2 r k) = (y : EReal))
    (ho1 : ∀ (r : Fin 100000) (k : Fin 128), ∃ y : ℝ, (val_main_v204 (F := Ideal) x0 x2 x3 x4 x5 x6 x7) (ix2 r k) = (y : EReal))
    (hx8 : ∀ (k : Fin 256) (j : Fin 2), ∃ y : ℝ, x8 (ix2 k j) = (y : EReal))
    (hx9 : ∀ j : Fin 2, ∃ y : ℝ, x9 (ix1 j) = (y : EReal))
    (r : Fin 100000) (c : Fin 128) :
    val_main_v227 (F := Ideal) x0 x1 x2 x3 x4 x5 x6 x7 x8 x9 (ix2 r c) = Spec.fuseAt (val_main_v104 (F := Ideal) x0 x1 x3 x4 x5 x6 x7) (val_main_v204 (F := Ideal) x0 x2 x3 x4 x5 x6 x7) wa0 wa1 x9 r c := by
  have hl : ∀ j : Fin 2, ∃ y : ℝ, Spec.logitAt (val_main_v104 (F := Ideal) x0 x1 x3 x4 x5 x6 x7) (val_main_v204 (F := Ideal) x0 x2 x3 x4 x5 x6 x7) wa0 wa1 x9 r j = (y : EReal) :=
    FuseMath.logit_real (val_main_v104 (F := Ideal) x0 x1 x3 x4 x5 x6 x7) (val_main_v204 (F := Ideal) x0 x2 x3 x4 x5 x6 x7) wa0 wa1 x9 ho0 ho1
      (fun k j => by rw [hwa0 k j]; exact hx8 _ j) (fun k j => by rw [hwa1 k j]; exact hx8 _ j) hx9 r
  rw [val_main_v227_apply, val_main_cst_37_apply, Fin.sum_univ_two, val_main_v226_apply, val_main_v226_apply]
  have e : ∀ q : Fin 2, idx_main_v227 (ix2 r c) q = ix3 r q c := fun q =>
    funext fun a => Fin.ext (by match a with | ⟨0, _⟩ => rfl | ⟨1, _⟩ => rfl | ⟨2, _⟩ => rfl)
  rw [e, e, joined_left, joined_right, weight_apply, weight_apply]
  simp only [logits_apply x0 x1 x2 x3 x4 x5 x6 x7 x8 x9 wa0 wa1 hwa0 hwa1]
  rw [← FuseMath.fuse_eq (val_main_v104 (F := Ideal) x0 x1 x3 x4 x5 x6 x7) (val_main_v204 (F := Ideal) x0 x2 x3 x4 x5 x6 x7) wa0 wa1 x9 r c (hl 0) (hl 1)]
  show Spec.zw + (_ * Ideal.div _ (Spec.zw + _) + _ * Ideal.div _ (Spec.zw + _)) = _
  rw [FuseMath.zw_eq, zero_add, zero_add]

end Cert.ReferenceIdeal.Tail

end
-- ==== Proof.RefTail.lean ====
/-
  The reference's last stage against the specification: the fused rows (RESULT 2) and the two heads over them
  (RESULT 0, RESULT 1).  The statements are in the two imported modules, namespace Cert.ReferenceIdeal.Tail:
  fused_eq, fraud_eq, pattern_eq.
-/
import proofs.«140245_j83245056131912_2_alg».proof.Proof.RefTailHeads
import proofs.«140245_j83245056131912_2_alg».proof.Proof.RefTailFuse
-- ==== Proof.LibRowScatterGather.lean ====
/-
  Row scatters and row gathers of the host, read at an index on the extended reals.

  The shapes are the ones `jax.ops.segment_sum(data, ids)`, `x.at[rows, cols].add(v)` and `x[ids]` lower to when `ids` is
  a flat integer vector of `E` entries, presented to StableHLO as an `[E, 1]` (or `[E, 2]`) array of index vectors:

  * `segDims`   — scatter-add into `[N, C]` of updates `[E, C]` by row: result `(i, c)` is the operand's entry plus the sum of
                  `upd (e, c)` over the entries `e` whose index word, READ SIGNED, equals `i` (`hostScatterAdd_seg_apply`);
  * `vecDims`   — the same for a vector `[N]` and updates `[E]` (`hostScatterAdd_vec_apply`);
  * `denseDims` — scatter-add into a matrix `[N, M]` of updates `[E]` at index pairs: result `(i, j)` adds the updates of the
                  entries whose two index words are `i` and `j` (`hostScatterAdd_dense_apply`);
  * `rowDims`   — gather of rows of `[N, C]`: result `(e, c)` is the operand at row `ids e` read signed and CLAMPED into
                  `[0, N − 1]`, column `c` (`gather_rows_apply`);
  * `vecGDims`  — the same for a vector `[N]` (`gather_vec_apply`).

  A scatter drops an update whose index is out of range and a gather clamps it, so the two treat an out-of-range index
  differently; on indices in range (`toInt_eq_of_lt` turns the signed reading of a word below `N` into the word's value)
  both address row `ids e`.  The general fact underneath the scatters is `resultIdx?_eq_some_iff`: an update lands on an
  operand index exactly when start plus window coordinate equals that index's coordinate on every axis.
  The dimension numbers are stated with their well-formedness as a hypothesis, decided on a program's literal shapes; a
  printed record with these dimension numbers is definitionally the corresponding `…Dims N … wf`.
-/
import Idealize.ShloMosaic.Lib.ValueIdx
import Idealize.ShloMosaic.PureOps.Ideal
import Mathlib.Algebra.BigOperators.Group.Finset.Piecewise

noncomputable section

namespace LibRowScatterGather

open Idealize.ShloMosaic Idealize.ShloMosaic.ValueIdx

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- For any scatter: update `j` lands on operand index `r` exactly when start plus window coordinate is `r`'s coordinate on
    every axis (and is dropped otherwise). -/
theorem resultIdx?_eq_some_iff {s si u : Shape} (d : ScatterDims s si u) {w : Nat} (j : u.Idx) (idx : IVec si w) (r : s.Idx) :
    d.resultIdx? j idx = some r ↔ ∀ a, d.start j idx a + d.window j a = ((r a).val : Int) := by
  unfold ScatterDims.resultIdx?
  split
  · rename_i h
    constructor
    · intro heq a
      have := congrFun (Option.some.inj heq) a
      rw [← this]
      exact (Int.toNat_of_nonneg (h a).1).symm
    · intro hall
      refine congrArg some (funext fun a => Fin.ext ?_)
      show (d.start j idx a + d.window j a).toNat = (r a).val
      rw [hall a]; rfl
  · rename_i h
    constructor
    · intro h'; cases h'
    · intro hall; exfalso; apply h; intro a; rw [hall a]
      exact ⟨Int.natCast_nonneg _, by exact_mod_cast (r a).isLt⟩

/-! ## Scatter-add by row into a matrix (a segment sum) -/

section Seg

/-- The dimension numbers of a scatter of updates `[E, C]` into an operand `[N, C]` at row indices `[E, 1]`. -/
abbrev segDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start0 (idx : IVec ⟨2, ![E, 1]⟩ w) (e : Fin E) (c : Fin C) :
    (segDims N E C wf).start (ix2 e c) idx 0 = (idx (ix2 e 0)).toInt := by
  unfold ScatterDims.start
  rw [dif_pos (show (0 : Fin 2) ∈ (segDims N E C wf).scatterDimsToOperandDims from List.mem_singleton.mpr rfl)]
  refine congrArg (fun k => (idx k).toInt) ?_
  funext b; refine Fin.ext ?_
  match b with
  | ⟨0, _⟩ => rfl
  | ⟨1, _⟩ => rfl

theorem start1 (idx : IVec ⟨2, ![E, 1]⟩ w) (j : (⟨2, ![E, C]⟩ : Shape).Idx) :
    (segDims N E C wf).start j idx 1 = 0 := by
  unfold ScatterDims.start
  have h : (1 : Fin 2) ∉ (segDims N E C wf).scatterDimsToOperandDims := (show (1 : Fin 2) ∉ ([0] : List (Fin 2)) from by decide)
  rw [dif_neg h]

theorem window0 (j : (⟨2, ![E, C]⟩ : Shape).Idx) : (segDims N E C wf).window j 0 = 0 := by
  unfold ScatterDims.window
  have h : (0 : Fin 2) ∉ (segDims N E C wf).sKept :=
    (show (0 : Fin 2) ∉ ((List.finRange 2).filter (· ∉ ([0] : List (Fin 2)))) from by decide)
  rw [dif_neg h]

theorem window1 (e : Fin E) (c : Fin C) : (segDims N E C wf).window (ix2 e c) 1 = c.val := by
  unfold ScatterDims.window
  have h : (1 : Fin 2) ∈ (segDims N E C wf).sKept :=
    (show (1 : Fin 2) ∈ ((List.finRange 2).filter (· ∉ ([0] : List (Fin 2)))) from by decide)
  rw [dif_pos h]
  rfl

theorem resultIdx?_seg_iff (idx : IVec ⟨2, ![E, 1]⟩ w) (e : Fin E) (c : Fin C) (i : Fin N) (c' : Fin C) :
    (segDims N E C wf).resultIdx? (ix2 e c) idx = some (ix2 i c') ↔ (idx (ix2 e 0)).toInt = (i.val : Int) ∧ c = c' := by
  rw [resultIdx?_eq_some_iff]
  constructor
  · intro h
    have h0 : (segDims N E C wf).start (ix2 e c) idx 0 + (segDims N E C wf).window (ix2 e c) 0 = ((i.val : ℕ) : ℤ) := h 0
    have h1 : (segDims N E C wf).start (ix2 e c) idx 1 + (segDims N E C wf).window (ix2 e c) 1 = ((c'.val : ℕ) : ℤ) := h 1
    rw [start0, window0] at h0
    rw [start1, window1] at h1
    refine ⟨by simpa using h0, Fin.ext ?_⟩
    have : ((c.val : Int)) = (c'.val : Int) := by simpa using h1
    exact_mod_cast this
  · rintro ⟨h0, rfl⟩ a
    match a with
    | ⟨0, _⟩ => show (segDims N E C wf).start (ix2 e c) idx 0 + (segDims N E C wf).window (ix2 e c) 0 = _; rw [start0, window0, h0]; simp
    | ⟨1, _⟩ => show (segDims N E C wf).start (ix2 e c) idx 1 + (segDims N E C wf).window (ix2 e c) 1 = _; rw [start1, window1]; simp

/-- THE SEGMENT SUM READ AT `(i, c)`: the operand there plus the updates of the rows whose index word, read signed, is `i`. -/
theorem hostScatterAdd_seg_apply (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (segDims N E C wf) x idx upd (ix2 i c)
      = x (ix2 i c) + ∑ e ∈ Finset.univ.filter (fun e : Fin E => (idx (ix2 e 0)).toInt = (i.val : Int)), upd (ix2 e c) := by
  unfold Ideal.hostScatterAdd
  refine congrArg (x (ix2 i c) + ·) ?_
  rw [Finset.sum_filter, sum_idx2, Finset.sum_filter]
  refine Finset.sum_congr rfl fun e _ => ?_
  simp only [resultIdx?_seg_iff]
  by_cases hi : (idx (ix2 e 0)).toInt = (i.val : Int)
  · simp only [hi, true_and, if_true]
    rw [Finset.sum_ite_eq' Finset.univ c fun b => upd (ix2 e b), if_pos (Finset.mem_univ _)]
  · simp only [hi, false_and, if_false, Finset.sum_const_zero]

end Seg

/-! ## Scatter-add into a vector -/

section Vec

/-- The dimension numbers of a scatter of updates `[E]` into an operand `[N]` at indices `[E, 1]`. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vec_start0 (idx : IVec ⟨2, ![E, 1]⟩ w) (e : Fin E) :
    (vecDims N E wf).start (ix1 e) idx 0 = (idx (ix2 e 0)).toInt := by
  unfold ScatterDims.start
  rw [dif_pos (show (0 : Fin 1) ∈ (vecDims N E wf).scatterDimsToOperandDims from List.mem_singleton.mpr rfl)]
  refine congrArg (fun k => (idx k).toInt) ?_
  funext b; refine Fin.ext ?_
  match b with
  | ⟨0, _⟩ => rfl
  | ⟨1, _⟩ => rfl

theorem vec_window0 (j : (⟨1, ![E]⟩ : Shape).Idx) : (vecDims N E wf).window j 0 = 0 := by
  unfold ScatterDims.window
  have h : (0 : Fin 1) ∉ (vecDims N E wf).sKept :=
    (show (0 : Fin 1) ∉ ((List.finRange 1).filter (· ∉ ([0] : List (Fin 1)))) from by decide)
  rw [dif_neg h]

theorem resultIdx?_vec_iff (idx : IVec ⟨2, ![E, 1]⟩ w) (e : Fin E) (i : Fin N) :
    (vecDims N E wf).resultIdx? (ix1 e) idx = some (ix1 i) ↔ (idx (ix2 e 0)).toInt = (i.val : Int) := by
  rw [resultIdx?_eq_some_iff]
  constructor
  · intro h
    have h0 : (vecDims N E wf).start (ix1 e) idx 0 + (vecDims N E wf).window (ix1 e) 0 = ((i.val : ℕ) : ℤ) := h 0
    rw [vec_start0, vec_window0] at h0
    simpa using h0
  · intro h0 a
    obtain rfl : a = 0 := Subsingleton.elim _ _
    show (vecDims N E wf).start (ix1 e) idx 0 + (vecDims N E wf).window (ix1 e) 0 = ((i.val : ℕ) : ℤ)
    rw [vec_start0, vec_window0, h0]; simp

/-- THE VECTOR SCATTER-ADD READ AT `i`: the operand there plus the updates of the entries whose index word, read signed, is `i`. -/
theorem hostScatterAdd_vec_apply (x : (⟨1, ![N]⟩ : Shape).Idx → EReal) (idx : IVec ⟨2, ![E, 1]⟩ w)
    (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e 0)).toInt = (i.val : Int)), upd (ix1 e) := by
  unfold Ideal.hostScatterAdd
  refine congrArg (x (ix1 i) + ·) ?_
  rw [Finset.sum_filter, sum_idx1, Finset.sum_filter]
  refine Finset.sum_congr rfl fun e _ => ?_
  simp only [resultIdx?_vec_iff]

end Vec

/-! ## Scatter-add into a matrix at index pairs (a dense adjacency matrix from an edge list) -/

section Dense

/-- The dimension numbers of a scatter of updates `[E]` into an operand `[N, M]` at index pairs `[E, 2]`. -/
abbrev denseDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)

theorem dense_start0 (idx : IVec ⟨2, ![E, 2]⟩ w) (e : Fin E) :
    (denseDims N M E wf).start (ix1 e) idx 0 = (idx (ix2 e 0)).toInt := by
  unfold ScatterDims.start
  have h : (0 : Fin 2) ∈ (denseDims N M E wf).scatterDimsToOperandDims := (show (0 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_start1 (idx : IVec ⟨2, ![E, 2]⟩ w) (e : Fin E) :
    (denseDims N M E wf).start (ix1 e) idx 1 = (idx (ix2 e 1)).toInt := by
  unfold ScatterDims.start
  have h : (1 : Fin 2) ∈ (denseDims N M E wf).scatterDimsToOperandDims := (show (1 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_window (j : (⟨1, ![E]⟩ : Shape).Idx) (a : Fin 2) : (denseDims N M E wf).window j a = 0 := by
  unfold ScatterDims.window
  have h : a ∉ (denseDims N M E wf).sKept := by
    have : ∀ b : Fin 2, b ∉ ((List.finRange 2).filter (· ∉ ([0, 1] : List (Fin 2)))) := by decide
    exact this a
  rw [dif_neg h]

theorem resultIdx?_dense_iff (idx : IVec ⟨2, ![E, 2]⟩ w) (e : Fin E) (i : Fin N) (j : Fin M) :
    (denseDims N M E wf).resultIdx? (ix1 e) idx = some (ix2 i j)
      ↔ (idx (ix2 e 0)).toInt = (i.val : Int) ∧ (idx (ix2 e 1)).toInt = (j.val : Int) := by
  rw [resultIdx?_eq_some_iff]
  constructor
  · intro h
    have h0 : (denseDims N M E wf).start (ix1 e) idx 0 + (denseDims N M E wf).window (ix1 e) 0 = ((i.val : ℕ) : ℤ) := h 0
    have h1 : (denseDims N M E wf).start (ix1 e) idx 1 + (denseDims N M E wf).window (ix1 e) 1 = ((j.val : ℕ) : ℤ) := h 1
    rw [dense_start0, dense_window] at h0
    rw [dense_start1, dense_window] at h1
    exact ⟨by simpa using h0, by simpa using h1⟩
  · rintro ⟨h0, h1⟩ a
    match a with
    | ⟨0, _⟩ =>
      show (denseDims N M E wf).start (ix1 e) idx 0 + (denseDims N M E wf).window (ix1 e) 0 = _
      rw [dense_start0, dense_window, h0]; simp
    | ⟨1, _⟩ =>
      show (denseDims N M E wf).start (ix1 e) idx 1 + (denseDims N M E wf).window (ix1 e) 1 = _
      rw [dense_start1, dense_window, h1]; simp

/-- THE MATRIX SCATTER-ADD READ AT `(i, j)`: the operand there plus the updates of the entries whose two index words, read
    signed, are `i` and `j`. -/
theorem hostScatterAdd_dense_apply (x : (⟨2, ![N, M]⟩ : Shape).Idx → EReal) (idx : IVec ⟨2, ![E, 2]⟩ w)
    (upd : (⟨1, ![E]⟩ : Shape).Idx → EReal) (i : Fin N) (j : Fin M) :
    Ideal.hostScatterAdd (denseDims N M E wf) x idx upd (ix2 i j)
      = x (ix2 i j) + ∑ e ∈ Finset.univ.filter (fun e : Fin E =>
          (idx (ix2 e 0)).toInt = (i.val : Int) ∧ (idx (ix2 e 1)).toInt = (j.val : Int)), upd (ix1 e) := by
  unfold Ideal.hostScatterAdd
  refine congrArg (x (ix2 i j) + ·) ?_
  rw [Finset.sum_filter, sum_idx1, Finset.sum_filter]
  refine Finset.sum_congr rfl fun e _ => ?_
  simp only [resultIdx?_dense_iff]

end Dense

/-! ## Gather of rows -/

section Rows
variable {α : Type}

/-- The dimension numbers of a gather of rows of `[N, C]` at row indices `[E, 1]`, result `[E, C]`. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `ids e` — read signed and clamped into `[0, N − 1]` — and column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N C E wf) x idx (ix2 e c)
      = x (ix2 ⟨min (idx (ix2 e 0)).toInt.toNat (N - 1), by omega⟩ c) := by
  unfold Host.gather
  refine congrArg x ?_
  funext a
  refine Fin.ext ?_
  have hk1 : (1 : Fin 2) ∈ (rowDims N C E wf).sKept :=
    ((rowDims N C E wf).mem_sKept 1).mpr ⟨(show (1 : Fin 2) ∉ ([0] : List (Fin 2)) from by decide), List.not_mem_nil⟩
  have hk0 : (0 : Fin 2) ∉ (rowDims N C E wf).sKept := fun h =>
    (((rowDims N C E wf).mem_sKept 0).mp h).1 (List.mem_singleton.mpr rfl)
  match a with
  | ⟨0, _⟩ =>
    show (rowDims N C E wf).start (ix2 e c) idx 0 + (rowDims N C E wf).batchCoord (ix2 e c) 0 + (rowDims N C E wf).offCoord (ix2 e c) 0 = _
    rw [GatherDims.batchCoord_eq_zero _ _ _ List.not_mem_nil, GatherDims.offCoord_eq_zero _ _ _ hk0]
    simp only [Nat.add_zero]
    unfold GatherDims.start
    rw [dif_pos (show (0 : Fin 2) ∈ (rowDims N C E wf).startIndexMap from List.mem_singleton.mpr rfl)]
    have hsi : (rowDims N C E wf).siIdx (ix2 e c) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e c) idx 1 + (rowDims N C E wf).batchCoord (ix2 e c) 1 + (rowDims N C E wf).offCoord (ix2 e c) 1 = _
    rw [GatherDims.batchCoord_eq_zero _ _ _ List.not_mem_nil]
    have hs : (rowDims N C E wf).start (ix2 e c) idx 1 = 0 := by
      unfold GatherDims.start
      have h : (1 : Fin 2) ∉ (rowDims N C E wf).startIndexMap := (show (1 : Fin 2) ∉ ([0] : List (Fin 2)) from by decide)
      rw [dif_neg h]
    have ho : (rowDims N C E wf).offCoord (ix2 e c) 1 = c.val := by
      unfold GatherDims.offCoord
      rw [dif_pos hk1]
      rfl
    rw [hs, ho]; simp

end Rows

/-! ## Gather from a vector -/

section VecG
variable {α : Type}

/-- The dimension numbers of a gather from a vector `[N]` at indices `[E, 1]`, result `[E]`. -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `ids e`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e) = x (ix1 ⟨min (idx (ix2 e 0)).toInt.toNat (N - 1), by omega⟩) := by
  unfold Host.gather
  refine congrArg x ?_
  funext a
  obtain rfl : a = 0 := Subsingleton.elim _ _
  refine Fin.ext ?_
  show (vecGDims N E wf).start (ix1 e) idx 0 + (vecGDims N E wf).batchCoord (ix1 e) 0 + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGDims N E wf).startIndexMap from List.mem_singleton.mpr rfl)]
  have hsi : (vecGDims N E wf).siIdx (ix1 e) ⟨List.idxOf (0 : Fin 1) (vecGDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecG

/-! ## An index word in range -/

/-- A 32-bit word that is nonnegative as a signed integer and below `n` reads, signed, as a natural number below `n`:
    the scatter's test `toInt = i` and the gather's clamp `min toNat (n − 1)` then name the same row. -/
theorem clamp_eq_of_inRange {n : Nat} (v : BitVec 32) (i : Fin n) (h : v.toInt = (i.val : Int)) :
    min v.toInt.toNat (n - 1) = i.val := by
  rw [h]; have := i.isLt; simp only [Int.toNat_natCast]; omega

end LibRowScatterGather
-- ==== Proof.Real.lean ====
/-
  Which arrays of the network hold only real numbers.

  On the extended reals the fusion stage's two relation weights p0 = 1/(1 + exp(l1 − l0)) and 1 − p0 add up to one, and
  a row times p0 plus the same row times 1 − p0 is the row again, only when every number involved is a real number:
  an infinite logit or an infinite row entry breaks both.  This file records that nothing infinite can arise before the
  fusion stage.  Sums, products and maxima of real numbers are real; a quotient of real numbers by a real number other
  than zero is real; hence the embedding stage max(x·W + b, 0) and a layer stage max([agg·den , h]·Wcat + bl, 0) send
  arrays of real numbers to arrays of real numbers, and so do the operations between the stages: adding the rows of one
  array into the rows of another chosen by an index vector (each entry of the result is an entry of the operand plus a
  finite sum of entries of the updates), copying rows chosen by an index vector (each entry of the result is an entry of
  the operand), and the per-node scale 1 / max(d, 1) of a count d (the divisor is at least one).
-/
import Idealize.ShloMosaic.PureOps.Ideal
import Idealize.ShloMosaic.PureOps.Ideal.Laws
import Idealize.ShloMosaic.Lib.ValueIdx
import Idealize.ShloMosaic.Lib.IdealHost
import proofs.«140245_j83245056131912_2_alg».proof.Proof.Spec
import proofs.«140245_j83245056131912_2_alg».proof.Proof.LibRowScatterGather

noncomputable section

open scoped BigOperators

namespace Cert.Real

open Idealize.ShloMosaic Idealize.ShloMosaic.ValueIdx

/-! ## Real numbers among the extended reals -/

/-- An extended real that is a real number (neither of the two infinities). -/
def IsRealNum (a : EReal) : Prop := ∃ x : ℝ, a = (x : EReal)

/-- An array all of whose entries are real numbers. -/
def IsReal {s : Shape} (a : Spec.Arr s) : Prop := ∀ i, ∃ x : ℝ, a i = (x : EReal)

theorem isReal_iff {s : Shape} (a : Spec.Arr s) : IsReal a ↔ ∀ i, IsRealNum (a i) := Iff.rfl

theorem IsReal.entry {s : Shape} {a : Spec.Arr s} (h : IsReal a) (i : s.Idx) : IsRealNum (a i) := h i

theorem isRealNum_coe (x : ℝ) : IsRealNum (x : EReal) := ⟨x, rfl⟩

theorem isRealNum_zero : IsRealNum 0 := ⟨0, rfl⟩

theorem isRealNum_one : IsRealNum 1 := ⟨1, rfl⟩

theorem isRealNum_add {a b : EReal} (ha : IsRealNum a) (hb : IsRealNum b) : IsRealNum (a + b) := by
  obtain ⟨x, rfl⟩ := ha
  obtain ⟨y, rfl⟩ := hb
  exact ⟨x + y, (EReal.coe_add x y).symm⟩

theorem isRealNum_sub {a b : EReal} (ha : IsRealNum a) (hb : IsRealNum b) : IsRealNum (a - b) := by
  obtain ⟨x, rfl⟩ := ha
  obtain ⟨y, rfl⟩ := hb
  exact ⟨x - y, (EReal.coe_sub x y).symm⟩

theorem isRealNum_mul {a b : EReal} (ha : IsRealNum a) (hb : IsRealNum b) : IsRealNum (a * b) := by
  obtain ⟨x, rfl⟩ := ha
  obtain ⟨y, rfl⟩ := hb
  exact ⟨x * y, (EReal.coe_mul x y).symm⟩

/-- The larger of two real numbers is one of them. -/
theorem isRealNum_max {a b : EReal} (ha : IsRealNum a) (hb : IsRealNum b) : IsRealNum (max a b) := by
  rcases max_choice a b with h | h
  · rw [h]; exact ha
  · rw [h]; exact hb

/-- A finite sum of real numbers is a real number. -/
theorem isRealNum_sum {ι : Type*} (s : Finset ι) (f : ι → EReal) (h : ∀ i ∈ s, IsRealNum (f i)) :
    IsRealNum (∑ i ∈ s, f i) :=
  Finset.sum_induction f IsRealNum (fun _ _ => isRealNum_add) isRealNum_zero h

/-- A finite sum of products of real numbers is a real number. -/
theorem isRealNum_sum_mul {ι : Type*} (s : Finset ι) (f g : ι → EReal) (hf : ∀ i ∈ s, IsRealNum (f i))
    (hg : ∀ i ∈ s, IsRealNum (g i)) : IsRealNum (∑ i ∈ s, f i * g i) :=
  isRealNum_sum s _ fun i hi => isRealNum_mul (hf i hi) (hg i hi)

/-- A real number divided by a real number other than zero is a real number. -/
theorem isRealNum_div {a b : EReal} (ha : IsRealNum a) (hb : IsRealNum b) (h0 : b ≠ 0) : IsRealNum (Ideal.div a b) := by
  obtain ⟨x, rfl⟩ := ha
  obtain ⟨y, rfl⟩ := hb
  have hy : y ≠ 0 := fun e => h0 (by rw [e]; rfl)
  rw [Ideal.div_coe hy]
  exact isRealNum_mul ⟨x, rfl⟩ ⟨1 / y, rfl⟩

/-- The float word of zero denotes the real number zero. -/
theorem zw_eq : Spec.zw = 0 := Ideal.ofBits_zero_f32

/-- The float word of one denotes the real number one. -/
theorem ow_eq : Spec.ow = 1 := Ideal.ofBits_one_f32

theorem isRealNum_zw : IsRealNum Spec.zw := by rw [zw_eq]; exact isRealNum_zero

theorem isRealNum_ow : IsRealNum Spec.ow := by rw [ow_eq]; exact isRealNum_one

/-- The scale 1 / max(d, 1) of a real count d is a real number: the divisor is at least one. -/
theorem isRealNum_inv_max_one {d : EReal} (hd : IsRealNum d) :
    IsRealNum (Ideal.div (Ideal.ofBits .f32 0x3F800000#32) (max d (Ideal.ofBits .f32 0x3F800000#32))) := by
  rw [Ideal.ofBits_one_f32]
  refine isRealNum_div isRealNum_one (isRealNum_max hd isRealNum_one) ?_
  have h1 : (1 : EReal) ≤ max d 1 := le_max_right _ _
  intro e
  rw [e] at h1
  exact absurd h1 (by simp)

/-! ## The embedding stage and a layer stage -/

theorem isRealNum_embAt {x : Spec.Arr Spec.SN128} {w : Spec.Arr Spec.S128x128} {b : Spec.Arr Spec.S128}
    (hx : IsReal x) (hw : IsReal w) (hb : IsReal b) (r : Fin 100000) (c : Fin 128) :
    IsRealNum (Spec.embAt x w b r c) := by
  unfold Spec.embAt
  exact isRealNum_max (isRealNum_add (isRealNum_sum _ _ fun k _ => isRealNum_mul (hx _) (hw _)) (hb _)) isRealNum_zw

/-- The embedding stage of real arrays is a real array. -/
theorem isReal_embArr {x : Spec.Arr Spec.SN128} {w : Spec.Arr Spec.S128x128} {b : Spec.Arr Spec.S128}
    (hx : IsReal x) (hw : IsReal w) (hb : IsReal b) : IsReal (Spec.embArr x w b) :=
  fun j => isRealNum_embAt hx hw hb (j 0) (j 1)

theorem isRealNum_catRow {agg : Spec.Arr Spec.SN128} {den : Spec.Arr Spec.SN1} {h : Spec.Arr Spec.SN128}
    (hagg : IsReal agg) (hden : IsReal den) (hh : IsReal h) (r : Fin 100000) (k : Fin 256) :
    IsRealNum (Spec.catRow agg den h r k) := by
  unfold Spec.catRow
  split
  · exact isRealNum_mul (hagg _) (hden _)
  · exact hh _

theorem isRealNum_sageAt {agg : Spec.Arr Spec.SN128} {den : Spec.Arr Spec.SN1} {h : Spec.Arr Spec.SN128}
    {wcat : Spec.Arr Spec.S256x128} {bl : Spec.Arr Spec.S128}
    (hagg : IsReal agg) (hden : IsReal den) (hh : IsReal h) (hw : IsReal wcat) (hb : IsReal bl)
    (r : Fin 100000) (c : Fin 128) : IsRealNum (Spec.sageAt agg den h wcat bl r c) := by
  unfold Spec.sageAt
  exact isRealNum_max
    (isRealNum_add (isRealNum_sum _ _ fun k _ => isRealNum_mul (isRealNum_catRow hagg hden hh r k) (hw _)) (hb _))
    isRealNum_zw

/-- A layer stage of real arrays is a real array. -/
theorem isReal_sageArr {agg : Spec.Arr Spec.SN128} {den : Spec.Arr Spec.SN1} {h : Spec.Arr Spec.SN128}
    {wcat : Spec.Arr Spec.S256x128} {bl : Spec.Arr Spec.S128}
    (hagg : IsReal agg) (hden : IsReal den) (hh : IsReal h) (hw : IsReal wcat) (hb : IsReal bl) :
    IsReal (Spec.sageArr agg den h wcat bl) :=
  fun j => isRealNum_sageAt hagg hden hh hw hb (j 0) (j 1)

/-! ## The operations between the stages -/

/-- Adding updates into an operand at the places an index array names (any arrangement of the axes): an entry of the
    result is the operand's entry plus the finite sum of the updates that land there. -/
theorem isReal_hostScatterAdd {s si su : Shape} (d : ScatterDims s si su) {w : Nat} {x : Spec.Arr s} (idx : IVec si w)
    {upd : Spec.Arr su} (hx : IsReal x) (hu : IsReal upd) : IsReal (Ideal.hostScatterAdd d x idx upd) := by
  intro i
  show IsRealNum (x i + ∑ j ∈ Finset.univ.filter (fun j => d.resultIdx? j idx = some i), upd j)
  exact isRealNum_add (hx i) (isRealNum_sum _ _ fun j _ => hu j)

/-- Copying the entries an index array names (any arrangement of the axes): an entry of the result is an entry of the
    operand. -/
theorem isReal_gather {s si t : Shape} (d : GatherDims s si t) {w : Nat} {x : Spec.Arr s} (idx : IVec si w)
    (hx : IsReal x) : IsReal (Host.gather d x idx) := by
  intro j
  show IsRealNum (x (d.operandIdx j idx))
  exact hx _

/-- Rows of real updates added into the rows of a real operand: entry (i, c) is the operand's entry plus the sum of the
    entries (e, c) of the rows e sent to row i. -/
theorem isReal_scatterAdd_rows {N E C w : Nat}
    (wf : ScatterDims.WF ⟨2, ![N, C]⟩ ⟨2, ![E, 1]⟩ ⟨2, ![E, C]⟩ [1] [0] [0] 1)
    {x : Spec.Arr ⟨2, ![N, C]⟩} (idx : IVec ⟨2, ![E, 1]⟩ w) {upd : Spec.Arr ⟨2, ![E, C]⟩}
    (hx : IsReal x) (hu : IsReal upd) :
    IsReal (Ideal.hostScatterAdd (LibRowScatterGather.segDims N E C wf) x idx upd) := by
  intro j
  obtain ⟨i, c, rfl⟩ : ∃ (i : Fin N) (c : Fin C), j = ix2 i c := ⟨j 0, j 1, eq_ix2 j⟩
  show IsRealNum _
  rw [LibRowScatterGather.hostScatterAdd_seg_apply]
  exact isRealNum_add (hx _) (isRealNum_sum _ _ fun e _ => hu _)

/-- Real updates added into a real vector: entry i is the operand's entry plus the sum of the updates sent to i. -/
theorem isReal_scatterAdd_vec {N E w : Nat}
    (wf : ScatterDims.WF ⟨1, ![N]⟩ ⟨2, ![E, 1]⟩ ⟨1, ![E]⟩ [] [0] [0] 1)
    {x : Spec.Arr ⟨1, ![N]⟩} (idx : IVec ⟨2, ![E, 1]⟩ w) {upd : Spec.Arr ⟨1, ![E]⟩}
    (hx : IsReal x) (hu : IsReal upd) :
    IsReal (Ideal.hostScatterAdd (LibRowScatterGather.vecDims N E wf) x idx upd) := by
  intro j
  obtain ⟨i, rfl⟩ : ∃ i : Fin N, j = ix1 i := ⟨j 0, eq_ix1 j⟩
  show IsRealNum _
  rw [LibRowScatterGather.hostScatterAdd_vec_apply]
  exact isRealNum_add (hx _) (isRealNum_sum _ _ fun e _ => hu _)

/-- Rows copied out of a real array: entry (e, c) is the operand's entry in the row the e-th index names, column c. -/
theorem isReal_gather_rows {N C E w : Nat} (hN : 0 < N)
    (wf : GatherDims.WF ⟨2, ![N, C]⟩ ⟨2, ![E, 1]⟩ ⟨2, ![E, C]⟩ [1] [0] [] [0] [] 1 ![1, C])
    {x : Spec.Arr ⟨2, ![N, C]⟩} (idx : IVec ⟨2, ![E, 1]⟩ w) (hx : IsReal x) :
    IsReal (Host.gather (LibRowScatterGather.rowDims N C E wf) x idx) := by
  intro j
  obtain ⟨e, c, rfl⟩ : ∃ (e : Fin E) (c : Fin C), j = ix2 e c := ⟨j 0, j 1, eq_ix2 j⟩
  show IsRealNum _
  rw [LibRowScatterGather.gather_rows_apply hN]
  exact hx _

/-- The per-node scales 1 / max(d_i, 1) of a real array of counts are real numbers. -/
theorem isReal_inv_max_one {s : Shape} {d : Spec.Arr s} (hd : IsReal d) :
    IsReal (fun i => Ideal.div (Ideal.ofBits .f32 0x3F800000#32) (max (d i) (Ideal.ofBits .f32 0x3F800000#32))) :=
  fun i => isRealNum_inv_max_one (hd i)

/-- An array that is the same real number everywhere is real. -/
theorem isReal_const {s : Shape} {a : EReal} (ha : IsRealNum a) : IsReal (fun _ : s.Idx => a) := fun _ => ha

/-- An array whose entries are entries of a real array is real. -/
theorem isReal_comp {s t : Shape} {x : Spec.Arr s} (hx : IsReal x) (f : t.Idx → s.Idx) : IsReal (fun j => x (f j)) :=
  fun j => hx (f j)

end Cert.Real

end
-- ==== Proof.ChainReal.lean ====
/-
  Every entry of the two towers' outputs is a real number when the inputs are real.

  A slice, a reshape and a broadcast only move entries, a gather picks entries, a scatter-add into zeros sums finitely many of
  them, the degree is a finite sum of ones, the scale 1 / max(deg, 1) divides by a real number that is at least 1, and a layer's
  entry is a maximum of finite sums of products. So realness passes from the embedding through the three layers of each tower.
-/
import proofs.«140245_j83245056131912_2_alg».proof.Proof.ChainDefs
import proofs.«140245_j83245056131912_2_alg».proof.Proof.ChainRead
import proofs.«140245_j83245056131912_2_alg».proof.Proof.Real

noncomputable section

namespace Cert.KernelIdeal.ChainReal

open Cert.KernelIdeal Cert.KernelIdeal.Gen Cert.KernelIdeal.Chain Cert.KernelIdeal.ChainRead Cert.Real
open Idealize.ShloMosaic Idealize.ShloMosaic.ValueIdx

/-! ## Operations that only move entries -/

theorem isReal_slice {s t : Shape} (off : Fin s.rank → Nat) {x : Spec.Arr s} (h : s.Slices off t) (hx : IsReal x) :
    IsReal (s := t) (extractStridedSlice t off x h) := fun j => hx _

theorem isReal_cast {s t : Shape} {x : Spec.Arr s} (h : s.ShapeCasts t) (hx : IsReal x) :
    IsReal (s := t) (shapeCast t x h) := fun j => hx _

theorem isReal_bcast {s t : Shape} (dims : Fin s.rank → Fin t.rank) (h : s.BroadcastsInDim t dims) {x : Spec.Arr s}
    (hx : IsReal x) : IsReal (s := t) (broadcastInDim t dims h x) := fun j => hx _

/-- A splat of the zero word or of the word of one is a real array. -/
theorem isReal_zero_splat : IsReal (s := S_) (constant (F := Ideal) S_ .f32 0x00000000#32) := fun _ => isRealNum_zw
theorem isReal_one_splat : IsReal (s := S_) (constant (F := Ideal) S_ .f32 0x3F800000#32) := fun _ => isRealNum_ow

/-! ## The degree, the scale column, the summed neighbour rows -/

theorem isReal_degreeOf (dst : EdgeVec) : IsReal (s := S100000) (degreeOf dst) :=
  isReal_hostScatterAdd scatter_S100000_S1600000x1_S1600000_n_0_0_1 (dstColOf dst)
    (isReal_bcast _ bcast_S_S100000 isReal_zero_splat) (isReal_bcast _ bcast_S_S1600000 isReal_one_splat)

theorem isReal_denOf (dst : EdgeVec) : IsReal (s := S100000x1) (denOf dst) := by
  intro j
  obtain ⟨r, u, rfl⟩ : ∃ (r : Fin 100000) (u : Fin 1), j = ix2 r u := ⟨j 0, j 1, eq_ix2 j⟩
  obtain rfl : u = 0 := Subsingleton.elim _ _
  rw [denOf_apply]
  exact isRealNum_inv_max_one (isReal_degreeOf dst (ix1 r))

theorem isReal_gatheredOf (src : EdgeVec) {h : Nodes} (hh : IsReal (s := S100000x128) h) :
    IsReal (s := S1600000x128) (gatheredOf src h) := by
  rw [gatheredOf_eq]
  exact isReal_gather _ (srcColOf src) hh

theorem isReal_aggOf (src dst : EdgeVec) {h : Nodes} (hh : IsReal (s := S100000x128) h) :
    IsReal (s := S100000x128) (aggOf src dst h) :=
  isReal_hostScatterAdd scatter_S100000x128_S1600000x1_S1600000x128_1_0_0_1 (dstColOf dst)
    (isReal_bcast _ bcast_S_S100000x128 isReal_zero_splat) (isReal_gatheredOf src hh)

/-! ## A layer's weights -/

theorem isReal_wBlock (off : Fin 4 → Nat) (hs : S2x3x128x128.Slices off S1x1x128x128) {W : Wts}
    (hW : IsReal (s := S2x3x128x128) W) : IsReal (s := S128x128) (wBlock off hs W) :=
  isReal_cast shapeCasts_S1x1x128x128_S128x128 (isReal_slice off hs hW)

theorem isReal_wcatAt (off : Fin 4 → Nat) (hs : S2x3x128x128.Slices off S1x1x128x128) {Wl Wr : Wts}
    (hl : IsReal (s := S2x3x128x128) Wl) (hr : IsReal (s := S2x3x128x128) Wr) :
    IsReal (s := S256x128) (wcatAt off hs Wl Wr) := by
  intro j
  obtain ⟨k, c, rfl⟩ : ∃ (k : Fin 256) (c : Fin 128), j = ix2 k c := ⟨j 0, j 1, eq_ix2 j⟩
  by_cases hk : k.val < 128
  · have e : k = (⟨(⟨k.val, hk⟩ : Fin 128).val, by omega⟩ : Fin 256) := Fin.ext rfl
    rw [e, wcatAt_left off hs Wl Wr ⟨k.val, hk⟩ c]
    exact isReal_wBlock off hs hl _
  · have hk' : k.val - 128 < 128 := by have := k.isLt; omega
    have e : k = (⟨128 + (⟨k.val - 128, hk'⟩ : Fin 128).val, by have := k.isLt; show 128 + (k.val - 128) < 256; omega⟩ : Fin 256) :=
      Fin.ext (by show k.val = 128 + (k.val - 128); omega)
    rw [e, wcatAt_right off hs Wl Wr ⟨k.val - 128, hk'⟩ c]
    exact isReal_wBlock off hs hr _

theorem isReal_blAt (off : Fin 3 → Nat) (hs : S2x3x128.Slices off S1x1x128) {b : Bias} (hb : IsReal (s := S2x3x128) b) :
    IsReal (s := S128) (blAt off hs b) :=
  isReal_cast shapeCasts_S1x1x128_S128 (isReal_slice off hs hb)

/-! ## The layers and the towers -/

section
variable {e : Edges} {h : Nodes} {Wl : Wts} {b : Bias} {Wr : Wts}
  (hh : IsReal (s := S100000x128) h) (hl : IsReal (s := S2x3x128x128) Wl) (hb : IsReal (s := S2x3x128) b)
  (hr : IsReal (s := S2x3x128x128) Wr)

include hh hl hb hr

theorem isReal_layer1 : IsReal (s := S100000x128) (layer1 e h Wl b Wr) :=
  isReal_sageArr (isReal_aggOf _ _ hh) (isReal_denOf _) hh (isReal_wcatAt _ _ hl hr) (isReal_blAt _ _ hb)
theorem isReal_layer2 : IsReal (s := S100000x128) (layer2 e h Wl b Wr) :=
  isReal_sageArr (isReal_aggOf _ _ hh) (isReal_denOf _) hh (isReal_wcatAt _ _ hl hr) (isReal_blAt _ _ hb)
theorem isReal_layer3 : IsReal (s := S100000x128) (layer3 e h Wl b Wr) :=
  isReal_sageArr (isReal_aggOf _ _ hh) (isReal_denOf _) hh (isReal_wcatAt _ _ hl hr) (isReal_blAt _ _ hb)
theorem isReal_layer4 : IsReal (s := S100000x128) (layer4 e h Wl b Wr) :=
  isReal_sageArr (isReal_aggOf _ _ hh) (isReal_denOf _) hh (isReal_wcatAt _ _ hl hr) (isReal_blAt _ _ hb)
theorem isReal_layer5 : IsReal (s := S100000x128) (layer5 e h Wl b Wr) :=
  isReal_sageArr (isReal_aggOf _ _ hh) (isReal_denOf _) hh (isReal_wcatAt _ _ hl hr) (isReal_blAt _ _ hb)
theorem isReal_layer6 : IsReal (s := S100000x128) (layer6 e h Wl b Wr) :=
  isReal_sageArr (isReal_aggOf _ _ hh) (isReal_denOf _) hh (isReal_wcatAt _ _ hl hr) (isReal_blAt _ _ hb)

end

theorem isReal_o0 {x : Nodes} (e0 : Edges) {w : (⟨S128x128, .f32⟩ : BufTy).Contents (Elt Ideal)}
    {b : (⟨S128, .f32⟩ : BufTy).Contents (Elt Ideal)} {Wl : Wts} {bl : Bias} {Wr : Wts}
    (hx : IsReal (s := S100000x128) x) (hw : IsReal (s := S128x128) w) (hb : IsReal (s := S128) b)
    (hl : IsReal (s := S2x3x128x128) Wl) (hbl : IsReal (s := S2x3x128) bl) (hr : IsReal (s := S2x3x128x128) Wr) :
    IsReal (s := S100000x128) (o0 x e0 w b Wl bl Wr) :=
  isReal_layer3 (isReal_layer2 (isReal_layer1 (isReal_embArr hx hw hb) hl hbl hr) hl hbl hr) hl hbl hr

theorem isReal_o1 {x : Nodes} (e1 : Edges) {w : (⟨S128x128, .f32⟩ : BufTy).Contents (Elt Ideal)}
    {b : (⟨S128, .f32⟩ : BufTy).Contents (Elt Ideal)} {Wl : Wts} {bl : Bias} {Wr : Wts}
    (hx : IsReal (s := S100000x128) x) (hw : IsReal (s := S128x128) w) (hb : IsReal (s := S128) b)
    (hl : IsReal (s := S2x3x128x128) Wl) (hbl : IsReal (s := S2x3x128) bl) (hr : IsReal (s := S2x3x128x128) Wr) :
    IsReal (s := S100000x128) (o1 x e1 w b Wl bl Wr) :=
  isReal_layer6 (isReal_layer5 (isReal_layer4 (isReal_embArr hx hw hb) hl hbl hr) hl hbl hr) hl hbl hr

end Cert.KernelIdeal.ChainReal

end
-- ==== Proof.ChainReadLast.lean ====
/-
  The last host-side pieces read at an index: the two blocks of the attention weights are its rows 0..127 and 128..255, and the
  two results cut from the packed head rows are its columns 0, 1 and its columns 2..6.
-/
import proofs.«140245_j83245056131912_2_alg».proof.Proof.ChainDefs
import Idealize.ShloMosaic.Lib.ValueIdx

noncomputable section

namespace Cert.KernelIdeal.ChainRead

open Cert.KernelIdeal Cert.KernelIdeal.Gen Cert.KernelIdeal.Chain Idealize.ShloMosaic Idealize.ShloMosaic.ValueIdx

theorem wa0_apply (A : (⟨S256x2, .f32⟩ : BufTy).Contents (Elt Ideal)) (k : Fin 128) (j : Fin 2) :
    wa0 A (ix2 k j) = A (ix2 (⟨k.val, by omega⟩ : Fin 256) j) :=
  congrArg A (funext fun a => by
    match a with
    | ⟨0, _⟩ => exact Fin.ext (Nat.zero_add _)
    | ⟨1, _⟩ => exact Fin.ext (Nat.zero_add _))

theorem wa1_apply (A : (⟨S256x2, .f32⟩ : BufTy).Contents (Elt Ideal)) (k : Fin 128) (j : Fin 2) :
    wa1 A (ix2 k j) = A (ix2 (⟨128 + k.val, by omega⟩ : Fin 256) j) :=
  congrArg A (funext fun a => by
    match a with
    | ⟨0, _⟩ => exact Fin.ext rfl
    | ⟨1, _⟩ => exact Fin.ext (Nat.zero_add _))

theorem cols02_apply (y : Nodes) (r : Fin 100000) (q : Fin 2) :
    cols02 y (ix2 r q) = y (ix2 r (⟨q.val, by omega⟩ : Fin 128)) :=
  congrArg y (funext fun a => by
    match a with
    | ⟨0, _⟩ => exact Fin.ext (Nat.zero_add _)
    | ⟨1, _⟩ => exact Fin.ext (Nat.zero_add _))

theorem cols27_apply (y : Nodes) (r : Fin 100000) (q : Fin 5) :
    cols27 y (ix2 r q) = y (ix2 r (⟨2 + q.val, by omega⟩ : Fin 128)) :=
  congrArg y (funext fun a => by
    match a with
    | ⟨0, _⟩ => exact Fin.ext (Nat.zero_add _)
    | ⟨1, _⟩ => exact Fin.ext rfl)

end Cert.KernelIdeal.ChainRead

end
-- ==== Proof.Final.lean ====
/-
  The three results, reference against kernel.

  The reference's fused rows are the fusion stage's rows over the two towers: the towers agree on both sides, their entries are
  real numbers, and for two real logits the softmax weights are 1 / (1 + exp(l1 − l0)) and its complement. The two head results are
  the two-output head (columns 0, 1 of the packed rows) and the five-output head (columns 2..6) over those fused rows.
-/
import proofs.«140245_j83245056131912_2_alg».proof.Proof.Towers
import proofs.«140245_j83245056131912_2_alg».proof.Proof.RefTail
import proofs.«140245_j83245056131912_2_alg».proof.Proof.ChainReal
import proofs.«140245_j83245056131912_2_alg».proof.Proof.ChainReadLast

noncomputable section

namespace Cert.Final

open Cert.ReferenceIdeal Cert.ReferenceIdeal.ReadP Idealize.ShloMosaic Idealize.ShloMosaic.ValueIdx Cert.Real

/-- RESULT 2: the fused rows. -/
theorem fused_final (x0 : (⟨S100000x128, .f32⟩ : BufTy).Contents (Elt Ideal)) (x1 : (⟨S2x1600000, .i32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) (x8 : (⟨S256x2, .f32⟩ : BufTy).Contents (Elt Ideal)) (x9 : (⟨S2, .f32⟩ : BufTy).Contents (Elt Ideal))
    (h0 : IsReal (s := S100000x128) x0) (h3 : IsReal (s := S128x128) x3) (h4 : IsReal (s := S128) x4) (h5 : IsReal (s := S2x3x128x128) x5) (h6 : IsReal (s := S2x3x128) x6) (h7 : IsReal (s := S2x3x128x128) x7) (h8 : IsReal (s := S256x2) x8) (h9 : IsReal (s := S2) x9) :
    val_main_v227 (F := Ideal) x0 x1 x2 x3 x4 x5 x6 x7 x8 x9 = (Cert.Spec.fuseArr (Cert.KernelIdeal.Chain.o0 x0 x1 x3 x4 x5 x6 x7) (Cert.KernelIdeal.Chain.o1 x0 x2 x3 x4 x5 x6 x7) (Cert.KernelIdeal.Chain.wa0 x8) (Cert.KernelIdeal.Chain.wa1 x8) x9) := by
  funext j
  obtain ⟨r, c, rfl⟩ : ∃ (r : Fin 100000) (c : Fin 128), j = ix2 r c := ⟨j 0, j 1, eq_ix2 j⟩
  rw [Cert.Spec.fuseArr_apply, Cert.Bridge.o0_eq, Cert.Bridge.o1_eq]
  refine Cert.ReferenceIdeal.Tail.fused_eq x0 x1 x2 x3 x4 x5 x6 x7 x8 x9 (Cert.KernelIdeal.Chain.wa0 x8) (Cert.KernelIdeal.Chain.wa1 x8)
    (Cert.KernelIdeal.ChainRead.wa0_apply x8) (Cert.KernelIdeal.ChainRead.wa1_apply x8) ?_ ?_
    (fun k j => h8 (ix2 k j)) (fun j => h9 (ix1 j)) r c
  · intro r k
    rw [← Cert.Bridge.o0_eq]
    exact Cert.KernelIdeal.ChainReal.isReal_o0 x1 h0 h3 h4 h5 h6 h7 (ix2 r k)
  · intro r k
    rw [← Cert.Bridge.o1_eq]
    exact Cert.KernelIdeal.ChainReal.isReal_o1 x2 h0 h3 h4 h5 h6 h7 (ix2 r k)

/-- RESULT 0: the two-output head is columns 0, 1 of the packed head rows. -/
theorem fraud_final (x0 : (⟨S100000x128, .f32⟩ : BufTy).Contents (Elt Ideal)) (x1 : (⟨S2x1600000, .i32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) (x8 : (⟨S256x2, .f32⟩ : BufTy).Contents (Elt Ideal)) (x9 : (⟨S2, .f32⟩ : BufTy).Contents (Elt Ideal)) (x10 : (⟨S128x64, .f32⟩ : BufTy).Contents (Elt Ideal)) (x11 : (⟨S64, .f32⟩ : BufTy).Contents (Elt Ideal)) (x12 : (⟨S64x2, .f32⟩ : BufTy).Contents (Elt Ideal)) (x13 : (⟨S2, .f32⟩ : BufTy).Contents (Elt Ideal)) (x14 : (⟨S128x64, .f32⟩ : BufTy).Contents (Elt Ideal)) (x15 : (⟨S64, .f32⟩ : BufTy).Contents (Elt Ideal)) (x16 : (⟨S64x5, .f32⟩ : BufTy).Contents (Elt Ideal)) (x17 : (⟨S5, .f32⟩ : BufTy).Contents (Elt Ideal))
    (h0 : IsReal (s := S100000x128) x0) (h3 : IsReal (s := S128x128) x3) (h4 : IsReal (s := S128) x4) (h5 : IsReal (s := S2x3x128x128) x5) (h6 : IsReal (s := S2x3x128) x6) (h7 : IsReal (s := S2x3x128x128) x7) (h8 : IsReal (s := S256x2) x8) (h9 : IsReal (s := S2) x9) :
    val_main_v236 (F := Ideal) x0 x1 x2 x3 x4 x5 x6 x7 x8 x9 x10 x11 x12 x13 = Cert.KernelIdeal.Chain.cols02 (Cert.Spec.headsArr (Cert.KernelIdeal.Chain.o0 x0 x1 x3 x4 x5 x6 x7) (Cert.KernelIdeal.Chain.o1 x0 x2 x3 x4 x5 x6 x7) (Cert.KernelIdeal.Chain.wa0 x8) (Cert.KernelIdeal.Chain.wa1 x8) x9 x10 x11 x12 x13 x14 x15 x16 x17) := by
  funext j
  obtain ⟨r, q, rfl⟩ : ∃ (r : Fin 100000) (q : Fin 2), j = ix2 r q := ⟨j 0, j 1, eq_ix2 j⟩
  rw [Cert.ReferenceIdeal.Tail.fraud_eq, fused_final x0 x1 x2 x3 x4 x5 x6 x7 x8 x9 h0 h3 h4 h5 h6 h7 h8 h9,
    Cert.KernelIdeal.ChainRead.cols02_apply, Cert.Spec.headsArr_apply]
  delta Cert.Spec.headsAt
  rw [dif_pos (show ((⟨q.val, by omega⟩ : Fin 128)).val < 2 from q.isLt)]

/-- RESULT 1: the five-output head is columns 2..6 of the packed head rows. -/
theorem pattern_final (x0 : (⟨S100000x128, .f32⟩ : BufTy).Contents (Elt Ideal)) (x1 : (⟨S2x1600000, .i32⟩ : BufTy).Contents (Elt Ideal)) (x2 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S2x3x128x128, .f32⟩ : BufTy).Contents (Elt Ideal)) (x6 : (⟨S2x3x128, .f32⟩ : BufTy).Contents (Elt Ideal)) (x7 : (⟨S2x3x128x128, .f32⟩ : BufTy).Contents (Elt Ideal)) (x8 : (⟨S256x2, .f32⟩ : BufTy).Contents (Elt Ideal)) (x9 : (⟨S2, .f32⟩ : BufTy).Contents (Elt Ideal)) (x10 : (⟨S128x64, .f32⟩ : BufTy).Contents (Elt Ideal)) (x11 : (⟨S64, .f32⟩ : BufTy).Contents (Elt Ideal)) (x12 : (⟨S64x2, .f32⟩ : BufTy).Contents (Elt Ideal)) (x13 : (⟨S2, .f32⟩ : BufTy).Contents (Elt Ideal)) (x14 : (⟨S128x64, .f32⟩ : BufTy).Contents (Elt Ideal)) (x15 : (⟨S64, .f32⟩ : BufTy).Contents (Elt Ideal)) (x16 : (⟨S64x5, .f32⟩ : BufTy).Contents (Elt Ideal)) (x17 : (⟨S5, .f32⟩ : BufTy).Contents (Elt Ideal))
    (h0 : IsReal (s := S100000x128) x0) (h3 : IsReal (s := S128x128) x3) (h4 : IsReal (s := S128) x4) (h5 : IsReal (s := S2x3x128x128) x5) (h6 : IsReal (s := S2x3x128) x6) (h7 : IsReal (s := S2x3x128x128) x7) (h8 : IsReal (s := S256x2) x8) (h9 : IsReal (s := S2) x9) :
    val_main_v245 (F := Ideal) x0 x1 x2 x3 x4 x5 x6 x7 x8 x9 x14 x15 x16 x17 = Cert.KernelIdeal.Chain.cols27 (Cert.Spec.headsArr (Cert.KernelIdeal.Chain.o0 x0 x1 x3 x4 x5 x6 x7) (Cert.KernelIdeal.Chain.o1 x0 x2 x3 x4 x5 x6 x7) (Cert.KernelIdeal.Chain.wa0 x8) (Cert.KernelIdeal.Chain.wa1 x8) x9 x10 x11 x12 x13 x14 x15 x16 x17) := by
  funext j
  obtain ⟨r, q, rfl⟩ : ∃ (r : Fin 100000) (q : Fin 5), j = ix2 r q := ⟨j 0, j 1, eq_ix2 j⟩
  rw [Cert.ReferenceIdeal.Tail.pattern_eq, fused_final x0 x1 x2 x3 x4 x5 x6 x7 x8 x9 h0 h3 h4 h5 h6 h7 h8 h9,
    Cert.KernelIdeal.ChainRead.cols27_apply, Cert.Spec.headsArr_apply]
  delta Cert.Spec.headsAt
  have h2 : ¬ ((⟨2 + q.val, by omega⟩ : Fin 128)).val < 2 := by show ¬ (2 + q.val < 2); omega
  have h7 : ((⟨2 + q.val, by omega⟩ : Fin 128)).val < 7 := by show 2 + q.val < 7; omega
  rw [dif_neg h2, dif_pos h7]
  exact congrArg _ (Fin.ext (by show 2 + q.val - 2 = q.val; omega)).symm

end Cert.Final

end
-- ==== Proof.RealInputs.lean ====
/-
  The float arguments of the program hold real numbers only.

  The hypothesis on the inputs is one truth value: for each of the sixteen float arguments a, the test |a_i| < +∞ at
  every index i, all of these joined by "and".  The whole is true, so each part is true, so at every index of every float
  argument the absolute value max(a_i, −a_i) lies strictly below +∞.  Of the three kinds of extended real, −∞ has absolute
  value +∞ and so has +∞; what is left is a real number.
-/
import Idealize.ShloMosaic.Lib.ReduceAll
import proofs.«140245_j83245056131912_2_alg».proof.Defs
import proofs.«140245_j83245056131912_2_alg».proof.Proof.Real

noncomputable section

namespace Cert.Real

open Idealize.ShloMosaic Idealize.ShloMosaic.ValueIdx
open Cert.Pre_finite_inputs

/-- An extended real whose absolute value max(x, −x) is strictly below +∞ (the value of the word 0x7F800000) is a real
    number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The shape with no axes has one index. -/
instance : Subsingleton S_.Idx := ⟨fun a b => funext fun d => d.elim0⟩

/-- "For all i, |a_i| < +∞", as one truth value that is true: then every entry of a is a real number. -/
theorem isReal_of_all_finite {s : Shape} {axes : List (Fin s.rank)}
    (hb : S_.BroadcastsInDim s (![] : Fin 0 → Fin s.rank)) (hr : s.ReducesTo axes S_) (hu : 0 < S_.numel)
    (a : FVec Ideal s .f32) (init : IVec S_ 1)
    (h : Host.reduce IntOp.andi
          (cmpf .olt (Host.absf a) (broadcastInDim s ![] hb (constant S_ .f32 0x7F800000#32))) init hr hu ix0 = 1#1) :
    IsReal (s := s) a :=
  fun i => real_of_abs_lt_inf (a i) (Host.reduce_andi_all _ init hr hu ix0 h i)

/-- All sixteen float arguments hold real numbers only. -/
structure FloatArgsReal (a0 : FVec Ideal S100000x128 .f32) (a3 : FVec Ideal S128x128 .f32) (a4 : FVec Ideal S128 .f32) (a5 : FVec Ideal S2x3x128x128 .f32) (a6 : FVec Ideal S2x3x128 .f32) (a7 : FVec Ideal S2x3x128x128 .f32) (a8 : FVec Ideal S256x2 .f32) (a9 : FVec Ideal S2 .f32) (a10 : FVec Ideal S128x64 .f32) (a11 : FVec Ideal S64 .f32) (a12 : FVec Ideal S64x2 .f32) (a13 : FVec Ideal S2 .f32) (a14 : FVec Ideal S128x64 .f32) (a15 : FVec Ideal S64 .f32) (a16 : FVec Ideal S64x5 .f32) (a17 : FVec Ideal S5 .f32) : Prop where
  arg0 : IsReal (s := S100000x128) a0
  arg3 : IsReal (s := S128x128) a3
  arg4 : IsReal (s := S128) a4
  arg5 : IsReal (s := S2x3x128x128) a5
  arg6 : IsReal (s := S2x3x128) a6
  arg7 : IsReal (s := S2x3x128x128) a7
  arg8 : IsReal (s := S256x2) a8
  arg9 : IsReal (s := S2) a9
  arg10 : IsReal (s := S128x64) a10
  arg11 : IsReal (s := S64) a11
  arg12 : IsReal (s := S64x2) a12
  arg13 : IsReal (s := S2) a13
  arg14 : IsReal (s := S128x64) a14
  arg15 : IsReal (s := S64) a15
  arg16 : IsReal (s := S64x5) a16
  arg17 : IsReal (s := S5) a17

variable [Cert.Pre_finite_inputs.Facts]

/-- The hypothesis on the inputs, true, makes every float argument an array of real numbers: the conjunction is taken
    apart from its last test to its first. -/
theorem floatArgsReal_of_fn {a0 : FVec Ideal S100000x128 .f32} {a1 : IVec S2x1600000 32} {a2 : IVec S2x1600000 32} {a3 : FVec Ideal S128x128 .f32} {a4 : FVec Ideal S128 .f32} {a5 : FVec Ideal S2x3x128x128 .f32} {a6 : FVec Ideal S2x3x128 .f32} {a7 : FVec Ideal S2x3x128x128 .f32} {a8 : FVec Ideal S256x2 .f32} {a9 : FVec Ideal S2 .f32} {a10 : FVec Ideal S128x64 .f32} {a11 : FVec Ideal S64 .f32} {a12 : FVec Ideal S64x2 .f32} {a13 : FVec Ideal S2 .f32} {a14 : FVec Ideal S128x64 .f32} {a15 : FVec Ideal S64 .f32} {a16 : FVec Ideal S64x5 .f32} {a17 : FVec Ideal S5 .f32}
    (h : fn (F := Ideal) a0 a1 a2 a3 a4 a5 a6 a7 a8 a9 a10 a11 a12 a13 a14 a15 a16 a17 = fun _ => 1#1) :
    FloatArgsReal a0 a3 a4 a5 a6 a7 a8 a9 a10 a11 a12 a13 a14 a15 a16 a17 := by
  have h0 := congrFun h ix0
  dsimp only [fn, fn_part1, fn_part2, fn_part3, fn_part4] at h0
  obtain ⟨h0, h17⟩ := IntOp.andi_eq_one.1 h0
  obtain ⟨h0, h16⟩ := IntOp.andi_eq_one.1 h0
  obtain ⟨h0, h15⟩ := IntOp.andi_eq_one.1 h0
  obtain ⟨h0, h14⟩ := IntOp.andi_eq_one.1 h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨isReal_of_all_finite _ _ _ a0 _ h0,
    isReal_of_all_finite _ _ _ a3 _ h3,
    isReal_of_all_finite _ _ _ a4 _ h4,
    isReal_of_all_finite _ _ _ a5 _ h5,
    isReal_of_all_finite _ _ _ a6 _ h6,
    isReal_of_all_finite _ _ _ a7 _ h7,
    isReal_of_all_finite _ _ _ a8 _ h8,
    isReal_of_all_finite _ _ _ a9 _ h9,
    isReal_of_all_finite _ _ _ a10 _ h10,
    isReal_of_all_finite _ _ _ a11 _ h11,
    isReal_of_all_finite _ _ _ a12 _ h12,
    isReal_of_all_finite _ _ _ a13 _ h13,
    isReal_of_all_finite _ _ _ a14 _ h14,
    isReal_of_all_finite _ _ _ a15 _ h15,
    isReal_of_all_finite _ _ _ a16 _ h16,
    isReal_of_all_finite _ _ _ a17 _ h17⟩

/-- The same on every device, for the arrays a memory holds at the program's arguments. -/
theorem floatArgsReal_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    FloatArgsReal (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)) :=
  floatArgsReal_of_fn (hpre c)

/-- Argument 0 of the program holds real numbers only. -/
theorem isReal_main_arg0 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S100000x128) (m ((c.tc : Thread Cert.KernelIdeal.nD Cert.KernelIdeal.τ).loc Cert.KernelIdeal.main_arg0)) :=
  (floatArgsReal_of_pre m hpre c).arg0

/-- Argument 3 of the program holds real numbers only. -/
theorem isReal_main_arg3 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S128x128) (m ((c.tc : Thread Cert.KernelIdeal.nD Cert.KernelIdeal.τ).loc Cert.KernelIdeal.main_arg3)) :=
  (floatArgsReal_of_pre m hpre c).arg3

/-- Argument 4 of the program holds real numbers only. -/
theorem isReal_main_arg4 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S128) (m ((c.tc : Thread Cert.KernelIdeal.nD Cert.KernelIdeal.τ).loc Cert.KernelIdeal.main_arg4)) :=
  (floatArgsReal_of_pre m hpre c).arg4

/-- Argument 5 of the program holds real numbers only. -/
theorem isReal_main_arg5 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S2x3x128x128) (m ((c.tc : Thread Cert.KernelIdeal.nD Cert.KernelIdeal.τ).loc Cert.KernelIdeal.main_arg5)) :=
  (floatArgsReal_of_pre m hpre c).arg5

/-- Argument 6 of the program holds real numbers only. -/
theorem isReal_main_arg6 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S2x3x128) (m ((c.tc : Thread Cert.KernelIdeal.nD Cert.KernelIdeal.τ).loc Cert.KernelIdeal.main_arg6)) :=
  (floatArgsReal_of_pre m hpre c).arg6

/-- Argument 7 of the program holds real numbers only. -/
theorem isReal_main_arg7 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S2x3x128x128) (m ((c.tc : Thread Cert.KernelIdeal.nD Cert.KernelIdeal.τ).loc Cert.KernelIdeal.main_arg7)) :=
  (floatArgsReal_of_pre m hpre c).arg7

/-- Argument 8 of the program holds real numbers only. -/
theorem isReal_main_arg8 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S256x2) (m ((c.tc : Thread Cert.KernelIdeal.nD Cert.KernelIdeal.τ).loc Cert.KernelIdeal.main_arg8)) :=
  (floatArgsReal_of_pre m hpre c).arg8

/-- Argument 9 of the program holds real numbers only. -/
theorem isReal_main_arg9 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S2) (m ((c.tc : Thread Cert.KernelIdeal.nD Cert.KernelIdeal.τ).loc Cert.KernelIdeal.main_arg9)) :=
  (floatArgsReal_of_pre m hpre c).arg9

/-- Argument 10 of the program holds real numbers only. -/
theorem isReal_main_arg10 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S128x64) (m ((c.tc : Thread Cert.KernelIdeal.nD Cert.KernelIdeal.τ).loc Cert.KernelIdeal.main_arg10)) :=
  (floatArgsReal_of_pre m hpre c).arg10

/-- Argument 11 of the program holds real numbers only. -/
theorem isReal_main_arg11 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S64) (m ((c.tc : Thread Cert.KernelIdeal.nD Cert.KernelIdeal.τ).loc Cert.KernelIdeal.main_arg11)) :=
  (floatArgsReal_of_pre m hpre c).arg11

/-- Argument 12 of the program holds real numbers only. -/
theorem isReal_main_arg12 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S64x2) (m ((c.tc : Thread Cert.KernelIdeal.nD Cert.KernelIdeal.τ).loc Cert.KernelIdeal.main_arg12)) :=
  (floatArgsReal_of_pre m hpre c).arg12

/-- Argument 13 of the program holds real numbers only. -/
theorem isReal_main_arg13 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S2) (m ((c.tc : Thread Cert.KernelIdeal.nD Cert.KernelIdeal.τ).loc Cert.KernelIdeal.main_arg13)) :=
  (floatArgsReal_of_pre m hpre c).arg13

/-- Argument 14 of the program holds real numbers only. -/
theorem isReal_main_arg14 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S128x64) (m ((c.tc : Thread Cert.KernelIdeal.nD Cert.KernelIdeal.τ).loc Cert.KernelIdeal.main_arg14)) :=
  (floatArgsReal_of_pre m hpre c).arg14

/-- Argument 15 of the program holds real numbers only. -/
theorem isReal_main_arg15 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S64) (m ((c.tc : Thread Cert.KernelIdeal.nD Cert.KernelIdeal.τ).loc Cert.KernelIdeal.main_arg15)) :=
  (floatArgsReal_of_pre m hpre c).arg15

/-- Argument 16 of the program holds real numbers only. -/
theorem isReal_main_arg16 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S64x5) (m ((c.tc : Thread Cert.KernelIdeal.nD Cert.KernelIdeal.τ).loc Cert.KernelIdeal.main_arg16)) :=
  (floatArgsReal_of_pre m hpre c).arg16

/-- Argument 17 of the program holds real numbers only. -/
theorem isReal_main_arg17 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S5) (m ((c.tc : Thread Cert.KernelIdeal.nD Cert.KernelIdeal.τ).loc Cert.KernelIdeal.main_arg17)) :=
  (floatArgsReal_of_pre m hpre c).arg17

end Cert.Real

end
-- ==== Proof.Claims.lean ====
/-
  The five claims.

  The three frames: the two kernel programs' are the generated frame certificates; the reference has no kernel, and its frame is
  its run with the results dropped. The idealization rewrote nothing, so it preserves trivially. The algebraic claim: the kernel's
  run ends with its three result buffers at the fusion stage of the two towers of layer stages over the embedding (the eight
  regions' arrays chained through the host operations between them); the reference's run ends with its results at its own
  operations' terms, which are the same arrays — the layer law joins the towers, and the two-way softmax law, which needs the
  towers' entries real and so uses the finite-inputs precondition, joins the fusion.
-/
import proofs.«140245_j83245056131912_2_alg».proof.Defs
import proofs.«140245_j83245056131912_2_alg».proof.Proof.Gen.Kernel
import proofs.«140245_j83245056131912_2_alg».proof.Proof.Gen.Kernel.Frame
import proofs.«140245_j83245056131912_2_alg».proof.Proof.Gen.KernelIdeal
import proofs.«140245_j83245056131912_2_alg».proof.Proof.Gen.KernelIdeal.Frame
import proofs.«140245_j83245056131912_2_alg».proof.Proof.Gen.ReferenceIdeal
import proofs.«140245_j83245056131912_2_alg».proof.Proof.Gen.Pre_finite_inputs
import proofs.«140245_j83245056131912_2_alg».proof.Proof.KernelRun
import proofs.«140245_j83245056131912_2_alg».proof.Proof.KernelChain
import proofs.«140245_j83245056131912_2_alg».proof.Proof.RefRunP
import proofs.«140245_j83245056131912_2_alg».proof.Proof.RefReadP
import proofs.«140245_j83245056131912_2_alg».proof.Proof.Final
import proofs.«140245_j83245056131912_2_alg».proof.Proof.RealInputs

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

set_option maxHeartbeats 2000000 in
/-- The reference's fraud result term, over launch arrays that agree with the kernel's, is the kernel's array. -/
theorem ref_fraud (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.ValueP.res_main_v236 m' c = Cert.KernelIdeal.Chain.cols02 (Cert.Spec.headsArr (Cert.KernelIdeal.Chain.o0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.o1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.wa0 (m ((c.tc : Thread Cert.KernelIdeal.nD Cert.KernelIdeal.τ).loc Cert.KernelIdeal.main_arg8))) (Cert.KernelIdeal.Chain.wa1 (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) := by
  obtain ⟨e0, e1, e2, e3, e4, e5, e6, e7, e8, e9, e10, e11, e12, e13, e14, e15, e16, e17⟩ := hagree
  rw [Cert.ReferenceIdeal.ReadP.val_main_v236_eq, e0, e1, e2, e3, e4, e5, e6, e7, e8, e9, e10, e11, e12, e13]
  exact Cert.Final.fraud_final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (Cert.Real.isReal_main_arg0 m hpre c) (Cert.Real.isReal_main_arg3 m hpre c) (Cert.Real.isReal_main_arg4 m hpre c) (Cert.Real.isReal_main_arg5 m hpre c) (Cert.Real.isReal_main_arg6 m hpre c) (Cert.Real.isReal_main_arg7 m hpre c) (Cert.Real.isReal_main_arg8 m hpre c) (Cert.Real.isReal_main_arg9 m hpre c)

set_option maxHeartbeats 2000000 in
/-- The reference's pattern result term, over launch arrays that agree with the kernel's, is the kernel's array. -/
theorem ref_pattern (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.ValueP.res_main_v245 m' c = Cert.KernelIdeal.Chain.cols27 (Cert.Spec.headsArr (Cert.KernelIdeal.Chain.o0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.o1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.wa0 (m ((c.tc : Thread Cert.KernelIdeal.nD Cert.KernelIdeal.τ).loc Cert.KernelIdeal.main_arg8))) (Cert.KernelIdeal.Chain.wa1 (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) := by
  obtain ⟨e0, e1, e2, e3, e4, e5, e6, e7, e8, e9, e10, e11, e12, e13, e14, e15, e16, e17⟩ := hagree
  rw [Cert.ReferenceIdeal.ReadP.val_main_v245_eq, e0, e1, e2, e3, e4, e5, e6, e7, e8, e9, e14, e15, e16, e17]
  exact Cert.Final.pattern_final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (Cert.Real.isReal_main_arg0 m hpre c) (Cert.Real.isReal_main_arg3 m hpre c) (Cert.Real.isReal_main_arg4 m hpre c) (Cert.Real.isReal_main_arg5 m hpre c) (Cert.Real.isReal_main_arg6 m hpre c) (Cert.Real.isReal_main_arg7 m hpre c) (Cert.Real.isReal_main_arg8 m hpre c) (Cert.Real.isReal_main_arg9 m hpre c)

set_option maxHeartbeats 2000000 in
/-- The reference's fused result term, over launch arrays that agree with the kernel's, is the kernel's array. -/
theorem ref_fused (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.ValueP.res_main_v227 m' c = (Cert.Spec.fuseArr (Cert.KernelIdeal.Chain.o0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.o1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.wa0 (m ((c.tc : Thread Cert.KernelIdeal.nD Cert.KernelIdeal.τ).loc Cert.KernelIdeal.main_arg8))) (Cert.KernelIdeal.Chain.wa1 (m ((c.tc : Thread Cert.KernelIdeal.nD Cert.KernelIdeal.τ).loc Cert.KernelIdeal.main_arg8))) (m ((c.tc : Thread Cert.KernelIdeal.nD Cert.KernelIdeal.τ).loc Cert.KernelIdeal.main_arg9))) := by
  obtain ⟨e0, e1, e2, e3, e4, e5, e6, e7, e8, e9, e10, e11, e12, e13, e14, e15, e16, e17⟩ := hagree
  rw [Cert.ReferenceIdeal.ReadP.val_main_v227_eq, e0, e1, e2, e3, e4, e5, e6, e7, e8, e9]
  exact Cert.Final.fused_final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (Cert.Real.isReal_main_arg0 m hpre c) (Cert.Real.isReal_main_arg3 m hpre c) (Cert.Real.isReal_main_arg4 m hpre c) (Cert.Real.isReal_main_arg5 m hpre c) (Cert.Real.isReal_main_arg6 m hpre c) (Cert.Real.isReal_main_arg7 m hpre c) (Cert.Real.isReal_main_arg8 m hpre c) (Cert.Real.isReal_main_arg9 m hpre c)

set_option maxHeartbeats 2000000 in
theorem algebraic : Cert.algebraic_KernelIdeal_ReferenceIdeal := by
  intro m ρ m' ρ' hpre hagree
  refine ⟨fun c => Cert.KernelIdeal.Chain.cols02 (Cert.Spec.headsArr (Cert.KernelIdeal.Chain.o0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.o1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.wa0 (m ((c.tc : Thread Cert.KernelIdeal.nD Cert.KernelIdeal.τ).loc Cert.KernelIdeal.main_arg8))) (Cert.KernelIdeal.Chain.wa1 (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))),
    fun c => Cert.KernelIdeal.Chain.cols27 (Cert.Spec.headsArr (Cert.KernelIdeal.Chain.o0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.o1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.wa0 (m ((c.tc : Thread Cert.KernelIdeal.nD Cert.KernelIdeal.τ).loc Cert.KernelIdeal.main_arg8))) (Cert.KernelIdeal.Chain.wa1 (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))),
    fun c => (Cert.Spec.fuseArr (Cert.KernelIdeal.Chain.o0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.o1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Chain.wa0 (m ((c.tc : Thread Cert.KernelIdeal.nD Cert.KernelIdeal.τ).loc Cert.KernelIdeal.main_arg8))) (Cert.KernelIdeal.Chain.wa1 (m ((c.tc : Thread Cert.KernelIdeal.nD Cert.KernelIdeal.τ).loc Cert.KernelIdeal.main_arg8))) (m ((c.tc : Thread Cert.KernelIdeal.nD Cert.KernelIdeal.τ).loc Cert.KernelIdeal.main_arg9))), ?_, ?_⟩
  · exact (θ_run Cert.KernelIdeal.defs _ _).mono (fun r h c =>
      ⟨(h c).1.trans (Cert.KernelIdeal.Chain.results m ρ c).2.1, (h c).2.1.trans (Cert.KernelIdeal.Chain.results m ρ c).2.2,
        (h c).2.2.1.trans (Cert.KernelIdeal.Chain.results m ρ c).1, (h c).2.2.2⟩) (Cert.KernelIdeal.Run.run_named m ρ)
  · exact (θ_run Cert.ReferenceIdeal.defs _ _).mono (fun r h c =>
      ⟨(h c).1.trans (ref_fraud m m' hpre c (hagree c)), (h c).2.1.trans (ref_pattern m m' hpre c (hagree c)),
        (h c).2.2.1.trans (ref_fused m m' hpre c (hagree c)), (h c).2.2.2⟩) (Cert.ReferenceIdeal.ValueP.run (F := Ideal) m' ρ')

end Cert.Proof.Claims

end
-- ==== Proof.lean ====
/-
  The proof of `Cert.Claim`: a graph network over 100000 nodes — an embedding max(x·W + b, 0), two towers of three layers
  max([agg·(1/max(deg,1)) , h]·[Wl ; Wr] + bl, 0) over two edge relations, and a fusion of the two towers by the two-way softmax
  of two logits followed by two small heads — computed by eight tiled kernels with host gathers and scatter-adds between them,
  against the same network written with plain array operations.

  At the extended reals the two programs compute the same arrays. Each kernel's output array is one function of its input arrays,
  entry by entry (Spec.lean; the Region modules read the twenty row tiles of each kernel back into whole arrays). A layer's single
  product over the 256 joined columns is the sum of the reference's two products over 128 columns, the scale 1/max(deg,1) applied
  before the product is the reference's quotient after the neighbour sum because max(deg,1) is never 0, and the bias moves across
  a sum by commutativity and associativity alone (MathSage.lean): no entry needs to be finite for the towers. The fusion writes
  the two-way softmax as 1/(1 + exp(l1 − l0)) and its complement; that is the reference's exp(l − max)/Σ exp(l − max) exactly when
  the two logits are real numbers, which holds because the inputs are finite and every stage keeps real entries real
  (Real.lean, ChainReal.lean, RealInputs.lean): this is where the precondition is used.
-/
import proofs.«140245_j83245056131912_2_alg».proof.Defs
import proofs.«140245_j83245056131912_2_alg».proof.Proof.Gen.Kernel
import proofs.«140245_j83245056131912_2_alg».proof.Proof.Gen.KernelIdeal
import proofs.«140245_j83245056131912_2_alg».proof.Proof.Gen.ReferenceIdeal
import proofs.«140245_j83245056131912_2_alg».proof.Proof.Gen.Pre_finite_inputs
import proofs.«140245_j83245056131912_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
